-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S3x64 : Shape := ⟨2, ![3, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_arg6 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000 .f32) (main_arg3 : FVec F S3x64x64 .f32) (main_arg4 : FVec F S3x64 .f32) (main_arg5 : FVec F S3x64 .f32) (main_arg6 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S3x64 : Shape := ⟨2, ![3, 64]⟩
abbrev S1x800000 : Shape := ⟨2, ![1, 800000]⟩
abbrev S1x64x64 : Shape := ⟨3, ![1, 64, 64]⟩
abbrev S64x64 : Shape := ⟨2, ![64, 64]⟩
abbrev S10000x64 : Shape := ⟨2, ![10000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S64 : Shape := ⟨1, ![64]⟩
abbrev S1x50000x64 : Shape := ⟨3, ![1, 50000, 64]⟩
abbrev S3x50000x64 : Shape := ⟨3, ![3, 50000, 64]⟩

abbrev nBuf : Space → Nat
  | .hbm => 294
  | .vmem => 54
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S3x64x64, .f32⟩
  | 4 => ⟨S3x64, .f32⟩
  | 5 => ⟨S3x64, .f32⟩
  | 6 => ⟨S3x64, .f32⟩
  | 7 => ⟨S1x800000, .i32⟩
  | 8 => ⟨S800000, .i32⟩
  | 9 => ⟨S1x800000, .i32⟩
  | 10 => ⟨S800000, .i32⟩
  | 11 => ⟨S1x64x64, .f32⟩
  | 12 => ⟨S64x64, .f32⟩
  | 13 => ⟨S50000x64, .f32⟩
  | 14 => ⟨S50000, .i32⟩
  | 15 => ⟨S850000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S1x64, .f32⟩
  | 73 => ⟨S1x64, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S64, .f32⟩
  | 91 => ⟨S1x64, .f32⟩
  | 92 => ⟨S64, .f32⟩
  | 93 => ⟨S64, .f32⟩
  | 94 => ⟨S1x64, .f32⟩
  | 95 => ⟨S1x64, .f32⟩
  | 96 => ⟨S64, .f32⟩
  | 97 => ⟨S1x64, .f32⟩
  | 98 => ⟨S64, .f32⟩
  | 99 => ⟨S64, .f32⟩
  | 100 => ⟨S64, .f32⟩
  | 101 => ⟨S64, .f32⟩
  | 102 => ⟨S1x64, .f32⟩
  | 103 => ⟨S50000x64, .f32⟩
  | 104 => ⟨S1x64x64, .f32⟩
  | 105 => ⟨S64x64, .f32⟩
  | 106 => ⟨S50000x64, .f32⟩
  | 107 => ⟨S50000, .i32⟩
  | 108 => ⟨S850000, .i32⟩
  | 109 => ⟨S850000, .i32⟩
  | 110 => ⟨S_, .f32⟩
  | 111 => ⟨S50000, .f32⟩
  | 112 => ⟨S850000, .f32⟩
  | 113 => ⟨S_, .f32⟩
  | 114 => ⟨S50000, .f32⟩
  | 115 => ⟨S850000x1, .i32⟩
  | 116 => ⟨S50000, .f32⟩
  | 117 => ⟨S_, .f32⟩
  | 118 => ⟨S50000, .f32⟩
  | 119 => ⟨S50000, .i1⟩
  | 120 => ⟨S50000, .f32⟩
  | 121 => ⟨S_, .f32⟩
  | 122 => ⟨S_, .f32⟩
  | 123 => ⟨S50000, .f32⟩
  | 124 => ⟨S50000, .f32⟩
  | 125 => ⟨S_, .i32⟩
  | 126 => ⟨S850000, .i32⟩
  | 127 => ⟨S850000, .i1⟩
  | _ => ⟨S50000x64, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x64, .f32⟩
  | 26 => ⟨S850000x1, .f32⟩
  | 27 => ⟨S850000x64, .f32⟩
  | 28 => ⟨S850000x64, .f32⟩
  | 29 => ⟨S_, .f32⟩
  | 30 => ⟨S50000x64, .f32⟩
  | 31 => ⟨S850000x1, .i32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S1x64, .f32⟩
  | 38 => ⟨S1x64, .f32⟩
  | 39 => ⟨S64, .f32⟩
  | 40 => ⟨S_, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S1x64, .f32⟩
  | 57 => ⟨S64, .f32⟩
  | 58 => ⟨S64, .f32⟩
  | 59 => ⟨S1x64, .f32⟩
  | 60 => ⟨S1x64, .f32⟩
  | 61 => ⟨S64, .f32⟩
  | 62 => ⟨S1x64, .f32⟩
  | 63 => ⟨S64, .f32⟩
  | 64 => ⟨S64, .f32⟩
  | 65 => ⟨S64, .f32⟩
  | 66 => ⟨S64, .f32⟩
  | 67 => ⟨S1x64, .f32⟩
  | 68 => ⟨S50000x64, .f32⟩
  | 69 => ⟨S1x64x64, .f32⟩
  | 70 => ⟨S64x64, .f32⟩
  | 71 => ⟨S50000x64, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S64, .f32⟩
  | _ => ⟨S50000x64, .f32⟩

abbrev hbmTy0_2 (i : Nat) : BufTy := match i % 128 with
  | 0 => ⟨S1x64, .f32⟩
  | 1 => ⟨S50000x64, .f32⟩
  | 2 => ⟨S1x64, .f32⟩
  | 3 => ⟨S1x64, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S1x64, .f32⟩
  | 22 => ⟨S64, .f32⟩
  | 23 => ⟨S64, .f32⟩
  | 24 => ⟨S1x64, .f32⟩
  | 25 => ⟨S1x64, .f32⟩
  | 26 => ⟨S64, .f32⟩
  | 27 => ⟨S1x64, .f32⟩
  | 28 => ⟨S64, .f32⟩
  | 29 => ⟨S64, .f32⟩
  | 30 => ⟨S64, .f32⟩
  | 31 => ⟨S64, .f32⟩
  | 32 => ⟨S1x64, .f32⟩
  | 33 => ⟨S50000x64, .f32⟩
  | 34 => ⟨S1x50000x64, .f32⟩
  | 35 => ⟨S1x50000x64, .f32⟩
  | 36 => ⟨S1x50000x64, .f32⟩
  | 37 => ⟨S3x50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51_0 : Ref sig .tc := ⟨.hbm, 71, rfl⟩
abbrev main_v51_1 : Ref sig .tc := ⟨.hbm, 72, rfl⟩
abbrev main_v51_2 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_16 : Ref sig .tc := ⟨.hbm, 121, rfl⟩
abbrev main_call1_v0 : Ref sig .tc := ⟨.hbm, 122, rfl⟩
abbrev main_call1_v1 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_19 : Ref sig .tc := ⟨.hbm, 135, rfl⟩
abbrev main_v101 : Ref sig .tc := ⟨.hbm, 136, rfl⟩
abbrev main_v102 : Ref sig .tc := ⟨.hbm, 137, rfl⟩
abbrev main_c_20 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_21 : Ref sig .tc := ⟨.hbm, 145, rfl⟩
abbrev main_v109 : Ref sig .tc := ⟨.hbm, 146, rfl⟩
abbrev main_v110 : Ref sig .tc := ⟨.hbm, 147, rfl⟩
abbrev main_c_22 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_23 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125_0 : Ref sig .tc := ⟨.hbm, 164, rfl⟩
abbrev main_v125_1 : Ref sig .tc := ⟨.hbm, 165, rfl⟩
abbrev main_v125_2 : Ref sig .tc := ⟨.hbm, 166, rfl⟩
abbrev main_v126 : Ref sig .tc := ⟨.hbm, 167, rfl⟩
abbrev main_cst_24 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_25 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_26 : Ref sig .tc := ⟨.hbm, 177, rfl⟩
abbrev main_v134 : Ref sig .tc := ⟨.hbm, 178, rfl⟩
abbrev main_v135 : Ref sig .tc := ⟨.hbm, 179, rfl⟩
abbrev main_cst_27 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_28 : Ref sig .tc := ⟨.hbm, 203, rfl⟩
abbrev main_v158 : Ref sig .tc := ⟨.hbm, 204, rfl⟩
abbrev main_v159 : Ref sig .tc := ⟨.hbm, 205, rfl⟩
abbrev main_cst_29 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_30 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_31 : Ref sig .tc := ⟨.hbm, 214, rfl⟩
abbrev main_call2_v0 : Ref sig .tc := ⟨.hbm, 215, rfl⟩
abbrev main_call2_v1 : Ref sig .tc := ⟨.hbm, 216, rfl⟩
abbrev main_v166 : Ref sig .tc := ⟨.hbm, 217, rfl⟩
abbrev main_c_32 : Ref sig .tc := ⟨.hbm, 218, rfl⟩
abbrev main_v167 : Ref sig .tc := ⟨.hbm, 219, rfl⟩
abbrev main_v168 : Ref sig .tc := ⟨.hbm, 220, rfl⟩
abbrev main_c_33 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_c_34 : Ref sig .tc := ⟨.hbm, 228, rfl⟩
abbrev main_v175 : Ref sig .tc := ⟨.hbm, 229, rfl⟩
abbrev main_v176 : Ref sig .tc := ⟨.hbm, 230, rfl⟩
abbrev main_c_35 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_c_36 : Ref sig .tc := ⟨.hbm, 238, rfl⟩
abbrev main_v183 : Ref sig .tc := ⟨.hbm, 239, rfl⟩
abbrev main_v184 : Ref sig .tc := ⟨.hbm, 240, rfl⟩
abbrev main_c_37 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_38 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199_0 : Ref sig .tc := ⟨.hbm, 257, rfl⟩
abbrev main_v199_1 : Ref sig .tc := ⟨.hbm, 258, rfl⟩
abbrev main_v199_2 : Ref sig .tc := ⟨.hbm, 259, rfl⟩
abbrev main_v200 : Ref sig .tc := ⟨.hbm, 260, rfl⟩
abbrev main_cst_39 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_cst_40 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_41 : Ref sig .tc := ⟨.hbm, 270, rfl⟩
abbrev main_v208 : Ref sig .tc := ⟨.hbm, 271, rfl⟩
abbrev main_v209 : Ref sig .tc := ⟨.hbm, 272, rfl⟩
abbrev main_cst_42 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg4_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc7_sem3_0 : DmaSem sig := 46
abbrev cc7_sem4_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  dot_S10000x64_S64x64_S10000x64_1_0_0_1_n_n_wf : DotDims.WF S10000x64 S64x64 S10000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S50000x64.size a
  hwx7_2 : ∀ i : grid7.Coords, EltTy.bits .f32 = 32 ∨ (Rect.block (s := S50000x64) S10000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S50000x64.size a
  hwx8_3 : ∀ i : grid8.Coords, EltTy.bits .f32 = 32 ∨ (Rect.block (s := S50000x64) S10000x64.size (cc8_transform_3 i) (hinb8_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v121) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v125_0) S10000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v125_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v125_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v125_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v142) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v150) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v151) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v151) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v153) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v154) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v195) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v198) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v199_0) S10000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v199_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v199_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v199_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v216) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v224) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v225) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S3x64 : Shape := ⟨2, ![3, 64]⟩
abbrev S1x800000 : Shape := ⟨2, ![1, 800000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x50000x64 : Shape := ⟨3, ![1, 50000, 64]⟩
abbrev S3x50000x64 : Shape := ⟨3, ![3, 50000, 64]⟩

abbrev nBuf : Space → Nat
  | .hbm => 312
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S3x64x64, .f32⟩
  | 4 => ⟨S3x64, .f32⟩
  | 5 => ⟨S3x64, .f32⟩
  | 6 => ⟨S3x64, .f32⟩
  | 7 => ⟨S1x800000, .i32⟩
  | 8 => ⟨S800000, .i32⟩
  | 9 => ⟨S1x800000, .i32⟩
  | 10 => ⟨S800000, .i32⟩
  | 11 => ⟨S1x64x64, .f32⟩
  | 12 => ⟨S64x64, .f32⟩
  | 13 => ⟨S1x64, .f32⟩
  | 14 => ⟨S64, .f32⟩
  | 15 => ⟨S1x64, .f32⟩
  | 16 => ⟨S64, .f32⟩
  | 17 => ⟨S1x64, .f32⟩
  | 18 => ⟨S64, .f32⟩
  | 19 => ⟨S50000x64, .f32⟩
  | 20 => ⟨S50000, .i32⟩
  | 21 => ⟨S850000, .i32⟩
  | 22 => ⟨S850000, .i32⟩
  | 23 => ⟨S_, .f32⟩
  | 24 => ⟨S50000, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x64, .f32⟩
  | 67 => ⟨S850000x1, .f32⟩
  | 68 => ⟨S850000x64, .f32⟩
  | 69 => ⟨S850000x64, .f32⟩
  | 70 => ⟨S_, .f32⟩
  | 71 => ⟨S50000x64, .f32⟩
  | 72 => ⟨S850000x1, .i32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S50000x64, .f32⟩
  | 87 => ⟨S50000x64, .f32⟩
  | 88 => ⟨S50000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S_, .f32⟩
  | 98 => ⟨S64, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S1x64x64, .f32⟩
  | 111 => ⟨S64x64, .f32⟩
  | 112 => ⟨S1x64, .f32⟩
  | 113 => ⟨S64, .f32⟩
  | 114 => ⟨S1x64, .f32⟩
  | 115 => ⟨S64, .f32⟩
  | 116 => ⟨S1x64, .f32⟩
  | 117 => ⟨S64, .f32⟩
  | 118 => ⟨S50000x64, .f32⟩
  | 119 => ⟨S50000, .i32⟩
  | 120 => ⟨S850000, .i32⟩
  | 121 => ⟨S850000, .i32⟩
  | 122 => ⟨S_, .f32⟩
  | 123 => ⟨S50000, .f32⟩
  | 124 => ⟨S850000, .f32⟩
  | 125 => ⟨S_, .f32⟩
  | 126 => ⟨S50000, .f32⟩
  | 127 => ⟨S850000x1, .i32⟩
  | _ => ⟨S50000x64, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S50000, .f32⟩
  | 5 => ⟨S_, .f32⟩
  | 6 => ⟨S_, .f32⟩
  | 7 => ⟨S50000, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x64, .f32⟩
  | 38 => ⟨S850000x1, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S64, .f32⟩
  | 53 => ⟨S_, .f32⟩
  | 54 => ⟨S64, .f32⟩
  | 55 => ⟨S64, .f32⟩
  | 56 => ⟨S1x64, .f32⟩
  | 57 => ⟨S50000x64, .f32⟩
  | 58 => ⟨S50000x64, .f32⟩
  | 59 => ⟨S50000x64, .f32⟩
  | 60 => ⟨S_, .f32⟩
  | 61 => ⟨S64, .f32⟩
  | 62 => ⟨S_, .f32⟩
  | 63 => ⟨S64, .f32⟩
  | 64 => ⟨S64, .f32⟩
  | 65 => ⟨S1x64, .f32⟩
  | 66 => ⟨S50000x64, .f32⟩
  | 67 => ⟨S50000x64, .f32⟩
  | 68 => ⟨S_, .f32⟩
  | 69 => ⟨S64, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S50000x64, .f32⟩
  | 90 => ⟨S50000, .i32⟩
  | 91 => ⟨S850000, .i32⟩
  | 92 => ⟨S850000, .i32⟩
  | 93 => ⟨S_, .f32⟩
  | 94 => ⟨S50000, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S_, .f32⟩
  | 101 => ⟨S50000, .f32⟩
  | 102 => ⟨S50000, .i1⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x64, .f32⟩

abbrev hbmTy0_2 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x64, .f32⟩
  | 9 => ⟨S850000x1, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S_, .f32⟩
  | 23 => ⟨S64, .f32⟩
  | 24 => ⟨S_, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S50000x64, .f32⟩
  | 31 => ⟨S_, .f32⟩
  | 32 => ⟨S64, .f32⟩
  | 33 => ⟨S_, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S1x50000x64, .f32⟩
  | 53 => ⟨S1x50000x64, .f32⟩
  | 54 => ⟨S1x50000x64, .f32⟩
  | 55 => ⟨S3x50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_cst : Ref sig .tc := ⟨.hbm, 77, rfl⟩
abbrev main_call1_v0 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_16 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_call2_v0 : Ref sig .tc := ⟨.hbm, 134, rfl⟩
abbrev main_call2_v1 : Ref sig .tc := ⟨.hbm, 135, rfl⟩
abbrev main_v103 : Ref sig .tc := ⟨.hbm, 136, rfl⟩
abbrev main_c_18 : Ref sig .tc := ⟨.hbm, 137, rfl⟩
abbrev main_v104 : Ref sig .tc := ⟨.hbm, 138, rfl⟩
abbrev main_v105 : Ref sig .tc := ⟨.hbm, 139, rfl⟩
abbrev main_c_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_20 : Ref sig .tc := ⟨.hbm, 147, rfl⟩
abbrev main_v112 : Ref sig .tc := ⟨.hbm, 148, rfl⟩
abbrev main_v113 : Ref sig .tc := ⟨.hbm, 149, rfl⟩
abbrev main_c_21 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_22 : Ref sig .tc := ⟨.hbm, 157, rfl⟩
abbrev main_v120 : Ref sig .tc := ⟨.hbm, 158, rfl⟩
abbrev main_v121 : Ref sig .tc := ⟨.hbm, 159, rfl⟩
abbrev main_c_23 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_24 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_call3_cst : Ref sig .tc := ⟨.hbm, 176, rfl⟩
abbrev main_call3_v0 : Ref sig .tc := ⟨.hbm, 177, rfl⟩
abbrev main_v136 : Ref sig .tc := ⟨.hbm, 178, rfl⟩
abbrev main_cst_25 : Ref sig .tc := ⟨.hbm, 179, rfl⟩
abbrev main_v137 : Ref sig .tc := ⟨.hbm, 180, rfl⟩
abbrev main_cst_26 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_27 : Ref sig .tc := ⟨.hbm, 188, rfl⟩
abbrev main_v144 : Ref sig .tc := ⟨.hbm, 189, rfl⟩
abbrev main_cst_28 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_29 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_30 : Ref sig .tc := ⟨.hbm, 221, rfl⟩
abbrev main_v174 : Ref sig .tc := ⟨.hbm, 222, rfl⟩
abbrev main_v175 : Ref sig .tc := ⟨.hbm, 223, rfl⟩
abbrev main_cst_31 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_32 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_33 : Ref sig .tc := ⟨.hbm, 232, rfl⟩
abbrev main_call4_v0 : Ref sig .tc := ⟨.hbm, 233, rfl⟩
abbrev main_call4_v1 : Ref sig .tc := ⟨.hbm, 234, rfl⟩
abbrev main_v182 : Ref sig .tc := ⟨.hbm, 235, rfl⟩
abbrev main_c_34 : Ref sig .tc := ⟨.hbm, 236, rfl⟩
abbrev main_v183 : Ref sig .tc := ⟨.hbm, 237, rfl⟩
abbrev main_v184 : Ref sig .tc := ⟨.hbm, 238, rfl⟩
abbrev main_c_35 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_c_36 : Ref sig .tc := ⟨.hbm, 246, rfl⟩
abbrev main_v191 : Ref sig .tc := ⟨.hbm, 247, rfl⟩
abbrev main_v192 : Ref sig .tc := ⟨.hbm, 248, rfl⟩
abbrev main_c_37 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_c_38 : Ref sig .tc := ⟨.hbm, 256, rfl⟩
abbrev main_v199 : Ref sig .tc := ⟨.hbm, 257, rfl⟩
abbrev main_v200 : Ref sig .tc := ⟨.hbm, 258, rfl⟩
abbrev main_c_39 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_cst_40 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_call5_cst : Ref sig .tc := ⟨.hbm, 275, rfl⟩
abbrev main_call5_v0 : Ref sig .tc := ⟨.hbm, 276, rfl⟩
abbrev main_v215 : Ref sig .tc := ⟨.hbm, 277, rfl⟩
abbrev main_cst_41 : Ref sig .tc := ⟨.hbm, 278, rfl⟩
abbrev main_v216 : Ref sig .tc := ⟨.hbm, 279, rfl⟩
abbrev main_cst_42 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_43 : Ref sig .tc := ⟨.hbm, 287, rfl⟩
abbrev main_v223 : Ref sig .tc := ⟨.hbm, 288, rfl⟩
abbrev main_cst_44 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_cst_45 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Bits.Matmul0.lean ====
/- Region 0 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's buffer holds its row block at every point (it is fetched at every point; the statement does
    not depend on that). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's buffer holds the whole matrix at every point: it is fetched at the first point only, and
    where it is not fetched its block index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole [10000,64] buffer. -/
abbrev r0_a : Rect S10000x64 := Rect.unit (s := S10000x64) ![0, 0] S10000x64.size inb_S10000x64_S10000x64_0_0
/-- The whole [64,64] buffer. -/
abbrev r0_b : Rect S64x64 := Rect.unit (s := S64x64) ![0, 0] S64x64.size inb_S64x64_S64x64_0_0

/-! ## What the body leaves in the output window's buffer -/

/-- The output buffer after the body: its single store, the product payload of what the two loads read. -/
def out0_2 (x0 : Vec F S10000x64 .f32) (x1 : Vec F S64x64 .f32) : Vec F S10000x64 .f32 :=
  View.canon [⟨r0_a, k0_pay1 (View.ld x0 r0_a) (View.ld x1 r0_b)⟩]

/-- The single store covers the whole buffer. -/
theorem cover0_2 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

/-! ## The triple of the body -/

set_option maxHeartbeats 1000000 in
/-- On whole staging memrefs, the two inputs at read contents `x0`, `x1` and the output at any contents, the body
    runs to a state with the inputs unchanged and the output at `out0_2 x0 x1`. The body also reads the output
    buffer once before storing into it; that value feeds nothing. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of pipeline 0 on core `c`: the arrays as found on entry; after the body at point `t` each input
    buffer still at its block and the output buffer at `out0_2` of the two input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the triple of the body applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.Bits.Bn1Run.lean ====
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the batch-statistics kernel, its two control cases run on any staging memrefs -/

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point, for any proof data over `V` whose body
    leaves that buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is fetched at the first point only; its block index never moves, so its buffer holds the row at
    every point all the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition -/

/-- The body's one conditional: "this is grid point 0", as the scalar chain computes it from the coordinate. -/
abbrev cond1_0 (i : grid1.Coords) : Prop := (Scalar.cmpi .ne (Scalar.extui (Scalar.cmpi .eq (BitVec.ofNat 32 (i 0).val) 0#32)) 0#32) = 1#1
/-- Over the five points it holds at the first only. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## Staging memrefs -/

/-- One staging buffer of each output window, through which its contents are stated. -/
abbrev VO1_2 : View sig .tc .vmem S10000x64 .f32 := (Memref.whole cc1_stg2_0 : Memref sig .tc .vmem S10000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
/-- Each window's current staging memref at point `t`, as the pipeline passes it to the body, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Reg

end
-- ==== Proof.Bits.Bn1.lean ====
import proofs.«132734_j72301479461275_2_alg».proof.Proof.Bits.Bn1Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the three outputs hold point by point, the proof data, the body obligation -/

/-! ## Each case's pieces cover the buffers; what they leave -/

/-- In case A the pieces written into output 2's buffer tile it, so they cover it. -/
theorem cover1_A_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S10000x64.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S10000x64.size (by sl_kernel_rfl) y

/-- What case A leaves in output 2's buffer: its pieces read back. -/
def out1_A_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S10000x64 .f32 :=
  VO1_2.read (Elt F) (VO1_2.writes (Elt F) VO1_2.junk (kernelRun1_A c i arg1 harg1 arg2 harg2 arg3 harg3 arg4 harg4 arg5 harg5 hc0 x0 x1).1)

/-- In case A the pieces written into output 3's buffer tile it, so they cover it. -/
theorem cover1_A_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S1x64.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1x64.size (by sl_kernel_rfl) y

/-- What case A leaves in output 3's buffer: its pieces read back. -/
def out1_A_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1).2.1)

/-- In case A the pieces written into output 4's buffer tile it, so they cover it. -/
theorem cover1_A_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S1x64.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1x64.size (by sl_kernel_rfl) y

/-- What case A leaves in output 4's buffer: its pieces read back. -/
def out1_A_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1).2.2.1)

/-- In case B the pieces written into output 2's buffer tile it, so they cover it. -/
theorem cover1_B_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S10000x64.Idx) :
    ∃ pc ∈ (kernelRun1_B c i arg1 harg1 arg2 harg2 arg3 harg3 arg4 harg4 arg5 harg5 hc0 x0 x1 xo3 xo4).1, y ∈ pc.1.set :=
  View.cover_of_tiledL (kernelRun1_B c i arg1 harg1 arg2 harg2 arg3 harg3 arg4 harg4 arg5 harg5 hc0 x0 x1 xo3 xo4).1 S10000x64.size (by sl_kernel_rfl) y

/-- What case B leaves in output 2's buffer: its pieces read back. -/
def out1_B_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S10000x64 .f32 :=
  VO1_2.read (Elt F) (VO1_2.writes (Elt F) VO1_2.junk (kernelRun1_B c i arg1 harg1 arg2 harg2 arg3 harg3 arg4 harg4 arg5 harg5 hc0 x0 x1 xo3 xo4).1)

/-- In case B the pieces written into output 3's buffer tile it, so they cover it. -/
theorem cover1_B_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.1, y ∈ pc.1.set :=
  View.cover_of_tiledL (kernelRun1_B c i arg1 harg1 arg2 harg2 arg3 harg3 arg4 harg4 arg5 harg5 hc0 x0 x1 xo3 xo4).2.1 S1x64.size (by sl_kernel_rfl) y

/-- What case B leaves in output 3's buffer: its pieces read back. -/
def out1_B_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 xo3 xo4).2.1)

/-- In case B the pieces written into output 4's buffer tile it, so they cover it. -/
theorem cover1_B_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.2.1, y ∈ pc.1.set :=
  View.cover_of_tiledL (kernelRun1_B c i arg1 harg1 arg2 harg2 arg3 harg3 arg4 harg4 arg5 harg5 hc0 x0 x1 xo3 xo4).2.2.1 S1x64.size (by sl_kernel_rfl) y

/-- What case B leaves in output 4's buffer: its pieces read back. -/
def out1_B_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt1 (c : Dev nD) : (n : ℕ) → n < cfg1.N → Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
              out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩))
  | n + 1, hn =>
    if h0 : (n + 1) % 5 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- The pair at the first point. -/
theorem outsAt1_A (c : Dev nD) (t : Fin cfg1.N) (h0 : t.val % 5 = 0) :
    outsAt1 V c t.val t.isLt =
      (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
       out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) := by
  obtain ⟨n, hn⟩ := t
  cases n with
  | zero => exact rfl
  | succ n => exact (dif_pos h0).trans rfl

/-- The pair at a later point, over the pair of the point before. -/
theorem outsAt1_B (c : Dev nD) (t : Fin cfg1.N) (h0 : ¬t.val % 5 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt1 (c : Dev nD) (t : Fin cfg1.N) : Vec F S10000x64 .f32 :=
  if h0 : t.val % 5 = 0 then
    out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  else
    out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2

theorem reluAt1_A (c : Dev nD) (t : Fin cfg1.N) (h0 : t.val % 5 = 0) :
    reluAt1 V c t = out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) := dif_pos h0

theorem reluAt1_B (c : Dev nD) (t : Fin cfg1.N) (h0 : ¬t.val % 5 = 0) :
    reluAt1 V c t = out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt1`, the accumulators at the pair
    `outsAt1`; the invariant is the scoped rest with the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => reluAt1 V c t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = reluAt1 V c t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later point each accumulator's buffer holds what the body left at the point before: it is written back
    after the last point only, and its window is never idle and never cut. -/
theorem before1_3_B (c : Dev nD) (t : Fin cfg1.N) (h0 : ¬t.val % 5 = 0) (d) :
    (dat1 V c).before 3 t d = (outsAt1 V c (t.val - 1) (Nat.lt_of_le_of_lt (Nat.sub_le _ _) t.isLt)).1 := by
  have hN : t.val < 5 := lt_of_lt_of_eq t.isLt (show cfg1.N = 5 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 5 = 0) (d) :
    (dat1 V c).before 4 t d = (outsAt1 V c (t.val - 1) (Nat.lt_of_le_of_lt (Nat.sub_le _ _) t.isLt)).2 := by
  have hN : t.val < 5 := lt_of_lt_of_eq t.isLt (show cfg1.N = 5 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 5 := lt_of_lt_of_eq t.isLt (show cfg1.N = 5 from N_1)
  by_cases h0 : t.val % 5 = 0
  · rw [outsAt1_A V c t h0, reluAt1_A V c t h0]
    dsimp only
    unfold out1_A_2 out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _)
    isplitl [H3]
    · unfold owns; iexists _; isplitr
      swap; · iexact H3
      ipureintro; exact View.read_writes_of_cover _ _ _ _ _ (cover1_A_3 c _ _ _ _ _ _ _ _ _ _ _ _ _ _)
    unfold owns; iexists _; isplitr
    swap; · iexact H4
    ipureintro; exact View.read_writes_of_cover _ _ _ _ _ (cover1_A_4 c _ _ _ _ _ _ _ _ _ _ _ _ _ _)
  · rw [outsAt1_B V c t h0, reluAt1_B V c t h0]
    simp only [before1_3_B V c t h0, before1_4_B V c t h0]
    unfold out1_B_2 out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _)
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Bits.Affine2.lean ====
/- Region 2 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The data buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale row's buffer holds the row at every point: fetched at the first point only, and where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shift row's buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

/-- The whole [10000,64] buffer. -/
abbrev r2_a : Rect S10000x64 := Rect.unit (s := S10000x64) ![0, 0] S10000x64.size inb_S10000x64_S10000x64_0_0
/-- The whole [1,64] buffer. -/
abbrev r2_b : Rect S1x64 := Rect.unit (s := S1x64) ![0, 0] S1x64.size inb_S1x64_S1x64_0_0

/-! ## What the body leaves in the output window's buffer -/

/-- The output buffer after the body: its single store, the affine payload of what the three loads read. -/
def out2_3 (x0 : Vec F S10000x64 .f32) (x1 : Vec F S1x64 .f32) (x2 : Vec F S1x64 .f32) : Vec F S10000x64 .f32 :=
  View.canon [⟨r2_a, k2_pay1 (View.ld x0 r2_a) (View.ld x1 r2_b) (View.ld x2 r2_b)⟩]

/-- The single store covers the whole buffer. -/
theorem cover2_3 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

/-! ## The triple of the body -/

set_option maxHeartbeats 1000000 in
/-- On whole staging memrefs, the three inputs at read contents `x0`, `x1`, `x2` and the output at any contents, the
    body runs to a state with the inputs unchanged and the output at `out2_3 x0 x1 x2`. The body also reads the
    output buffer once before storing into it; that value feeds nothing. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the pipeline -/

/-- The proof data of pipeline 2 on core `c`: the arrays as found on entry; after the body at point `t` each input
    buffer still at its block and the output buffer at `out2_3` of the three input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input memrefs hold their blocks, so the triple of the body applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.Bits.Matmul3.lean ====
/- Region 3 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's buffer holds its row block at every point (it is fetched at every point; the statement does
    not depend on that). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right factor's buffer holds the whole matrix at every point: it is fetched at the first point only, and
    where it is not fetched its block index has not moved, so the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

/-- The whole [10000,64] buffer. -/
abbrev r3_a : Rect S10000x64 := Rect.unit (s := S10000x64) ![0, 0] S10000x64.size inb_S10000x64_S10000x64_0_0
/-- The whole [64,64] buffer. -/
abbrev r3_b : Rect S64x64 := Rect.unit (s := S64x64) ![0, 0] S64x64.size inb_S64x64_S64x64_0_0

/-! ## What the body leaves in the output window's buffer -/

/-- The output buffer after the body: its single store, the product payload of what the two loads read. -/
def out3_2 (x0 : Vec F S10000x64 .f32) (x1 : Vec F S64x64 .f32) : Vec F S10000x64 .f32 :=
  View.canon [⟨r3_a, k3_pay1 (View.ld x0 r3_a) (View.ld x1 r3_b)⟩]

/-- The single store covers the whole buffer. -/
theorem cover3_2 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-! ## The triple of the body -/

set_option maxHeartbeats 1000000 in
/-- On whole staging memrefs, the two inputs at read contents `x0`, `x1` and the output at any contents, the body
    runs to a state with the inputs unchanged and the output at `out3_2 x0 x1`. The body also reads the output
    buffer once before storing into it; that value feeds nothing. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- The proof data of pipeline 3 on core `c`: the arrays as found on entry; after the body at point `t` each input
    buffer still at its block and the output buffer at `out3_2` of the two input blocks; the invariant leaves the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input memrefs hold their blocks, so the triple of the body applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.Bits.Bn4Run.lean ====
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the batch-statistics kernel, its two control cases run on any staging memrefs -/

/-! ## The windows' blocks -/

/-- Window `w`'s block at point `t`, read off its array at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's current buffer holds its block at every point, for any proof data over `V` whose body
    leaves that buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row is fetched at the first point only; its block index never moves, so its buffer holds the row at
    every point all the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The branch condition -/

/-- The body's one conditional: "this is grid point 0", as the scalar chain computes it from the coordinate. -/
abbrev cond4_0 (i : grid4.Coords) : Prop := (Scalar.cmpi .ne (Scalar.extui (Scalar.cmpi .eq (BitVec.ofNat 32 (i 0).val) 0#32)) 0#32) = 1#1
/-- Over the five points it holds at the first only. -/
theorem hcond4_0 : ∀ t : Fin cfg4.N, cond4_0 (grid4.coords t) ↔ t.val % 5 = 0 :=
  (by decide +kernel : ∀ t : Fin grid4.N, cond4_0 (grid4.coords t) ↔ t.val % 5 = 0)

/-! ## Staging memrefs -/

/-- One staging buffer of each output window, through which its contents are stated. -/
abbrev VO4_2 : View sig .tc .vmem S10000x64 .f32 := (Memref.whole cc4_stg2_0 : Memref sig .tc .vmem S10000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
/-- Each window's current staging memref at point `t`, as the pipeline passes it to the body, and its wholeness. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Reg

end
-- ==== Proof.Bits.Bn4.lean ====
import proofs.«132734_j72301479461275_2_alg».proof.Proof.Bits.Bn4Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: what the three outputs hold point by point, the proof data, the body obligation -/

/-! ## Each case's pieces cover the buffers; what they leave -/

/-- In case A the pieces written into output 2's buffer tile it, so they cover it. -/
theorem cover4_A_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S10000x64.Idx) :
    ∃ pc ∈ (kernelRun4_A c i arg1 harg1 arg2 harg2 arg3 harg3 arg4 harg4 arg5 harg5 hc0 x0 x1).1, y ∈ pc.1.set :=
  View.cover_of_tiledL (kernelRun4_A c i arg1 harg1 arg2 harg2 arg3 harg3 arg4 harg4 arg5 harg5 hc0 x0 x1).1 S10000x64.size (by sl_kernel_rfl) y

/-- What case A leaves in output 2's buffer: its pieces read back. -/
def out4_A_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S10000x64 .f32 :=
  VO4_2.read (Elt F) (VO4_2.writes (Elt F) VO4_2.junk (kernelRun4_A c i arg1 harg1 arg2 harg2 arg3 harg3 arg4 harg4 arg5 harg5 hc0 x0 x1).1)

/-- In case A the pieces written into output 3's buffer tile it, so they cover it. -/
theorem cover4_A_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S1x64.Idx) :
    ∃ pc ∈ (kernelRun4_A c i arg1 harg1 arg2 harg2 arg3 harg3 arg4 harg4 arg5 harg5 hc0 x0 x1).2.1, y ∈ pc.1.set :=
  View.cover_of_tiledL (kernelRun4_A c i arg1 harg1 arg2 harg2 arg3 harg3 arg4 harg4 arg5 harg5 hc0 x0 x1).2.1 S1x64.size (by sl_kernel_rfl) y

/-- What case A leaves in output 3's buffer: its pieces read back. -/
def out4_A_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 hc0 x0 x1).2.1)

/-- In case A the pieces written into output 4's buffer tile it, so they cover it. -/
theorem cover4_A_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S1x64.Idx) :
    ∃ pc ∈ (kernelRun4_A c i arg1 harg1 arg2 harg2 arg3 harg3 arg4 harg4 arg5 harg5 hc0 x0 x1).2.2.1, y ∈ pc.1.set :=
  View.cover_of_tiledL (kernelRun4_A c i arg1 harg1 arg2 harg2 arg3 harg3 arg4 harg4 arg5 harg5 hc0 x0 x1).2.2.1 S1x64.size (by sl_kernel_rfl) y

/-- What case A leaves in output 4's buffer: its pieces read back. -/
def out4_A_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S1x64 .f32 :=
  VO4_4.read (Elt F) (VO4_4.writes (Elt F) VO4_4.junk (kernelRun4_A c i arg1 harg1 arg2 harg2 arg3 harg3 arg4 harg4 arg5 harg5 hc0 x0 x1).2.2.1)

/-- In case B the pieces written into output 2's buffer tile it, so they cover it. -/
theorem cover4_B_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S10000x64.Idx) :
    ∃ pc ∈ (kernelRun4_B c i arg1 harg1 arg2 harg2 arg3 harg3 arg4 harg4 arg5 harg5 hc0 x0 x1 xo3 xo4).1, y ∈ pc.1.set :=
  View.cover_of_tiledL (kernelRun4_B c i arg1 harg1 arg2 harg2 arg3 harg3 arg4 harg4 arg5 harg5 hc0 x0 x1 xo3 xo4).1 S10000x64.size (by sl_kernel_rfl) y

/-- What case B leaves in output 2's buffer: its pieces read back. -/
def out4_B_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S10000x64 .f32 :=
  VO4_2.read (Elt F) (VO4_2.writes (Elt F) VO4_2.junk (kernelRun4_B c i arg1 harg1 arg2 harg2 arg3 harg3 arg4 harg4 arg5 harg5 hc0 x0 x1 xo3 xo4).1)

/-- In case B the pieces written into output 3's buffer tile it, so they cover it. -/
theorem cover4_B_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.1, y ∈ pc.1.set :=
  View.cover_of_tiledL (kernelRun4_B c i arg1 harg1 arg2 harg2 arg3 harg3 arg4 harg4 arg5 harg5 hc0 x0 x1 xo3 xo4).2.1 S1x64.size (by sl_kernel_rfl) y

/-- What case B leaves in output 3's buffer: its pieces read back. -/
def out4_B_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S1x64 .f32 :=
  VO4_3.read (Elt F) (VO4_3.writes (Elt F) VO4_3.junk (kernelRun4_B c i arg1 harg1 arg2 harg2 arg3 harg3 arg4 harg4 arg5 harg5 hc0 x0 x1 xo3 xo4).2.1)

/-- In case B the pieces written into output 4's buffer tile it, so they cover it. -/
theorem cover4_B_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.2.1, y ∈ pc.1.set :=
  View.cover_of_tiledL (kernelRun4_B c i arg1 harg1 arg2 harg2 arg3 harg3 arg4 harg4 arg5 harg5 hc0 x0 x1 xo3 xo4).2.2.1 S1x64.size (by sl_kernel_rfl) y

/-- What case B leaves in output 4's buffer: its pieces read back. -/
def out4_B_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S1x64 .f32 :=
  VO4_4.read (Elt F) (VO4_4.writes (Elt F) VO4_4.junk (kernelRun4_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt4 (c : Dev nD) : (n : ℕ) → n < cfg4.N → Vec F S1x64 .f32 × Vec F S1x64 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
              out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩))
  | n + 1, hn =>
    if h0 : (n + 1) % 5 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1 (outsAt4 c n (Nat.lt_of_succ_lt hn)).2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1 (outsAt4 c n (Nat.lt_of_succ_lt hn)).2)

/-- The pair at the first point. -/
theorem outsAt4_A (c : Dev nD) (t : Fin cfg4.N) (h0 : t.val % 5 = 0) :
    outsAt4 V c t.val t.isLt =
      (out4_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
       out4_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) := by
  obtain ⟨n, hn⟩ := t
  cases n with
  | zero => exact rfl
  | succ n => exact (dif_pos h0).trans rfl

/-- The pair at a later point, over the pair of the point before. -/
theorem outsAt4_B (c : Dev nD) (t : Fin cfg4.N) (h0 : ¬t.val % 5 = 0) :
    outsAt4 V c t.val t.isLt =
      (out4_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2,
       out4_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt4 (c : Dev nD) (t : Fin cfg4.N) : Vec F S10000x64 .f32 :=
  if h0 : t.val % 5 = 0 then
    out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  else
    out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2

theorem reluAt4_A (c : Dev nD) (t : Fin cfg4.N) (h0 : t.val % 5 = 0) :
    reluAt4 V c t = out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t) := dif_pos h0

theorem reluAt4_B (c : Dev nD) (t : Fin cfg4.N) (h0 : ¬t.val % 5 = 0) :
    reluAt4 V c t = out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt4`, the accumulators at the pair
    `outsAt4`; the invariant is the scoped rest with the generator register, untouched; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => reluAt4 V c t
    | ⟨3, _⟩ => (outsAt4 V c t.val t.isLt).1
    | ⟨4, _⟩ => (outsAt4 V c t.val t.isLt).2
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = reluAt4 V c t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2 := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- At a later point each accumulator's buffer holds what the body left at the point before: it is written back
    after the last point only, and its window is never idle and never cut. -/
theorem before4_3_B (c : Dev nD) (t : Fin cfg4.N) (h0 : ¬t.val % 5 = 0) (d) :
    (dat4 V c).before 3 t d = (outsAt4 V c (t.val - 1) (Nat.lt_of_le_of_lt (Nat.sub_le _ _) t.isLt)).1 := by
  have hN : t.val < 5 := lt_of_lt_of_eq t.isLt (show cfg4.N = 5 from N_4)
  rw [Dat.before_out_kept _ 3 rfl t (by omega) (Bool.eq_false_iff.mpr fun h => by have := (flush4_3 _).mp h; dsimp only at this; omega)
    (fun _ => rfl) (fun _ _ => rfl)]
  dsimp only [dat4]
theorem before4_4_B (c : Dev nD) (t : Fin cfg4.N) (h0 : ¬t.val % 5 = 0) (d) :
    (dat4 V c).before 4 t d = (outsAt4 V c (t.val - 1) (Nat.lt_of_le_of_lt (Nat.sub_le _ _) t.isLt)).2 := by
  have hN : t.val < 5 := lt_of_lt_of_eq t.isLt (show cfg4.N = 5 from N_4)
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, after4_4]
  have hN : t.val < 5 := lt_of_lt_of_eq t.isLt (show cfg4.N = 5 from N_4)
  by_cases h0 : t.val % 5 = 0
  · rw [outsAt4_A V c t h0, reluAt4_A V c t h0]
    dsimp only
    unfold out4_A_2 out4_A_3 out4_A_4
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0) (iblk4 V c 0 t) (iblk4 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_A_2 c _ _ _ _ _ _ _ _ _ _ _ _ _ _)
    isplitl [H3]
    · unfold owns; iexists _; isplitr
      swap; · iexact H3
      ipureintro; exact View.read_writes_of_cover _ _ _ _ _ (cover4_A_3 c _ _ _ _ _ _ _ _ _ _ _ _ _ _)
    unfold owns; iexists _; isplitr
    swap; · iexact H4
    ipureintro; exact View.read_writes_of_cover _ _ _ _ _ (cover4_A_4 c _ _ _ _ _ _ _ _ _ _ _ _ _ _)
  · rw [outsAt4_B V c t h0, reluAt4_B V c t h0]
    simp only [before4_3_B V c t h0, before4_4_B V c t h0]
    unfold out4_B_2 out4_B_3 out4_B_4
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h)) (iblk4 V c 0 t) (iblk4 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    isplitl [H3]
    · unfold owns; iexists _; isplitr
      swap; · iexact H3
      ipureintro; exact View.read_writes_of_cover _ _ _ _ _ (cover4_B_3 c _ _ _ _ _ _ _ _ _ _ _ _ _ _ _ _)
    unfold owns; iexists _; isplitr
    swap; · iexact H4
    ipureintro; exact View.read_writes_of_cover _ _ _ _ _ (cover4_B_4 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.Bits.Affine5.lean ====
/- Region 5 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The data buffer holds its row block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The scale row's buffer holds the row at every point: fetched at the first point only, and where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The shift row's buffer holds the row at every point, for the same reason. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

/-- The whole [10000,64] buffer. -/
abbrev r5_a : Rect S10000x64 := Rect.unit (s := S10000x64) ![0, 0] S10000x64.size inb_S10000x64_S10000x64_0_0
/-- The whole [1,64] buffer. -/
abbrev r5_b : Rect S1x64 := Rect.unit (s := S1x64) ![0, 0] S1x64.size inb_S1x64_S1x64_0_0

/-! ## What the body leaves in the output window's buffer -/

/-- The output buffer after the body: its single store, the affine payload of what the three loads read. -/
def out5_3 (x0 : Vec F S10000x64 .f32) (x1 : Vec F S1x64 .f32) (x2 : Vec F S1x64 .f32) : Vec F S10000x64 .f32 :=
  View.canon [⟨r5_a, k5_pay1 (View.ld x0 r5_a) (View.ld x1 r5_b) (View.ld x2 r5_b)⟩]

/-- The single store covers the whole buffer. -/
theorem cover5_3 (p0 : Vec F S10000x64 .f32) (y : S10000x64.Idx) :
    ∃ pc ∈ ([⟨r5_a, p0⟩] : List (View.Piece (Elt F) S10000x64 .f32)), y ∈ pc.1.set :=
  View.cover_of_tiled [⟨r5_a, p0⟩] S10000x64.size (by rfl) y

/-! ## The triple of the body -/

set_option maxHeartbeats 1000000 in
/-- On whole staging memrefs, the three inputs at read contents `x0`, `x1`, `x2` and the output at any contents, the
    body runs to a state with the inputs unchanged and the output at `out5_3 x0 x1 x2`. The body also reads the
    output buffer once before storing into it; that value feeds nothing. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_kernel i arg1 harg1 arg2 harg2 arg3 harg3 arg4 harg4) K := by
  simp only [cc5__affine_kernel_eq_skeleton]; unfold cc5__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data of the pipeline -/

/-- The proof data of pipeline 5 on core `c`: the arrays as found on entry; after the body at point `t` each input
    buffer still at its block and the output buffer at `out5_3` of the three input blocks; the invariant leaves the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The arrays of the proof data are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input memrefs hold their blocks, so the triple of the body applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.Bits.Matmul6.lean ====
/- Region 6 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left factor's buffer holds its row block at every point (it is fetched at every point; the statement does
    not depend on that). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right factor's buffer holds the whole matrix at every point: it is fetched at the first point only, and
    where it is not fetched its block index has not moved, so the buffer still holds the same block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

/-- The whole [10000,64] buffer. -/
abbrev r6_a : Rect S10000x64 := Rect.unit (s := S10000x64) ![0, 0] S10000x64.size inb_S10000x64_S10000x64_0_0
/-- The whole [64,64] buffer. -/
abbrev r6_b : Rect S64x64 := Rect.unit (s := S64x64) ![0, 0] S64x64.size inb_S64x64_S64x64_0_0

/-! ## What the body leaves in the output window's buffer -/

/-- The output buffer after the body: its single store, the product payload of what the two loads read. -/
def out6_2 (x0 : Vec F S10000x64 .f32) (x1 : Vec F S64x64 .f32) : Vec F S10000x64 .f32 :=
  View.canon [⟨r6_a, k6_pay1 (View.ld x0 r6_a) (View.ld x1 r6_b)⟩]

/-- The single store covers the whole buffer. -/
theorem cover6_2 (p0 : Vec F S10000x64 .f32) (y : S10000x64.Idx) :
    ∃ pc ∈ ([⟨r6_a, p0⟩] : List (View.Piece (Elt F) S10000x64 .f32)), y ∈ pc.1.set :=
  View.cover_of_tiled [⟨r6_a, p0⟩] S10000x64.size (by rfl) y

/-! ## The triple of the body -/

set_option maxHeartbeats 1000000 in
/-- On whole staging memrefs, the two inputs at read contents `x0`, `x1` and the output at any contents, the body
    runs to a state with the inputs unchanged and the output at `out6_2 x0 x1`. The body also reads the output
    buffer once before storing into it; that value feeds nothing. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data of the pipeline -/

/-- The proof data of pipeline 6 on core `c`: the arrays as found on entry; after the body at point `t` each input
    buffer still at its block and the output buffer at `out6_2` of the two input blocks; the invariant leaves the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The arrays of the proof data are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input memrefs hold their blocks, so the triple of the body applies; the invariant
    and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.Bits.Bn7Run.lean ====
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the batch-statistics kernel, its two control cases run on any staging memrefs -/

/-! ## The windows' blocks -/

/-- Window `w`'s block at point `t`, read off its array at the entry contents `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-block input's current buffer holds its block at every point, for any proof data over `V` whose body
    leaves that buffer as it found it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is fetched at the first point only; its block index never moves, so its buffer holds the row at
    every point all the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The branch condition -/

/-- The body's one conditional: "this is grid point 0", as the scalar chain computes it from the coordinate. -/
abbrev cond7_0 (i : grid7.Coords) : Prop := (Scalar.cmpi .ne (Scalar.extui (Scalar.cmpi .eq (BitVec.ofNat 32 (i 0).val) 0#32)) 0#32) = 1#1
/-- Over the five points it holds at the first only. -/
theorem hcond7_0 : ∀ t : Fin cfg7.N, cond7_0 (grid7.coords t) ↔ t.val % 5 = 0 :=
  (by decide +kernel : ∀ t : Fin grid7.N, cond7_0 (grid7.coords t) ↔ t.val % 5 = 0)

/-! ## Staging memrefs -/

/-- One staging buffer of each output window, through which its contents are stated. -/
abbrev VO7_2 : View sig .tc .vmem S10000x64 .f32 := (Memref.whole cc7_stg2_0 : Memref sig .tc .vmem S10000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
/-- Each window's current staging memref at point `t`, as the pipeline passes it to the body, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S10000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun7_A (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun7_B (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Reg

end
-- ==== Proof.Bits.Bn7.lean ====
import proofs.«132734_j72301479461275_2_alg».proof.Proof.Bits.Bn7Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: what the three outputs hold point by point, the proof data, the body obligation -/

/-! ## Each case's pieces cover the buffers; what they leave -/

/-- In case A the pieces written into output 2's buffer tile it, so they cover it. -/
theorem cover7_A_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S10000x64.Idx) :
    ∃ pc ∈ (kernelRun7_A c i arg1 harg1 arg2 harg2 arg3 harg3 arg4 harg4 arg5 harg5 hc0 x0 x1).1, y ∈ pc.1.set :=
  View.cover_of_tiledL (kernelRun7_A c i arg1 harg1 arg2 harg2 arg3 harg3 arg4 harg4 arg5 harg5 hc0 x0 x1).1 S10000x64.size (by sl_kernel_rfl) y

/-- What case A leaves in output 2's buffer: its pieces read back. -/
def out7_A_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S10000x64 .f32 :=
  VO7_2.read (Elt F) (VO7_2.writes (Elt F) VO7_2.junk (kernelRun7_A c i arg1 harg1 arg2 harg2 arg3 harg3 arg4 harg4 arg5 harg5 hc0 x0 x1).1)

/-- In case A the pieces written into output 3's buffer tile it, so they cover it. -/
theorem cover7_A_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S1x64.Idx) :
    ∃ pc ∈ (kernelRun7_A c i arg1 harg1 arg2 harg2 arg3 harg3 arg4 harg4 arg5 harg5 hc0 x0 x1).2.1, y ∈ pc.1.set :=
  View.cover_of_tiledL (kernelRun7_A c i arg1 harg1 arg2 harg2 arg3 harg3 arg4 harg4 arg5 harg5 hc0 x0 x1).2.1 S1x64.size (by sl_kernel_rfl) y

/-- What case A leaves in output 3's buffer: its pieces read back. -/
def out7_A_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S1x64 .f32 :=
  VO7_3.read (Elt F) (VO7_3.writes (Elt F) VO7_3.junk (kernelRun7_A c i arg1 harg1 arg2 harg2 arg3 harg3 arg4 harg4 arg5 harg5 hc0 x0 x1).2.1)

/-- In case A the pieces written into output 4's buffer tile it, so they cover it. -/
theorem cover7_A_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S1x64.Idx) :
    ∃ pc ∈ (kernelRun7_A c i arg1 harg1 arg2 harg2 arg3 harg3 arg4 harg4 arg5 harg5 hc0 x0 x1).2.2.1, y ∈ pc.1.set :=
  View.cover_of_tiledL (kernelRun7_A c i arg1 harg1 arg2 harg2 arg3 harg3 arg4 harg4 arg5 harg5 hc0 x0 x1).2.2.1 S1x64.size (by sl_kernel_rfl) y

/-- What case A leaves in output 4's buffer: its pieces read back. -/
def out7_A_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S1x64 .f32 :=
  VO7_4.read (Elt F) (VO7_4.writes (Elt F) VO7_4.junk (kernelRun7_A c i arg1 harg1 arg2 harg2 arg3 harg3 arg4 harg4 arg5 harg5 hc0 x0 x1).2.2.1)

/-- In case B the pieces written into output 2's buffer tile it, so they cover it. -/
theorem cover7_B_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S10000x64.Idx) :
    ∃ pc ∈ (kernelRun7_B c i arg1 harg1 arg2 harg2 arg3 harg3 arg4 harg4 arg5 harg5 hc0 x0 x1 xo3 xo4).1, y ∈ pc.1.set :=
  View.cover_of_tiledL (kernelRun7_B c i arg1 harg1 arg2 harg2 arg3 harg3 arg4 harg4 arg5 harg5 hc0 x0 x1 xo3 xo4).1 S10000x64.size (by sl_kernel_rfl) y

/-- What case B leaves in output 2's buffer: its pieces read back. -/
def out7_B_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S10000x64 .f32 :=
  VO7_2.read (Elt F) (VO7_2.writes (Elt F) VO7_2.junk (kernelRun7_B c i arg1 harg1 arg2 harg2 arg3 harg3 arg4 harg4 arg5 harg5 hc0 x0 x1 xo3 xo4).1)

/-- In case B the pieces written into output 3's buffer tile it, so they cover it. -/
theorem cover7_B_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.1, y ∈ pc.1.set :=
  View.cover_of_tiledL (kernelRun7_B c i arg1 harg1 arg2 harg2 arg3 harg3 arg4 harg4 arg5 harg5 hc0 x0 x1 xo3 xo4).2.1 S1x64.size (by sl_kernel_rfl) y

/-- What case B leaves in output 3's buffer: its pieces read back. -/
def out7_B_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S1x64 .f32 :=
  VO7_3.read (Elt F) (VO7_3.writes (Elt F) VO7_3.junk (kernelRun7_B c i arg1 harg1 arg2 harg2 arg3 harg3 arg4 harg4 arg5 harg5 hc0 x0 x1 xo3 xo4).2.1)

/-- In case B the pieces written into output 4's buffer tile it, so they cover it. -/
theorem cover7_B_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.2.1, y ∈ pc.1.set :=
  View.cover_of_tiledL (kernelRun7_B c i arg1 harg1 arg2 harg2 arg3 harg3 arg4 harg4 arg5 harg5 hc0 x0 x1 xo3 xo4).2.2.1 S1x64.size (by sl_kernel_rfl) y

/-- What case B leaves in output 4's buffer: its pieces read back. -/
def out7_B_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S1x64 .f32 :=
  VO7_4.read (Elt F) (VO7_4.writes (Elt F) VO7_4.junk (kernelRun7_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt7 (c : Dev nD) : (n : ℕ) → n < cfg7.N → Vec F S1x64 .f32 × Vec F S1x64 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
              out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩))
  | n + 1, hn =>
    if h0 : (n + 1) % 5 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).1 (outsAt7 c n (Nat.lt_of_succ_lt hn)).2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).1 (outsAt7 c n (Nat.lt_of_succ_lt hn)).2)

/-- The pair at the first point. -/
theorem outsAt7_A (c : Dev nD) (t : Fin cfg7.N) (h0 : t.val % 5 = 0) :
    outsAt7 V c t.val t.isLt =
      (out7_A_3 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
       out7_A_4 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)) := by
  obtain ⟨n, hn⟩ := t
  cases n with
  | zero => exact rfl
  | succ n => exact (dif_pos h0).trans rfl

/-- The pair at a later point, over the pair of the point before. -/
theorem outsAt7_B (c : Dev nD) (t : Fin cfg7.N) (h0 : ¬t.val % 5 = 0) :
    outsAt7 V c t.val t.isLt =
      (out7_B_3 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2,
       out7_B_4 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt7 (c : Dev nD) (t : Fin cfg7.N) : Vec F S10000x64 .f32 :=
  if h0 : t.val % 5 = 0 then
    out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)
  else
    out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2

theorem reluAt7_A (c : Dev nD) (t : Fin cfg7.N) (h0 : t.val % 5 = 0) :
    reluAt7 V c t = out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t) := dif_pos h0

theorem reluAt7_B (c : Dev nD) (t : Fin cfg7.N) (h0 : ¬t.val % 5 = 0) :
    reluAt7 V c t = out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt7`, the accumulators at the pair
    `outsAt7`; the invariant is the scoped rest with the generator register, untouched; full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => reluAt7 V c t
    | ⟨3, _⟩ => (outsAt7 V c t.val t.isLt).1
    | ⟨4, _⟩ => (outsAt7 V c t.val t.isLt).2
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = reluAt7 V c t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2 := by dsimp only [dat7]

/-- Each input's current buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- At a later point each accumulator's buffer holds what the body left at the point before: it is written back
    after the last point only, and its window is never idle and never cut. -/
theorem before7_3_B (c : Dev nD) (t : Fin cfg7.N) (h0 : ¬t.val % 5 = 0) (d) :
    (dat7 V c).before 3 t d = (outsAt7 V c (t.val - 1) (Nat.lt_of_le_of_lt (Nat.sub_le _ _) t.isLt)).1 := by
  have hN : t.val < 5 := lt_of_lt_of_eq t.isLt (show cfg7.N = 5 from N_7)
  rw [Dat.before_out_kept _ 3 rfl t (by omega) (Bool.eq_false_iff.mpr fun h => by have := (flush7_3 _).mp h; dsimp only at this; omega)
    (fun _ => rfl) (fun _ _ => rfl)]
  dsimp only [dat7]
theorem before7_4_B (c : Dev nD) (t : Fin cfg7.N) (h0 : ¬t.val % 5 = 0) (d) :
    (dat7 V c).before 4 t d = (outsAt7 V c (t.val - 1) (Nat.lt_of_le_of_lt (Nat.sub_le _ _) t.isLt)).2 := by
  have hN : t.val < 5 := lt_of_lt_of_eq t.isLt (show cfg7.N = 5 from N_7)
  rw [Dat.before_out_kept _ 4 rfl t (by omega) (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, after7_4]
  have hN : t.val < 5 := lt_of_lt_of_eq t.isLt (show cfg7.N = 5 from N_7)
  by_cases h0 : t.val % 5 = 0
  · rw [outsAt7_A V c t h0, reluAt7_A V c t h0]
    dsimp only
    unfold out7_A_2 out7_A_3 out7_A_4
    iintro ⟨HΦ, Ho, ⟨%d0, H0⟩, ⟨%d1, H1⟩, ⟨%d2, H2⟩, ⟨%d3, H3⟩, ⟨%d4, H4⟩⟩
    iapply ((kernelRun7_A c (grid7.coords t) _ _ _ _ _ _ _ _ _ _ ((hcond7_0 t).mpr h0) (iblk7 V c 0 t) (iblk7 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_A_2 c _ _ _ _ _ _ _ _ _ _ _ _ _ _)
    isplitl [H3]
    · unfold owns; iexists _; isplitr
      swap; · iexact H3
      ipureintro; exact View.read_writes_of_cover _ _ _ _ _ (cover7_A_3 c _ _ _ _ _ _ _ _ _ _ _ _ _ _)
    unfold owns; iexists _; isplitr
    swap; · iexact H4
    ipureintro; exact View.read_writes_of_cover _ _ _ _ _ (cover7_A_4 c _ _ _ _ _ _ _ _ _ _ _ _ _ _)
  · rw [outsAt7_B V c t h0, reluAt7_B V c t h0]
    simp only [before7_3_B V c t h0, before7_4_B V c t h0]
    unfold out7_B_2 out7_B_3 out7_B_4
    iintro ⟨HΦ, Ho, ⟨%d0, H0⟩, ⟨%d1, H1⟩, ⟨%d2, H2⟩, ⟨%d3, H3⟩, ⟨%d4, H4⟩⟩
    iapply ((kernelRun7_B c (grid7.coords t) _ _ _ _ _ _ _ _ _ _ (fun h => h0 ((hcond7_0 t).mp h)) (iblk7 V c 0 t) (iblk7 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_B_2 c _ _ _ _ _ _ _ _ _ _ _ _ _ _ _ _)
    isplitl [H3]
    · unfold owns; iexists _; isplitr
      swap; · iexact H3
      ipureintro; exact View.read_writes_of_cover _ _ _ _ _ (cover7_B_3 c _ _ _ _ _ _ _ _ _ _ _ _ _ _ _ _)
    unfold owns; iexists _; isplitr
    swap; · iexact H4
    ipureintro; exact View.read_writes_of_cover _ _ _ _ _ (cover7_B_4 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.Bits.Affine8.lean ====
/- Region 8 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.Kernel.Launch
import proofs.«132734_j72301479461275_2_alg».proof.Proof.Gen.Kernel.Skeleton
import proofs.«132734_j72301479461275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The data buffer holds its row block at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The scale row's buffer holds the row at every point: fetched at the first point only, and where it is not
    fetched its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The shift row's buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The rectangles the body reads and writes -/

/-- The whole [10000,64] buffer. -/
abbrev r8_a : Rect S10000x64 := Rect.unit (s := S10000x64) ![0, 0] S10000x64.size inb_S10000x64_S10000x64_0_0
/-- The whole [1,64] buffer. -/
abbrev r8_b : Rect S1x64 := Rect.unit (s := S1x64) ![0, 0] S1x64.size inb_S1x64_S1x64_0_0

/-! ## What the body leaves in the output window's buffer -/

/-- The output buffer after the body: its single store, the affine payload of what the three loads read. -/
def out8_3 (x0 : Vec F S10000x64 .f32) (x1 : Vec F S1x64 .f32) (x2 : Vec F S1x64 .f32) : Vec F S10000x64 .f32 :=
  View.canon [⟨r8_a, k8_pay1 (View.ld x0 r8_a) (View.ld x1 r8_b) (View.ld x2 r8_b)⟩]

/-- The single store covers the whole buffer. -/
theorem cover8_3 (p0 : Vec F S10000x64 .f32) (y : S10000x64.Idx) :
    ∃ pc ∈ ([⟨r8_a, p0⟩] : List (View.Piece (Elt F) S10000x64 .f32)), y ∈ pc.1.set :=
  View.cover_of_tiled [⟨r8_a, p0⟩] S10000x64.size (by rfl) y

/-! ## The triple of the body -/

set_option maxHeartbeats 1000000 in
/-- On whole staging memrefs, the three inputs at read contents `x0`, `x1`, `x2` and the output at any contents, the
    body runs to a state with the inputs unchanged and the output at `out8_3 x0 x1 x2`. The body also reads the
    output buffer once before storing into it; that value feeds nothing. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__affine_kernel i arg1 harg1 arg2 harg2 arg3 harg3 arg4 harg4) K := by
  simp only [cc8__affine_kernel_eq_skeleton]; unfold cc8__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The proof data of the pipeline -/

/-- The proof data of pipeline 8 on core `c`: the arrays as found on entry; after the body at point `t` each input
    buffer still at its block and the output buffer at `out8_3` of the three input blocks; the invariant leaves the
    scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The arrays of the proof data are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation at a generic point -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the input memrefs hold their blocks, so the triple of the body applies; the invariant
    and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.Bits.Launch.lean ====
/- The thread state beside the buffers, and what the launch makes of it.
   Beside the unscoped buffers a core carries, through every item of @main, its generator register at some state and
   the fact that it owes no other core anything. The launch makes that state on every core at once out of the
   register and the empty tallies it hands out, and at the end the state still says the core owes nothing. -/
import proofs.«132734_j72301479461275_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- The rest state at each of the ten region boundaries. -/
abbrev EE : Fin 10 → Dev nD → sProp 𝕄 := fun _ c => R c

/-- One core's share of the launch's resources makes its rest state. -/
theorem hE0_core (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ emp) : sProp 𝕄)
      ⊢ R (F := F) c := by
  iintro ⟨-, HO, -, Hp, -⟩
  isplitl [Hp]; · iexists _; iexact Hp
  iexists ∅; iexact HO

/-- The launch's resources make the rest state on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (EE (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (EE (F := F) 0) : sProp 𝕄) :=
    bigSep_mono fun c _ => hE0_core ρ c
  iintro ⟨H, -⟩
  imodintro
  iapply hmono
  iexact H

/-- At the end the rest state still says the core owes nothing. -/
theorem hE9 (c : Dev nD) : EE (F := F) 9 c ⊢ (iprop(∃ W, owes (c : Thread nD τ) (0 : CellTallies nD τ sig Unit) W) : sProp 𝕄) := by
  show R (F := F) c ⊢ _
  iintro ⟨-, HO⟩; iexact HO

/-- The launch's ghost state: the cells' initial resource, nothing else. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.Kernel.Reg

end
-- ==== Proof.Bits.Run.lean ====
/- The run of the idealized kernel's program, assembled region by region.
   @main is twenty-five items: host stretches and nine kernel regions (three layers, each a matrix product, a
   rectifier with column sums, and an affine map). Between two items a core holds every unscoped buffer at a
   valuation: the launch contents, then each host stretch's results, then what a region writes back. What a region
   leaves in its output arrays is the fold of its write-backs over the contents it was entered with (`lvK`); the
   family `ooK` collects these leavings region by region, so that the contents a later region is entered with are
   a function of the earlier regions' leavings only. Each region is then a segment entered from and left at those
   valuations, its arrays split out of the unscoped buffers at entry and put back at exit. -/
import proofs.«132734_j72301479461275_2_alg».proof.Proof.Gen.Kernel.Regions
import proofs.«132734_j72301479461275_2_alg».proof.Proof.Bits.Matmul0
import proofs.«132734_j72301479461275_2_alg».proof.Proof.Bits.Bn1
import proofs.«132734_j72301479461275_2_alg».proof.Proof.Bits.Affine2
import proofs.«132734_j72301479461275_2_alg».proof.Proof.Bits.Matmul3
import proofs.«132734_j72301479461275_2_alg».proof.Proof.Bits.Bn4
import proofs.«132734_j72301479461275_2_alg».proof.Proof.Bits.Affine5
import proofs.«132734_j72301479461275_2_alg».proof.Proof.Bits.Matmul6
import proofs.«132734_j72301479461275_2_alg».proof.Proof.Bits.Bn7
import proofs.«132734_j72301479461275_2_alg».proof.Proof.Bits.Affine8
import proofs.«132734_j72301479461275_2_alg».proof.Proof.Bits.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Reading a valuation updated at three buffers

Stated over an ABSTRACT base valuation, so that nothing ever unfolds the host stretches behind the one it is used at. -/

theorem upd3_fst (W : Valuation τ sig (Elt F)) (x0 x1 x2 : DevRef τ sig) (a : x0.ty.Contents (Elt F)) (b : x1.ty.Contents (Elt F)) (d : x2.ty.Contents (Elt F))
    (h01 : x0 ≠ x1) (h02 : x0 ≠ x2) :
    Function.update (Function.update (Function.update W x0 a) x1 b) x2 d x0 = a := by
  rw [Function.update_of_ne h02, Function.update_of_ne h01, Function.update_self]
theorem upd3_snd (W : Valuation τ sig (Elt F)) (x0 x1 x2 : DevRef τ sig) (a : x0.ty.Contents (Elt F)) (b : x1.ty.Contents (Elt F)) (d : x2.ty.Contents (Elt F))
    (h12 : x1 ≠ x2) :
    Function.update (Function.update (Function.update W x0 a) x1 b) x2 d x1 = b := by
  rw [Function.update_of_ne h12, Function.update_self]
theorem upd3_thd (W : Valuation τ sig (Elt F)) (x0 x1 x2 : DevRef τ sig) (a : x0.ty.Contents (Elt F)) (b : x1.ty.Contents (Elt F)) (d : x2.ty.Contents (Elt F)) :
    Function.update (Function.update (Function.update W x0 a) x1 b) x2 d x2 = d :=
  Function.update_self _ _ _

/-! ## What the regions leave

Region K is entered with the valuation of the item before it, read over the leavings of the regions before K only. -/

/-- Before any region: nothing has been left; the value is never read. -/
def oo0 : Outs (F := F) := fun _ r c => m ((c : Thread nD τ).loc r)

/-- What region 0 leaves: its arrays at the write-backs' fold over the entry contents, every other buffer as entered. -/
def lv0 (c : Dev nD) : Valuation τ sig (Elt F) :=
  Pipeline.withArrays spec0 c (V1 m c) fun w => (dat0 (fun c b => V1 m c b) c).arrAt w cfg0.N
/-- The leavings of regions 0 … 0. -/
def oo1 : Outs (F := F) := fun J r c => if J = 2 then lv0 m c r else oo0 m J r c

/-- What region 1 leaves: its arrays at the write-backs' fold over the entry contents, every other buffer as entered. -/
def lv1 (c : Dev nD) : Valuation τ sig (Elt F) :=
  Pipeline.withArrays spec1 c (V5 m (oo1 m) c) fun w => (dat1 (fun c b => V5 m (oo1 m) c b) c).arrAt w cfg1.N
/-- The leavings of regions 0 … 1. -/
def oo2 : Outs (F := F) := fun J r c => if J = 6 then lv1 m c r else oo1 m J r c

/-- What region 2 leaves: its arrays at the write-backs' fold over the entry contents, every other buffer as entered. -/
def lv2 (c : Dev nD) : Valuation τ sig (Elt F) :=
  Pipeline.withArrays spec2 c (V7 m (oo2 m) c) fun w => (dat2 (fun c b => V7 m (oo2 m) c b) c).arrAt w cfg2.N
/-- The leavings of regions 0 … 2. -/
def oo3 : Outs (F := F) := fun J r c => if J = 8 then lv2 m c r else oo2 m J r c

/-- What region 3 leaves: its arrays at the write-backs' fold over the entry contents, every other buffer as entered. -/
def lv3 (c : Dev nD) : Valuation τ sig (Elt F) :=
  Pipeline.withArrays spec3 c (V9 m (oo3 m) c) fun w => (dat3 (fun c b => V9 m (oo3 m) c b) c).arrAt w cfg3.N
/-- The leavings of regions 0 … 3. -/
def oo4 : Outs (F := F) := fun J r c => if J = 10 then lv3 m c r else oo3 m J r c

/-- What region 4 leaves: its arrays at the write-backs' fold over the entry contents, every other buffer as entered. -/
def lv4 (c : Dev nD) : Valuation τ sig (Elt F) :=
  Pipeline.withArrays spec4 c (V13 m (oo4 m) c) fun w => (dat4 (fun c b => V13 m (oo4 m) c b) c).arrAt w cfg4.N
/-- The leavings of regions 0 … 4. -/
def oo5 : Outs (F := F) := fun J r c => if J = 14 then lv4 m c r else oo4 m J r c

/-- What region 5 leaves: its arrays at the write-backs' fold over the entry contents, every other buffer as entered. -/
def lv5 (c : Dev nD) : Valuation τ sig (Elt F) :=
  Pipeline.withArrays spec5 c (V15 m (oo5 m) c) fun w => (dat5 (fun c b => V15 m (oo5 m) c b) c).arrAt w cfg5.N
/-- The leavings of regions 0 … 5. -/
def oo6 : Outs (F := F) := fun J r c => if J = 16 then lv5 m c r else oo5 m J r c

/-- What region 6 leaves: its arrays at the write-backs' fold over the entry contents, every other buffer as entered. -/
def lv6 (c : Dev nD) : Valuation τ sig (Elt F) :=
  Pipeline.withArrays spec6 c (V17 m (oo6 m) c) fun w => (dat6 (fun c b => V17 m (oo6 m) c b) c).arrAt w cfg6.N
/-- The leavings of regions 0 … 6. -/
def oo7 : Outs (F := F) := fun J r c => if J = 18 then lv6 m c r else oo6 m J r c

/-- What region 7 leaves: its arrays at the write-backs' fold over the entry contents, every other buffer as entered. -/
def lv7 (c : Dev nD) : Valuation τ sig (Elt F) :=
  Pipeline.withArrays spec7 c (V21 m (oo7 m) c) fun w => (dat7 (fun c b => V21 m (oo7 m) c b) c).arrAt w cfg7.N
/-- The leavings of regions 0 … 7. -/
def oo8 : Outs (F := F) := fun J r c => if J = 22 then lv7 m c r else oo7 m J r c

/-- What region 8 leaves: its arrays at the write-backs' fold over the entry contents, every other buffer as entered. -/
def lv8 (c : Dev nD) : Valuation τ sig (Elt F) :=
  Pipeline.withArrays spec8 c (V23 m (oo8 m) c) fun w => (dat8 (fun c b => V23 m (oo8 m) c b) c).arrAt w cfg8.N
/-- The leavings of regions 0 … 8. -/
def oo9 : Outs (F := F) := fun J r c => if J = 24 then lv8 m c r else oo8 m J r c

/-- Every region's leavings. -/
abbrev outs : Outs (F := F) := oo9 m

/-! ## The proof data family and the thread state beside the buffers -/

/-- Every pipeline's proof data, each at the contents its region is entered with — a literal match on the pipeline. -/
def pdats : (p : Fin 9) → (c : Dev nD) → Dat τ (Elt F) Unit ℕ (UR sig nD τ) ℕ (cfgs p) c
  | ⟨0, _⟩ => fun c => dat0 (fun c b => V1 m c b) c
  | ⟨1, _⟩ => fun c => dat1 (fun c b => V5 m (oo1 m) c b) c
  | ⟨2, _⟩ => fun c => dat2 (fun c b => V7 m (oo2 m) c b) c
  | ⟨3, _⟩ => fun c => dat3 (fun c b => V9 m (oo3 m) c b) c
  | ⟨4, _⟩ => fun c => dat4 (fun c b => V13 m (oo4 m) c b) c
  | ⟨5, _⟩ => fun c => dat5 (fun c b => V15 m (oo5 m) c b) c
  | ⟨6, _⟩ => fun c => dat6 (fun c b => V17 m (oo6 m) c b) c
  | ⟨7, _⟩ => fun c => dat7 (fun c b => V21 m (oo7 m) c b) c
  | ⟨8, _⟩ => fun c => dat8 (fun c b => V23 m (oo8 m) c b) c

/-! ## The valuations read over two families of leavings that agree on the indices read so far

Each valuation is the previous one through a host stretch, or through a region's update at its output buffers with the
leavings read at that region's index. So two families that agree at the indices of regions 0 … K give the same
valuations up to the entry of region K+1. Stated stage by stage, each from the stage before. -/

section Agree
variable (o o' : Outs (F := F))

theorem ag2 (h2 : ∀ r c, o 2 r c = o' 2 r c) (c : Dev nD) : V2 m o c = V2 m o' c := by
  show Function.update (V1 m c) (Proc.devRef .tc main_v6) (o 2 main_v6 c) = Function.update (V1 m c) (Proc.devRef .tc main_v6) (o' 2 main_v6 c)
  rw [h2]
theorem ag5 (h2 : ∀ r c, o 2 r c = o' 2 r c) (c : Dev nD) : V5 m o c = V5 m o' c :=
  congrArg (fun W => StableHlo.after hostOps1_2 (StableHlo.after hostOps1_1 (StableHlo.after hostOps1 W))) (ag2 m o o' h2 c)
theorem ag6 (h2 : ∀ r c, o 2 r c = o' 2 r c) (h6 : ∀ r c, o 6 r c = o' 6 r c) (c : Dev nD) : V6 m o c = V6 m o' c := by
  show Function.update (Function.update (Function.update (V5 m o c) (Proc.devRef .tc main_v51_0) (o 6 main_v51_0 c))
      (Proc.devRef .tc main_v51_1) (o 6 main_v51_1 c)) (Proc.devRef .tc main_v51_2) (o 6 main_v51_2 c)
    = Function.update (Function.update (Function.update (V5 m o' c) (Proc.devRef .tc main_v51_0) (o' 6 main_v51_0 c))
      (Proc.devRef .tc main_v51_1) (o' 6 main_v51_1 c)) (Proc.devRef .tc main_v51_2) (o' 6 main_v51_2 c)
  rw [ag5 m o o' h2 c, h6, h6, h6]
theorem ag7 (h2 : ∀ r c, o 2 r c = o' 2 r c) (h6 : ∀ r c, o 6 r c = o' 6 r c) (c : Dev nD) : V7 m o c = V7 m o' c :=
  congrArg (StableHlo.after hostOps2) (ag6 m o o' h2 h6 c)
theorem ag8 (h2 : ∀ r c, o 2 r c = o' 2 r c) (h6 : ∀ r c, o 6 r c = o' 6 r c) (h8 : ∀ r c, o 8 r c = o' 8 r c) (c : Dev nD) :
    V8 m o c = V8 m o' c := by
  show Function.update (V7 m o c) (Proc.devRef .tc main_v77) (o 8 main_v77 c) = Function.update (V7 m o' c) (Proc.devRef .tc main_v77) (o' 8 main_v77 c)
  rw [ag7 m o o' h2 h6 c, h8]
theorem ag9 (h2 : ∀ r c, o 2 r c = o' 2 r c) (h6 : ∀ r c, o 6 r c = o' 6 r c) (h8 : ∀ r c, o 8 r c = o' 8 r c) (c : Dev nD) :
    V9 m o c = V9 m o' c :=
  congrArg (StableHlo.after hostOps3) (ag8 m o o' h2 h6 h8 c)

theorem ag10 (h2 : ∀ r c, o 2 r c = o' 2 r c) (h6 : ∀ r c, o 6 r c = o' 6 r c) (h8 : ∀ r c, o 8 r c = o' 8 r c) (h10 : ∀ r c, o 10 r c = o' 10 r c) (c : Dev nD) : V10 m o c = V10 m o' c := by
  show Function.update (V9 m o c) (Proc.devRef .tc main_v80) (o 10 main_v80 c) = Function.update (V9 m o' c) (Proc.devRef .tc main_v80) (o' 10 main_v80 c)
  rw [ag9 m o o' h2 h6 h8 c, h10]
theorem ag13 (h2 : ∀ r c, o 2 r c = o' 2 r c) (h6 : ∀ r c, o 6 r c = o' 6 r c) (h8 : ∀ r c, o 8 r c = o' 8 r c) (h10 : ∀ r c, o 10 r c = o' 10 r c) (c : Dev nD) : V13 m o c = V13 m o' c :=
  congrArg (fun W => StableHlo.after hostOps4_2 (StableHlo.after hostOps4_1 (StableHlo.after hostOps4 W))) (ag10 m o o' h2 h6 h8 h10 c)
theorem ag14 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (c : Dev nD) : V14 m o c = V14 m o' c := by
  show Function.update (Function.update (Function.update (V13 m o c) (Proc.devRef .tc main_v125_0) (o 14 main_v125_0 c))
      (Proc.devRef .tc main_v125_1) (o 14 main_v125_1 c)) (Proc.devRef .tc main_v125_2) (o 14 main_v125_2 c)
    = Function.update (Function.update (Function.update (V13 m o' c) (Proc.devRef .tc main_v125_0) (o' 14 main_v125_0 c))
      (Proc.devRef .tc main_v125_1) (o' 14 main_v125_1 c)) (Proc.devRef .tc main_v125_2) (o' 14 main_v125_2 c)
  rw [ag13 m o o' h2 h6 h8 h10 c, h14, h14, h14]
theorem ag15 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (c : Dev nD) : V15 m o c = V15 m o' c :=
  congrArg (StableHlo.after hostOps5) (ag14 m o o' h2 h6 h8 h10 h14 c)
theorem ag16 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (c : Dev nD) : V16 m o c = V16 m o' c := by
  show Function.update (V15 m o c) (Proc.devRef .tc main_v151) (o 16 main_v151 c) = Function.update (V15 m o' c) (Proc.devRef .tc main_v151) (o' 16 main_v151 c)
  rw [ag15 m o o' h2 h6 h8 h10 h14 c, h16]
theorem ag17 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (c : Dev nD) : V17 m o c = V17 m o' c :=
  congrArg (StableHlo.after hostOps6) (ag16 m o o' h2 h6 h8 h10 h14 h16 c)
theorem ag18 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (c : Dev nD) : V18 m o c = V18 m o' c := by
  show Function.update (V17 m o c) (Proc.devRef .tc main_v154) (o 18 main_v154 c) = Function.update (V17 m o' c) (Proc.devRef .tc main_v154) (o' 18 main_v154 c)
  rw [ag17 m o o' h2 h6 h8 h10 h14 h16 c, h18]
theorem ag21 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (c : Dev nD) : V21 m o c = V21 m o' c :=
  congrArg (fun W => StableHlo.after hostOps7_2 (StableHlo.after hostOps7_1 (StableHlo.after hostOps7 W))) (ag18 m o o' h2 h6 h8 h10 h14 h16 h18 c)
theorem ag22 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (h22 : ∀ r c, o 22 r c = o' 22 r c) (c : Dev nD) : V22 m o c = V22 m o' c := by
  show Function.update (Function.update (Function.update (V21 m o c) (Proc.devRef .tc main_v199_0) (o 22 main_v199_0 c))
      (Proc.devRef .tc main_v199_1) (o 22 main_v199_1 c)) (Proc.devRef .tc main_v199_2) (o 22 main_v199_2 c)
    = Function.update (Function.update (Function.update (V21 m o' c) (Proc.devRef .tc main_v199_0) (o' 22 main_v199_0 c))
      (Proc.devRef .tc main_v199_1) (o' 22 main_v199_1 c)) (Proc.devRef .tc main_v199_2) (o' 22 main_v199_2 c)
  rw [ag21 m o o' h2 h6 h8 h10 h14 h16 h18 c, h22, h22, h22]
theorem ag23 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (h22 : ∀ r c, o 22 r c = o' 22 r c) (c : Dev nD) : V23 m o c = V23 m o' c :=
  congrArg (StableHlo.after hostOps8) (ag22 m o o' h2 h6 h8 h10 h14 h16 h18 h22 c)

end Agree

/-! ## Every region is entered with contents that its own stage of the leavings determines -/

theorem ent1' (c : Dev nD) : V5 m (outs m) c = V5 m (oo1 m) c := ag5 m _ _ (fun _ _ => rfl) c
theorem ent2' (c : Dev nD) : V7 m (outs m) c = V7 m (oo2 m) c := ag7 m _ _ (fun _ _ => rfl) (fun _ _ => rfl) c
theorem ent3 (c : Dev nD) : V9 m (outs m) c = V9 m (oo3 m) c := ag9 m _ _ (fun _ _ => rfl) (fun _ _ => rfl) (fun _ _ => rfl) c
theorem ent4 (c : Dev nD) : V13 m (outs m) c = V13 m (oo4 m) c :=
  ag13 m _ _ (fun _ _ => rfl) (fun _ _ => rfl) (fun _ _ => rfl) (fun _ _ => rfl) c
theorem ent5 (c : Dev nD) : V15 m (outs m) c = V15 m (oo5 m) c :=
  ag15 m _ _ (fun _ _ => rfl) (fun _ _ => rfl) (fun _ _ => rfl) (fun _ _ => rfl) (fun _ _ => rfl) c
theorem ent6 (c : Dev nD) : V17 m (outs m) c = V17 m (oo6 m) c :=
  ag17 m _ _ (fun _ _ => rfl) (fun _ _ => rfl) (fun _ _ => rfl) (fun _ _ => rfl) (fun _ _ => rfl) (fun _ _ => rfl) c
theorem ent7 (c : Dev nD) : V21 m (outs m) c = V21 m (oo7 m) c :=
  ag21 m _ _ (fun _ _ => rfl) (fun _ _ => rfl) (fun _ _ => rfl) (fun _ _ => rfl) (fun _ _ => rfl) (fun _ _ => rfl) (fun _ _ => rfl) c
theorem ent8 (c : Dev nD) : V23 m (outs m) c = V23 m (oo8 m) c :=
  ag23 m _ _ (fun _ _ => rfl) (fun _ _ => rfl) (fun _ _ => rfl) (fun _ _ => rfl) (fun _ _ => rfl) (fun _ _ => rfl) (fun _ _ => rfl) (fun _ _ => rfl) c

/-! ## Region 0 -/

/-- At region 0's exit each of its arrays holds what the pipeline leaves: the output the fold of its write-backs,
    an input what it held at entry. -/
theorem hF0 (o : Outs (F := F)) (ho : ∀ r c, o 2 r c = lv0 m c r) (c : Dev nD) (w : Fin cfg0.W) :
    (dat0 (F := F) (fun c b => V1 m c b) c).arrAt w cfg0.N = V2 m o c (Pipeline.arrRef spec0 w) := by
  match w with
  | ⟨0, _⟩ => exact ((dat0 (fun c b => V1 m c b) c).arrAt_in 0 rfl _).trans ((A_eq0 _ c 0).trans (V2_of m o c _ (by decide)).symm)
  | ⟨1, _⟩ => exact ((dat0 (fun c b => V1 m c b) c).arrAt_in 1 rfl _).trans ((A_eq0 _ c 1).trans (V2_of m o c _ (by decide)).symm)
  | ⟨2, _⟩ =>
    have hkey : V2 m o c main_v6 = o 2 main_v6 c := by
      show Function.update (V1 m c) (Proc.devRef .tc main_v6) (o 2 main_v6 c) (Proc.devRef .tc main_v6) = _
      exact Function.update_self _ _ _
    refine Eq.trans ?_ hkey.symm
    rw [ho]
    unfold lv0
    show (dat0 (fun c b => V1 m c b) c).arrAt 2 cfg0.N
      = Pipeline.withArrays spec0 c (V1 m c) (fun w => (dat0 (fun c b => V1 m c b) c).arrAt w cfg0.N)
          (Proc.devRef .tc (Pipeline.arrRef spec0 2))
    exact (Pipeline.withArrays_arr spec0 launch0.win.arr_inj c (V1 m c)
      (fun w => (dat0 (fun c b => V1 m c b) c).arrAt w cfg0.N) 2).symm
  | ⟨n + 3, h⟩ => exact absurd h (by show ¬ n + 3 < 3; omega)

/-- … and every other buffer what it held at entry. -/
theorem hrest0 (o : Outs (F := F)) (c : Dev nD) :
    ∀ b : Ref sig .tc, b ∉ Finset.univ.image (Pipeline.arrRef spec0) → V2 m o c b = V1 m c b :=
  fun b hb => V2_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 0 as a segment: entered with every unscoped buffer at `V1`, left with them at `V2` read over the leavings.
    At entry its three arrays are split out of the unscoped buffers, the generator register goes into the kernel's
    invariant, and everything else bypasses the region; at exit the arrays come back at what the pipeline leaves. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N)
      (hF0 m (outs m) (fun _ _ => rfl) c) (hrest0 m (outs m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Input window 0: what it held at entry, which no item of the region writes. -/
theorem hF1_0 (o : Outs (F := F)) (he : ∀ c, V5 m o c = V5 m (oo1 m) c) (c : Dev nD) :
    (dat1 (F := F) (fun c b => V5 m (oo1 m) c b) c).arrAt 0 cfg1.N = V6 m o c (Pipeline.arrRef spec1 0) :=
  ((dat1 (F := F) (fun c b => V5 m (oo1 m) c b) c).arrAt_in 0 rfl _).trans ((A_eq1 _ c 0).trans
    ((V6_of m o c (Pipeline.arrRef spec1 0) (by decide)).trans (congrFun (he c) _)).symm)

/-- Input window 1: what it held at entry, which no item of the region writes. -/
theorem hF1_1 (o : Outs (F := F)) (he : ∀ c, V5 m o c = V5 m (oo1 m) c) (c : Dev nD) :
    (dat1 (F := F) (fun c b => V5 m (oo1 m) c b) c).arrAt 1 cfg1.N = V6 m o c (Pipeline.arrRef spec1 1) :=
  ((dat1 (F := F) (fun c b => V5 m (oo1 m) c b) c).arrAt_in 1 rfl _).trans ((A_eq1 _ c 1).trans
    ((V6_of m o c (Pipeline.arrRef spec1 1) (by decide)).trans (congrFun (he c) _)).symm)

/-- Output window 2: the fold of its write-backs, which is what the leavings hold at `main_v51_0`. -/
theorem hF1_2 (o : Outs (F := F)) (ho : ∀ r c, o 6 r c = lv1 m c r) (c : Dev nD) :
    (dat1 (F := F) (fun c b => V5 m (oo1 m) c b) c).arrAt 2 cfg1.N = V6 m o c (Pipeline.arrRef spec1 2) := by
  have hkey : V6 m o c main_v51_0 = o 6 main_v51_0 c :=
    upd3_fst (V5 m o c) _ _ _ _ _ _ (StableHlo.devRef_ne_of_ne (by decide)) (StableHlo.devRef_ne_of_ne (by decide))
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 2).symm

/-- Output window 3: the fold of its write-backs, which is what the leavings hold at `main_v51_1`. -/
theorem hF1_3 (o : Outs (F := F)) (ho : ∀ r c, o 6 r c = lv1 m c r) (c : Dev nD) :
    (dat1 (F := F) (fun c b => V5 m (oo1 m) c b) c).arrAt 3 cfg1.N = V6 m o c (Pipeline.arrRef spec1 3) := by
  have hkey : V6 m o c main_v51_1 = o 6 main_v51_1 c :=
    upd3_snd (V5 m o c) _ _ _ _ _ _ (StableHlo.devRef_ne_of_ne (by decide))
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 3).symm

/-- Output window 4: the fold of its write-backs, which is what the leavings hold at `main_v51_2`. -/
theorem hF1_4 (o : Outs (F := F)) (ho : ∀ r c, o 6 r c = lv1 m c r) (c : Dev nD) :
    (dat1 (F := F) (fun c b => V5 m (oo1 m) c b) c).arrAt 4 cfg1.N = V6 m o c (Pipeline.arrRef spec1 4) := by
  have hkey : V6 m o c main_v51_2 = o 6 main_v51_2 c :=
    upd3_thd (V5 m o c) _ _ _ _ _ _
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 4).symm

/-- At region 1's exit each of its arrays holds what the pipeline leaves. -/
theorem hF1 (o : Outs (F := F)) (ho : ∀ r c, o 6 r c = lv1 m c r) (he : ∀ c, V5 m o c = V5 m (oo1 m) c) (c : Dev nD) (w : Fin cfg1.W) :
    (dat1 (F := F) (fun c b => V5 m (oo1 m) c b) c).arrAt w cfg1.N = V6 m o c (Pipeline.arrRef spec1 w) :=
  match w with
  | ⟨0, _⟩ => hF1_0 m o he c
  | ⟨1, _⟩ => hF1_1 m o he c
  | ⟨2, _⟩ => hF1_2 m o ho c
  | ⟨3, _⟩ => hF1_3 m o ho c
  | ⟨4, _⟩ => hF1_4 m o ho c
  | ⟨n + 5, h⟩ => absurd h (by show ¬ n + 5 < 5; omega)

/-- … and every other buffer what it held at entry. -/
theorem hrest1 (o : Outs (F := F)) (c : Dev nD) :
    ∀ b : Ref sig .tc, b ∉ Finset.univ.image (Pipeline.arrRef spec1) → V6 m o c b = V5 m o c b :=
  fun b hb => V6_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 1 as a segment: entered with every unscoped buffer at `V5`, left with them at `V6`, both read over the
    leavings. Its five arrays are split out of the unscoped buffers at entry and come back at what the pipeline
    leaves; the generator register goes through the kernel's invariant. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V5 m (oo1 m) c b) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (oo1 m) c b)
  hentry c := by
    rw [Pipeline.ownSems0_none, ent1' m c]
    have hsplit := Pipeline.arrays_of_unscopedBufs (p := 1) (pcfgs (F := F)) adm (pdats m) launch1.win launch1.arr_whole c
      ((pdats m 1 c).share_full fun _ => rfl) (fun b => V5 m (oo1 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (oo1 m) c b) (fun b => V6 m (outs m) c b) ((pdats m 1 c).arrAt · cfg1.N)
      (hF1 m (outs m) (fun _ _ => rfl) (ent1' m) c)
      (fun b hb => (hrest1 m (outs m) c b hb).trans (congrFun (ent1' m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Input windows: what they held at entry, which no item of the region writes. -/
theorem hF2_0 (o : Outs (F := F)) (he : ∀ c, V7 m o c = V7 m (oo2 m) c) (c : Dev nD) :
    (dat2 (F := F) (fun c b => V7 m (oo2 m) c b) c).arrAt 0 cfg2.N = V8 m o c (Pipeline.arrRef spec2 0) :=
  ((dat2 (F := F) (fun c b => V7 m (oo2 m) c b) c).arrAt_in 0 rfl _).trans ((A_eq2 _ c 0).trans
    ((V8_of m o c (Pipeline.arrRef spec2 0) (by decide)).trans (congrFun (he c) _)).symm)
theorem hF2_1 (o : Outs (F := F)) (he : ∀ c, V7 m o c = V7 m (oo2 m) c) (c : Dev nD) :
    (dat2 (F := F) (fun c b => V7 m (oo2 m) c b) c).arrAt 1 cfg2.N = V8 m o c (Pipeline.arrRef spec2 1) :=
  ((dat2 (F := F) (fun c b => V7 m (oo2 m) c b) c).arrAt_in 1 rfl _).trans ((A_eq2 _ c 1).trans
    ((V8_of m o c (Pipeline.arrRef spec2 1) (by decide)).trans (congrFun (he c) _)).symm)
theorem hF2_2 (o : Outs (F := F)) (he : ∀ c, V7 m o c = V7 m (oo2 m) c) (c : Dev nD) :
    (dat2 (F := F) (fun c b => V7 m (oo2 m) c b) c).arrAt 2 cfg2.N = V8 m o c (Pipeline.arrRef spec2 2) :=
  ((dat2 (F := F) (fun c b => V7 m (oo2 m) c b) c).arrAt_in 2 rfl _).trans ((A_eq2 _ c 2).trans
    ((V8_of m o c (Pipeline.arrRef spec2 2) (by decide)).trans (congrFun (he c) _)).symm)

/-- The output window: the fold of its write-backs, which is what the leavings hold at `main_v77`. -/
theorem hF2_3 (o : Outs (F := F)) (ho : ∀ r c, o 8 r c = lv2 m c r) (c : Dev nD) :
    (dat2 (F := F) (fun c b => V7 m (oo2 m) c b) c).arrAt 3 cfg2.N = V8 m o c (Pipeline.arrRef spec2 3) := by
  have hkey : V8 m o c main_v77 = o 8 main_v77 c := Function.update_self _ _ _
  refine Eq.trans ?_ hkey.symm
  rw [ho]; unfold lv2
  exact (Pipeline.withArrays_arr spec2 launch2.win.arr_inj c (V7 m (oo2 m) c)
    (fun w => (dat2 (fun c b => V7 m (oo2 m) c b) c).arrAt w cfg2.N) 3).symm

/-- At region 2's exit each of its arrays holds what the pipeline leaves. -/
theorem hF2 (o : Outs (F := F)) (ho : ∀ r c, o 8 r c = lv2 m c r) (he : ∀ c, V7 m o c = V7 m (oo2 m) c) (c : Dev nD) (w : Fin cfg2.W) :
    (dat2 (F := F) (fun c b => V7 m (oo2 m) c b) c).arrAt w cfg2.N = V8 m o c (Pipeline.arrRef spec2 w) :=
  match w with
  | ⟨0, _⟩ => hF2_0 m o he c
  | ⟨1, _⟩ => hF2_1 m o he c
  | ⟨2, _⟩ => hF2_2 m o he c
  | ⟨3, _⟩ => hF2_3 m o ho c
  | ⟨n + 4, h⟩ => absurd h (by show ¬ n + 4 < 4; omega)

/-- … and every other buffer what it held at entry. -/
theorem hrest2 (o : Outs (F := F)) (c : Dev nD) :
    ∀ b : Ref sig .tc, b ∉ Finset.univ.image (Pipeline.arrRef spec2) → V8 m o c b = V7 m o c b :=
  fun b hb => V8_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 2 as a segment: entered with every unscoped buffer at `V7`, left with them at `V8`, both read over the
    leavings. Its four arrays are split out of the unscoped buffers at entry and come back at what the pipeline
    leaves; the generator register goes through the kernel's invariant. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V7 m (oo2 m) c b) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (oo2 m) c b)
  hentry c := by
    rw [Pipeline.ownSems0_none, ent2' m c]
    have hsplit := Pipeline.arrays_of_unscopedBufs (p := 2) (pcfgs (F := F)) adm (pdats m) launch2.win launch2.arr_whole c
      ((pdats m 2 c).share_full fun _ => rfl) (fun b => V7 m (oo2 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (oo2 m) c b) (fun b => V8 m (outs m) c b) ((pdats m 2 c).arrAt · cfg2.N)
      (hF2 m (outs m) (fun _ _ => rfl) (ent2' m) c)
      (fun b hb => (hrest2 m (outs m) c b hb).trans (congrFun (ent2' m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Input windows: what they held at entry, which no item of the region writes. -/
theorem hF3_0 (o : Outs (F := F)) (he : ∀ c, V9 m o c = V9 m (oo3 m) c) (c : Dev nD) :
    (dat3 (F := F) (fun c b => V9 m (oo3 m) c b) c).arrAt 0 cfg3.N = V10 m o c (Pipeline.arrRef spec3 0) :=
  ((dat3 (F := F) (fun c b => V9 m (oo3 m) c b) c).arrAt_in 0 rfl _).trans ((A_eq3 _ c 0).trans
    ((V10_of m o c (Pipeline.arrRef spec3 0) (by decide)).trans (congrFun (he c) _)).symm)
theorem hF3_1 (o : Outs (F := F)) (he : ∀ c, V9 m o c = V9 m (oo3 m) c) (c : Dev nD) :
    (dat3 (F := F) (fun c b => V9 m (oo3 m) c b) c).arrAt 1 cfg3.N = V10 m o c (Pipeline.arrRef spec3 1) :=
  ((dat3 (F := F) (fun c b => V9 m (oo3 m) c b) c).arrAt_in 1 rfl _).trans ((A_eq3 _ c 1).trans
    ((V10_of m o c (Pipeline.arrRef spec3 1) (by decide)).trans (congrFun (he c) _)).symm)

/-- The output window: the fold of its write-backs, which is what the leavings hold at `main_v80`. -/
theorem hF3_2 (o : Outs (F := F)) (ho : ∀ r c, o 10 r c = lv3 m c r) (c : Dev nD) :
    (dat3 (F := F) (fun c b => V9 m (oo3 m) c b) c).arrAt 2 cfg3.N = V10 m o c (Pipeline.arrRef spec3 2) := by
  have hkey : V10 m o c main_v80 = o 10 main_v80 c := Function.update_self _ _ _
  refine Eq.trans ?_ hkey.symm
  rw [ho]; unfold lv3
  exact (Pipeline.withArrays_arr spec3 launch3.win.arr_inj c (V9 m (oo3 m) c)
    (fun w => (dat3 (fun c b => V9 m (oo3 m) c b) c).arrAt w cfg3.N) 2).symm

/-- At region 3's exit each of its arrays holds what the pipeline leaves. -/
theorem hF3 (o : Outs (F := F)) (ho : ∀ r c, o 10 r c = lv3 m c r) (he : ∀ c, V9 m o c = V9 m (oo3 m) c) (c : Dev nD) (w : Fin cfg3.W) :
    (dat3 (F := F) (fun c b => V9 m (oo3 m) c b) c).arrAt w cfg3.N = V10 m o c (Pipeline.arrRef spec3 w) :=
  match w with
  | ⟨0, _⟩ => hF3_0 m o he c
  | ⟨1, _⟩ => hF3_1 m o he c
  | ⟨2, _⟩ => hF3_2 m o ho c
  | ⟨n + 3, h⟩ => absurd h (by show ¬ n + 3 < 3; omega)

/-- … and every other buffer what it held at entry. -/
theorem hrest3 (o : Outs (F := F)) (c : Dev nD) :
    ∀ b : Ref sig .tc, b ∉ Finset.univ.image (Pipeline.arrRef spec3) → V10 m o c b = V9 m o c b :=
  fun b hb => V10_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 3 as a segment: entered with every unscoped buffer at `V9`, left with them at `V10`, both read over the
    leavings. Its three arrays are split out of the unscoped buffers at entry and come back at what the pipeline
    leaves; the generator register goes through the kernel's invariant. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V9 m (oo3 m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (oo3 m) c b)
  hentry c := by
    rw [Pipeline.ownSems0_none, ent3 m c]
    have hsplit := Pipeline.arrays_of_unscopedBufs (p := 3) (pcfgs (F := F)) adm (pdats m) launch3.win launch3.arr_whole c
      ((pdats m 3 c).share_full fun _ => rfl) (fun b => V9 m (oo3 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (oo3 m) c b) (fun b => V10 m (outs m) c b) ((pdats m 3 c).arrAt · cfg3.N)
      (hF3 m (outs m) (fun _ _ => rfl) (ent3 m) c)
      (fun b hb => (hrest3 m (outs m) c b hb).trans (congrFun (ent3 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- Input window 0: what it held at entry, which no item of the region writes. -/
theorem hF4_0 (o : Outs (F := F)) (he : ∀ c, V13 m o c = V13 m (oo4 m) c) (c : Dev nD) :
    (dat4 (F := F) (fun c b => V13 m (oo4 m) c b) c).arrAt 0 cfg4.N = V14 m o c (Pipeline.arrRef spec4 0) :=
  ((dat4 (F := F) (fun c b => V13 m (oo4 m) c b) c).arrAt_in 0 rfl _).trans ((A_eq4 _ c 0).trans
    ((V14_of m o c (Pipeline.arrRef spec4 0) (by decide)).trans (congrFun (he c) _)).symm)

/-- Input window 1: what it held at entry, which no item of the region writes. -/
theorem hF4_1 (o : Outs (F := F)) (he : ∀ c, V13 m o c = V13 m (oo4 m) c) (c : Dev nD) :
    (dat4 (F := F) (fun c b => V13 m (oo4 m) c b) c).arrAt 1 cfg4.N = V14 m o c (Pipeline.arrRef spec4 1) :=
  ((dat4 (F := F) (fun c b => V13 m (oo4 m) c b) c).arrAt_in 1 rfl _).trans ((A_eq4 _ c 1).trans
    ((V14_of m o c (Pipeline.arrRef spec4 1) (by decide)).trans (congrFun (he c) _)).symm)

/-- Output window 2: the fold of its write-backs, which is what the leavings hold at `main_v125_0`. -/
theorem hF4_2 (o : Outs (F := F)) (ho : ∀ r c, o 14 r c = lv4 m c r) (c : Dev nD) :
    (dat4 (F := F) (fun c b => V13 m (oo4 m) c b) c).arrAt 2 cfg4.N = V14 m o c (Pipeline.arrRef spec4 2) := by
  have hkey : V14 m o c main_v125_0 = o 14 main_v125_0 c :=
    upd3_fst (V13 m o c) _ _ _ _ _ _ (StableHlo.devRef_ne_of_ne (by decide)) (StableHlo.devRef_ne_of_ne (by decide))
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 2).symm

/-- Output window 3: the fold of its write-backs, which is what the leavings hold at `main_v125_1`. -/
theorem hF4_3 (o : Outs (F := F)) (ho : ∀ r c, o 14 r c = lv4 m c r) (c : Dev nD) :
    (dat4 (F := F) (fun c b => V13 m (oo4 m) c b) c).arrAt 3 cfg4.N = V14 m o c (Pipeline.arrRef spec4 3) := by
  have hkey : V14 m o c main_v125_1 = o 14 main_v125_1 c :=
    upd3_snd (V13 m o c) _ _ _ _ _ _ (StableHlo.devRef_ne_of_ne (by decide))
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 3).symm

/-- Output window 4: the fold of its write-backs, which is what the leavings hold at `main_v125_2`. -/
theorem hF4_4 (o : Outs (F := F)) (ho : ∀ r c, o 14 r c = lv4 m c r) (c : Dev nD) :
    (dat4 (F := F) (fun c b => V13 m (oo4 m) c b) c).arrAt 4 cfg4.N = V14 m o c (Pipeline.arrRef spec4 4) := by
  have hkey : V14 m o c main_v125_2 = o 14 main_v125_2 c :=
    upd3_thd (V13 m o c) _ _ _ _ _ _
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 4).symm

/-- At region 4's exit each of its arrays holds what the pipeline leaves. -/
theorem hF4 (o : Outs (F := F)) (ho : ∀ r c, o 14 r c = lv4 m c r) (he : ∀ c, V13 m o c = V13 m (oo4 m) c) (c : Dev nD) (w : Fin cfg4.W) :
    (dat4 (F := F) (fun c b => V13 m (oo4 m) c b) c).arrAt w cfg4.N = V14 m o c (Pipeline.arrRef spec4 w) :=
  match w with
  | ⟨0, _⟩ => hF4_0 m o he c
  | ⟨1, _⟩ => hF4_1 m o he c
  | ⟨2, _⟩ => hF4_2 m o ho c
  | ⟨3, _⟩ => hF4_3 m o ho c
  | ⟨4, _⟩ => hF4_4 m o ho c
  | ⟨n + 5, h⟩ => absurd h (by show ¬ n + 5 < 5; omega)

/-- … and every other buffer what it held at entry. -/
theorem hrest4 (o : Outs (F := F)) (c : Dev nD) :
    ∀ b : Ref sig .tc, b ∉ Finset.univ.image (Pipeline.arrRef spec4) → V14 m o c b = V13 m o c b :=
  fun b hb => V14_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 4 as a segment: entered with every unscoped buffer at `V13`, left with them at `V14`, both read over the
    leavings. Its five arrays are split out of the unscoped buffers at entry and come back at what the pipeline
    leaves; the generator register goes through the kernel's invariant. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V13 m (oo4 m) c b) c).loose
  hwaits := Pipeline.hwaits_of_owed_zero _ _ _ _ L lv 4 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V13 m (oo4 m) c b)
  hentry c := by
    rw [Pipeline.ownSems0_none, ent4 m c]
    have hsplit := Pipeline.arrays_of_unscopedBufs (p := 4) (pcfgs (F := F)) adm (pdats m) launch4.win launch4.arr_whole c
      ((pdats m 4 c).share_full fun _ => rfl) (fun b => V13 m (oo4 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V13 m (oo4 m) c b) (fun b => V14 m (outs m) c b) ((pdats m 4 c).arrAt · cfg4.N)
      (hF4 m (outs m) (fun _ _ => rfl) (ent4 m) c)
      (fun b hb => (hrest4 m (outs m) c b hb).trans (congrFun (ent4 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- Input windows: what they held at entry, which no item of the region writes. -/
theorem hF5_0 (o : Outs (F := F)) (he : ∀ c, V15 m o c = V15 m (oo5 m) c) (c : Dev nD) :
    (dat5 (F := F) (fun c b => V15 m (oo5 m) c b) c).arrAt 0 cfg5.N = V16 m o c (Pipeline.arrRef spec5 0) :=
  ((dat5 (F := F) (fun c b => V15 m (oo5 m) c b) c).arrAt_in 0 rfl _).trans ((A_eq5 _ c 0).trans
    ((V16_of m o c (Pipeline.arrRef spec5 0) (by decide)).trans (congrFun (he c) _)).symm)
theorem hF5_1 (o : Outs (F := F)) (he : ∀ c, V15 m o c = V15 m (oo5 m) c) (c : Dev nD) :
    (dat5 (F := F) (fun c b => V15 m (oo5 m) c b) c).arrAt 1 cfg5.N = V16 m o c (Pipeline.arrRef spec5 1) :=
  ((dat5 (F := F) (fun c b => V15 m (oo5 m) c b) c).arrAt_in 1 rfl _).trans ((A_eq5 _ c 1).trans
    ((V16_of m o c (Pipeline.arrRef spec5 1) (by decide)).trans (congrFun (he c) _)).symm)
theorem hF5_2 (o : Outs (F := F)) (he : ∀ c, V15 m o c = V15 m (oo5 m) c) (c : Dev nD) :
    (dat5 (F := F) (fun c b => V15 m (oo5 m) c b) c).arrAt 2 cfg5.N = V16 m o c (Pipeline.arrRef spec5 2) :=
  ((dat5 (F := F) (fun c b => V15 m (oo5 m) c b) c).arrAt_in 2 rfl _).trans ((A_eq5 _ c 2).trans
    ((V16_of m o c (Pipeline.arrRef spec5 2) (by decide)).trans (congrFun (he c) _)).symm)

/-- The output window: the fold of its write-backs, which is what the leavings hold at `main_v151`. -/
theorem hF5_3 (o : Outs (F := F)) (ho : ∀ r c, o 16 r c = lv5 m c r) (c : Dev nD) :
    (dat5 (F := F) (fun c b => V15 m (oo5 m) c b) c).arrAt 3 cfg5.N = V16 m o c (Pipeline.arrRef spec5 3) := by
  have hkey : V16 m o c main_v151 = o 16 main_v151 c := Function.update_self _ _ _
  refine Eq.trans ?_ hkey.symm
  rw [ho]; unfold lv5
  exact (Pipeline.withArrays_arr spec5 launch5.win.arr_inj c (V15 m (oo5 m) c)
    (fun w => (dat5 (fun c b => V15 m (oo5 m) c b) c).arrAt w cfg5.N) 3).symm

/-- At region 5's exit each of its arrays holds what the pipeline leaves. -/
theorem hF5 (o : Outs (F := F)) (ho : ∀ r c, o 16 r c = lv5 m c r) (he : ∀ c, V15 m o c = V15 m (oo5 m) c) (c : Dev nD) (w : Fin cfg5.W) :
    (dat5 (F := F) (fun c b => V15 m (oo5 m) c b) c).arrAt w cfg5.N = V16 m o c (Pipeline.arrRef spec5 w) :=
  match w with
  | ⟨0, _⟩ => hF5_0 m o he c
  | ⟨1, _⟩ => hF5_1 m o he c
  | ⟨2, _⟩ => hF5_2 m o he c
  | ⟨3, _⟩ => hF5_3 m o ho c
  | ⟨n + 4, h⟩ => absurd h (by show ¬ n + 4 < 4; omega)

/-- … and every other buffer what it held at entry. -/
theorem hrest5 (o : Outs (F := F)) (c : Dev nD) :
    ∀ b : Ref sig .tc, b ∉ Finset.univ.image (Pipeline.arrRef spec5) → V16 m o c b = V15 m o c b :=
  fun b hb => V16_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 5 as a segment: entered with every unscoped buffer at `V15`, left with them at `V16`, both read over the
    leavings. Its four arrays are split out of the unscoped buffers at entry and come back at what the pipeline
    leaves; the generator register goes through the kernel's invariant. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V15 m (oo5 m) c b) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V15 m (oo5 m) c b)
  hentry c := by
    rw [Pipeline.ownSems0_none, ent5 m c]
    have hsplit := Pipeline.arrays_of_unscopedBufs (p := 5) (pcfgs (F := F)) adm (pdats m) launch5.win launch5.arr_whole c
      ((pdats m 5 c).share_full fun _ => rfl) (fun b => V15 m (oo5 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V15 m (oo5 m) c b) (fun b => V16 m (outs m) c b) ((pdats m 5 c).arrAt · cfg5.N)
      (hF5 m (outs m) (fun _ _ => rfl) (ent5 m) c)
      (fun b hb => (hrest5 m (outs m) c b hb).trans (congrFun (ent5 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

/-- Input windows: what they held at entry, which no item of the region writes. -/
theorem hF6_0 (o : Outs (F := F)) (he : ∀ c, V17 m o c = V17 m (oo6 m) c) (c : Dev nD) :
    (dat6 (F := F) (fun c b => V17 m (oo6 m) c b) c).arrAt 0 cfg6.N = V18 m o c (Pipeline.arrRef spec6 0) :=
  ((dat6 (F := F) (fun c b => V17 m (oo6 m) c b) c).arrAt_in 0 rfl _).trans ((A_eq6 _ c 0).trans
    ((V18_of m o c (Pipeline.arrRef spec6 0) (by decide)).trans (congrFun (he c) _)).symm)
theorem hF6_1 (o : Outs (F := F)) (he : ∀ c, V17 m o c = V17 m (oo6 m) c) (c : Dev nD) :
    (dat6 (F := F) (fun c b => V17 m (oo6 m) c b) c).arrAt 1 cfg6.N = V18 m o c (Pipeline.arrRef spec6 1) :=
  ((dat6 (F := F) (fun c b => V17 m (oo6 m) c b) c).arrAt_in 1 rfl _).trans ((A_eq6 _ c 1).trans
    ((V18_of m o c (Pipeline.arrRef spec6 1) (by decide)).trans (congrFun (he c) _)).symm)

/-- The output window: the fold of its write-backs, which is what the leavings hold at `main_v154`. -/
theorem hF6_2 (o : Outs (F := F)) (ho : ∀ r c, o 18 r c = lv6 m c r) (c : Dev nD) :
    (dat6 (F := F) (fun c b => V17 m (oo6 m) c b) c).arrAt 2 cfg6.N = V18 m o c (Pipeline.arrRef spec6 2) := by
  have hkey : V18 m o c main_v154 = o 18 main_v154 c := Function.update_self _ _ _
  refine Eq.trans ?_ hkey.symm
  rw [ho]; unfold lv6
  exact (Pipeline.withArrays_arr spec6 launch6.win.arr_inj c (V17 m (oo6 m) c)
    (fun w => (dat6 (fun c b => V17 m (oo6 m) c b) c).arrAt w cfg6.N) 2).symm

/-- At region 6's exit each of its arrays holds what the pipeline leaves. -/
theorem hF6 (o : Outs (F := F)) (ho : ∀ r c, o 18 r c = lv6 m c r) (he : ∀ c, V17 m o c = V17 m (oo6 m) c) (c : Dev nD) (w : Fin cfg6.W) :
    (dat6 (F := F) (fun c b => V17 m (oo6 m) c b) c).arrAt w cfg6.N = V18 m o c (Pipeline.arrRef spec6 w) :=
  match w with
  | ⟨0, _⟩ => hF6_0 m o he c
  | ⟨1, _⟩ => hF6_1 m o he c
  | ⟨2, _⟩ => hF6_2 m o ho c
  | ⟨n + 3, h⟩ => absurd h (by show ¬ n + 3 < 3; omega)

/-- … and every other buffer what it held at entry. -/
theorem hrest6 (o : Outs (F := F)) (c : Dev nD) :
    ∀ b : Ref sig .tc, b ∉ Finset.univ.image (Pipeline.arrRef spec6) → V18 m o c b = V17 m o c b :=
  fun b hb => V18_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 6 as a segment: entered with every unscoped buffer at `V17`, left with them at `V18`, both read over the
    leavings. Its three arrays are split out of the unscoped buffers at entry and come back at what the pipeline
    leaves; the generator register goes through the kernel's invariant. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => V17 m (oo6 m) c b) c).loose
  hwaits := Pipeline.hwaits_of_owed_zero _ _ _ _ L lv 6 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => V17 m (oo6 m) c b)
  hentry c := by
    rw [Pipeline.ownSems0_none, ent6 m c]
    have hsplit := Pipeline.arrays_of_unscopedBufs (p := 6) (pcfgs (F := F)) adm (pdats m) launch6.win launch6.arr_whole c
      ((pdats m 6 c).share_full fun _ => rfl) (fun b => V17 m (oo6 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => V17 m (oo6 m) c b) (fun b => V18 m (outs m) c b) ((pdats m 6 c).arrAt · cfg6.N)
      (hF6 m (outs m) (fun _ _ => rfl) (ent6 m) c)
      (fun b hb => (hrest6 m (outs m) c b hb).trans (congrFun (ent6 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

/-- Input window 0: what it held at entry, which no item of the region writes. -/
theorem hF7_0 (o : Outs (F := F)) (he : ∀ c, V21 m o c = V21 m (oo7 m) c) (c : Dev nD) :
    (dat7 (F := F) (fun c b => V21 m (oo7 m) c b) c).arrAt 0 cfg7.N = V22 m o c (Pipeline.arrRef spec7 0) :=
  ((dat7 (F := F) (fun c b => V21 m (oo7 m) c b) c).arrAt_in 0 rfl _).trans ((A_eq7 _ c 0).trans
    ((V22_of m o c (Pipeline.arrRef spec7 0) (by decide)).trans (congrFun (he c) _)).symm)

/-- Input window 1: what it held at entry, which no item of the region writes. -/
theorem hF7_1 (o : Outs (F := F)) (he : ∀ c, V21 m o c = V21 m (oo7 m) c) (c : Dev nD) :
    (dat7 (F := F) (fun c b => V21 m (oo7 m) c b) c).arrAt 1 cfg7.N = V22 m o c (Pipeline.arrRef spec7 1) :=
  ((dat7 (F := F) (fun c b => V21 m (oo7 m) c b) c).arrAt_in 1 rfl _).trans ((A_eq7 _ c 1).trans
    ((V22_of m o c (Pipeline.arrRef spec7 1) (by decide)).trans (congrFun (he c) _)).symm)

/-- Output window 2: the fold of its write-backs, which is what the leavings hold at `main_v199_0`. -/
theorem hF7_2 (o : Outs (F := F)) (ho : ∀ r c, o 22 r c = lv7 m c r) (c : Dev nD) :
    (dat7 (F := F) (fun c b => V21 m (oo7 m) c b) c).arrAt 2 cfg7.N = V22 m o c (Pipeline.arrRef spec7 2) := by
  have hkey : V22 m o c main_v199_0 = o 22 main_v199_0 c :=
    upd3_fst (V21 m o c) _ _ _ _ _ _ (StableHlo.devRef_ne_of_ne (by decide)) (StableHlo.devRef_ne_of_ne (by decide))
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 2).symm

/-- Output window 3: the fold of its write-backs, which is what the leavings hold at `main_v199_1`. -/
theorem hF7_3 (o : Outs (F := F)) (ho : ∀ r c, o 22 r c = lv7 m c r) (c : Dev nD) :
    (dat7 (F := F) (fun c b => V21 m (oo7 m) c b) c).arrAt 3 cfg7.N = V22 m o c (Pipeline.arrRef spec7 3) := by
  have hkey : V22 m o c main_v199_1 = o 22 main_v199_1 c :=
    upd3_snd (V21 m o c) _ _ _ _ _ _ (StableHlo.devRef_ne_of_ne (by decide))
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 3).symm

/-- Output window 4: the fold of its write-backs, which is what the leavings hold at `main_v199_2`. -/
theorem hF7_4 (o : Outs (F := F)) (ho : ∀ r c, o 22 r c = lv7 m c r) (c : Dev nD) :
    (dat7 (F := F) (fun c b => V21 m (oo7 m) c b) c).arrAt 4 cfg7.N = V22 m o c (Pipeline.arrRef spec7 4) := by
  have hkey : V22 m o c main_v199_2 = o 22 main_v199_2 c :=
    upd3_thd (V21 m o c) _ _ _ _ _ _
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 4).symm

/-- At region 7's exit each of its arrays holds what the pipeline leaves. -/
theorem hF7 (o : Outs (F := F)) (ho : ∀ r c, o 22 r c = lv7 m c r) (he : ∀ c, V21 m o c = V21 m (oo7 m) c) (c : Dev nD) (w : Fin cfg7.W) :
    (dat7 (F := F) (fun c b => V21 m (oo7 m) c b) c).arrAt w cfg7.N = V22 m o c (Pipeline.arrRef spec7 w) :=
  match w with
  | ⟨0, _⟩ => hF7_0 m o he c
  | ⟨1, _⟩ => hF7_1 m o he c
  | ⟨2, _⟩ => hF7_2 m o ho c
  | ⟨3, _⟩ => hF7_3 m o ho c
  | ⟨4, _⟩ => hF7_4 m o ho c
  | ⟨n + 5, h⟩ => absurd h (by show ¬ n + 5 < 5; omega)

/-- … and every other buffer what it held at entry. -/
theorem hrest7 (o : Outs (F := F)) (c : Dev nD) :
    ∀ b : Ref sig .tc, b ∉ Finset.univ.image (Pipeline.arrRef spec7) → V22 m o c b = V21 m o c b :=
  fun b hb => V22_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 7 as a segment: entered with every unscoped buffer at `V21`, left with them at `V22`, both read over the
    leavings. Its five arrays are split out of the unscoped buffers at entry and come back at what the pipeline
    leaves; the generator register goes through the kernel's invariant. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => V21 m (oo7 m) c b) c).loose
  hwaits := Pipeline.hwaits_of_owed_zero _ _ _ _ L lv 7 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => V21 m (oo7 m) c b)
  hentry c := by
    rw [Pipeline.ownSems0_none, ent7 m c]
    have hsplit := Pipeline.arrays_of_unscopedBufs (p := 7) (pcfgs (F := F)) adm (pdats m) launch7.win launch7.arr_whole c
      ((pdats m 7 c).share_full fun _ => rfl) (fun b => V21 m (oo7 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (fun b => V21 m (oo7 m) c b) (fun b => V22 m (outs m) c b) ((pdats m 7 c).arrAt · cfg7.N)
      (hF7 m (outs m) (fun _ _ => rfl) (ent7 m) c)
      (fun b hb => (hrest7 m (outs m) c b hb).trans (congrFun (ent7 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 8 -/

/-- Input windows: what they held at entry, which no item of the region writes. -/
theorem hF8_0 (o : Outs (F := F)) (he : ∀ c, V23 m o c = V23 m (oo8 m) c) (c : Dev nD) :
    (dat8 (F := F) (fun c b => V23 m (oo8 m) c b) c).arrAt 0 cfg8.N = V24 m o c (Pipeline.arrRef spec8 0) :=
  ((dat8 (F := F) (fun c b => V23 m (oo8 m) c b) c).arrAt_in 0 rfl _).trans ((A_eq8 _ c 0).trans
    ((V24_of m o c (Pipeline.arrRef spec8 0) (by decide)).trans (congrFun (he c) _)).symm)
theorem hF8_1 (o : Outs (F := F)) (he : ∀ c, V23 m o c = V23 m (oo8 m) c) (c : Dev nD) :
    (dat8 (F := F) (fun c b => V23 m (oo8 m) c b) c).arrAt 1 cfg8.N = V24 m o c (Pipeline.arrRef spec8 1) :=
  ((dat8 (F := F) (fun c b => V23 m (oo8 m) c b) c).arrAt_in 1 rfl _).trans ((A_eq8 _ c 1).trans
    ((V24_of m o c (Pipeline.arrRef spec8 1) (by decide)).trans (congrFun (he c) _)).symm)
theorem hF8_2 (o : Outs (F := F)) (he : ∀ c, V23 m o c = V23 m (oo8 m) c) (c : Dev nD) :
    (dat8 (F := F) (fun c b => V23 m (oo8 m) c b) c).arrAt 2 cfg8.N = V24 m o c (Pipeline.arrRef spec8 2) :=
  ((dat8 (F := F) (fun c b => V23 m (oo8 m) c b) c).arrAt_in 2 rfl _).trans ((A_eq8 _ c 2).trans
    ((V24_of m o c (Pipeline.arrRef spec8 2) (by decide)).trans (congrFun (he c) _)).symm)

/-- The output window: the fold of its write-backs, which is what the leavings hold at `main_v225`. -/
theorem hF8_3 (o : Outs (F := F)) (ho : ∀ r c, o 24 r c = lv8 m c r) (c : Dev nD) :
    (dat8 (F := F) (fun c b => V23 m (oo8 m) c b) c).arrAt 3 cfg8.N = V24 m o c (Pipeline.arrRef spec8 3) := by
  have hkey : V24 m o c main_v225 = o 24 main_v225 c := Function.update_self _ _ _
  refine Eq.trans ?_ hkey.symm
  rw [ho]; unfold lv8
  exact (Pipeline.withArrays_arr spec8 launch8.win.arr_inj c (V23 m (oo8 m) c)
    (fun w => (dat8 (fun c b => V23 m (oo8 m) c b) c).arrAt w cfg8.N) 3).symm

/-- At region 8's exit each of its arrays holds what the pipeline leaves. -/
theorem hF8 (o : Outs (F := F)) (ho : ∀ r c, o 24 r c = lv8 m c r) (he : ∀ c, V23 m o c = V23 m (oo8 m) c) (c : Dev nD) (w : Fin cfg8.W) :
    (dat8 (F := F) (fun c b => V23 m (oo8 m) c b) c).arrAt w cfg8.N = V24 m o c (Pipeline.arrRef spec8 w) :=
  match w with
  | ⟨0, _⟩ => hF8_0 m o he c
  | ⟨1, _⟩ => hF8_1 m o he c
  | ⟨2, _⟩ => hF8_2 m o he c
  | ⟨3, _⟩ => hF8_3 m o ho c
  | ⟨n + 4, h⟩ => absurd h (by show ¬ n + 4 < 4; omega)

/-- … and every other buffer what it held at entry. -/
theorem hrest8 (o : Outs (F := F)) (c : Dev nD) :
    ∀ b : Ref sig .tc, b ∉ Finset.univ.image (Pipeline.arrRef spec8) → V24 m o c b = V23 m o c b :=
  fun b hb => V24_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 8 as a segment: entered with every unscoped buffer at `V23`, left with them at `V24`, both read over the
    leavings. Its four arrays are split out of the unscoped buffers at entry and come back at what the pipeline
    leaves; the generator register goes through the kernel's invariant. -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => V23 m (oo8 m) c b) c).loose
  hwaits := Pipeline.hwaits_of_owed_zero _ _ _ _ L lv 8 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => V23 m (oo8 m) c b)
  hentry c := by
    rw [Pipeline.ownSems0_none, ent8 m c]
    have hsplit := Pipeline.arrays_of_unscopedBufs (p := 8) (pcfgs (F := F)) adm (pdats m) launch8.win launch8.arr_whole c
      ((pdats m 8 c).share_full fun _ => rfl) (fun b => V23 m (oo8 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (fun b => V23 m (oo8 m) c b) (fun b => V24 m (outs m) c b) ((pdats m 8 c).arrAt · cfg8.N)
      (hF8 m (outs m) (fun _ _ => rfl) (ent8 m) c)
      (fun b hb => (hrest8 m (outs m) c b hb).trans (congrFun (ent8 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.Bits.Frames.lean ====
/- The frame of the program: the generated conditional frame at the nine region records of the run assembly. -/
import proofs.«132734_j72301479461275_2_alg».proof.Proof.Bits.Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the conditional frame's implicit arguments are found by unifying its conclusion with this one
set_option backward.isDefEq.respectTransparency.types false in
/-- THE FRAME, at any instance: every weakly fair execution of @main terminates, nothing faulting, and every argument
    array ends as launched — the generated conditional frame at the run assembly's nine region records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none L lv (fun _ _ => rfl) ρ (outs m) (pdats m) 0 (fun _ => iprop(emp))
    (initOf (Pipeline.cells cfgs cellOf_inj) (Pipeline.launchToks cfgs cellOf_inj)) hu0 EE (hE0 ρ) hE9
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl) (reg8 m) (fun _ => .rfl) (fun _ => .rfl)

end Cert.Kernel.Reg

end
-- ==== Proof.Ideal.Matmul0.lean ====
/- Region 0 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's buffer holds its row block at every point (it is fetched at every point; the statement does
    not depend on that). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's buffer holds the whole matrix at every point: it is fetched at the first point only, and
    where it is not fetched its block index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole [10000,64] buffer. -/
abbrev r0_a : Rect S10000x64 := Rect.unit (s := S10000x64) ![0, 0] S10000x64.size inb_S10000x64_S10000x64_0_0
/-- The whole [64,64] buffer. -/
abbrev r0_b : Rect S64x64 := Rect.unit (s := S64x64) ![0, 0] S64x64.size inb_S64x64_S64x64_0_0

/-! ## What the body leaves in the output window's buffer -/

/-- The output buffer after the body: its single store, the product payload of what the two loads read. -/
def out0_2 (x0 : Vec F S10000x64 .f32) (x1 : Vec F S64x64 .f32) : Vec F S10000x64 .f32 :=
  View.canon [⟨r0_a, k0_pay1 (View.ld x0 r0_a) (View.ld x1 r0_b)⟩]

/-- The single store covers the whole buffer. -/
theorem cover0_2 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

/-! ## The triple of the body -/

set_option maxHeartbeats 1000000 in
/-- On whole staging memrefs, the two inputs at read contents `x0`, `x1` and the output at any contents, the body
    runs to a state with the inputs unchanged and the output at `out0_2 x0 x1`. The body also reads the output
    buffer once before storing into it; that value feeds nothing. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of pipeline 0 on core `c`: the arrays as found on entry; after the body at point `t` each input
    buffer still at its block and the output buffer at `out0_2` of the two input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the triple of the body applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.Ideal.Bn1Run.lean ====
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the batch-statistics kernel, its two control cases run on any staging memrefs -/

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point, for any proof data over `V` whose body
    leaves that buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is fetched at the first point only; its block index never moves, so its buffer holds the row at
    every point all the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition -/

/-- The body's one conditional: "this is grid point 0", as the scalar chain computes it from the coordinate. -/
abbrev cond1_0 (i : grid1.Coords) : Prop := (Scalar.cmpi .ne (Scalar.extui (Scalar.cmpi .eq (BitVec.ofNat 32 (i 0).val) 0#32)) 0#32) = 1#1
/-- Over the five points it holds at the first only. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## Staging memrefs -/

/-- One staging buffer of each output window, through which its contents are stated. -/
abbrev VO1_2 : View sig .tc .vmem S10000x64 .f32 := (Memref.whole cc1_stg2_0 : Memref sig .tc .vmem S10000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
/-- Each window's current staging memref at point `t`, as the pipeline passes it to the body, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Reg

end
-- ==== Proof.Ideal.Bn1.lean ====
import proofs.«132734_j72301479461275_2_alg».proof.Proof.Ideal.Bn1Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the three outputs hold point by point, the proof data, the body obligation -/

/-! ## Each case's pieces cover the buffers; what they leave -/

/-- In case A the pieces written into output 2's buffer tile it, so they cover it. -/
theorem cover1_A_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S10000x64.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S10000x64.size (by sl_kernel_rfl) y

/-- What case A leaves in output 2's buffer: its pieces read back. -/
def out1_A_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S10000x64 .f32 :=
  VO1_2.read (Elt F) (VO1_2.writes (Elt F) VO1_2.junk (kernelRun1_A c i arg1 harg1 arg2 harg2 arg3 harg3 arg4 harg4 arg5 harg5 hc0 x0 x1).1)

/-- In case A the pieces written into output 3's buffer tile it, so they cover it. -/
theorem cover1_A_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S1x64.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1x64.size (by sl_kernel_rfl) y

/-- What case A leaves in output 3's buffer: its pieces read back. -/
def out1_A_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1).2.1)

/-- In case A the pieces written into output 4's buffer tile it, so they cover it. -/
theorem cover1_A_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) (y : S1x64.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1x64.size (by sl_kernel_rfl) y

/-- What case A leaves in output 4's buffer: its pieces read back. -/
def out1_A_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1).2.2.1)

/-- In case B the pieces written into output 2's buffer tile it, so they cover it. -/
theorem cover1_B_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S10000x64.Idx) :
    ∃ pc ∈ (kernelRun1_B c i arg1 harg1 arg2 harg2 arg3 harg3 arg4 harg4 arg5 harg5 hc0 x0 x1 xo3 xo4).1, y ∈ pc.1.set :=
  View.cover_of_tiledL (kernelRun1_B c i arg1 harg1 arg2 harg2 arg3 harg3 arg4 harg4 arg5 harg5 hc0 x0 x1 xo3 xo4).1 S10000x64.size (by sl_kernel_rfl) y

/-- What case B leaves in output 2's buffer: its pieces read back. -/
def out1_B_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S10000x64 .f32 :=
  VO1_2.read (Elt F) (VO1_2.writes (Elt F) VO1_2.junk (kernelRun1_B c i arg1 harg1 arg2 harg2 arg3 harg3 arg4 harg4 arg5 harg5 hc0 x0 x1 xo3 xo4).1)

/-- In case B the pieces written into output 3's buffer tile it, so they cover it. -/
theorem cover1_B_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.1, y ∈ pc.1.set :=
  View.cover_of_tiledL (kernelRun1_B c i arg1 harg1 arg2 harg2 arg3 harg3 arg4 harg4 arg5 harg5 hc0 x0 x1 xo3 xo4).2.1 S1x64.size (by sl_kernel_rfl) y

/-- What case B leaves in output 3's buffer: its pieces read back. -/
def out1_B_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 xo3 xo4).2.1)

/-- In case B the pieces written into output 4's buffer tile it, so they cover it. -/
theorem cover1_B_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.2.1, y ∈ pc.1.set :=
  View.cover_of_tiledL (kernelRun1_B c i arg1 harg1 arg2 harg2 arg3 harg3 arg4 harg4 arg5 harg5 hc0 x0 x1 xo3 xo4).2.2.1 S1x64.size (by sl_kernel_rfl) y

/-- What case B leaves in output 4's buffer: its pieces read back. -/
def out1_B_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt1 (c : Dev nD) : (n : ℕ) → n < cfg1.N → Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
              out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩))
  | n + 1, hn =>
    if h0 : (n + 1) % 5 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- The pair at the first point. -/
theorem outsAt1_A (c : Dev nD) (t : Fin cfg1.N) (h0 : t.val % 5 = 0) :
    outsAt1 V c t.val t.isLt =
      (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
       out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) := by
  obtain ⟨n, hn⟩ := t
  cases n with
  | zero => exact rfl
  | succ n => exact (dif_pos h0).trans rfl

/-- The pair at a later point, over the pair of the point before. -/
theorem outsAt1_B (c : Dev nD) (t : Fin cfg1.N) (h0 : ¬t.val % 5 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt1 (c : Dev nD) (t : Fin cfg1.N) : Vec F S10000x64 .f32 :=
  if h0 : t.val % 5 = 0 then
    out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  else
    out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2

theorem reluAt1_A (c : Dev nD) (t : Fin cfg1.N) (h0 : t.val % 5 = 0) :
    reluAt1 V c t = out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) := dif_pos h0

theorem reluAt1_B (c : Dev nD) (t : Fin cfg1.N) (h0 : ¬t.val % 5 = 0) :
    reluAt1 V c t = out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt1`, the accumulators at the pair
    `outsAt1`; the invariant is the scoped rest with the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => reluAt1 V c t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = reluAt1 V c t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later point each accumulator's buffer holds what the body left at the point before: it is written back
    after the last point only, and its window is never idle and never cut. -/
theorem before1_3_B (c : Dev nD) (t : Fin cfg1.N) (h0 : ¬t.val % 5 = 0) (d) :
    (dat1 V c).before 3 t d = (outsAt1 V c (t.val - 1) (Nat.lt_of_le_of_lt (Nat.sub_le _ _) t.isLt)).1 := by
  have hN : t.val < 5 := lt_of_lt_of_eq t.isLt (show cfg1.N = 5 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 5 = 0) (d) :
    (dat1 V c).before 4 t d = (outsAt1 V c (t.val - 1) (Nat.lt_of_le_of_lt (Nat.sub_le _ _) t.isLt)).2 := by
  have hN : t.val < 5 := lt_of_lt_of_eq t.isLt (show cfg1.N = 5 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 5 := lt_of_lt_of_eq t.isLt (show cfg1.N = 5 from N_1)
  by_cases h0 : t.val % 5 = 0
  · rw [outsAt1_A V c t h0, reluAt1_A V c t h0]
    dsimp only
    unfold out1_A_2 out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _)
    isplitl [H3]
    · unfold owns; iexists _; isplitr
      swap; · iexact H3
      ipureintro; exact View.read_writes_of_cover _ _ _ _ _ (cover1_A_3 c _ _ _ _ _ _ _ _ _ _ _ _ _ _)
    unfold owns; iexists _; isplitr
    swap; · iexact H4
    ipureintro; exact View.read_writes_of_cover _ _ _ _ _ (cover1_A_4 c _ _ _ _ _ _ _ _ _ _ _ _ _ _)
  · rw [outsAt1_B V c t h0, reluAt1_B V c t h0]
    simp only [before1_3_B V c t h0, before1_4_B V c t h0]
    unfold out1_B_2 out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _)
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.Ideal.Affine2.lean ====
/- Region 2 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The data buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale row's buffer holds the row at every point: fetched at the first point only, and where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shift row's buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

/-- The whole [10000,64] buffer. -/
abbrev r2_a : Rect S10000x64 := Rect.unit (s := S10000x64) ![0, 0] S10000x64.size inb_S10000x64_S10000x64_0_0
/-- The whole [1,64] buffer. -/
abbrev r2_b : Rect S1x64 := Rect.unit (s := S1x64) ![0, 0] S1x64.size inb_S1x64_S1x64_0_0

/-! ## What the body leaves in the output window's buffer -/

/-- The output buffer after the body: its single store, the affine payload of what the three loads read. -/
def out2_3 (x0 : Vec F S10000x64 .f32) (x1 : Vec F S1x64 .f32) (x2 : Vec F S1x64 .f32) : Vec F S10000x64 .f32 :=
  View.canon [⟨r2_a, k2_pay1 (View.ld x0 r2_a) (View.ld x1 r2_b) (View.ld x2 r2_b)⟩]

/-- The single store covers the whole buffer. -/
theorem cover2_3 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

/-! ## The triple of the body -/

set_option maxHeartbeats 1000000 in
/-- On whole staging memrefs, the three inputs at read contents `x0`, `x1`, `x2` and the output at any contents, the
    body runs to a state with the inputs unchanged and the output at `out2_3 x0 x1 x2`. The body also reads the
    output buffer once before storing into it; that value feeds nothing. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the pipeline -/

/-- The proof data of pipeline 2 on core `c`: the arrays as found on entry; after the body at point `t` each input
    buffer still at its block and the output buffer at `out2_3` of the three input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input memrefs hold their blocks, so the triple of the body applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.Ideal.Matmul3.lean ====
/- Region 3 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's buffer holds its row block at every point (it is fetched at every point; the statement does
    not depend on that). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right factor's buffer holds the whole matrix at every point: it is fetched at the first point only, and
    where it is not fetched its block index has not moved, so the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

/-- The whole [10000,64] buffer. -/
abbrev r3_a : Rect S10000x64 := Rect.unit (s := S10000x64) ![0, 0] S10000x64.size inb_S10000x64_S10000x64_0_0
/-- The whole [64,64] buffer. -/
abbrev r3_b : Rect S64x64 := Rect.unit (s := S64x64) ![0, 0] S64x64.size inb_S64x64_S64x64_0_0

/-! ## What the body leaves in the output window's buffer -/

/-- The output buffer after the body: its single store, the product payload of what the two loads read. -/
def out3_2 (x0 : Vec F S10000x64 .f32) (x1 : Vec F S64x64 .f32) : Vec F S10000x64 .f32 :=
  View.canon [⟨r3_a, k3_pay1 (View.ld x0 r3_a) (View.ld x1 r3_b)⟩]

/-- The single store covers the whole buffer. -/
theorem cover3_2 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-! ## The triple of the body -/

set_option maxHeartbeats 1000000 in
/-- On whole staging memrefs, the two inputs at read contents `x0`, `x1` and the output at any contents, the body
    runs to a state with the inputs unchanged and the output at `out3_2 x0 x1`. The body also reads the output
    buffer once before storing into it; that value feeds nothing. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- The proof data of pipeline 3 on core `c`: the arrays as found on entry; after the body at point `t` each input
    buffer still at its block and the output buffer at `out3_2` of the two input blocks; the invariant leaves the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input memrefs hold their blocks, so the triple of the body applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.Ideal.Bn4Run.lean ====
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the batch-statistics kernel, its two control cases run on any staging memrefs -/

/-! ## The windows' blocks -/

/-- Window `w`'s block at point `t`, read off its array at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's current buffer holds its block at every point, for any proof data over `V` whose body
    leaves that buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row is fetched at the first point only; its block index never moves, so its buffer holds the row at
    every point all the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The branch condition -/

/-- The body's one conditional: "this is grid point 0", as the scalar chain computes it from the coordinate. -/
abbrev cond4_0 (i : grid4.Coords) : Prop := (Scalar.cmpi .ne (Scalar.extui (Scalar.cmpi .eq (BitVec.ofNat 32 (i 0).val) 0#32)) 0#32) = 1#1
/-- Over the five points it holds at the first only. -/
theorem hcond4_0 : ∀ t : Fin cfg4.N, cond4_0 (grid4.coords t) ↔ t.val % 5 = 0 :=
  (by decide +kernel : ∀ t : Fin grid4.N, cond4_0 (grid4.coords t) ↔ t.val % 5 = 0)

/-! ## Staging memrefs -/

/-- One staging buffer of each output window, through which its contents are stated. -/
abbrev VO4_2 : View sig .tc .vmem S10000x64 .f32 := (Memref.whole cc4_stg2_0 : Memref sig .tc .vmem S10000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
/-- Each window's current staging memref at point `t`, as the pipeline passes it to the body, and its wholeness. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Reg

end
-- ==== Proof.Ideal.Bn4.lean ====
import proofs.«132734_j72301479461275_2_alg».proof.Proof.Ideal.Bn4Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: what the three outputs hold point by point, the proof data, the body obligation -/

/-! ## Each case's pieces cover the buffers; what they leave -/

/-- In case A the pieces written into output 2's buffer tile it, so they cover it. -/
theorem cover4_A_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S10000x64.Idx) :
    ∃ pc ∈ (kernelRun4_A c i arg1 harg1 arg2 harg2 arg3 harg3 arg4 harg4 arg5 harg5 hc0 x0 x1).1, y ∈ pc.1.set :=
  View.cover_of_tiledL (kernelRun4_A c i arg1 harg1 arg2 harg2 arg3 harg3 arg4 harg4 arg5 harg5 hc0 x0 x1).1 S10000x64.size (by sl_kernel_rfl) y

/-- What case A leaves in output 2's buffer: its pieces read back. -/
def out4_A_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S10000x64 .f32 :=
  VO4_2.read (Elt F) (VO4_2.writes (Elt F) VO4_2.junk (kernelRun4_A c i arg1 harg1 arg2 harg2 arg3 harg3 arg4 harg4 arg5 harg5 hc0 x0 x1).1)

/-- In case A the pieces written into output 3's buffer tile it, so they cover it. -/
theorem cover4_A_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S1x64.Idx) :
    ∃ pc ∈ (kernelRun4_A c i arg1 harg1 arg2 harg2 arg3 harg3 arg4 harg4 arg5 harg5 hc0 x0 x1).2.1, y ∈ pc.1.set :=
  View.cover_of_tiledL (kernelRun4_A c i arg1 harg1 arg2 harg2 arg3 harg3 arg4 harg4 arg5 harg5 hc0 x0 x1).2.1 S1x64.size (by sl_kernel_rfl) y

/-- What case A leaves in output 3's buffer: its pieces read back. -/
def out4_A_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 hc0 x0 x1).2.1)

/-- In case A the pieces written into output 4's buffer tile it, so they cover it. -/
theorem cover4_A_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) (y : S1x64.Idx) :
    ∃ pc ∈ (kernelRun4_A c i arg1 harg1 arg2 harg2 arg3 harg3 arg4 harg4 arg5 harg5 hc0 x0 x1).2.2.1, y ∈ pc.1.set :=
  View.cover_of_tiledL (kernelRun4_A c i arg1 harg1 arg2 harg2 arg3 harg3 arg4 harg4 arg5 harg5 hc0 x0 x1).2.2.1 S1x64.size (by sl_kernel_rfl) y

/-- What case A leaves in output 4's buffer: its pieces read back. -/
def out4_A_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) : Vec F S1x64 .f32 :=
  VO4_4.read (Elt F) (VO4_4.writes (Elt F) VO4_4.junk (kernelRun4_A c i arg1 harg1 arg2 harg2 arg3 harg3 arg4 harg4 arg5 harg5 hc0 x0 x1).2.2.1)

/-- In case B the pieces written into output 2's buffer tile it, so they cover it. -/
theorem cover4_B_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S10000x64.Idx) :
    ∃ pc ∈ (kernelRun4_B c i arg1 harg1 arg2 harg2 arg3 harg3 arg4 harg4 arg5 harg5 hc0 x0 x1 xo3 xo4).1, y ∈ pc.1.set :=
  View.cover_of_tiledL (kernelRun4_B c i arg1 harg1 arg2 harg2 arg3 harg3 arg4 harg4 arg5 harg5 hc0 x0 x1 xo3 xo4).1 S10000x64.size (by sl_kernel_rfl) y

/-- What case B leaves in output 2's buffer: its pieces read back. -/
def out4_B_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S10000x64 .f32 :=
  VO4_2.read (Elt F) (VO4_2.writes (Elt F) VO4_2.junk (kernelRun4_B c i arg1 harg1 arg2 harg2 arg3 harg3 arg4 harg4 arg5 harg5 hc0 x0 x1 xo3 xo4).1)

/-- In case B the pieces written into output 3's buffer tile it, so they cover it. -/
theorem cover4_B_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.1, y ∈ pc.1.set :=
  View.cover_of_tiledL (kernelRun4_B c i arg1 harg1 arg2 harg2 arg3 harg3 arg4 harg4 arg5 harg5 hc0 x0 x1 xo3 xo4).2.1 S1x64.size (by sl_kernel_rfl) y

/-- What case B leaves in output 3's buffer: its pieces read back. -/
def out4_B_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S1x64 .f32 :=
  VO4_3.read (Elt F) (VO4_3.writes (Elt F) VO4_3.junk (kernelRun4_B c i arg1 harg1 arg2 harg2 arg3 harg3 arg4 harg4 arg5 harg5 hc0 x0 x1 xo3 xo4).2.1)

/-- In case B the pieces written into output 4's buffer tile it, so they cover it. -/
theorem cover4_B_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.2.1, y ∈ pc.1.set :=
  View.cover_of_tiledL (kernelRun4_B c i arg1 harg1 arg2 harg2 arg3 harg3 arg4 harg4 arg5 harg5 hc0 x0 x1 xo3 xo4).2.2.1 S1x64.size (by sl_kernel_rfl) y

/-- What case B leaves in output 4's buffer: its pieces read back. -/
def out4_B_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 : Vec F S1x64 .f32) (xo4 : Vec F S1x64 .f32) : Vec F S1x64 .f32 :=
  VO4_4.read (Elt F) (VO4_4.writes (Elt F) VO4_4.junk (kernelRun4_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt4 (c : Dev nD) : (n : ℕ) → n < cfg4.N → Vec F S1x64 .f32 × Vec F S1x64 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
              out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩))
  | n + 1, hn =>
    if h0 : (n + 1) % 5 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1 (outsAt4 c n (Nat.lt_of_succ_lt hn)).2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1 (outsAt4 c n (Nat.lt_of_succ_lt hn)).2)

/-- The pair at the first point. -/
theorem outsAt4_A (c : Dev nD) (t : Fin cfg4.N) (h0 : t.val % 5 = 0) :
    outsAt4 V c t.val t.isLt =
      (out4_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
       out4_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) := by
  obtain ⟨n, hn⟩ := t
  cases n with
  | zero => exact rfl
  | succ n => exact (dif_pos h0).trans rfl

/-- The pair at a later point, over the pair of the point before. -/
theorem outsAt4_B (c : Dev nD) (t : Fin cfg4.N) (h0 : ¬t.val % 5 = 0) :
    outsAt4 V c t.val t.isLt =
      (out4_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2,
       out4_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt4 (c : Dev nD) (t : Fin cfg4.N) : Vec F S10000x64 .f32 :=
  if h0 : t.val % 5 = 0 then
    out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  else
    out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2

theorem reluAt4_A (c : Dev nD) (t : Fin cfg4.N) (h0 : t.val % 5 = 0) :
    reluAt4 V c t = out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t) := dif_pos h0

theorem reluAt4_B (c : Dev nD) (t : Fin cfg4.N) (h0 : ¬t.val % 5 = 0) :
    reluAt4 V c t = out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt4`, the accumulators at the pair
    `outsAt4`; the invariant is the scoped rest with the generator register, untouched; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => reluAt4 V c t
    | ⟨3, _⟩ => (outsAt4 V c t.val t.isLt).1
    | ⟨4, _⟩ => (outsAt4 V c t.val t.isLt).2
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = reluAt4 V c t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2 := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- At a later point each accumulator's buffer holds what the body left at the point before: it is written back
    after the last point only, and its window is never idle and never cut. -/
theorem before4_3_B (c : Dev nD) (t : Fin cfg4.N) (h0 : ¬t.val % 5 = 0) (d) :
    (dat4 V c).before 3 t d = (outsAt4 V c (t.val - 1) (Nat.lt_of_le_of_lt (Nat.sub_le _ _) t.isLt)).1 := by
  have hN : t.val < 5 := lt_of_lt_of_eq t.isLt (show cfg4.N = 5 from N_4)
  rw [Dat.before_out_kept _ 3 rfl t (by omega) (Bool.eq_false_iff.mpr fun h => by have := (flush4_3 _).mp h; dsimp only at this; omega)
    (fun _ => rfl) (fun _ _ => rfl)]
  dsimp only [dat4]
theorem before4_4_B (c : Dev nD) (t : Fin cfg4.N) (h0 : ¬t.val % 5 = 0) (d) :
    (dat4 V c).before 4 t d = (outsAt4 V c (t.val - 1) (Nat.lt_of_le_of_lt (Nat.sub_le _ _) t.isLt)).2 := by
  have hN : t.val < 5 := lt_of_lt_of_eq t.isLt (show cfg4.N = 5 from N_4)
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, after4_4]
  have hN : t.val < 5 := lt_of_lt_of_eq t.isLt (show cfg4.N = 5 from N_4)
  by_cases h0 : t.val % 5 = 0
  · rw [outsAt4_A V c t h0, reluAt4_A V c t h0]
    dsimp only
    unfold out4_A_2 out4_A_3 out4_A_4
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0) (iblk4 V c 0 t) (iblk4 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_A_2 c _ _ _ _ _ _ _ _ _ _ _ _ _ _)
    isplitl [H3]
    · unfold owns; iexists _; isplitr
      swap; · iexact H3
      ipureintro; exact View.read_writes_of_cover _ _ _ _ _ (cover4_A_3 c _ _ _ _ _ _ _ _ _ _ _ _ _ _)
    unfold owns; iexists _; isplitr
    swap; · iexact H4
    ipureintro; exact View.read_writes_of_cover _ _ _ _ _ (cover4_A_4 c _ _ _ _ _ _ _ _ _ _ _ _ _ _)
  · rw [outsAt4_B V c t h0, reluAt4_B V c t h0]
    simp only [before4_3_B V c t h0, before4_4_B V c t h0]
    unfold out4_B_2 out4_B_3 out4_B_4
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h)) (iblk4 V c 0 t) (iblk4 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    isplitl [H3]
    · unfold owns; iexists _; isplitr
      swap; · iexact H3
      ipureintro; exact View.read_writes_of_cover _ _ _ _ _ (cover4_B_3 c _ _ _ _ _ _ _ _ _ _ _ _ _ _ _ _)
    unfold owns; iexists _; isplitr
    swap; · iexact H4
    ipureintro; exact View.read_writes_of_cover _ _ _ _ _ (cover4_B_4 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.Ideal.Affine5.lean ====
/- Region 5 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The data buffer holds its row block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The scale row's buffer holds the row at every point: fetched at the first point only, and where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The shift row's buffer holds the row at every point, for the same reason. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

/-- The whole [10000,64] buffer. -/
abbrev r5_a : Rect S10000x64 := Rect.unit (s := S10000x64) ![0, 0] S10000x64.size inb_S10000x64_S10000x64_0_0
/-- The whole [1,64] buffer. -/
abbrev r5_b : Rect S1x64 := Rect.unit (s := S1x64) ![0, 0] S1x64.size inb_S1x64_S1x64_0_0

/-! ## What the body leaves in the output window's buffer -/

/-- The output buffer after the body: its single store, the affine payload of what the three loads read. -/
def out5_3 (x0 : Vec F S10000x64 .f32) (x1 : Vec F S1x64 .f32) (x2 : Vec F S1x64 .f32) : Vec F S10000x64 .f32 :=
  View.canon [⟨r5_a, k5_pay1 (View.ld x0 r5_a) (View.ld x1 r5_b) (View.ld x2 r5_b)⟩]

/-- The single store covers the whole buffer. -/
theorem cover5_3 (p0 : Vec F S10000x64 .f32) (y : S10000x64.Idx) :
    ∃ pc ∈ ([⟨r5_a, p0⟩] : List (View.Piece (Elt F) S10000x64 .f32)), y ∈ pc.1.set :=
  View.cover_of_tiled [⟨r5_a, p0⟩] S10000x64.size (by rfl) y

/-! ## The triple of the body -/

set_option maxHeartbeats 1000000 in
/-- On whole staging memrefs, the three inputs at read contents `x0`, `x1`, `x2` and the output at any contents, the
    body runs to a state with the inputs unchanged and the output at `out5_3 x0 x1 x2`. The body also reads the
    output buffer once before storing into it; that value feeds nothing. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_kernel i arg1 harg1 arg2 harg2 arg3 harg3 arg4 harg4) K := by
  simp only [cc5__affine_kernel_eq_skeleton]; unfold cc5__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data of the pipeline -/

/-- The proof data of pipeline 5 on core `c`: the arrays as found on entry; after the body at point `t` each input
    buffer still at its block and the output buffer at `out5_3` of the three input blocks; the invariant leaves the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The arrays of the proof data are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input memrefs hold their blocks, so the triple of the body applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.Ideal.Matmul6.lean ====
/- Region 6 (a row-block matrix product): the frame half. At any contents V of the core's buffers on entry,
   the block each window holds at a grid point, what the body leaves in the output window's buffer, the body's
   triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left factor's buffer holds its row block at every point (it is fetched at every point; the statement does
    not depend on that). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right factor's buffer holds the whole matrix at every point: it is fetched at the first point only, and
    where it is not fetched its block index has not moved, so the buffer still holds the same block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

/-- The whole [10000,64] buffer. -/
abbrev r6_a : Rect S10000x64 := Rect.unit (s := S10000x64) ![0, 0] S10000x64.size inb_S10000x64_S10000x64_0_0
/-- The whole [64,64] buffer. -/
abbrev r6_b : Rect S64x64 := Rect.unit (s := S64x64) ![0, 0] S64x64.size inb_S64x64_S64x64_0_0

/-! ## What the body leaves in the output window's buffer -/

/-- The output buffer after the body: its single store, the product payload of what the two loads read. -/
def out6_2 (x0 : Vec F S10000x64 .f32) (x1 : Vec F S64x64 .f32) : Vec F S10000x64 .f32 :=
  View.canon [⟨r6_a, k6_pay1 (View.ld x0 r6_a) (View.ld x1 r6_b)⟩]

/-- The single store covers the whole buffer. -/
theorem cover6_2 (p0 : Vec F S10000x64 .f32) (y : S10000x64.Idx) :
    ∃ pc ∈ ([⟨r6_a, p0⟩] : List (View.Piece (Elt F) S10000x64 .f32)), y ∈ pc.1.set :=
  View.cover_of_tiled [⟨r6_a, p0⟩] S10000x64.size (by rfl) y

/-! ## The triple of the body -/

set_option maxHeartbeats 1000000 in
/-- On whole staging memrefs, the two inputs at read contents `x0`, `x1` and the output at any contents, the body
    runs to a state with the inputs unchanged and the output at `out6_2 x0 x1`. The body also reads the output
    buffer once before storing into it; that value feeds nothing. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data of the pipeline -/

/-- The proof data of pipeline 6 on core `c`: the arrays as found on entry; after the body at point `t` each input
    buffer still at its block and the output buffer at `out6_2` of the two input blocks; the invariant leaves the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The arrays of the proof data are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input memrefs hold their blocks, so the triple of the body applies; the invariant
    and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the library, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.Ideal.Bn7Run.lean ====
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the batch-statistics kernel, its two control cases run on any staging memrefs -/

/-! ## The windows' blocks -/

/-- Window `w`'s block at point `t`, read off its array at the entry contents `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-block input's current buffer holds its block at every point, for any proof data over `V` whose body
    leaves that buffer as it found it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is fetched at the first point only; its block index never moves, so its buffer holds the row at
    every point all the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The branch condition -/

/-- The body's one conditional: "this is grid point 0", as the scalar chain computes it from the coordinate. -/
abbrev cond7_0 (i : grid7.Coords) : Prop := (Scalar.cmpi .ne (Scalar.extui (Scalar.cmpi .eq (BitVec.ofNat 32 (i 0).val) 0#32)) 0#32) = 1#1
/-- Over the five points it holds at the first only. -/
theorem hcond7_0 : ∀ t : Fin cfg7.N, cond7_0 (grid7.coords t) ↔ t.val % 5 = 0 :=
  (by decide +kernel : ∀ t : Fin grid7.N, cond7_0 (grid7.coords t) ↔ t.val % 5 = 0)

/-! ## Staging memrefs -/

/-- One staging buffer of each output window, through which its contents are stated. -/
abbrev VO7_2 : View sig .tc .vmem S10000x64 .f32 := (Memref.whole cc7_stg2_0 : Memref sig .tc .vmem S10000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
/-- Each window's current staging memref at point `t`, as the pipeline passes it to the body, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S10000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)

/-! ## The body's triple, case by case -/

set_option maxHeartbeats 4000000 in
/-- FIRST POINT (the conditional taken). On whole memrefs, the two inputs at contents `x0`, `x1` and the three
    outputs at anything, the body runs to a continuation that gets the inputs back unchanged and each output
    buffer with a list of pieces written into it (last first). The accumulators are zeroed before they are read,
    so nothing of their earlier contents survives. The lists are found by running the body. -/
noncomputable def kernelRun7_A (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

set_option maxHeartbeats 4000000 in
/-- LATER POINTS (the conditional not taken). As above, except that the accumulators are read before they are
    overwritten: their buffers are held at the running contents `xo3`, `xo4`. -/
noncomputable def kernelRun7_B (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) :
    Σ' (L2 : List (View.Piece (Elt F) S10000x64 .f32)) (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Reg

end
-- ==== Proof.Ideal.Bn7.lean ====
import proofs.«132734_j72301479461275_2_alg».proof.Proof.Ideal.Bn7Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: what the three outputs hold point by point, the proof data, the body obligation -/

/-! ## Each case's pieces cover the buffers; what they leave -/

/-- In case A the pieces written into output 2's buffer tile it, so they cover it. -/
theorem cover7_A_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S10000x64.Idx) :
    ∃ pc ∈ (kernelRun7_A c i arg1 harg1 arg2 harg2 arg3 harg3 arg4 harg4 arg5 harg5 hc0 x0 x1).1, y ∈ pc.1.set :=
  View.cover_of_tiledL (kernelRun7_A c i arg1 harg1 arg2 harg2 arg3 harg3 arg4 harg4 arg5 harg5 hc0 x0 x1).1 S10000x64.size (by sl_kernel_rfl) y

/-- What case A leaves in output 2's buffer: its pieces read back. -/
def out7_A_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S10000x64 .f32 :=
  VO7_2.read (Elt F) (VO7_2.writes (Elt F) VO7_2.junk (kernelRun7_A c i arg1 harg1 arg2 harg2 arg3 harg3 arg4 harg4 arg5 harg5 hc0 x0 x1).1)

/-- In case A the pieces written into output 3's buffer tile it, so they cover it. -/
theorem cover7_A_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S1x64.Idx) :
    ∃ pc ∈ (kernelRun7_A c i arg1 harg1 arg2 harg2 arg3 harg3 arg4 harg4 arg5 harg5 hc0 x0 x1).2.1, y ∈ pc.1.set :=
  View.cover_of_tiledL (kernelRun7_A c i arg1 harg1 arg2 harg2 arg3 harg3 arg4 harg4 arg5 harg5 hc0 x0 x1).2.1 S1x64.size (by sl_kernel_rfl) y

/-- What case A leaves in output 3's buffer: its pieces read back. -/
def out7_A_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S1x64 .f32 :=
  VO7_3.read (Elt F) (VO7_3.writes (Elt F) VO7_3.junk (kernelRun7_A c i arg1 harg1 arg2 harg2 arg3 harg3 arg4 harg4 arg5 harg5 hc0 x0 x1).2.1)

/-- In case A the pieces written into output 4's buffer tile it, so they cover it. -/
theorem cover7_A_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) (y : S1x64.Idx) :
    ∃ pc ∈ (kernelRun7_A c i arg1 harg1 arg2 harg2 arg3 harg3 arg4 harg4 arg5 harg5 hc0 x0 x1).2.2.1, y ∈ pc.1.set :=
  View.cover_of_tiledL (kernelRun7_A c i arg1 harg1 arg2 harg2 arg3 harg3 arg4 harg4 arg5 harg5 hc0 x0 x1).2.2.1 S1x64.size (by sl_kernel_rfl) y

/-- What case A leaves in output 4's buffer: its pieces read back. -/
def out7_A_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) : Vec F S1x64 .f32 :=
  VO7_4.read (Elt F) (VO7_4.writes (Elt F) VO7_4.junk (kernelRun7_A c i arg1 harg1 arg2 harg2 arg3 harg3 arg4 harg4 arg5 harg5 hc0 x0 x1).2.2.1)

/-- In case B the pieces written into output 2's buffer tile it, so they cover it. -/
theorem cover7_B_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S10000x64.Idx) :
    ∃ pc ∈ (kernelRun7_B c i arg1 harg1 arg2 harg2 arg3 harg3 arg4 harg4 arg5 harg5 hc0 x0 x1 xo3 xo4).1, y ∈ pc.1.set :=
  View.cover_of_tiledL (kernelRun7_B c i arg1 harg1 arg2 harg2 arg3 harg3 arg4 harg4 arg5 harg5 hc0 x0 x1 xo3 xo4).1 S10000x64.size (by sl_kernel_rfl) y

/-- What case B leaves in output 2's buffer: its pieces read back. -/
def out7_B_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S10000x64 .f32 :=
  VO7_2.read (Elt F) (VO7_2.writes (Elt F) VO7_2.junk (kernelRun7_B c i arg1 harg1 arg2 harg2 arg3 harg3 arg4 harg4 arg5 harg5 hc0 x0 x1 xo3 xo4).1)

/-- In case B the pieces written into output 3's buffer tile it, so they cover it. -/
theorem cover7_B_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.1, y ∈ pc.1.set :=
  View.cover_of_tiledL (kernelRun7_B c i arg1 harg1 arg2 harg2 arg3 harg3 arg4 harg4 arg5 harg5 hc0 x0 x1 xo3 xo4).2.1 S1x64.size (by sl_kernel_rfl) y

/-- What case B leaves in output 3's buffer: its pieces read back. -/
def out7_B_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S1x64 .f32 :=
  VO7_3.read (Elt F) (VO7_3.writes (Elt F) VO7_3.junk (kernelRun7_B c i arg1 harg1 arg2 harg2 arg3 harg3 arg4 harg4 arg5 harg5 hc0 x0 x1 xo3 xo4).2.1)

/-- In case B the pieces written into output 4's buffer tile it, so they cover it. -/
theorem cover7_B_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.2.1, y ∈ pc.1.set :=
  View.cover_of_tiledL (kernelRun7_B c i arg1 harg1 arg2 harg2 arg3 harg3 arg4 harg4 arg5 harg5 hc0 x0 x1 xo3 xo4).2.2.1 S1x64.size (by sl_kernel_rfl) y

/-- What case B leaves in output 4's buffer: its pieces read back. -/
def out7_B_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 : Vec F S1x64 .f32) (xo4 : Vec F S1x64 .f32) : Vec F S1x64 .f32 :=
  VO7_4.read (Elt F) (VO7_4.writes (Elt F) VO7_4.junk (kernelRun7_B c i arg1 harg1 arg2 harg2 arg3 harg3 arg4 harg4 arg5 harg5 hc0 x0 x1 xo3 xo4).2.2.1)

/-! ## The accumulators, point by point -/

/-- THE ACCUMULATION. The pair (sum row, sum-of-squares row) that the two accumulator buffers hold after the body
    at position `n`: at the first point what the zeroing case leaves, later what the other case leaves when run
    over the pair of the point before (the buffers are not written back in between). -/
def outsAt7 (c : Dev nD) : (n : ℕ) → n < cfg7.N → Vec F S1x64 .f32 × Vec F S1x64 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
              out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩))
  | n + 1, hn =>
    if h0 : (n + 1) % 5 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).1 (outsAt7 c n (Nat.lt_of_succ_lt hn)).2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).1 (outsAt7 c n (Nat.lt_of_succ_lt hn)).2)

/-- The pair at the first point. -/
theorem outsAt7_A (c : Dev nD) (t : Fin cfg7.N) (h0 : t.val % 5 = 0) :
    outsAt7 V c t.val t.isLt =
      (out7_A_3 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
       out7_A_4 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)) := by
  obtain ⟨n, hn⟩ := t
  cases n with
  | zero => exact rfl
  | succ n => exact (dif_pos h0).trans rfl

/-- The pair at a later point, over the pair of the point before. -/
theorem outsAt7_B (c : Dev nD) (t : Fin cfg7.N) (h0 : ¬t.val % 5 = 0) :
    outsAt7 V c t.val t.isLt =
      (out7_B_3 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2,
       out7_B_4 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The block output is rewritten whole at every point: nothing is carried, only the case differs. -/
def reluAt7 (c : Dev nD) (t : Fin cfg7.N) : Vec F S10000x64 .f32 :=
  if h0 : t.val % 5 = 0 then
    out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)
  else
    out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2

theorem reluAt7_A (c : Dev nD) (t : Fin cfg7.N) (h0 : t.val % 5 = 0) :
    reluAt7 V c t = out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t) := dif_pos h0

theorem reluAt7_B (c : Dev nD) (t : Fin cfg7.N) (h0 : ¬t.val % 5 = 0) :
    reluAt7 V c t = out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).1 (outsAt7 V c (t.val - 1) (Nat.lt_of_le_of_lt (Nat.sub_le _ _) t.isLt)).2 := dif_neg h0

/-! ## The pipeline's proof data -/

/-- The proof data of this region's pipeline on core `c`: the arrays at the entry contents `V`; after the body at
    point `t` each input's buffer at its block, the block output at `reluAt7`, the accumulators at the pair
    `outsAt7`; the invariant is the scoped rest with the generator register, untouched; full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => reluAt7 V c t
    | ⟨3, _⟩ => (outsAt7 V c t.val t.isLt).1
    | ⟨4, _⟩ => (outsAt7 V c t.val t.isLt).2
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = reluAt7 V c t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2 := by dsimp only [dat7]

/-- Each input's current buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- At a later point each accumulator's buffer holds what the body left at the point before: it is written back
    after the last point only, and its window is never idle and never cut. -/
theorem before7_3_B (c : Dev nD) (t : Fin cfg7.N) (h0 : ¬t.val % 5 = 0) (d) :
    (dat7 V c).before 3 t d = (outsAt7 V c (t.val - 1) (Nat.lt_of_le_of_lt (Nat.sub_le _ _) t.isLt)).1 := by
  have hN : t.val < 5 := lt_of_lt_of_eq t.isLt (show cfg7.N = 5 from N_7)
  rw [Dat.before_out_kept _ 3 rfl t (by omega) (Bool.eq_false_iff.mpr fun h => by have := (flush7_3 _).mp h; dsimp only at this; omega)
    (fun _ => rfl) (fun _ _ => rfl)]
  dsimp only [dat7]
theorem before7_4_B (c : Dev nD) (t : Fin cfg7.N) (h0 : ¬t.val % 5 = 0) (d) :
    (dat7 V c).before 4 t d = (outsAt7 V c (t.val - 1) (Nat.lt_of_le_of_lt (Nat.sub_le _ _) t.isLt)).2 := by
  have hN : t.val < 5 := lt_of_lt_of_eq t.isLt (show cfg7.N = 5 from N_7)
  rw [Dat.before_out_kept _ 4 rfl t (by omega) (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t))

set_option maxHeartbeats 1600000 in
/-- The body at any point. The inputs' buffers hold their blocks; the point is the first or a later one; at a later
    one the accumulators' buffers hold the pair of the point before; so the case's run applies, and its pieces,
    covering each output buffer, read back as the stated contents whatever was there. The invariant and the
    core's debt pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, after7_4]
  have hN : t.val < 5 := lt_of_lt_of_eq t.isLt (show cfg7.N = 5 from N_7)
  by_cases h0 : t.val % 5 = 0
  · rw [outsAt7_A V c t h0, reluAt7_A V c t h0]
    dsimp only
    unfold out7_A_2 out7_A_3 out7_A_4
    iintro ⟨HΦ, Ho, ⟨%d0, H0⟩, ⟨%d1, H1⟩, ⟨%d2, H2⟩, ⟨%d3, H3⟩, ⟨%d4, H4⟩⟩
    iapply ((kernelRun7_A c (grid7.coords t) _ _ _ _ _ _ _ _ _ _ ((hcond7_0 t).mpr h0) (iblk7 V c 0 t) (iblk7 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_A_2 c _ _ _ _ _ _ _ _ _ _ _ _ _ _)
    isplitl [H3]
    · unfold owns; iexists _; isplitr
      swap; · iexact H3
      ipureintro; exact View.read_writes_of_cover _ _ _ _ _ (cover7_A_3 c _ _ _ _ _ _ _ _ _ _ _ _ _ _)
    unfold owns; iexists _; isplitr
    swap; · iexact H4
    ipureintro; exact View.read_writes_of_cover _ _ _ _ _ (cover7_A_4 c _ _ _ _ _ _ _ _ _ _ _ _ _ _)
  · rw [outsAt7_B V c t h0, reluAt7_B V c t h0]
    simp only [before7_3_B V c t h0, before7_4_B V c t h0]
    unfold out7_B_2 out7_B_3 out7_B_4
    iintro ⟨HΦ, Ho, ⟨%d0, H0⟩, ⟨%d1, H1⟩, ⟨%d2, H2⟩, ⟨%d3, H3⟩, ⟨%d4, H4⟩⟩
    iapply ((kernelRun7_B c (grid7.coords t) _ _ _ _ _ _ _ _ _ _ (fun h => h0 ((hcond7_0 t).mp h)) (iblk7 V c 0 t) (iblk7 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_B_2 c _ _ _ _ _ _ _ _ _ _ _ _ _ _ _ _)
    isplitl [H3]
    · unfold owns; iexists _; isplitr
      swap; · iexact H3
      ipureintro; exact View.read_writes_of_cover _ _ _ _ _ (cover7_B_3 c _ _ _ _ _ _ _ _ _ _ _ _ _ _ _ _)
    unfold owns; iexists _; isplitr
    swap; · iexact H4
    ipureintro; exact View.read_writes_of_cover _ _ _ _ _ (cover7_B_4 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.Ideal.Affine8.lean ====
/- Region 8 (a row-block affine map h*scale + shift): the frame half. At any contents V of the core's buffers
   on entry, the block each window holds at a grid point, what the body leaves in the output window's buffer, the
   body's triple, the pipeline's proof data and its body obligation. Generic in the float interpretation. -/
import proofs.«132734_j72301479461275_2_alg».proof.Proof.Gen.KernelIdeal.Launch
import proofs.«132734_j72301479461275_2_alg».proof.Proof.Gen.KernelIdeal.Skeleton
import proofs.«132734_j72301479461275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at this parameter
variable (V : (c : Dev nD) → (b : Ref sig .tc) → Buf (Elt F) ((c : Thread nD τ).loc b))

/-! ## The blocks of the windows -/

/-- The block of window `w` at grid point `t`, read off the window's array as found on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The data buffer holds its row block at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The scale row's buffer holds the row at every point: fetched at the first point only, and where it is not
    fetched its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The shift row's buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The rectangles the body reads and writes -/

/-- The whole [10000,64] buffer. -/
abbrev r8_a : Rect S10000x64 := Rect.unit (s := S10000x64) ![0, 0] S10000x64.size inb_S10000x64_S10000x64_0_0
/-- The whole [1,64] buffer. -/
abbrev r8_b : Rect S1x64 := Rect.unit (s := S1x64) ![0, 0] S1x64.size inb_S1x64_S1x64_0_0

/-! ## What the body leaves in the output window's buffer -/

/-- The output buffer after the body: its single store, the affine payload of what the three loads read. -/
def out8_3 (x0 : Vec F S10000x64 .f32) (x1 : Vec F S1x64 .f32) (x2 : Vec F S1x64 .f32) : Vec F S10000x64 .f32 :=
  View.canon [⟨r8_a, k8_pay1 (View.ld x0 r8_a) (View.ld x1 r8_b) (View.ld x2 r8_b)⟩]

/-- The single store covers the whole buffer. -/
theorem cover8_3 (p0 : Vec F S10000x64 .f32) (y : S10000x64.Idx) :
    ∃ pc ∈ ([⟨r8_a, p0⟩] : List (View.Piece (Elt F) S10000x64 .f32)), y ∈ pc.1.set :=
  View.cover_of_tiled [⟨r8_a, p0⟩] S10000x64.size (by rfl) y

/-! ## The triple of the body -/

set_option maxHeartbeats 1000000 in
/-- On whole staging memrefs, the three inputs at read contents `x0`, `x1`, `x2` and the output at any contents, the
    body runs to a state with the inputs unchanged and the output at `out8_3 x0 x1 x2`. The body also reads the
    output buffer once before storing into it; that value feeds nothing. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__affine_kernel i arg1 harg1 arg2 harg2 arg3 harg3 arg4 harg4) K := by
  simp only [cc8__affine_kernel_eq_skeleton]; unfold cc8__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The proof data of the pipeline -/

/-- The proof data of pipeline 8 on core `c`: the arrays as found on entry; after the body at point `t` each input
    buffer still at its block and the output buffer at `out8_3` of the three input blocks; the invariant leaves the
    scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The arrays of the proof data are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation at a generic point -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the input memrefs hold their blocks, so the triple of the body applies; the invariant
    and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.Ideal.Launch.lean ====
/- The thread state beside the buffers, and what the launch makes of it.
   Beside the unscoped buffers a core carries, through every item of @main, its generator register at some state and
   the fact that it owes no other core anything. The launch makes that state on every core at once out of the
   register and the empty tallies it hands out, and at the end the state still says the core owes nothing. -/
import proofs.«132734_j72301479461275_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- The rest state at each of the ten region boundaries. -/
abbrev EE : Fin 10 → Dev nD → sProp 𝕄 := fun _ c => R c

/-- One core's share of the launch's resources makes its rest state. -/
theorem hE0_core (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ emp) : sProp 𝕄)
      ⊢ R (F := F) c := by
  iintro ⟨-, HO, -, Hp, -⟩
  isplitl [Hp]; · iexists _; iexact Hp
  iexists ∅; iexact HO

/-- The launch's resources make the rest state on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (EE (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (EE (F := F) 0) : sProp 𝕄) :=
    bigSep_mono fun c _ => hE0_core ρ c
  iintro ⟨H, -⟩
  imodintro
  iapply hmono
  iexact H

/-- At the end the rest state still says the core owes nothing. -/
theorem hE9 (c : Dev nD) : EE (F := F) 9 c ⊢ (iprop(∃ W, owes (c : Thread nD τ) (0 : CellTallies nD τ sig Unit) W) : sProp 𝕄) := by
  show R (F := F) c ⊢ _
  iintro ⟨-, HO⟩; iexact HO

/-- The launch's ghost state: the cells' initial resource, nothing else. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.KernelIdeal.Reg

end
-- ==== Proof.Ideal.Run.lean ====
/- The run of the idealized kernel's program, assembled region by region.
   @main is twenty-five items: host stretches and nine kernel regions (three layers, each a matrix product, a
   rectifier with column sums, and an affine map). Between two items a core holds every unscoped buffer at a
   valuation: the launch contents, then each host stretch's results, then what a region writes back. What a region
   leaves in its output arrays is the fold of its write-backs over the contents it was entered with (`lvK`); the
   family `ooK` collects these leavings region by region, so that the contents a later region is entered with are
   a function of the earlier regions' leavings only. Each region is then a segment entered from and left at those
   valuations, its arrays split out of the unscoped buffers at entry and put back at exit. -/
import proofs.«132734_j72301479461275_2_alg».proof.Proof.Gen.KernelIdeal.Regions
import proofs.«132734_j72301479461275_2_alg».proof.Proof.Ideal.Matmul0
import proofs.«132734_j72301479461275_2_alg».proof.Proof.Ideal.Bn1
import proofs.«132734_j72301479461275_2_alg».proof.Proof.Ideal.Affine2
import proofs.«132734_j72301479461275_2_alg».proof.Proof.Ideal.Matmul3
import proofs.«132734_j72301479461275_2_alg».proof.Proof.Ideal.Bn4
import proofs.«132734_j72301479461275_2_alg».proof.Proof.Ideal.Affine5
import proofs.«132734_j72301479461275_2_alg».proof.Proof.Ideal.Matmul6
import proofs.«132734_j72301479461275_2_alg».proof.Proof.Ideal.Bn7
import proofs.«132734_j72301479461275_2_alg».proof.Proof.Ideal.Affine8
import proofs.«132734_j72301479461275_2_alg».proof.Proof.Ideal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Reading a valuation updated at three buffers

Stated over an ABSTRACT base valuation, so that nothing ever unfolds the host stretches behind the one it is used at. -/

theorem upd3_fst (W : Valuation τ sig (Elt F)) (x0 x1 x2 : DevRef τ sig) (a : x0.ty.Contents (Elt F)) (b : x1.ty.Contents (Elt F)) (d : x2.ty.Contents (Elt F))
    (h01 : x0 ≠ x1) (h02 : x0 ≠ x2) :
    Function.update (Function.update (Function.update W x0 a) x1 b) x2 d x0 = a := by
  rw [Function.update_of_ne h02, Function.update_of_ne h01, Function.update_self]
theorem upd3_snd (W : Valuation τ sig (Elt F)) (x0 x1 x2 : DevRef τ sig) (a : x0.ty.Contents (Elt F)) (b : x1.ty.Contents (Elt F)) (d : x2.ty.Contents (Elt F))
    (h12 : x1 ≠ x2) :
    Function.update (Function.update (Function.update W x0 a) x1 b) x2 d x1 = b := by
  rw [Function.update_of_ne h12, Function.update_self]
theorem upd3_thd (W : Valuation τ sig (Elt F)) (x0 x1 x2 : DevRef τ sig) (a : x0.ty.Contents (Elt F)) (b : x1.ty.Contents (Elt F)) (d : x2.ty.Contents (Elt F)) :
    Function.update (Function.update (Function.update W x0 a) x1 b) x2 d x2 = d :=
  Function.update_self _ _ _

/-! ## What the regions leave

Region K is entered with the valuation of the item before it, read over the leavings of the regions before K only. -/

/-- Before any region: nothing has been left; the value is never read. -/
def oo0 : Outs (F := F) := fun _ r c => m ((c : Thread nD τ).loc r)

/-- What region 0 leaves: its arrays at the write-backs' fold over the entry contents, every other buffer as entered. -/
def lv0 (c : Dev nD) : Valuation τ sig (Elt F) :=
  Pipeline.withArrays spec0 c (V1 m c) fun w => (dat0 (fun c b => V1 m c b) c).arrAt w cfg0.N
/-- The leavings of regions 0 … 0. -/
def oo1 : Outs (F := F) := fun J r c => if J = 2 then lv0 m c r else oo0 m J r c

/-- What region 1 leaves: its arrays at the write-backs' fold over the entry contents, every other buffer as entered. -/
def lv1 (c : Dev nD) : Valuation τ sig (Elt F) :=
  Pipeline.withArrays spec1 c (V5 m (oo1 m) c) fun w => (dat1 (fun c b => V5 m (oo1 m) c b) c).arrAt w cfg1.N
/-- The leavings of regions 0 … 1. -/
def oo2 : Outs (F := F) := fun J r c => if J = 6 then lv1 m c r else oo1 m J r c

/-- What region 2 leaves: its arrays at the write-backs' fold over the entry contents, every other buffer as entered. -/
def lv2 (c : Dev nD) : Valuation τ sig (Elt F) :=
  Pipeline.withArrays spec2 c (V7 m (oo2 m) c) fun w => (dat2 (fun c b => V7 m (oo2 m) c b) c).arrAt w cfg2.N
/-- The leavings of regions 0 … 2. -/
def oo3 : Outs (F := F) := fun J r c => if J = 8 then lv2 m c r else oo2 m J r c

/-- What region 3 leaves: its arrays at the write-backs' fold over the entry contents, every other buffer as entered. -/
def lv3 (c : Dev nD) : Valuation τ sig (Elt F) :=
  Pipeline.withArrays spec3 c (V9 m (oo3 m) c) fun w => (dat3 (fun c b => V9 m (oo3 m) c b) c).arrAt w cfg3.N
/-- The leavings of regions 0 … 3. -/
def oo4 : Outs (F := F) := fun J r c => if J = 10 then lv3 m c r else oo3 m J r c

/-- What region 4 leaves: its arrays at the write-backs' fold over the entry contents, every other buffer as entered. -/
def lv4 (c : Dev nD) : Valuation τ sig (Elt F) :=
  Pipeline.withArrays spec4 c (V13 m (oo4 m) c) fun w => (dat4 (fun c b => V13 m (oo4 m) c b) c).arrAt w cfg4.N
/-- The leavings of regions 0 … 4. -/
def oo5 : Outs (F := F) := fun J r c => if J = 14 then lv4 m c r else oo4 m J r c

/-- What region 5 leaves: its arrays at the write-backs' fold over the entry contents, every other buffer as entered. -/
def lv5 (c : Dev nD) : Valuation τ sig (Elt F) :=
  Pipeline.withArrays spec5 c (V15 m (oo5 m) c) fun w => (dat5 (fun c b => V15 m (oo5 m) c b) c).arrAt w cfg5.N
/-- The leavings of regions 0 … 5. -/
def oo6 : Outs (F := F) := fun J r c => if J = 16 then lv5 m c r else oo5 m J r c

/-- What region 6 leaves: its arrays at the write-backs' fold over the entry contents, every other buffer as entered. -/
def lv6 (c : Dev nD) : Valuation τ sig (Elt F) :=
  Pipeline.withArrays spec6 c (V17 m (oo6 m) c) fun w => (dat6 (fun c b => V17 m (oo6 m) c b) c).arrAt w cfg6.N
/-- The leavings of regions 0 … 6. -/
def oo7 : Outs (F := F) := fun J r c => if J = 18 then lv6 m c r else oo6 m J r c

/-- What region 7 leaves: its arrays at the write-backs' fold over the entry contents, every other buffer as entered. -/
def lv7 (c : Dev nD) : Valuation τ sig (Elt F) :=
  Pipeline.withArrays spec7 c (V21 m (oo7 m) c) fun w => (dat7 (fun c b => V21 m (oo7 m) c b) c).arrAt w cfg7.N
/-- The leavings of regions 0 … 7. -/
def oo8 : Outs (F := F) := fun J r c => if J = 22 then lv7 m c r else oo7 m J r c

/-- What region 8 leaves: its arrays at the write-backs' fold over the entry contents, every other buffer as entered. -/
def lv8 (c : Dev nD) : Valuation τ sig (Elt F) :=
  Pipeline.withArrays spec8 c (V23 m (oo8 m) c) fun w => (dat8 (fun c b => V23 m (oo8 m) c b) c).arrAt w cfg8.N
/-- The leavings of regions 0 … 8. -/
def oo9 : Outs (F := F) := fun J r c => if J = 24 then lv8 m c r else oo8 m J r c

/-- Every region's leavings. -/
abbrev outs : Outs (F := F) := oo9 m

/-! ## The proof data family and the thread state beside the buffers -/

/-- Every pipeline's proof data, each at the contents its region is entered with — a literal match on the pipeline. -/
def pdats : (p : Fin 9) → (c : Dev nD) → Dat τ (Elt F) Unit ℕ (UR sig nD τ) ℕ (cfgs p) c
  | ⟨0, _⟩ => fun c => dat0 (fun c b => V1 m c b) c
  | ⟨1, _⟩ => fun c => dat1 (fun c b => V5 m (oo1 m) c b) c
  | ⟨2, _⟩ => fun c => dat2 (fun c b => V7 m (oo2 m) c b) c
  | ⟨3, _⟩ => fun c => dat3 (fun c b => V9 m (oo3 m) c b) c
  | ⟨4, _⟩ => fun c => dat4 (fun c b => V13 m (oo4 m) c b) c
  | ⟨5, _⟩ => fun c => dat5 (fun c b => V15 m (oo5 m) c b) c
  | ⟨6, _⟩ => fun c => dat6 (fun c b => V17 m (oo6 m) c b) c
  | ⟨7, _⟩ => fun c => dat7 (fun c b => V21 m (oo7 m) c b) c
  | ⟨8, _⟩ => fun c => dat8 (fun c b => V23 m (oo8 m) c b) c

/-! ## The valuations read over two families of leavings that agree on the indices read so far

Each valuation is the previous one through a host stretch, or through a region's update at its output buffers with the
leavings read at that region's index. So two families that agree at the indices of regions 0 … K give the same
valuations up to the entry of region K+1. Stated stage by stage, each from the stage before. -/

section Agree
variable (o o' : Outs (F := F))

theorem ag2 (h2 : ∀ r c, o 2 r c = o' 2 r c) (c : Dev nD) : V2 m o c = V2 m o' c := by
  show Function.update (V1 m c) (Proc.devRef .tc main_v6) (o 2 main_v6 c) = Function.update (V1 m c) (Proc.devRef .tc main_v6) (o' 2 main_v6 c)
  rw [h2]
theorem ag5 (h2 : ∀ r c, o 2 r c = o' 2 r c) (c : Dev nD) : V5 m o c = V5 m o' c :=
  congrArg (fun W => StableHlo.after hostOps1_2 (StableHlo.after hostOps1_1 (StableHlo.after hostOps1 W))) (ag2 m o o' h2 c)
theorem ag6 (h2 : ∀ r c, o 2 r c = o' 2 r c) (h6 : ∀ r c, o 6 r c = o' 6 r c) (c : Dev nD) : V6 m o c = V6 m o' c := by
  show Function.update (Function.update (Function.update (V5 m o c) (Proc.devRef .tc main_v51_0) (o 6 main_v51_0 c))
      (Proc.devRef .tc main_v51_1) (o 6 main_v51_1 c)) (Proc.devRef .tc main_v51_2) (o 6 main_v51_2 c)
    = Function.update (Function.update (Function.update (V5 m o' c) (Proc.devRef .tc main_v51_0) (o' 6 main_v51_0 c))
      (Proc.devRef .tc main_v51_1) (o' 6 main_v51_1 c)) (Proc.devRef .tc main_v51_2) (o' 6 main_v51_2 c)
  rw [ag5 m o o' h2 c, h6, h6, h6]
theorem ag7 (h2 : ∀ r c, o 2 r c = o' 2 r c) (h6 : ∀ r c, o 6 r c = o' 6 r c) (c : Dev nD) : V7 m o c = V7 m o' c :=
  congrArg (StableHlo.after hostOps2) (ag6 m o o' h2 h6 c)
theorem ag8 (h2 : ∀ r c, o 2 r c = o' 2 r c) (h6 : ∀ r c, o 6 r c = o' 6 r c) (h8 : ∀ r c, o 8 r c = o' 8 r c) (c : Dev nD) :
    V8 m o c = V8 m o' c := by
  show Function.update (V7 m o c) (Proc.devRef .tc main_v77) (o 8 main_v77 c) = Function.update (V7 m o' c) (Proc.devRef .tc main_v77) (o' 8 main_v77 c)
  rw [ag7 m o o' h2 h6 c, h8]
theorem ag9 (h2 : ∀ r c, o 2 r c = o' 2 r c) (h6 : ∀ r c, o 6 r c = o' 6 r c) (h8 : ∀ r c, o 8 r c = o' 8 r c) (c : Dev nD) :
    V9 m o c = V9 m o' c :=
  congrArg (StableHlo.after hostOps3) (ag8 m o o' h2 h6 h8 c)

theorem ag10 (h2 : ∀ r c, o 2 r c = o' 2 r c) (h6 : ∀ r c, o 6 r c = o' 6 r c) (h8 : ∀ r c, o 8 r c = o' 8 r c) (h10 : ∀ r c, o 10 r c = o' 10 r c) (c : Dev nD) : V10 m o c = V10 m o' c := by
  show Function.update (V9 m o c) (Proc.devRef .tc main_v80) (o 10 main_v80 c) = Function.update (V9 m o' c) (Proc.devRef .tc main_v80) (o' 10 main_v80 c)
  rw [ag9 m o o' h2 h6 h8 c, h10]
theorem ag13 (h2 : ∀ r c, o 2 r c = o' 2 r c) (h6 : ∀ r c, o 6 r c = o' 6 r c) (h8 : ∀ r c, o 8 r c = o' 8 r c) (h10 : ∀ r c, o 10 r c = o' 10 r c) (c : Dev nD) : V13 m o c = V13 m o' c :=
  congrArg (fun W => StableHlo.after hostOps4_2 (StableHlo.after hostOps4_1 (StableHlo.after hostOps4 W))) (ag10 m o o' h2 h6 h8 h10 c)
theorem ag14 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (c : Dev nD) : V14 m o c = V14 m o' c := by
  show Function.update (Function.update (Function.update (V13 m o c) (Proc.devRef .tc main_v125_0) (o 14 main_v125_0 c))
      (Proc.devRef .tc main_v125_1) (o 14 main_v125_1 c)) (Proc.devRef .tc main_v125_2) (o 14 main_v125_2 c)
    = Function.update (Function.update (Function.update (V13 m o' c) (Proc.devRef .tc main_v125_0) (o' 14 main_v125_0 c))
      (Proc.devRef .tc main_v125_1) (o' 14 main_v125_1 c)) (Proc.devRef .tc main_v125_2) (o' 14 main_v125_2 c)
  rw [ag13 m o o' h2 h6 h8 h10 c, h14, h14, h14]
theorem ag15 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (c : Dev nD) : V15 m o c = V15 m o' c :=
  congrArg (StableHlo.after hostOps5) (ag14 m o o' h2 h6 h8 h10 h14 c)
theorem ag16 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (c : Dev nD) : V16 m o c = V16 m o' c := by
  show Function.update (V15 m o c) (Proc.devRef .tc main_v151) (o 16 main_v151 c) = Function.update (V15 m o' c) (Proc.devRef .tc main_v151) (o' 16 main_v151 c)
  rw [ag15 m o o' h2 h6 h8 h10 h14 c, h16]
theorem ag17 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (c : Dev nD) : V17 m o c = V17 m o' c :=
  congrArg (StableHlo.after hostOps6) (ag16 m o o' h2 h6 h8 h10 h14 h16 c)
theorem ag18 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (c : Dev nD) : V18 m o c = V18 m o' c := by
  show Function.update (V17 m o c) (Proc.devRef .tc main_v154) (o 18 main_v154 c) = Function.update (V17 m o' c) (Proc.devRef .tc main_v154) (o' 18 main_v154 c)
  rw [ag17 m o o' h2 h6 h8 h10 h14 h16 c, h18]
theorem ag21 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (c : Dev nD) : V21 m o c = V21 m o' c :=
  congrArg (fun W => StableHlo.after hostOps7_2 (StableHlo.after hostOps7_1 (StableHlo.after hostOps7 W))) (ag18 m o o' h2 h6 h8 h10 h14 h16 h18 c)
theorem ag22 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (h22 : ∀ r c, o 22 r c = o' 22 r c) (c : Dev nD) : V22 m o c = V22 m o' c := by
  show Function.update (Function.update (Function.update (V21 m o c) (Proc.devRef .tc main_v199_0) (o 22 main_v199_0 c))
      (Proc.devRef .tc main_v199_1) (o 22 main_v199_1 c)) (Proc.devRef .tc main_v199_2) (o 22 main_v199_2 c)
    = Function.update (Function.update (Function.update (V21 m o' c) (Proc.devRef .tc main_v199_0) (o' 22 main_v199_0 c))
      (Proc.devRef .tc main_v199_1) (o' 22 main_v199_1 c)) (Proc.devRef .tc main_v199_2) (o' 22 main_v199_2 c)
  rw [ag21 m o o' h2 h6 h8 h10 h14 h16 h18 c, h22, h22, h22]
theorem ag23 (h2 : ∀ r c, o 2 r c = o' 2 r c) (h6 : ∀ r c, o 6 r c = o' 6 r c) (h8 : ∀ r c, o 8 r c = o' 8 r c) (h10 : ∀ r c, o 10 r c = o' 10 r c) (h14 : ∀ r c, o 14 r c = o' 14 r c) (h16 : ∀ r c, o 16 r c = o' 16 r c) (h18 : ∀ r c, o 18 r c = o' 18 r c) (h22 : ∀ r c, o 22 r c = o' 22 r c) (c : Dev nD) : V23 m o c = V23 m o' c :=
  congrArg (StableHlo.after hostOps8) (ag22 m o o' h2 h6 h8 h10 h14 h16 h18 h22 c)

end Agree

/-! ## Every region is entered with contents that its own stage of the leavings determines -/

theorem ent1' (c : Dev nD) : V5 m (outs m) c = V5 m (oo1 m) c := ag5 m _ _ (fun _ _ => rfl) c
theorem ent2' (c : Dev nD) : V7 m (outs m) c = V7 m (oo2 m) c := ag7 m _ _ (fun _ _ => rfl) (fun _ _ => rfl) c
theorem ent3 (c : Dev nD) : V9 m (outs m) c = V9 m (oo3 m) c := ag9 m _ _ (fun _ _ => rfl) (fun _ _ => rfl) (fun _ _ => rfl) c
theorem ent4 (c : Dev nD) : V13 m (outs m) c = V13 m (oo4 m) c :=
  ag13 m _ _ (fun _ _ => rfl) (fun _ _ => rfl) (fun _ _ => rfl) (fun _ _ => rfl) c
theorem ent5 (c : Dev nD) : V15 m (outs m) c = V15 m (oo5 m) c :=
  ag15 m _ _ (fun _ _ => rfl) (fun _ _ => rfl) (fun _ _ => rfl) (fun _ _ => rfl) (fun _ _ => rfl) c
theorem ent6 (c : Dev nD) : V17 m (outs m) c = V17 m (oo6 m) c :=
  ag17 m _ _ (fun _ _ => rfl) (fun _ _ => rfl) (fun _ _ => rfl) (fun _ _ => rfl) (fun _ _ => rfl) (fun _ _ => rfl) c
theorem ent7 (c : Dev nD) : V21 m (outs m) c = V21 m (oo7 m) c :=
  ag21 m _ _ (fun _ _ => rfl) (fun _ _ => rfl) (fun _ _ => rfl) (fun _ _ => rfl) (fun _ _ => rfl) (fun _ _ => rfl) (fun _ _ => rfl) c
theorem ent8 (c : Dev nD) : V23 m (outs m) c = V23 m (oo8 m) c :=
  ag23 m _ _ (fun _ _ => rfl) (fun _ _ => rfl) (fun _ _ => rfl) (fun _ _ => rfl) (fun _ _ => rfl) (fun _ _ => rfl) (fun _ _ => rfl) (fun _ _ => rfl) c

/-! ## Region 0 -/

/-- At region 0's exit each of its arrays holds what the pipeline leaves: the output the fold of its write-backs,
    an input what it held at entry. -/
theorem hF0 (o : Outs (F := F)) (ho : ∀ r c, o 2 r c = lv0 m c r) (c : Dev nD) (w : Fin cfg0.W) :
    (dat0 (F := F) (fun c b => V1 m c b) c).arrAt w cfg0.N = V2 m o c (Pipeline.arrRef spec0 w) := by
  match w with
  | ⟨0, _⟩ => exact ((dat0 (fun c b => V1 m c b) c).arrAt_in 0 rfl _).trans ((A_eq0 _ c 0).trans (V2_of m o c _ (by decide)).symm)
  | ⟨1, _⟩ => exact ((dat0 (fun c b => V1 m c b) c).arrAt_in 1 rfl _).trans ((A_eq0 _ c 1).trans (V2_of m o c _ (by decide)).symm)
  | ⟨2, _⟩ =>
    have hkey : V2 m o c main_v6 = o 2 main_v6 c := by
      show Function.update (V1 m c) (Proc.devRef .tc main_v6) (o 2 main_v6 c) (Proc.devRef .tc main_v6) = _
      exact Function.update_self _ _ _
    refine Eq.trans ?_ hkey.symm
    rw [ho]
    unfold lv0
    show (dat0 (fun c b => V1 m c b) c).arrAt 2 cfg0.N
      = Pipeline.withArrays spec0 c (V1 m c) (fun w => (dat0 (fun c b => V1 m c b) c).arrAt w cfg0.N)
          (Proc.devRef .tc (Pipeline.arrRef spec0 2))
    exact (Pipeline.withArrays_arr spec0 launch0.win.arr_inj c (V1 m c)
      (fun w => (dat0 (fun c b => V1 m c b) c).arrAt w cfg0.N) 2).symm
  | ⟨n + 3, h⟩ => exact absurd h (by show ¬ n + 3 < 3; omega)

/-- … and every other buffer what it held at entry. -/
theorem hrest0 (o : Outs (F := F)) (c : Dev nD) :
    ∀ b : Ref sig .tc, b ∉ Finset.univ.image (Pipeline.arrRef spec0) → V2 m o c b = V1 m c b :=
  fun b hb => V2_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 0 as a segment: entered with every unscoped buffer at `V1`, left with them at `V2` read over the leavings.
    At entry its three arrays are split out of the unscoped buffers, the generator register goes into the kernel's
    invariant, and everything else bypasses the region; at exit the arrays come back at what the pipeline leaves. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N)
      (hF0 m (outs m) (fun _ _ => rfl) c) (hrest0 m (outs m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Input window 0: what it held at entry, which no item of the region writes. -/
theorem hF1_0 (o : Outs (F := F)) (he : ∀ c, V5 m o c = V5 m (oo1 m) c) (c : Dev nD) :
    (dat1 (F := F) (fun c b => V5 m (oo1 m) c b) c).arrAt 0 cfg1.N = V6 m o c (Pipeline.arrRef spec1 0) :=
  ((dat1 (F := F) (fun c b => V5 m (oo1 m) c b) c).arrAt_in 0 rfl _).trans ((A_eq1 _ c 0).trans
    ((V6_of m o c (Pipeline.arrRef spec1 0) (by decide)).trans (congrFun (he c) _)).symm)

/-- Input window 1: what it held at entry, which no item of the region writes. -/
theorem hF1_1 (o : Outs (F := F)) (he : ∀ c, V5 m o c = V5 m (oo1 m) c) (c : Dev nD) :
    (dat1 (F := F) (fun c b => V5 m (oo1 m) c b) c).arrAt 1 cfg1.N = V6 m o c (Pipeline.arrRef spec1 1) :=
  ((dat1 (F := F) (fun c b => V5 m (oo1 m) c b) c).arrAt_in 1 rfl _).trans ((A_eq1 _ c 1).trans
    ((V6_of m o c (Pipeline.arrRef spec1 1) (by decide)).trans (congrFun (he c) _)).symm)

/-- Output window 2: the fold of its write-backs, which is what the leavings hold at `main_v51_0`. -/
theorem hF1_2 (o : Outs (F := F)) (ho : ∀ r c, o 6 r c = lv1 m c r) (c : Dev nD) :
    (dat1 (F := F) (fun c b => V5 m (oo1 m) c b) c).arrAt 2 cfg1.N = V6 m o c (Pipeline.arrRef spec1 2) := by
  have hkey : V6 m o c main_v51_0 = o 6 main_v51_0 c :=
    upd3_fst (V5 m o c) _ _ _ _ _ _ (StableHlo.devRef_ne_of_ne (by decide)) (StableHlo.devRef_ne_of_ne (by decide))
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 2).symm

/-- Output window 3: the fold of its write-backs, which is what the leavings hold at `main_v51_1`. -/
theorem hF1_3 (o : Outs (F := F)) (ho : ∀ r c, o 6 r c = lv1 m c r) (c : Dev nD) :
    (dat1 (F := F) (fun c b => V5 m (oo1 m) c b) c).arrAt 3 cfg1.N = V6 m o c (Pipeline.arrRef spec1 3) := by
  have hkey : V6 m o c main_v51_1 = o 6 main_v51_1 c :=
    upd3_snd (V5 m o c) _ _ _ _ _ _ (StableHlo.devRef_ne_of_ne (by decide))
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 3).symm

/-- Output window 4: the fold of its write-backs, which is what the leavings hold at `main_v51_2`. -/
theorem hF1_4 (o : Outs (F := F)) (ho : ∀ r c, o 6 r c = lv1 m c r) (c : Dev nD) :
    (dat1 (F := F) (fun c b => V5 m (oo1 m) c b) c).arrAt 4 cfg1.N = V6 m o c (Pipeline.arrRef spec1 4) := by
  have hkey : V6 m o c main_v51_2 = o 6 main_v51_2 c :=
    upd3_thd (V5 m o c) _ _ _ _ _ _
  refine Eq.trans ?_ hkey.symm
  rw [ho]; unfold lv1
  exact (Pipeline.withArrays_arr spec1 launch1.win.arr_inj c (V5 m (oo1 m) c)
    (fun w => (dat1 (fun c b => V5 m (oo1 m) c b) c).arrAt w cfg1.N) 4).symm

/-- At region 1's exit each of its arrays holds what the pipeline leaves. -/
theorem hF1 (o : Outs (F := F)) (ho : ∀ r c, o 6 r c = lv1 m c r) (he : ∀ c, V5 m o c = V5 m (oo1 m) c) (c : Dev nD) (w : Fin cfg1.W) :
    (dat1 (F := F) (fun c b => V5 m (oo1 m) c b) c).arrAt w cfg1.N = V6 m o c (Pipeline.arrRef spec1 w) :=
  match w with
  | ⟨0, _⟩ => hF1_0 m o he c
  | ⟨1, _⟩ => hF1_1 m o he c
  | ⟨2, _⟩ => hF1_2 m o ho c
  | ⟨3, _⟩ => hF1_3 m o ho c
  | ⟨4, _⟩ => hF1_4 m o ho c
  | ⟨n + 5, h⟩ => absurd h (by show ¬ n + 5 < 5; omega)

/-- … and every other buffer what it held at entry. -/
theorem hrest1 (o : Outs (F := F)) (c : Dev nD) :
    ∀ b : Ref sig .tc, b ∉ Finset.univ.image (Pipeline.arrRef spec1) → V6 m o c b = V5 m o c b :=
  fun b hb => V6_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 1 as a segment: entered with every unscoped buffer at `V5`, left with them at `V6`, both read over the
    leavings. Its five arrays are split out of the unscoped buffers at entry and come back at what the pipeline
    leaves; the generator register goes through the kernel's invariant. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V5 m (oo1 m) c b) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (oo1 m) c b)
  hentry c := by
    rw [Pipeline.ownSems0_none, ent1' m c]
    have hsplit := Pipeline.arrays_of_unscopedBufs (p := 1) (pcfgs (F := F)) adm (pdats m) launch1.win launch1.arr_whole c
      ((pdats m 1 c).share_full fun _ => rfl) (fun b => V5 m (oo1 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (oo1 m) c b) (fun b => V6 m (outs m) c b) ((pdats m 1 c).arrAt · cfg1.N)
      (hF1 m (outs m) (fun _ _ => rfl) (ent1' m) c)
      (fun b hb => (hrest1 m (outs m) c b hb).trans (congrFun (ent1' m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Input windows: what they held at entry, which no item of the region writes. -/
theorem hF2_0 (o : Outs (F := F)) (he : ∀ c, V7 m o c = V7 m (oo2 m) c) (c : Dev nD) :
    (dat2 (F := F) (fun c b => V7 m (oo2 m) c b) c).arrAt 0 cfg2.N = V8 m o c (Pipeline.arrRef spec2 0) :=
  ((dat2 (F := F) (fun c b => V7 m (oo2 m) c b) c).arrAt_in 0 rfl _).trans ((A_eq2 _ c 0).trans
    ((V8_of m o c (Pipeline.arrRef spec2 0) (by decide)).trans (congrFun (he c) _)).symm)
theorem hF2_1 (o : Outs (F := F)) (he : ∀ c, V7 m o c = V7 m (oo2 m) c) (c : Dev nD) :
    (dat2 (F := F) (fun c b => V7 m (oo2 m) c b) c).arrAt 1 cfg2.N = V8 m o c (Pipeline.arrRef spec2 1) :=
  ((dat2 (F := F) (fun c b => V7 m (oo2 m) c b) c).arrAt_in 1 rfl _).trans ((A_eq2 _ c 1).trans
    ((V8_of m o c (Pipeline.arrRef spec2 1) (by decide)).trans (congrFun (he c) _)).symm)
theorem hF2_2 (o : Outs (F := F)) (he : ∀ c, V7 m o c = V7 m (oo2 m) c) (c : Dev nD) :
    (dat2 (F := F) (fun c b => V7 m (oo2 m) c b) c).arrAt 2 cfg2.N = V8 m o c (Pipeline.arrRef spec2 2) :=
  ((dat2 (F := F) (fun c b => V7 m (oo2 m) c b) c).arrAt_in 2 rfl _).trans ((A_eq2 _ c 2).trans
    ((V8_of m o c (Pipeline.arrRef spec2 2) (by decide)).trans (congrFun (he c) _)).symm)

/-- The output window: the fold of its write-backs, which is what the leavings hold at `main_v77`. -/
theorem hF2_3 (o : Outs (F := F)) (ho : ∀ r c, o 8 r c = lv2 m c r) (c : Dev nD) :
    (dat2 (F := F) (fun c b => V7 m (oo2 m) c b) c).arrAt 3 cfg2.N = V8 m o c (Pipeline.arrRef spec2 3) := by
  have hkey : V8 m o c main_v77 = o 8 main_v77 c := Function.update_self _ _ _
  refine Eq.trans ?_ hkey.symm
  rw [ho]; unfold lv2
  exact (Pipeline.withArrays_arr spec2 launch2.win.arr_inj c (V7 m (oo2 m) c)
    (fun w => (dat2 (fun c b => V7 m (oo2 m) c b) c).arrAt w cfg2.N) 3).symm

/-- At region 2's exit each of its arrays holds what the pipeline leaves. -/
theorem hF2 (o : Outs (F := F)) (ho : ∀ r c, o 8 r c = lv2 m c r) (he : ∀ c, V7 m o c = V7 m (oo2 m) c) (c : Dev nD) (w : Fin cfg2.W) :
    (dat2 (F := F) (fun c b => V7 m (oo2 m) c b) c).arrAt w cfg2.N = V8 m o c (Pipeline.arrRef spec2 w) :=
  match w with
  | ⟨0, _⟩ => hF2_0 m o he c
  | ⟨1, _⟩ => hF2_1 m o he c
  | ⟨2, _⟩ => hF2_2 m o he c
  | ⟨3, _⟩ => hF2_3 m o ho c
  | ⟨n + 4, h⟩ => absurd h (by show ¬ n + 4 < 4; omega)

/-- … and every other buffer what it held at entry. -/
theorem hrest2 (o : Outs (F := F)) (c : Dev nD) :
    ∀ b : Ref sig .tc, b ∉ Finset.univ.image (Pipeline.arrRef spec2) → V8 m o c b = V7 m o c b :=
  fun b hb => V8_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 2 as a segment: entered with every unscoped buffer at `V7`, left with them at `V8`, both read over the
    leavings. Its four arrays are split out of the unscoped buffers at entry and come back at what the pipeline
    leaves; the generator register goes through the kernel's invariant. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V7 m (oo2 m) c b) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (oo2 m) c b)
  hentry c := by
    rw [Pipeline.ownSems0_none, ent2' m c]
    have hsplit := Pipeline.arrays_of_unscopedBufs (p := 2) (pcfgs (F := F)) adm (pdats m) launch2.win launch2.arr_whole c
      ((pdats m 2 c).share_full fun _ => rfl) (fun b => V7 m (oo2 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (oo2 m) c b) (fun b => V8 m (outs m) c b) ((pdats m 2 c).arrAt · cfg2.N)
      (hF2 m (outs m) (fun _ _ => rfl) (ent2' m) c)
      (fun b hb => (hrest2 m (outs m) c b hb).trans (congrFun (ent2' m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Input windows: what they held at entry, which no item of the region writes. -/
theorem hF3_0 (o : Outs (F := F)) (he : ∀ c, V9 m o c = V9 m (oo3 m) c) (c : Dev nD) :
    (dat3 (F := F) (fun c b => V9 m (oo3 m) c b) c).arrAt 0 cfg3.N = V10 m o c (Pipeline.arrRef spec3 0) :=
  ((dat3 (F := F) (fun c b => V9 m (oo3 m) c b) c).arrAt_in 0 rfl _).trans ((A_eq3 _ c 0).trans
    ((V10_of m o c (Pipeline.arrRef spec3 0) (by decide)).trans (congrFun (he c) _)).symm)
theorem hF3_1 (o : Outs (F := F)) (he : ∀ c, V9 m o c = V9 m (oo3 m) c) (c : Dev nD) :
    (dat3 (F := F) (fun c b => V9 m (oo3 m) c b) c).arrAt 1 cfg3.N = V10 m o c (Pipeline.arrRef spec3 1) :=
  ((dat3 (F := F) (fun c b => V9 m (oo3 m) c b) c).arrAt_in 1 rfl _).trans ((A_eq3 _ c 1).trans
    ((V10_of m o c (Pipeline.arrRef spec3 1) (by decide)).trans (congrFun (he c) _)).symm)

/-- The output window: the fold of its write-backs, which is what the leavings hold at `main_v80`. -/
theorem hF3_2 (o : Outs (F := F)) (ho : ∀ r c, o 10 r c = lv3 m c r) (c : Dev nD) :
    (dat3 (F := F) (fun c b => V9 m (oo3 m) c b) c).arrAt 2 cfg3.N = V10 m o c (Pipeline.arrRef spec3 2) := by
  have hkey : V10 m o c main_v80 = o 10 main_v80 c := Function.update_self _ _ _
  refine Eq.trans ?_ hkey.symm
  rw [ho]; unfold lv3
  exact (Pipeline.withArrays_arr spec3 launch3.win.arr_inj c (V9 m (oo3 m) c)
    (fun w => (dat3 (fun c b => V9 m (oo3 m) c b) c).arrAt w cfg3.N) 2).symm

/-- At region 3's exit each of its arrays holds what the pipeline leaves. -/
theorem hF3 (o : Outs (F := F)) (ho : ∀ r c, o 10 r c = lv3 m c r) (he : ∀ c, V9 m o c = V9 m (oo3 m) c) (c : Dev nD) (w : Fin cfg3.W) :
    (dat3 (F := F) (fun c b => V9 m (oo3 m) c b) c).arrAt w cfg3.N = V10 m o c (Pipeline.arrRef spec3 w) :=
  match w with
  | ⟨0, _⟩ => hF3_0 m o he c
  | ⟨1, _⟩ => hF3_1 m o he c
  | ⟨2, _⟩ => hF3_2 m o ho c
  | ⟨n + 3, h⟩ => absurd h (by show ¬ n + 3 < 3; omega)

/-- … and every other buffer what it held at entry. -/
theorem hrest3 (o : Outs (F := F)) (c : Dev nD) :
    ∀ b : Ref sig .tc, b ∉ Finset.univ.image (Pipeline.arrRef spec3) → V10 m o c b = V9 m o c b :=
  fun b hb => V10_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 3 as a segment: entered with every unscoped buffer at `V9`, left with them at `V10`, both read over the
    leavings. Its three arrays are split out of the unscoped buffers at entry and come back at what the pipeline
    leaves; the generator register goes through the kernel's invariant. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V9 m (oo3 m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (oo3 m) c b)
  hentry c := by
    rw [Pipeline.ownSems0_none, ent3 m c]
    have hsplit := Pipeline.arrays_of_unscopedBufs (p := 3) (pcfgs (F := F)) adm (pdats m) launch3.win launch3.arr_whole c
      ((pdats m 3 c).share_full fun _ => rfl) (fun b => V9 m (oo3 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (oo3 m) c b) (fun b => V10 m (outs m) c b) ((pdats m 3 c).arrAt · cfg3.N)
      (hF3 m (outs m) (fun _ _ => rfl) (ent3 m) c)
      (fun b hb => (hrest3 m (outs m) c b hb).trans (congrFun (ent3 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- Input window 0: what it held at entry, which no item of the region writes. -/
theorem hF4_0 (o : Outs (F := F)) (he : ∀ c, V13 m o c = V13 m (oo4 m) c) (c : Dev nD) :
    (dat4 (F := F) (fun c b => V13 m (oo4 m) c b) c).arrAt 0 cfg4.N = V14 m o c (Pipeline.arrRef spec4 0) :=
  ((dat4 (F := F) (fun c b => V13 m (oo4 m) c b) c).arrAt_in 0 rfl _).trans ((A_eq4 _ c 0).trans
    ((V14_of m o c (Pipeline.arrRef spec4 0) (by decide)).trans (congrFun (he c) _)).symm)

/-- Input window 1: what it held at entry, which no item of the region writes. -/
theorem hF4_1 (o : Outs (F := F)) (he : ∀ c, V13 m o c = V13 m (oo4 m) c) (c : Dev nD) :
    (dat4 (F := F) (fun c b => V13 m (oo4 m) c b) c).arrAt 1 cfg4.N = V14 m o c (Pipeline.arrRef spec4 1) :=
  ((dat4 (F := F) (fun c b => V13 m (oo4 m) c b) c).arrAt_in 1 rfl _).trans ((A_eq4 _ c 1).trans
    ((V14_of m o c (Pipeline.arrRef spec4 1) (by decide)).trans (congrFun (he c) _)).symm)

/-- Output window 2: the fold of its write-backs, which is what the leavings hold at `main_v125_0`. -/
theorem hF4_2 (o : Outs (F := F)) (ho : ∀ r c, o 14 r c = lv4 m c r) (c : Dev nD) :
    (dat4 (F := F) (fun c b => V13 m (oo4 m) c b) c).arrAt 2 cfg4.N = V14 m o c (Pipeline.arrRef spec4 2) := by
  have hkey : V14 m o c main_v125_0 = o 14 main_v125_0 c :=
    upd3_fst (V13 m o c) _ _ _ _ _ _ (StableHlo.devRef_ne_of_ne (by decide)) (StableHlo.devRef_ne_of_ne (by decide))
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 2).symm

/-- Output window 3: the fold of its write-backs, which is what the leavings hold at `main_v125_1`. -/
theorem hF4_3 (o : Outs (F := F)) (ho : ∀ r c, o 14 r c = lv4 m c r) (c : Dev nD) :
    (dat4 (F := F) (fun c b => V13 m (oo4 m) c b) c).arrAt 3 cfg4.N = V14 m o c (Pipeline.arrRef spec4 3) := by
  have hkey : V14 m o c main_v125_1 = o 14 main_v125_1 c :=
    upd3_snd (V13 m o c) _ _ _ _ _ _ (StableHlo.devRef_ne_of_ne (by decide))
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 3).symm

/-- Output window 4: the fold of its write-backs, which is what the leavings hold at `main_v125_2`. -/
theorem hF4_4 (o : Outs (F := F)) (ho : ∀ r c, o 14 r c = lv4 m c r) (c : Dev nD) :
    (dat4 (F := F) (fun c b => V13 m (oo4 m) c b) c).arrAt 4 cfg4.N = V14 m o c (Pipeline.arrRef spec4 4) := by
  have hkey : V14 m o c main_v125_2 = o 14 main_v125_2 c :=
    upd3_thd (V13 m o c) _ _ _ _ _ _
  refine Eq.trans ?_ hkey.symm
  rw [ho]; unfold lv4
  exact (Pipeline.withArrays_arr spec4 launch4.win.arr_inj c (V13 m (oo4 m) c)
    (fun w => (dat4 (fun c b => V13 m (oo4 m) c b) c).arrAt w cfg4.N) 4).symm

/-- At region 4's exit each of its arrays holds what the pipeline leaves. -/
theorem hF4 (o : Outs (F := F)) (ho : ∀ r c, o 14 r c = lv4 m c r) (he : ∀ c, V13 m o c = V13 m (oo4 m) c) (c : Dev nD) (w : Fin cfg4.W) :
    (dat4 (F := F) (fun c b => V13 m (oo4 m) c b) c).arrAt w cfg4.N = V14 m o c (Pipeline.arrRef spec4 w) :=
  match w with
  | ⟨0, _⟩ => hF4_0 m o he c
  | ⟨1, _⟩ => hF4_1 m o he c
  | ⟨2, _⟩ => hF4_2 m o ho c
  | ⟨3, _⟩ => hF4_3 m o ho c
  | ⟨4, _⟩ => hF4_4 m o ho c
  | ⟨n + 5, h⟩ => absurd h (by show ¬ n + 5 < 5; omega)

/-- … and every other buffer what it held at entry. -/
theorem hrest4 (o : Outs (F := F)) (c : Dev nD) :
    ∀ b : Ref sig .tc, b ∉ Finset.univ.image (Pipeline.arrRef spec4) → V14 m o c b = V13 m o c b :=
  fun b hb => V14_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 4 as a segment: entered with every unscoped buffer at `V13`, left with them at `V14`, both read over the
    leavings. Its five arrays are split out of the unscoped buffers at entry and come back at what the pipeline
    leaves; the generator register goes through the kernel's invariant. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V13 m (oo4 m) c b) c).loose
  hwaits := Pipeline.hwaits_of_owed_zero _ _ _ _ L lv 4 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V13 m (oo4 m) c b)
  hentry c := by
    rw [Pipeline.ownSems0_none, ent4 m c]
    have hsplit := Pipeline.arrays_of_unscopedBufs (p := 4) (pcfgs (F := F)) adm (pdats m) launch4.win launch4.arr_whole c
      ((pdats m 4 c).share_full fun _ => rfl) (fun b => V13 m (oo4 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V13 m (oo4 m) c b) (fun b => V14 m (outs m) c b) ((pdats m 4 c).arrAt · cfg4.N)
      (hF4 m (outs m) (fun _ _ => rfl) (ent4 m) c)
      (fun b hb => (hrest4 m (outs m) c b hb).trans (congrFun (ent4 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- Input windows: what they held at entry, which no item of the region writes. -/
theorem hF5_0 (o : Outs (F := F)) (he : ∀ c, V15 m o c = V15 m (oo5 m) c) (c : Dev nD) :
    (dat5 (F := F) (fun c b => V15 m (oo5 m) c b) c).arrAt 0 cfg5.N = V16 m o c (Pipeline.arrRef spec5 0) :=
  ((dat5 (F := F) (fun c b => V15 m (oo5 m) c b) c).arrAt_in 0 rfl _).trans ((A_eq5 _ c 0).trans
    ((V16_of m o c (Pipeline.arrRef spec5 0) (by decide)).trans (congrFun (he c) _)).symm)
theorem hF5_1 (o : Outs (F := F)) (he : ∀ c, V15 m o c = V15 m (oo5 m) c) (c : Dev nD) :
    (dat5 (F := F) (fun c b => V15 m (oo5 m) c b) c).arrAt 1 cfg5.N = V16 m o c (Pipeline.arrRef spec5 1) :=
  ((dat5 (F := F) (fun c b => V15 m (oo5 m) c b) c).arrAt_in 1 rfl _).trans ((A_eq5 _ c 1).trans
    ((V16_of m o c (Pipeline.arrRef spec5 1) (by decide)).trans (congrFun (he c) _)).symm)
theorem hF5_2 (o : Outs (F := F)) (he : ∀ c, V15 m o c = V15 m (oo5 m) c) (c : Dev nD) :
    (dat5 (F := F) (fun c b => V15 m (oo5 m) c b) c).arrAt 2 cfg5.N = V16 m o c (Pipeline.arrRef spec5 2) :=
  ((dat5 (F := F) (fun c b => V15 m (oo5 m) c b) c).arrAt_in 2 rfl _).trans ((A_eq5 _ c 2).trans
    ((V16_of m o c (Pipeline.arrRef spec5 2) (by decide)).trans (congrFun (he c) _)).symm)

/-- The output window: the fold of its write-backs, which is what the leavings hold at `main_v151`. -/
theorem hF5_3 (o : Outs (F := F)) (ho : ∀ r c, o 16 r c = lv5 m c r) (c : Dev nD) :
    (dat5 (F := F) (fun c b => V15 m (oo5 m) c b) c).arrAt 3 cfg5.N = V16 m o c (Pipeline.arrRef spec5 3) := by
  have hkey : V16 m o c main_v151 = o 16 main_v151 c := Function.update_self _ _ _
  refine Eq.trans ?_ hkey.symm
  rw [ho]; unfold lv5
  exact (Pipeline.withArrays_arr spec5 launch5.win.arr_inj c (V15 m (oo5 m) c)
    (fun w => (dat5 (fun c b => V15 m (oo5 m) c b) c).arrAt w cfg5.N) 3).symm

/-- At region 5's exit each of its arrays holds what the pipeline leaves. -/
theorem hF5 (o : Outs (F := F)) (ho : ∀ r c, o 16 r c = lv5 m c r) (he : ∀ c, V15 m o c = V15 m (oo5 m) c) (c : Dev nD) (w : Fin cfg5.W) :
    (dat5 (F := F) (fun c b => V15 m (oo5 m) c b) c).arrAt w cfg5.N = V16 m o c (Pipeline.arrRef spec5 w) :=
  match w with
  | ⟨0, _⟩ => hF5_0 m o he c
  | ⟨1, _⟩ => hF5_1 m o he c
  | ⟨2, _⟩ => hF5_2 m o he c
  | ⟨3, _⟩ => hF5_3 m o ho c
  | ⟨n + 4, h⟩ => absurd h (by show ¬ n + 4 < 4; omega)

/-- … and every other buffer what it held at entry. -/
theorem hrest5 (o : Outs (F := F)) (c : Dev nD) :
    ∀ b : Ref sig .tc, b ∉ Finset.univ.image (Pipeline.arrRef spec5) → V16 m o c b = V15 m o c b :=
  fun b hb => V16_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 5 as a segment: entered with every unscoped buffer at `V15`, left with them at `V16`, both read over the
    leavings. Its four arrays are split out of the unscoped buffers at entry and come back at what the pipeline
    leaves; the generator register goes through the kernel's invariant. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V15 m (oo5 m) c b) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V15 m (oo5 m) c b)
  hentry c := by
    rw [Pipeline.ownSems0_none, ent5 m c]
    have hsplit := Pipeline.arrays_of_unscopedBufs (p := 5) (pcfgs (F := F)) adm (pdats m) launch5.win launch5.arr_whole c
      ((pdats m 5 c).share_full fun _ => rfl) (fun b => V15 m (oo5 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V15 m (oo5 m) c b) (fun b => V16 m (outs m) c b) ((pdats m 5 c).arrAt · cfg5.N)
      (hF5 m (outs m) (fun _ _ => rfl) (ent5 m) c)
      (fun b hb => (hrest5 m (outs m) c b hb).trans (congrFun (ent5 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

/-- Input windows: what they held at entry, which no item of the region writes. -/
theorem hF6_0 (o : Outs (F := F)) (he : ∀ c, V17 m o c = V17 m (oo6 m) c) (c : Dev nD) :
    (dat6 (F := F) (fun c b => V17 m (oo6 m) c b) c).arrAt 0 cfg6.N = V18 m o c (Pipeline.arrRef spec6 0) :=
  ((dat6 (F := F) (fun c b => V17 m (oo6 m) c b) c).arrAt_in 0 rfl _).trans ((A_eq6 _ c 0).trans
    ((V18_of m o c (Pipeline.arrRef spec6 0) (by decide)).trans (congrFun (he c) _)).symm)
theorem hF6_1 (o : Outs (F := F)) (he : ∀ c, V17 m o c = V17 m (oo6 m) c) (c : Dev nD) :
    (dat6 (F := F) (fun c b => V17 m (oo6 m) c b) c).arrAt 1 cfg6.N = V18 m o c (Pipeline.arrRef spec6 1) :=
  ((dat6 (F := F) (fun c b => V17 m (oo6 m) c b) c).arrAt_in 1 rfl _).trans ((A_eq6 _ c 1).trans
    ((V18_of m o c (Pipeline.arrRef spec6 1) (by decide)).trans (congrFun (he c) _)).symm)

/-- The output window: the fold of its write-backs, which is what the leavings hold at `main_v154`. -/
theorem hF6_2 (o : Outs (F := F)) (ho : ∀ r c, o 18 r c = lv6 m c r) (c : Dev nD) :
    (dat6 (F := F) (fun c b => V17 m (oo6 m) c b) c).arrAt 2 cfg6.N = V18 m o c (Pipeline.arrRef spec6 2) := by
  have hkey : V18 m o c main_v154 = o 18 main_v154 c := Function.update_self _ _ _
  refine Eq.trans ?_ hkey.symm
  rw [ho]; unfold lv6
  exact (Pipeline.withArrays_arr spec6 launch6.win.arr_inj c (V17 m (oo6 m) c)
    (fun w => (dat6 (fun c b => V17 m (oo6 m) c b) c).arrAt w cfg6.N) 2).symm

/-- At region 6's exit each of its arrays holds what the pipeline leaves. -/
theorem hF6 (o : Outs (F := F)) (ho : ∀ r c, o 18 r c = lv6 m c r) (he : ∀ c, V17 m o c = V17 m (oo6 m) c) (c : Dev nD) (w : Fin cfg6.W) :
    (dat6 (F := F) (fun c b => V17 m (oo6 m) c b) c).arrAt w cfg6.N = V18 m o c (Pipeline.arrRef spec6 w) :=
  match w with
  | ⟨0, _⟩ => hF6_0 m o he c
  | ⟨1, _⟩ => hF6_1 m o he c
  | ⟨2, _⟩ => hF6_2 m o ho c
  | ⟨n + 3, h⟩ => absurd h (by show ¬ n + 3 < 3; omega)

/-- … and every other buffer what it held at entry. -/
theorem hrest6 (o : Outs (F := F)) (c : Dev nD) :
    ∀ b : Ref sig .tc, b ∉ Finset.univ.image (Pipeline.arrRef spec6) → V18 m o c b = V17 m o c b :=
  fun b hb => V18_of m o c b (by
    simp only [List.mem_singleton]
    rintro rfl
    exact hb (Finset.mem_image.mpr ⟨2, Finset.mem_univ _, rfl⟩))

-- the library's entry and exit lemmas are stated over the pinned configuration: unification must unfold plain definitions
set_option backward.isDefEq.respectTransparency.types false in
/-- Region 6 as a segment: entered with every unscoped buffer at `V17`, left with them at `V18`, both read over the
    leavings. Its three arrays are split out of the unscoped buffers at entry and come back at what the pipeline
    leaves; the generator register goes through the kernel's invariant. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => V17 m (oo6 m) c b) c).loose
  hwaits := Pipeline.hwaits_of_owed_zero _ _ _ _ L lv 6 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => V17 m (oo6 m) c b)
  hentry c := by
    rw [Pipeline.ownSems0_none, ent6 m c]
    have hsplit := Pipeline.arrays_of_unscopedBufs (p := 6) (pcfgs (F := F)) adm (pdats m) launch6.win launch6.arr_whole c
      ((pdats m 6 c).share_full fun _ => rfl) (fun b => V17 m (oo6 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => V17 m (oo6 m) c b) (fun b => V18 m (outs m) c b) ((pdats m 6 c).arrAt · cfg6.N)
      (hF6 m (outs m) (fun _ _ => rfl) (ent6 m) c)
      (fun b hb => (hrest6 m (outs m) c b hb).trans (congrFun (ent6 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

/-- Input window 0: what it held at entry, which no item of the region writes. -/
theorem hF7_0 (o : Outs (F := F)) (he : ∀ c, V21 m o c = V21 m (oo7 m) c) (c : Dev nD) :
    (dat7 (F := F) (fun c b => V21 m (oo7 m) c b) c).arrAt 0 cfg7.N = V22 m o c (Pipeline.arrRef spec7 0) :=
  ((dat7 (F := F) (fun c b => V21 m (oo7 m) c b) c).arrAt_in 0 rfl _).trans ((A_eq7 _ c 0).trans
    ((V22_of m o c (Pipeline.arrRef spec7 0) (by decide)).trans (congrFun (he c) _)).symm)

/-- Input window 1: what it held at entry, which no item of the region writes. -/
theorem hF7_1 (o : Outs (F := F)) (he : ∀ c, V21 m o c = V21 m (oo7 m) c) (c : Dev nD) :
    (dat7 (F := F) (fun c b => V21 m (oo7 m) c b) c).arrAt 1 cfg7.N = V22 m o c (Pipeline.arrRef spec7 1) :=
  ((dat7 (F := F) (fun c b => V21 m (oo7 m) c b) c).arrAt_in 1 rfl _).trans ((A_eq7 _ c 1).trans
    ((V22_of m o c (Pipeline.arrRef spec7 1) (by decide)).trans (congrFun (he c) _)).symm)

/-- Output window 2: the fold of its write-backs, which is what the leavings hold at `main_v199_0`. -/
theorem hF7_2 (o : Outs (F := F)) (ho : ∀ r c, o 22 r c = lv7 m c r) (c : Dev nD) :
    (dat7 (F := F) (fun c b => V21 m (oo7 m) c b) c).arrAt 2 cfg7.N = V22 m o c (Pipeline.arrRef spec7 2) := by
  have hkey : V22 m o c main_v199_0 = o 22 main_v199_0 c :=
    upd3_fst (V21 m o c) _ _ _ _ _ _ (StableHlo.devRef_ne_of_ne (by decide)) (StableHlo.devRef_ne_of_ne (by decide))
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 2).symm

/-- Output window 3: the fold of its write-backs, which is what the leavings hold at `main_v199_1`. -/
theorem hF7_3 (o : Outs (F := F)) (ho : ∀ r c, o 22 r c = lv7 m c r) (c : Dev nD) :
    (dat7 (F := F) (fun c b => V21 m (oo7 m) c b) c).arrAt 3 cfg7.N = V22 m o c (Pipeline.arrRef spec7 3) := by
  have hkey : V22 m o c main_v199_1 = o 22 main_v199_1 c :=
    upd3_snd (V21 m o c) _ _ _ _ _ _ (StableHlo.devRef_ne_of_ne (by decide))
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 3).symm

/-- Output window 4: the fold of its write-backs, which is what the leavings hold at `main_v199_2`. -/
theorem hF7_4 (o : Outs (F := F)) (ho : ∀ r c, o 22 r c = lv7 m c r) (c : Dev nD) :
    (dat7 (F := F) (fun c b => V21 m (oo7 m) c b) c).arrAt 4 cfg7.N = V22 m o c (Pipeline.arrRef spec7 4) := by
  have hkey : V22 m o c main_v199_2 = o 22 main_v199_2 c :=
    upd3_thd (V21 m o c) _ _ _ _ _ _
  refine Eq.trans ?_ hkey.symm
  rw [ho]; unfold lv7
  exact (Pipeline.withArrays_arr spec7 launch7.win.arr_inj c (V21 m (oo7 m) c)
    (fun w => (dat7 (fun c b => V21 m (oo7 m) c b) c).arrAt w cfg7.N) 4).symm

/-- At region 7's exit each of its arrays holds what the pipeline leaves. -/
theorem hF7 (o : Outs (F := F)) (ho : ∀ r c, o 22 r c = lv7 m c r) (he : ∀ c, V21 m o c = V21 m (oo7 m) c) (c : Dev nD) (w : Fin cfg7.W) :
    (dat7 (F := F) (fun c b => V21 m (oo7 m) c b) c).arrAt w cfg7.N = V22 m o c (Pipeline.arrRef spec7 w) :=
  match w with
  | ⟨0, _⟩ => hF7_0 m o he c
  | ⟨1, _⟩ => hF7_1 m o he c
  | ⟨2, _⟩ => hF7_2 m o ho c
  | ⟨3, _⟩ => hF7_3 m o ho c
  | ⟨4, _⟩ => hF7_4 m o ho c
  | ⟨n + 5, h⟩ => absurd h (by show ¬ n + 5 < 5; omega)

/-- … and every other buffer what it held at entry. -/
theorem hrest7 (o : Outs (F := F)) (c : Dev nD) :
    ∀ b : Ref sig .tc, b ∉ Finset.univ.image (Pipeline.arrRef spec7) → V22 m o c b = V21 m o c b :=
  fun b hb => V22_of m o c b (by
    simp only [List.mem_cons, List.mem_singleton, List.not_mem_nil, or_false, not_or]
    exact ⟨fun e => hb (Finset.mem_image.mpr ⟨2, Finset.mem_univ _, e.symm⟩),
      fun e => hb (Finset.mem_image.mpr ⟨3, Finset.mem_univ _, e.symm⟩),
      fun e => hb (Finset.mem_image.mpr ⟨4, Finset.mem_univ _, e.symm⟩)⟩)

-- the library's entry and exit lemmas are stated over the pinned configuration: unification must unfold plain definitions
set_option backward.isDefEq.respectTransparency.types false in
/-- Region 7 as a segment: entered with every unscoped buffer at `V21`, left with them at `V22`, both read over the
    leavings. Its five arrays are split out of the unscoped buffers at entry and come back at what the pipeline
    leaves; the generator register goes through the kernel's invariant. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => V21 m (oo7 m) c b) c).loose
  hwaits := Pipeline.hwaits_of_owed_zero _ _ _ _ L lv 7 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => V21 m (oo7 m) c b)
  hentry c := by
    rw [Pipeline.ownSems0_none, ent7 m c]
    have hsplit := Pipeline.arrays_of_unscopedBufs (p := 7) (pcfgs (F := F)) adm (pdats m) launch7.win launch7.arr_whole c
      ((pdats m 7 c).share_full fun _ => rfl) (fun b => V21 m (oo7 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (fun b => V21 m (oo7 m) c b) (fun b => V22 m (outs m) c b) ((pdats m 7 c).arrAt · cfg7.N)
      (hF7 m (outs m) (fun _ _ => rfl) (ent7 m) c)
      (fun b hb => (hrest7 m (outs m) c b hb).trans (congrFun (ent7 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 8 -/

/-- Input windows: what they held at entry, which no item of the region writes. -/
theorem hF8_0 (o : Outs (F := F)) (he : ∀ c, V23 m o c = V23 m (oo8 m) c) (c : Dev nD) :
    (dat8 (F := F) (fun c b => V23 m (oo8 m) c b) c).arrAt 0 cfg8.N = V24 m o c (Pipeline.arrRef spec8 0) :=
  ((dat8 (F := F) (fun c b => V23 m (oo8 m) c b) c).arrAt_in 0 rfl _).trans ((A_eq8 _ c 0).trans
    ((V24_of m o c (Pipeline.arrRef spec8 0) (by decide)).trans (congrFun (he c) _)).symm)
theorem hF8_1 (o : Outs (F := F)) (he : ∀ c, V23 m o c = V23 m (oo8 m) c) (c : Dev nD) :
    (dat8 (F := F) (fun c b => V23 m (oo8 m) c b) c).arrAt 1 cfg8.N = V24 m o c (Pipeline.arrRef spec8 1) :=
  ((dat8 (F := F) (fun c b => V23 m (oo8 m) c b) c).arrAt_in 1 rfl _).trans ((A_eq8 _ c 1).trans
    ((V24_of m o c (Pipeline.arrRef spec8 1) (by decide)).trans (congrFun (he c) _)).symm)
theorem hF8_2 (o : Outs (F := F)) (he : ∀ c, V23 m o c = V23 m (oo8 m) c) (c : Dev nD) :
    (dat8 (F := F) (fun c b => V23 m (oo8 m) c b) c).arrAt 2 cfg8.N = V24 m o c (Pipeline.arrRef spec8 2) :=
  ((dat8 (F := F) (fun c b => V23 m (oo8 m) c b) c).arrAt_in 2 rfl _).trans ((A_eq8 _ c 2).trans
    ((V24_of m o c (Pipeline.arrRef spec8 2) (by decide)).trans (congrFun (he c) _)).symm)

/-- The output window: the fold of its write-backs, which is what the leavings hold at `main_v225`. -/
theorem hF8_3 (o : Outs (F := F)) (ho : ∀ r c, o 24 r c = lv8 m c r) (c : Dev nD) :
    (dat8 (F := F) (fun c b => V23 m (oo8 m) c b) c).arrAt 3 cfg8.N = V24 m o c (Pipeline.arrRef spec8 3) := by
  have hkey : V24 m o c main_v225 = o 24 main_v225 c := Function.update_self _ _ _
  refine Eq.trans ?_ hkey.symm
  rw [ho]; unfold lv8
  exact (Pipeline.withArrays_arr spec8 launch8.win.arr_inj c (V23 m (oo8 m) c)
    (fun w => (dat8 (fun c b => V23 m (oo8 m) c b) c).arrAt w cfg8.N) 3).symm

/-- At region 8's exit each of its arrays holds what the pipeline leaves. -/
theorem hF8 (o : Outs (F := F)) (ho : ∀ r c, o 24 r c = lv8 m c r) (he : ∀ c, V23 m o c = V23 m (oo8 m) c) (c : Dev nD) (w : Fin cfg8.W) :
    (dat8 (F := F) (fun c b => V23 m (oo8 m) c b) c).arrAt w cfg8.N = V24 m o c (Pipeline.arrRef spec8 w) :=
  match w with
  | ⟨0, _⟩ => hF8_0 m o he c
  | ⟨1, _⟩ => hF8_1 m o he c
  | ⟨2, _⟩ => hF8_2 m o he c
  | ⟨3, _⟩ => hF8_3 m o ho c
  | ⟨n + 4, h⟩ => absurd h (by show ¬ n + 4 < 4; omega)

/-- … and every other buffer what it held at entry. -/
theorem hrest8 (o : Outs (F := F)) (c : Dev nD) :
    ∀ b : Ref sig .tc, b ∉ Finset.univ.image (Pipeline.arrRef spec8) → V24 m o c b = V23 m o c b :=
  fun b hb => V24_of m o c b (by
    simp only [List.mem_singleton]
    rintro rfl
    exact hb (Finset.mem_image.mpr ⟨3, Finset.mem_univ _, rfl⟩))

-- the library's entry and exit lemmas are stated over the pinned configuration: unification must unfold plain definitions
set_option backward.isDefEq.respectTransparency.types false in
/-- Region 8 as a segment: entered with every unscoped buffer at `V23`, left with them at `V24`, both read over the
    leavings. Its four arrays are split out of the unscoped buffers at entry and come back at what the pipeline
    leaves; the generator register goes through the kernel's invariant. -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => V23 m (oo8 m) c b) c).loose
  hwaits := Pipeline.hwaits_of_owed_zero _ _ _ _ L lv 8 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => V23 m (oo8 m) c b)
  hentry c := by
    rw [Pipeline.ownSems0_none, ent8 m c]
    have hsplit := Pipeline.arrays_of_unscopedBufs (p := 8) (pcfgs (F := F)) adm (pdats m) launch8.win launch8.arr_whole c
      ((pdats m 8 c).share_full fun _ => rfl) (fun b => V23 m (oo8 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (fun b => V23 m (oo8 m) c b) (fun b => V24 m (outs m) c b) ((pdats m 8 c).arrAt · cfg8.N)
      (hF8 m (outs m) (fun _ _ => rfl) (ent8 m) c)
      (fun b hb => (hrest8 m (outs m) c b hb).trans (congrFun (ent8 m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Ideal.Frames.lean ====
/- The frame of the program: the generated conditional frame at the nine region records of the run assembly. -/
import proofs.«132734_j72301479461275_2_alg».proof.Proof.Ideal.Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the conditional frame's implicit arguments are found by unifying its conclusion with this one
set_option backward.isDefEq.respectTransparency.types false in
/-- THE FRAME, at any instance: every weakly fair execution of @main terminates, nothing faulting, and every argument
    array ends as launched — the generated conditional frame at the run assembly's nine region records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none L lv (fun _ _ => rfl) ρ (outs m) (pdats m) 0 (fun _ => iprop(emp))
    (initOf (Pipeline.cells cfgs cellOf_inj) (Pipeline.launchToks cfgs cellOf_inj)) hu0 EE (hE0 ρ) hE9
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl) (reg8 m) (fun _ => .rfl) (fun _ => .rfl)

end Cert.KernelIdeal.Reg

end
-- ==== Proof.LibFoldStages.lean ====
/- A line of host operations run in two pieces.

   The buffer contents after a list of host operations are a left fold of the operations' results over the contents
   the line starts from. Running a concatenation is therefore running its first piece and then its second from what
   the first leaves; and a buffer that no operation of a piece writes passes through that piece unchanged. These two
   facts let a long straight-line program be read stage by stage — each stage a short list whose results are
   functions of the buffers it is entered with — instead of as one composed term of everything before it. -/
import Idealize.ShloMosaic.Lib.StableHlo.Run

namespace Cert.LibFoldStages

open Idealize.ShloMosaic Idealize.ShloMosaic.StableHlo

variable {τ : Topo} {sig : RefSig} {Val : EltTy → Type}

/-- The contents after `l₁ ++ l₂` are the contents after `l₂` run from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three pieces in a row. -/
theorem after_append₃ (l₁ l₂ l₃ : List (HloOp τ sig Val)) (V : Valuation τ sig Val) :
    after (l₁ ++ l₂ ++ l₃) V = after l₃ (after l₂ (after l₁ V)) := by
  rw [after_append, after_append]

end Cert.LibFoldStages
-- ==== Proof.Ideal.AggSpec.lean ====
/- The aggregation both programs run on the host between a layer's product and its bias, as ONE pure function of the
   product `lin`, the two rows of edge endpoints `e1`, `e3` and the edge weights `ew`. With s = e1 ++ iota and
   d = e3 ++ iota (self loops appended) and wf = ew ++ 2:
     deg  = scatter-add of wf at d into zeros,
     dinv = where deg > 0 then rsqrt deg else 0,
     norm = dinv[s'] * wf * dinv[d']   (s', d': a negative index wrapped by + 50000),
     agg  = scatter-add of lin[s'] * norm (broadcast over the 64 columns) at d into zeros.
   The operations are those of the printed program, in its order, over its records. -/
import proofs.«132734_j72301479461275_2_alg».proof.Proof.Gen.KernelIdeal

noncomputable section

namespace Cert.Agg

open Cert.KernelIdeal Cert.KernelIdeal.Gen
open Idealize.ShloMosaic

variable {F : FTy → Type} [FloatOps F]

/-- The aggregated array of one layer. -/
def agg (lin : FVec F S50000x64 .f32) (e1 : IVec S800000 32) (e3 : IVec S800000 32) (ew : FVec F S800000 .f32) :
    FVec F S50000x64 .f32 :=
  -- the endpoints and the weights with the self loops appended
  have v7 : IVec S50000 32 := iotaInDim S50000 32 0
  have v8 : IVec S850000 32 := concatenate S850000 0 [⟨S800000, e1⟩, ⟨S50000, v7⟩] concatenates_S800000_S50000_S850000_d0
  have v9 : IVec S850000 32 := concatenate S850000 0 [⟨S800000, e3⟩, ⟨S50000, v7⟩] concatenates_S800000_S50000_S850000_d0
  have cst : FVec F S_ .f32 := constant S_ .f32 0x40000000#32
  have v10 : FVec F S50000 .f32 := broadcastInDim S50000 ![] bcast_S_S50000 cst
  have v11 : FVec F S850000 .f32 := concatenate S850000 0 [⟨S800000, ew⟩, ⟨S50000, v10⟩] concatenates_S800000_S50000_S850000_d0
  -- the weighted degree
  have cst_0 : FVec F S_ .f32 := constant S_ .f32 0x00000000#32
  have v12 : FVec F S50000 .f32 := broadcastInDim S50000 ![] bcast_S_S50000 cst_0
  have v13 : IVec S850000x1 32 := broadcastInDim S850000x1 ![0] bcast_S850000_S850000x1_0 v9
  have v14 : FVec F S50000 .f32 := Host.scatterAdd scatter_S50000_S850000x1_S850000_n_0_0_1 v12 v13 v11
  -- its inverse square root where it is positive, zero elsewhere
  have cst_1 : FVec F S_ .f32 := constant S_ .f32 0x00000000#32
  have v15 : FVec F S50000 .f32 := broadcastInDim S50000 ![] bcast_S_S50000 cst_1
  have v16 : IVec S50000 1 := cmpf .ogt v14 v15
  have v17 : FVec F S50000 .f32 := Host.rsqrt v14
  have cst_2 : FVec F S_ .f32 := constant S_ .f32 0x00000000#32
  have w0 : FVec F S_ .f32 := id cst_2
  have w1 : FVec F S50000 .f32 := broadcastInDim S50000 ![] bcast_S_S50000 w0
  have v18 : FVec F S50000 .f32 := select v16 v17 w1
  -- the edge coefficient: dinv at the source, times the weight, times dinv at the target
  have c : IVec S_ 32 := constantI S_ 32 0#32
  have v19 : IVec S850000 32 := broadcastInDim S850000 ![] bcast_S_S850000 c
  have v20 : IVec S850000 1 := cmpi .slt v8 v19
  have c_3 : IVec S_ 32 := constantI S_ 32 50000#32
  have v21 : IVec S850000 32 := broadcastInDim S850000 ![] bcast_S_S850000 c_3
  have v22 : IVec S850000 32 := addi v8 v21
  have v23 : IVec S850000 32 := select v20 v22 v8
  have v24 : IVec S850000x1 32 := broadcastInDim S850000x1 ![0] bcast_S850000_S850000x1_0 v23
  have v25 : FVec F S850000 .f32 := Host.gather gather_S50000_S850000x1_S850000_n_0_n_n_0_1_1 v18 v24
  have v26 : FVec F S850000 .f32 := mulf v25 v11
  have c_4 : IVec S_ 32 := constantI S_ 32 0#32
  have v27 : IVec S850000 32 := broadcastInDim S850000 ![] bcast_S_S850000 c_4
  have v28 : IVec S850000 1 := cmpi .slt v9 v27
  have c_5 : IVec S_ 32 := constantI S_ 32 50000#32
  have v29 : IVec S850000 32 := broadcastInDim S850000 ![] bcast_S_S850000 c_5
  have v30 : IVec S850000 32 := addi v9 v29
  have v31 : IVec S850000 32 := select v28 v30 v9
  have v32 : IVec S850000x1 32 := broadcastInDim S850000x1 ![0] bcast_S850000_S850000x1_0 v31
  have v33 : FVec F S850000 .f32 := Host.gather gather_S50000_S850000x1_S850000_n_0_n_n_0_1_1 v18 v32
  have v34 : FVec F S850000 .f32 := mulf v26 v33
  -- the source rows of the product, scaled, summed into their target rows
  have c_6 : IVec S_ 32 := constantI S_ 32 0#32
  have v35 : IVec S850000 32 := broadcastInDim S850000 ![] bcast_S_S850000 c_6
  have v36 : IVec S850000 1 := cmpi .slt v8 v35
  have c_7 : IVec S_ 32 := constantI S_ 32 50000#32
  have v37 : IVec S850000 32 := broadcastInDim S850000 ![] bcast_S_S850000 c_7
  have v38 : IVec S850000 32 := addi v8 v37
  have v39 : IVec S850000 32 := select v36 v38 v8
  have v40 : IVec S850000x1 32 := broadcastInDim S850000x1 ![0] bcast_S850000_S850000x1_0 v39
  have v41 : FVec F S850000x64 .f32 := Host.gather gather_S50000x64_S850000x1_S850000x64_1_0_n_n_0_1_164 lin v40
  have v42 : FVec F S850000x1 .f32 := broadcastInDim S850000x1 ![0] bcast_S850000_S850000x1_0 v34
  have v43 : FVec F S850000x64 .f32 := broadcastInDim S850000x64 ![0, 1] bcast_S850000x1_S850000x64_0_1 v42
  have v44 : FVec F S850000x64 .f32 := mulf v41 v43
  have cst_8 : FVec F S_ .f32 := constant S_ .f32 0x00000000#32
  have v45 : FVec F S50000x64 .f32 := broadcastInDim S50000x64 ![] bcast_S_S50000x64 cst_8
  have v46 : IVec S850000x1 32 := broadcastInDim S850000x1 ![0] bcast_S850000_S850000x1_0 v9
  Host.scatterAdd scatter_S50000x64_S850000x1_S850000x64_1_0_0_1 v45 v46 v44

end Cert.Agg

end
-- ==== Proof.Ideal.AggReference.lean ====
/- The reference program's host operations between a layer's product and its bias compute the same aggregation
   `Cert.Agg.agg` of the product, the two endpoint rows and the edge weights — at any contents of the buffers before
   them, for each of the three layers. The three runs of operations are cut out of the reference's operation list. -/
import proofs.«132734_j72301479461275_2_alg».proof.Proof.RefRun
import proofs.«132734_j72301479461275_2_alg».proof.Proof.Ideal.AggSpec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's operations 13 … 66: the aggregation of layer 1. -/
abbrev opsAgg1 : List (HloOp τ sig (Elt F)) :=
  [ nullary main_v13 (iotaInDim S50000 32 0),
    binary main_v1 main_v13 main_v14 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v13 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x40000000#32),
    unary main_cst main_v16 (broadcastInDim S50000 ![] bcast_S_S50000 : (⟨S_, .f32⟩ : BufTy).Contents (Elt F) → (⟨S50000, .f32⟩ : BufTy).Contents (Elt F)),
    binary main_arg2 main_v16 main_v17 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_0 (constant S_ .f32 0x00000000#32),
    unary main_cst_0 main_v18 (broadcastInDim S50000 ![] bcast_S_S50000 : (⟨S_, .f32⟩ : BufTy).Contents (Elt F) → (⟨S50000, .f32⟩ : BufTy).Contents (Elt F)),
    unary main_v15 main_v19 (broadcastInDim S850000x1 ![0] bcast_S850000_S850000x1_0 : (⟨S850000, .i32⟩ : BufTy).Contents (Elt F) → (⟨S850000x1, .i32⟩ : BufTy).Contents (Elt F)),
    ternary main_v18 main_v19 main_v17 main_v20 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v21 (broadcastInDim S50000 ![] bcast_S_S50000 : (⟨S_, .f32⟩ : BufTy).Contents (Elt F) → (⟨S50000, .f32⟩ : BufTy).Contents (Elt F)),
    binary main_v20 main_v21 main_v22 (cmpf .ogt : (⟨S50000, .f32⟩ : BufTy).Contents (Elt F) → (⟨S50000, .f32⟩ : BufTy).Contents (Elt F) → (⟨S50000, .i1⟩ : BufTy).Contents (Elt F)),
    unary main_v20 main_v23 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v22) (TRef.of (T := ⟨S50000, .f32⟩) main_v23) (TRef.of (T := ⟨S50000, .f32⟩) main_call0_v1) (TRef.of (T := ⟨S50000, .f32⟩) main_v24) select,
    nullary main_c (constantI S_ 32 0#32),
    unary main_c main_v25 (broadcastInDim S850000 ![] bcast_S_S850000 : (⟨S_, .i32⟩ : BufTy).Contents (Elt F) → (⟨S850000, .i32⟩ : BufTy).Contents (Elt F)),
    binary main_v14 main_v25 main_v26 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v27 (broadcastInDim S850000 ![] bcast_S_S850000 : (⟨S_, .i32⟩ : BufTy).Contents (Elt F) → (⟨S850000, .i32⟩ : BufTy).Contents (Elt F)),
    binary main_v14 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v14 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v24 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v31 main_v17 main_v32 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v33 (broadcastInDim S850000 ![] bcast_S_S850000 : (⟨S_, .i32⟩ : BufTy).Contents (Elt F) → (⟨S850000, .i32⟩ : BufTy).Contents (Elt F)),
    binary main_v15 main_v33 main_v34 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v35 (broadcastInDim S850000 ![] bcast_S_S850000 : (⟨S_, .i32⟩ : BufTy).Contents (Elt F) → (⟨S850000, .i32⟩ : BufTy).Contents (Elt F)),
    binary main_v15 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v15 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v24 main_v38 main_v39 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v32 main_v39 main_v40 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v41 (broadcastInDim S850000 ![] bcast_S_S850000 : (⟨S_, .i32⟩ : BufTy).Contents (Elt F) → (⟨S850000, .i32⟩ : BufTy).Contents (Elt F)),
    binary main_v14 main_v41 main_v42 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v43 (broadcastInDim S850000 ![] bcast_S_S850000 : (⟨S_, .i32⟩ : BufTy).Contents (Elt F) → (⟨S850000, .i32⟩ : BufTy).Contents (Elt F)),
    binary main_v14 main_v43 main_v44 (addi : (⟨S850000, .i32⟩ : BufTy).Contents (Elt F) → (⟨S850000, .i32⟩ : BufTy).Contents (Elt F) → (⟨S850000, .i32⟩ : BufTy).Contents (Elt F)),
    ternary main_v42 main_v44 main_v14 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v45 main_v46 (broadcastInDim S850000x1 ![0] bcast_S850000_S850000x1_0 : (⟨S850000, .i32⟩ : BufTy).Contents (Elt F) → (⟨S850000x1, .i32⟩ : BufTy).Contents (Elt F)),
    binary main_v12 main_v46 main_v47 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v40 main_v48 (broadcastInDim S850000x1 ![0] bcast_S850000_S850000x1_0 : (⟨S850000, .f32⟩ : BufTy).Contents (Elt F) → (⟨S850000x1, .f32⟩ : BufTy).Contents (Elt F)),
    unary main_v48 main_v49 (broadcastInDim S850000x64 ![0, 1] bcast_S850000x1_S850000x64_0_1 : (⟨S850000x1, .f32⟩ : BufTy).Contents (Elt F) → (⟨S850000x64, .f32⟩ : BufTy).Contents (Elt F)),
    binary main_v47 main_v49 main_v50 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v51 (broadcastInDim S50000x64 ![] bcast_S_S50000x64 : (⟨S_, .f32⟩ : BufTy).Contents (Elt F) → (⟨S50000x64, .f32⟩ : BufTy).Contents (Elt F)),
    unary main_v15 main_v52 (broadcastInDim S850000x1 ![0] bcast_S850000_S850000x1_0 : (⟨S850000, .i32⟩ : BufTy).Contents (Elt F) → (⟨S850000x1, .i32⟩ : BufTy).Contents (Elt F)),
    ternary main_v51 main_v52 main_v50 main_v53 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

set_option maxRecDepth 65536 in
/-- The reference's operation list cut at the aggregation of layer 1. -/
theorem ops_cut1 : (RefRun.ops (F := F)) = (RefRun.ops (F := F)).take 13 ++ opsAgg1 ++ (RefRun.ops (F := F)).drop 67 := rfl

set_option maxHeartbeats 4000000 in
set_option maxRecDepth 65536 in
/-- Layer 1: at any contents of the buffers before them, these operations leave in their last result the
    aggregation of the first product. -/
theorem agg_reference1 (W : Valuation τ sig (Elt F)) :
    StableHlo.after (opsAgg1 (F := F)) W (Proc.devRef .tc main_v53)
      = Cert.Agg.agg (W (Proc.devRef .tc main_v12)) (W (Proc.devRef .tc main_v1)) (W (Proc.devRef .tc main_v3))
          (W (Proc.devRef .tc main_arg2)) := by
  simp only [opsAgg1]
  after_results_simp
  rfl

/-- The reference's operations 112 … 165: the aggregation of layer 2. -/
abbrev opsAgg2 : List (HloOp τ sig (Elt F)) :=
  [ nullary main_v92 (iotaInDim S50000 32 0),
    binary main_v1 main_v92 main_v93 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v92 main_v94 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_14 (constant S_ .f32 0x40000000#32),
    unary main_cst_14 main_v95 (broadcastInDim S50000 ![] bcast_S_S50000 : (⟨S_, .f32⟩ : BufTy).Contents (Elt F) → (⟨S50000, .f32⟩ : BufTy).Contents (Elt F)),
    binary main_arg2 main_v95 main_v96 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_15 (constant S_ .f32 0x00000000#32),
    unary main_cst_15 main_v97 (broadcastInDim S50000 ![] bcast_S_S50000 : (⟨S_, .f32⟩ : BufTy).Contents (Elt F) → (⟨S50000, .f32⟩ : BufTy).Contents (Elt F)),
    unary main_v94 main_v98 (broadcastInDim S850000x1 ![0] bcast_S850000_S850000x1_0 : (⟨S850000, .i32⟩ : BufTy).Contents (Elt F) → (⟨S850000x1, .i32⟩ : BufTy).Contents (Elt F)),
    ternary main_v97 main_v98 main_v96 main_v99 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_16 (constant S_ .f32 0x00000000#32),
    unary main_cst_16 main_v100 (broadcastInDim S50000 ![] bcast_S_S50000 : (⟨S_, .f32⟩ : BufTy).Contents (Elt F) → (⟨S50000, .f32⟩ : BufTy).Contents (Elt F)),
    binary main_v99 main_v100 main_v101 (cmpf .ogt : (⟨S50000, .f32⟩ : BufTy).Contents (Elt F) → (⟨S50000, .f32⟩ : BufTy).Contents (Elt F) → (⟨S50000, .i1⟩ : BufTy).Contents (Elt F)),
    unary main_v99 main_v102 (Host.rsqrt : (⟨S50000, .f32⟩ : BufTy).Contents (Elt F) → (⟨S50000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v101) (TRef.of (T := ⟨S50000, .f32⟩) main_v102) (TRef.of (T := ⟨S50000, .f32⟩) main_call2_v1) (TRef.of (T := ⟨S50000, .f32⟩) main_v103) select,
    nullary main_c_18 (constantI S_ 32 0#32),
    unary main_c_18 main_v104 (broadcastInDim S850000 ![] bcast_S_S850000 : (⟨S_, .i32⟩ : BufTy).Contents (Elt F) → (⟨S850000, .i32⟩ : BufTy).Contents (Elt F)),
    binary main_v93 main_v104 main_v105 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v106 (broadcastInDim S850000 ![] bcast_S_S850000 : (⟨S_, .i32⟩ : BufTy).Contents (Elt F) → (⟨S850000, .i32⟩ : BufTy).Contents (Elt F)),
    binary main_v93 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v93 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v110 main_v96 main_v111 (mulf : (⟨S850000, .f32⟩ : BufTy).Contents (Elt F) → (⟨S850000, .f32⟩ : BufTy).Contents (Elt F) → (⟨S850000, .f32⟩ : BufTy).Contents (Elt F)),
    nullary main_c_20 (constantI S_ 32 0#32),
    unary main_c_20 main_v112 (broadcastInDim S850000 ![] bcast_S_S850000 : (⟨S_, .i32⟩ : BufTy).Contents (Elt F) → (⟨S850000, .i32⟩ : BufTy).Contents (Elt F)),
    binary main_v94 main_v112 main_v113 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v114 (broadcastInDim S850000 ![] bcast_S_S850000 : (⟨S_, .i32⟩ : BufTy).Contents (Elt F) → (⟨S850000, .i32⟩ : BufTy).Contents (Elt F)),
    binary main_v94 main_v114 main_v115 (addi : (⟨S850000, .i32⟩ : BufTy).Contents (Elt F) → (⟨S850000, .i32⟩ : BufTy).Contents (Elt F) → (⟨S850000, .i32⟩ : BufTy).Contents (Elt F)),
    ternary main_v113 main_v115 main_v94 main_v116 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v116 main_v117 (broadcastInDim S850000x1 ![0] bcast_S850000_S850000x1_0 : (⟨S850000, .i32⟩ : BufTy).Contents (Elt F) → (⟨S850000x1, .i32⟩ : BufTy).Contents (Elt F)),
    binary main_v103 main_v117 main_v118 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v111 main_v118 main_v119 (mulf : (⟨S850000, .f32⟩ : BufTy).Contents (Elt F) → (⟨S850000, .f32⟩ : BufTy).Contents (Elt F) → (⟨S850000, .f32⟩ : BufTy).Contents (Elt F)),
    nullary main_c_22 (constantI S_ 32 0#32),
    unary main_c_22 main_v120 (broadcastInDim S850000 ![] bcast_S_S850000 : (⟨S_, .i32⟩ : BufTy).Contents (Elt F) → (⟨S850000, .i32⟩ : BufTy).Contents (Elt F)),
    binary main_v93 main_v120 main_v121 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v122 (broadcastInDim S850000 ![] bcast_S_S850000 : (⟨S_, .i32⟩ : BufTy).Contents (Elt F) → (⟨S850000, .i32⟩ : BufTy).Contents (Elt F)),
    binary main_v93 main_v122 main_v123 (addi : (⟨S850000, .i32⟩ : BufTy).Contents (Elt F) → (⟨S850000, .i32⟩ : BufTy).Contents (Elt F) → (⟨S850000, .i32⟩ : BufTy).Contents (Elt F)),
    ternary main_v121 main_v123 main_v93 main_v124 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v124 main_v125 (broadcastInDim S850000x1 ![0] bcast_S850000_S850000x1_0 : (⟨S850000, .i32⟩ : BufTy).Contents (Elt F) → (⟨S850000x1, .i32⟩ : BufTy).Contents (Elt F)),
    binary main_v91 main_v125 main_v126 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v119 main_v127 (broadcastInDim S850000x1 ![0] bcast_S850000_S850000x1_0 : (⟨S850000, .f32⟩ : BufTy).Contents (Elt F) → (⟨S850000x1, .f32⟩ : BufTy).Contents (Elt F)),
    unary main_v127 main_v128 (broadcastInDim S850000x64 ![0, 1] bcast_S850000x1_S850000x64_0_1 : (⟨S850000x1, .f32⟩ : BufTy).Contents (Elt F) → (⟨S850000x64, .f32⟩ : BufTy).Contents (Elt F)),
    binary main_v126 main_v128 main_v129 (mulf : (⟨S850000x64, .f32⟩ : BufTy).Contents (Elt F) → (⟨S850000x64, .f32⟩ : BufTy).Contents (Elt F) → (⟨S850000x64, .f32⟩ : BufTy).Contents (Elt F)),
    nullary main_cst_24 (constant S_ .f32 0x00000000#32),
    unary main_cst_24 main_v130 (broadcastInDim S50000x64 ![] bcast_S_S50000x64 : (⟨S_, .f32⟩ : BufTy).Contents (Elt F) → (⟨S50000x64, .f32⟩ : BufTy).Contents (Elt F)),
    unary main_v94 main_v131 (broadcastInDim S850000x1 ![0] bcast_S850000_S850000x1_0 : (⟨S850000, .i32⟩ : BufTy).Contents (Elt F) → (⟨S850000x1, .i32⟩ : BufTy).Contents (Elt F)),
    ternary main_v130 main_v131 main_v129 main_v132 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

set_option maxRecDepth 65536 in
/-- The reference's operation list cut at the aggregation of layer 2. -/
theorem ops_cut2 : (RefRun.ops (F := F)) = (RefRun.ops (F := F)).take 112 ++ opsAgg2 ++ (RefRun.ops (F := F)).drop 166 := rfl

set_option maxHeartbeats 4000000 in
set_option maxRecDepth 65536 in
/-- Layer 2: at any contents of the buffers before them, these operations leave in their last result the
    aggregation of the second product. -/
theorem agg_reference2 (W : Valuation τ sig (Elt F)) :
    StableHlo.after (opsAgg2 (F := F)) W (Proc.devRef .tc main_v132)
      = Cert.Agg.agg (W (Proc.devRef .tc main_v91)) (W (Proc.devRef .tc main_v1)) (W (Proc.devRef .tc main_v3))
          (W (Proc.devRef .tc main_arg2)) := by
  simp only [opsAgg2]
  after_results_simp
  rfl

/-- The reference's operations 211 … 264: the aggregation of layer 3. -/
abbrev opsAgg3 : List (HloOp τ sig (Elt F)) :=
  [ nullary main_v171 (iotaInDim S50000 32 0),
    binary main_v1 main_v171 main_v172 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v171 main_v173 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_30 (constant S_ .f32 0x40000000#32),
    unary main_cst_30 main_v174 (broadcastInDim S50000 ![] bcast_S_S50000 : (⟨S_, .f32⟩ : BufTy).Contents (Elt F) → (⟨S50000, .f32⟩ : BufTy).Contents (Elt F)),
    binary main_arg2 main_v174 main_v175 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_31 (constant S_ .f32 0x00000000#32),
    unary main_cst_31 main_v176 (broadcastInDim S50000 ![] bcast_S_S50000 : (⟨S_, .f32⟩ : BufTy).Contents (Elt F) → (⟨S50000, .f32⟩ : BufTy).Contents (Elt F)),
    unary main_v173 main_v177 (broadcastInDim S850000x1 ![0] bcast_S850000_S850000x1_0 : (⟨S850000, .i32⟩ : BufTy).Contents (Elt F) → (⟨S850000x1, .i32⟩ : BufTy).Contents (Elt F)),
    ternary main_v176 main_v177 main_v175 main_v178 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_32 (constant S_ .f32 0x00000000#32),
    unary main_cst_32 main_v179 (broadcastInDim S50000 ![] bcast_S_S50000 : (⟨S_, .f32⟩ : BufTy).Contents (Elt F) → (⟨S50000, .f32⟩ : BufTy).Contents (Elt F)),
    binary main_v178 main_v179 main_v180 (cmpf .ogt : (⟨S50000, .f32⟩ : BufTy).Contents (Elt F) → (⟨S50000, .f32⟩ : BufTy).Contents (Elt F) → (⟨S50000, .i1⟩ : BufTy).Contents (Elt F)),
    unary main_v178 main_v181 (Host.rsqrt : (⟨S50000, .f32⟩ : BufTy).Contents (Elt F) → (⟨S50000, .f32⟩ : BufTy).Contents (Elt F)),
    nullary main_cst_33 (constant S_ .f32 0x00000000#32),
    TRef.unary (TRef.of (T := ⟨S_, .f32⟩) main_cst_33) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v180) (TRef.of (T := ⟨S50000, .f32⟩) main_v181) (TRef.of (T := ⟨S50000, .f32⟩) main_call4_v1) (TRef.of (T := ⟨S50000, .f32⟩) main_v182) select,
    nullary main_c_34 (constantI S_ 32 0#32),
    unary main_c_34 main_v183 (broadcastInDim S850000 ![] bcast_S_S850000 : (⟨S_, .i32⟩ : BufTy).Contents (Elt F) → (⟨S850000, .i32⟩ : BufTy).Contents (Elt F)),
    binary main_v172 main_v183 main_v184 (cmpi .slt : (⟨S850000, .i32⟩ : BufTy).Contents (Elt F) → (⟨S850000, .i32⟩ : BufTy).Contents (Elt F) → (⟨S850000, .i1⟩ : BufTy).Contents (Elt F)),
    nullary main_c_35 (constantI S_ 32 50000#32),
    unary main_c_35 main_v185 (broadcastInDim S850000 ![] bcast_S_S850000 : (⟨S_, .i32⟩ : BufTy).Contents (Elt F) → (⟨S850000, .i32⟩ : BufTy).Contents (Elt F)),
    binary main_v172 main_v185 main_v186 (addi : (⟨S850000, .i32⟩ : BufTy).Contents (Elt F) → (⟨S850000, .i32⟩ : BufTy).Contents (Elt F) → (⟨S850000, .i32⟩ : BufTy).Contents (Elt F)),
    ternary main_v184 main_v186 main_v172 main_v187 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v187 main_v188 (broadcastInDim S850000x1 ![0] bcast_S850000_S850000x1_0 : (⟨S850000, .i32⟩ : BufTy).Contents (Elt F) → (⟨S850000x1, .i32⟩ : BufTy).Contents (Elt F)),
    binary main_v182 main_v188 main_v189 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v189 main_v175 main_v190 (mulf : (⟨S850000, .f32⟩ : BufTy).Contents (Elt F) → (⟨S850000, .f32⟩ : BufTy).Contents (Elt F) → (⟨S850000, .f32⟩ : BufTy).Contents (Elt F)),
    nullary main_c_36 (constantI S_ 32 0#32),
    unary main_c_36 main_v191 (broadcastInDim S850000 ![] bcast_S_S850000 : (⟨S_, .i32⟩ : BufTy).Contents (Elt F) → (⟨S850000, .i32⟩ : BufTy).Contents (Elt F)),
    binary main_v173 main_v191 main_v192 (cmpi .slt : (⟨S850000, .i32⟩ : BufTy).Contents (Elt F) → (⟨S850000, .i32⟩ : BufTy).Contents (Elt F) → (⟨S850000, .i1⟩ : BufTy).Contents (Elt F)),
    nullary main_c_37 (constantI S_ 32 50000#32),
    unary main_c_37 main_v193 (broadcastInDim S850000 ![] bcast_S_S850000 : (⟨S_, .i32⟩ : BufTy).Contents (Elt F) → (⟨S850000, .i32⟩ : BufTy).Contents (Elt F)),
    binary main_v173 main_v193 main_v194 (addi : (⟨S850000, .i32⟩ : BufTy).Contents (Elt F) → (⟨S850000, .i32⟩ : BufTy).Contents (Elt F) → (⟨S850000, .i32⟩ : BufTy).Contents (Elt F)),
    ternary main_v192 main_v194 main_v173 main_v195 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v195 main_v196 (broadcastInDim S850000x1 ![0] bcast_S850000_S850000x1_0 : (⟨S850000, .i32⟩ : BufTy).Contents (Elt F) → (⟨S850000x1, .i32⟩ : BufTy).Contents (Elt F)),
    binary main_v182 main_v196 main_v197 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v190 main_v197 main_v198 (mulf : (⟨S850000, .f32⟩ : BufTy).Contents (Elt F) → (⟨S850000, .f32⟩ : BufTy).Contents (Elt F) → (⟨S850000, .f32⟩ : BufTy).Contents (Elt F)),
    nullary main_c_38 (constantI S_ 32 0#32),
    unary main_c_38 main_v199 (broadcastInDim S850000 ![] bcast_S_S850000 : (⟨S_, .i32⟩ : BufTy).Contents (Elt F) → (⟨S850000, .i32⟩ : BufTy).Contents (Elt F)),
    binary main_v172 main_v199 main_v200 (cmpi .slt : (⟨S850000, .i32⟩ : BufTy).Contents (Elt F) → (⟨S850000, .i32⟩ : BufTy).Contents (Elt F) → (⟨S850000, .i1⟩ : BufTy).Contents (Elt F)),
    nullary main_c_39 (constantI S_ 32 50000#32),
    unary main_c_39 main_v201 (broadcastInDim S850000 ![] bcast_S_S850000 : (⟨S_, .i32⟩ : BufTy).Contents (Elt F) → (⟨S850000, .i32⟩ : BufTy).Contents (Elt F)),
    binary main_v172 main_v201 main_v202 (addi : (⟨S850000, .i32⟩ : BufTy).Contents (Elt F) → (⟨S850000, .i32⟩ : BufTy).Contents (Elt F) → (⟨S850000, .i32⟩ : BufTy).Contents (Elt F)),
    ternary main_v200 main_v202 main_v172 main_v203 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v203 main_v204 (broadcastInDim S850000x1 ![0] bcast_S850000_S850000x1_0 : (⟨S850000, .i32⟩ : BufTy).Contents (Elt F) → (⟨S850000x1, .i32⟩ : BufTy).Contents (Elt F)),
    binary main_v170 main_v204 main_v205 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v198 main_v206 (broadcastInDim S850000x1 ![0] bcast_S850000_S850000x1_0 : (⟨S850000, .f32⟩ : BufTy).Contents (Elt F) → (⟨S850000x1, .f32⟩ : BufTy).Contents (Elt F)),
    unary main_v206 main_v207 (broadcastInDim S850000x64 ![0, 1] bcast_S850000x1_S850000x64_0_1 : (⟨S850000x1, .f32⟩ : BufTy).Contents (Elt F) → (⟨S850000x64, .f32⟩ : BufTy).Contents (Elt F)),
    binary main_v205 main_v207 main_v208 (mulf : (⟨S850000x64, .f32⟩ : BufTy).Contents (Elt F) → (⟨S850000x64, .f32⟩ : BufTy).Contents (Elt F) → (⟨S850000x64, .f32⟩ : BufTy).Contents (Elt F)),
    nullary main_cst_40 (constant S_ .f32 0x00000000#32),
    unary main_cst_40 main_v209 (broadcastInDim S50000x64 ![] bcast_S_S50000x64 : (⟨S_, .f32⟩ : BufTy).Contents (Elt F) → (⟨S50000x64, .f32⟩ : BufTy).Contents (Elt F)),
    unary main_v173 main_v210 (broadcastInDim S850000x1 ![0] bcast_S850000_S850000x1_0 : (⟨S850000, .i32⟩ : BufTy).Contents (Elt F) → (⟨S850000x1, .i32⟩ : BufTy).Contents (Elt F)),
    ternary main_v209 main_v210 main_v208 main_v211 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

set_option maxRecDepth 65536 in
/-- The reference's operation list cut at the aggregation of layer 3. -/
theorem ops_cut3 : (RefRun.ops (F := F)) = (RefRun.ops (F := F)).take 211 ++ opsAgg3 ++ (RefRun.ops (F := F)).drop 265 := rfl

set_option maxHeartbeats 4000000 in
set_option maxRecDepth 65536 in
/-- Layer 3: at any contents of the buffers before them, these operations leave in their last result the
    aggregation of the third product. -/
theorem agg_reference3 (W : Valuation τ sig (Elt F)) :
    StableHlo.after (opsAgg3 (F := F)) W (Proc.devRef .tc main_v211)
      = Cert.Agg.agg (W (Proc.devRef .tc main_v170)) (W (Proc.devRef .tc main_v1)) (W (Proc.devRef .tc main_v3))
          (W (Proc.devRef .tc main_arg2)) := by
  simp only [opsAgg3]
  after_results_simp
  rfl

end Cert.ReferenceIdeal.RefValue

end
-- ==== Proof.LibRealClosure.lean ====
/-
  Extended reals that are real numbers, and the operations that keep them so.

  At the ideal float values an array entry is an extended real. An identity of real arithmetic (a sum
  rearranged, a variance rewritten) holds of entries that are real numbers and may fail at an infinity, so a
  proof that uses one first shows that every entry it touches is real. `IsReal x` says that `x` is the
  coercion of a real; `AllReal v` says it of every entry of an array. This file shows the two closed under
  the operations a graph convolution is built from: sums, differences, products, maxima, finite sums,
  quotients by a nonzero real, the reciprocal square root of a positive real, selections, the literals `0`,
  `1` and `100000`, integer-to-float conversions; and, for arrays, constants, broadcasts, reshapes, slices,
  gathers (each result entry is an operand entry), accumulating scatters, reductions by addition and matrix
  products (each result entry is a finite sum of operand entries or of their products). It also reads the
  test "the absolute value is below infinity" as `IsReal`.
-/
import Idealize.ShloMosaic.PureOps.Ideal
import Idealize.ShloMosaic.PureOps.Ideal.Laws
import Idealize.ShloMosaic.Lib.ValueIdx

namespace LibRealClosure

open Idealize.ShloMosaic
open scoped BigOperators

/-! ## One extended real -/

/-- `x` is the coercion of a real number. -/
def IsReal (x : EReal) : Prop := ∃ r : ℝ, x = (r : EReal)

/-- A coercion is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The greater of two reals is real. -/
theorem IsReal.max {x y : EReal} (hx : IsReal x) (hy : IsReal y) : IsReal (max x y) := by
  rcases max_choice x y with h | h <;> rw [h] <;> assumption

/-- The lesser of two reals is real. -/
theorem IsReal.min {x y : EReal} (hx : IsReal x) (hy : IsReal y) : IsReal (min x y) := by
  rcases min_choice x y with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real is real. -/
theorem IsReal.div_coe {x : EReal} (hx : IsReal x) {y : ℝ} (hy : y ≠ 0) : IsReal (Ideal.div x (y : EReal)) := by
  obtain ⟨a, rfl⟩ := hx
  rw [Ideal.div_coe hy]
  exact (isReal_coe a).mul (isReal_coe _)

/-- The quotient of a real by a nonzero real is real, the divisor given as an extended real. -/
theorem IsReal.div {x y : EReal} (hx : IsReal x) (hy : IsReal y) (h0 : y ≠ 0) : IsReal (Ideal.div x y) := by
  obtain ⟨b, rfl⟩ := hy
  exact hx.div_coe (fun h => h0 (by rw [h]; rfl))

/-- The reciprocal square root of a positive real is real. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- The reciprocal square root of the greater of a real and one is real: the argument is at least one. -/
theorem IsReal.rsqrt_max_one {x : EReal} (hx : IsReal x) : IsReal (Ideal.rsqrt (Max.max x 1)) :=
  (IsReal.max hx isReal_one).rsqrt (lt_of_lt_of_le zero_lt_one (le_max_right x 1))

/-- A selection between two reals is real. -/
theorem IsReal.select (c : BitVec 1) {a b : EReal} (ha : IsReal a) (hb : IsReal b) : IsReal (Scalar.select c a b) := by
  unfold Scalar.select; split <;> assumption

/-- A signed integer converted to a float is real. -/
theorem isReal_sitofp {φ : FTy} {w : Nat} (b : BitVec w) : IsReal (FloatOps.sitofp (F := Ideal) φ b) :=
  ⟨(b.toInt : ℝ), rfl⟩

/-- An extended real whose absolute value (the greater of it and its negation) is below `⊤` is real. -/
theorem isReal_of_abs_lt_top {x : EReal} (h : max x (-x) < ⊤) : IsReal x := by
  rw [isReal_iff]
  constructor
  · rintro rfl; simp at h
  · rintro rfl; simp at h

/-- The same test as a program writes it: the comparison "the host's absolute value of `x` is less than the float
    whose pattern is `0x7F800000`" (single precision's `+∞`) answering the one-bit word `1`. -/
theorem isReal_of_abs_lt_inf {x : Ideal .f32}
    (h : FloatOps.cmpf .olt (FloatOps.hostAbsf x) (FloatOps.ofBits .f32 0x7F800000#32) = 1#1) : IsReal x := by
  have hinf : Ideal.ofBits .f32 0x7F800000#32 = ⊤ := by simp [Ideal.ofBits, Ideal.ieee]
  rw [Ideal.cmpf_def, Ideal.ofBits_def, hinf, Ideal.hostAbsf_def, Ideal.absf_def] at h
  apply isReal_of_abs_lt_top
  by_contra hn
  simp [Ideal.cmp, hn] at h

/-! ## Literals -/

/-- The single-precision pattern `0x3F800000` denotes one. -/
theorem ofBits_one : Ideal.ofBits .f32 0x3F800000#32 = 1 := by
  simp [Ideal.ofBits, Ideal.ieee, -EReal.coe_mul]; norm_num

/-- The single-precision pattern `0x3F800000` (one) denotes a real. -/
theorem isReal_ofBits_one : IsReal (Ideal.ofBits .f32 0x3F800000#32) := by rw [ofBits_one]; exact isReal_one

/-- The single-precision pattern of all zeros denotes a real. -/
theorem isReal_ofBits_zero : IsReal (Ideal.ofBits .f32 0x00000000#32) := by
  rw [Ideal.ofBits_zero_f32]; exact isReal_zero

/-- The single-precision pattern `0x47C35000` (100000) denotes a real. -/
theorem isReal_ofBits_100000 : IsReal (Ideal.ofBits .f32 0x47C35000#32) :=
  ⟨100000, by simp [Ideal.ofBits, Ideal.ieee, -EReal.coe_mul]; norm_num⟩

/-! ## Arrays -/

/-- Every entry of the array is real. -/
def AllReal {ι : Type*} (v : ι → EReal) : Prop := ∀ i, IsReal (v i)

/-- An array each of whose entries is an entry of an all-real array is all real. -/
theorem AllReal.of_entries {ι κ : Type*} {v : ι → EReal} (hv : AllReal v) (u : κ → EReal)
    (h : ∀ j, ∃ i, u j = v i) : AllReal u := fun j => by
  obtain ⟨i, hi⟩ := h j; rw [hi]; exact hv i

/-- A re-indexed all-real array is all real. -/
theorem AllReal.comp {ι κ : Type*} {v : ι → EReal} (hv : AllReal v) (f : κ → ι) : AllReal (fun j => v (f j)) :=
  fun j => hv (f j)

variable {s t : Shape} {φ : FTy}

/-- A constant array of a pattern that denotes a real is all real. -/
theorem allReal_constant (b : BitVec φ.bits) (h : IsReal (Ideal.ofBits φ b)) :
    AllReal (constant (F := Ideal) s φ b) := fun _ => h

/-- The constant array of zeros is all real. -/
theorem allReal_constant_zero : AllReal (constant (F := Ideal) s .f32 0x00000000#32) :=
  allReal_constant _ isReal_ofBits_zero

/-- The constant array of ones is all real. -/
theorem allReal_constant_one : AllReal (constant (F := Ideal) s .f32 0x3F800000#32) :=
  allReal_constant _ isReal_ofBits_one

/-- A broadcast only repeats entries. -/
theorem AllReal.broadcastInDim {x : s.Idx → EReal} (hx : AllReal x) (dims : Fin s.rank → Fin t.rank)
    (h : s.BroadcastsInDim t dims) : AllReal (broadcastInDim t dims h x) := fun _ => hx _

/-- A reshape only moves entries. -/
theorem AllReal.shapeCast {x : s.Idx → EReal} (hx : AllReal x) (h : s.ShapeCasts t) :
    AllReal (shapeCast t x h) := fun _ => hx _

/-- A slice only keeps entries. -/
theorem AllReal.extractStridedSlice {x : s.Idx → EReal} (hx : AllReal x) (off : Fin s.rank → Nat)
    (h : s.Slices off t) : AllReal (extractStridedSlice t off x h) := fun _ => hx _

/-- A gather only copies operand entries. -/
theorem AllReal.gather {si : Shape} {w : Nat} {x : s.Idx → EReal} (hx : AllReal x) (d : GatherDims s si t)
    (idx : IVec si w) : AllReal (Host.gather d x idx) := fun _ => hx _

/-- A pointwise sum of all-real arrays is all real. -/
theorem AllReal.addf {x y : FVec Ideal s φ} (hx : AllReal x) (hy : AllReal y) : AllReal (addf x y) :=
  fun i => (hx i).add (hy i)

/-- A pointwise difference of all-real arrays is all real. -/
theorem AllReal.subf {x y : FVec Ideal s φ} (hx : AllReal x) (hy : AllReal y) : AllReal (subf x y) :=
  fun i => (hx i).sub (hy i)

/-- A pointwise product of all-real arrays is all real. -/
theorem AllReal.mulf {x y : FVec Ideal s φ} (hx : AllReal x) (hy : AllReal y) : AllReal (mulf x y) :=
  fun i => (hx i).mul (hy i)

/-- A pointwise maximum of all-real arrays is all real. -/
theorem AllReal.maximumf {x y : FVec Ideal s φ} (hx : AllReal x) (hy : AllReal y) : AllReal (maximumf x y) :=
  fun i => (hx i).max (hy i)

/-- A pointwise selection between all-real arrays is all real. -/
theorem AllReal.select (c : IVec s 1) {x y : s.Idx → EReal} (hx : AllReal x) (hy : AllReal y) :
    AllReal (select c x y) := fun i => (hx i).select (c i) (hy i)

/-- The host's reciprocal square root of the pointwise maximum of an all-real array with the constant one
    is all real. -/
theorem AllReal.rsqrt_max_one {x : FVec Ideal s .f32} (hx : AllReal x) :
    AllReal (Host.rsqrt (Idealize.ShloMosaic.maximumf x (constant s .f32 0x3F800000#32))) := fun i => by
  show IsReal (Ideal.rsqrt (Max.max (x i) (Ideal.ofBits .f32 0x3F800000#32)))
  rw [ofBits_one]; exact (hx i).rsqrt_max_one

/-- The host's pointwise quotient of an all-real array by an all-real array with no zero entry is all real. -/
theorem AllReal.hostDivf {x y : FVec Ideal s φ} (hx : AllReal x) (hy : AllReal y) (h0 : ∀ i, y i ≠ 0) :
    AllReal (Host.divf x y) := fun i => (hx i).div (hy i) (h0 i)

/-- An integer array converted to floats is all real. -/
theorem allReal_sitofp {w : Nat} (x : IVec s w) : AllReal (sitofp (F := Ideal) φ x) := fun i => isReal_sitofp (x i)

/-- An accumulating scatter of all-real updates into an all-real array is all real: each result entry is an
    operand entry plus a finite sum of update entries. -/
theorem AllReal.scatterAdd {si u : Shape} {w : Nat} {x : FVec Ideal s φ} {upd : FVec Ideal u φ} (hx : AllReal x)
    (hu : AllReal upd) (d : ScatterDims s si u) (idx : IVec si w) : AllReal (Host.scatterAdd d x idx upd) :=
  fun i => (hx i).add (isReal_sum _ _ fun j _ => hu j)

/-- The host's reduction by addition of an all-real array from a real initial value is all real. -/
theorem AllReal.hostReduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) :=
  fun _ => (hi _).add (isReal_sum _ _ fun i _ => hx i)

/-- A kernel's reduction by addition of an all-real array is all real. -/
theorem AllReal.reduceAdd {axes : List (Fin s.rank)} {x : s.Idx → EReal} (hx : AllReal x) (h : s.Reduces axes t) :
    AllReal (Ideal.reduceAdd h x) := fun _ => isReal_sum _ _ fun i _ => hx i

/-- A matrix product of all-real operands onto an all-real accumulator is all real: each result entry is the
    accumulator's plus a finite sum of products. -/
theorem AllReal.matmul {sl sr so : Shape} {φ₁ φ₂ : FTy} {l : FVec Ideal sl φ₁} {r : FVec Ideal sr φ₂}
    {acc : FVec Ideal so .f32} (hl : AllReal l) (hr : AllReal r) (ha : AllReal acc) (d : DotDims sl sr so)
    (prec : Option ContractPrecision) : AllReal (matmul d prec l r acc) :=
  fun j => (ha j).add (isReal_sum _ _ fun k _ => (hl _).mul (hr _))

/-- A matrix product of all-real operands onto the constant zero accumulator is all real. -/
theorem AllReal.matmul_zero {sl sr so : Shape} {φ₁ φ₂ : FTy} {l : FVec Ideal sl φ₁} {r : FVec Ideal sr φ₂}
    (hl : AllReal l) (hr : AllReal r) (d : DotDims sl sr so) (prec : Option ContractPrecision) :
    AllReal (Idealize.ShloMosaic.matmul d prec l r (constant so .f32 0x00000000#32)) :=
  AllReal.matmul hl hr allReal_constant_zero d prec

/-- The host's matrix product of all-real operands is all real. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) :=
  fun j => isReal_zero.add (isReal_sum _ _ fun k _ => (hl _).mul (hr _))

end LibRealClosure
-- ==== Proof.Ideal.BnAlgebra.lean ====
import Idealize.ShloMosaic.PureOps.Ideal
import proofs.«132734_j72301479461275_2_alg».proof.Proof.LibRealClosure

noncomputable section

namespace Cert.BnAlgebra

open Idealize.ShloMosaic
open scoped BigOperators

/-! # Batch normalization of one column of 50000 real entries: two groupings, one value

One computation takes the mean and the mean of squares, forms the variance as their difference (clamped at zero),
and applies a folded scale and shift; the other centres the entries first and averages the squared deviations.
Over real entries the two variances are the same non-negative real, so the two outputs are the same real. -/

/-! ## The two literals -/

/-- The divisor: the word of `50000.0`. -/
abbrev nLit : EReal := Ideal.ofBits .f32 0x47435000#32
/-- The stabilizer added to the variance. -/
abbrev epsLit : EReal := Ideal.ofBits .f32 0x3727C5AC#32

/-- `50000.0` denotes the real 50000. -/
theorem ofBits_50000 : Ideal.ofBits .f32 0x47435000#32 = ((50000 : ℝ) : EReal) := by
  simp [Ideal.ofBits, Ideal.ieee, -EReal.coe_mul]; norm_num

/-- `2.0` denotes the real 2. -/
theorem ofBits_two : Ideal.ofBits .f32 0x40000000#32 = ((2 : ℝ) : EReal) := by
  simp [Ideal.ofBits, Ideal.ieee, -EReal.coe_mul]; norm_num

/-- The stabilizer denotes a positive real (10995116 · 2⁻⁴⁰, about 10⁻⁵). -/
theorem eps_pos_real : ∃ e : ℝ, 0 < e ∧ Ideal.ofBits .f32 0x3727C5AC#32 = (e : EReal) :=
  ⟨10995116 * (2 ^ 40)⁻¹, by positivity, by simp [Ideal.ofBits, Ideal.ieee, -EReal.coe_mul]⟩

/-! ## The two computations, over the extended reals -/

/-- The column sum and the column sum of squares. -/
def S1 (h : Fin 50000 → EReal) : EReal := ∑ p, h p
def S2 (h : Fin 50000 → EReal) : EReal := ∑ p, h p * h p

/-- First grouping: mean, clamped variance as mean of squares minus squared mean, reciprocal root. -/
def kMu (h : Fin 50000 → EReal) : EReal := Ideal.div (S1 h) nLit
def kVar (h : Fin 50000 → EReal) : EReal := max (Ideal.div (S2 h) nLit - kMu h * kMu h) 0
def kInv (h : Fin 50000 → EReal) : EReal := Ideal.rsqrt (kVar h + epsLit)
/-- Its output: the entry times the folded scale, plus the folded shift. -/
def kernelOut (h : Fin 50000 → EReal) (γ β : EReal) (p : Fin 50000) : EReal :=
  h p * (γ * kInv h) + (β - kMu h * γ * kInv h)

/-- Second grouping: mean (its sum started from zero), centred entries, mean of squared deviations, reciprocal root. -/
def rMu (h : Fin 50000 → EReal) : EReal := Ideal.div (0 + S1 h) nLit
def rCen (h : Fin 50000 → EReal) (p : Fin 50000) : EReal := h p - rMu h
def rVar (h : Fin 50000 → EReal) : EReal := Ideal.div (0 + ∑ p, rCen h p * rCen h p) nLit
def rInv (h : Fin 50000 → EReal) : EReal := Ideal.rsqrt (rVar h + epsLit)
/-- Its output: the centred entry times the reciprocal root, times the scale, plus the shift. -/
def referenceOut (h : Fin 50000 → EReal) (γ β : EReal) (p : Fin 50000) : EReal :=
  ((rCen h p * rInv h) * γ) + β

/-- The two outputs written out in full. -/
theorem kernelOut_def (h : Fin 50000 → EReal) (γ β : EReal) (p : Fin 50000) :
    kernelOut h γ β p =
      h p * (γ * Ideal.rsqrt (max (Ideal.div (∑ p, h p * h p) nLit - Ideal.div (∑ p, h p) nLit * Ideal.div (∑ p, h p) nLit) 0 + epsLit))
        + (β - Ideal.div (∑ p, h p) nLit * γ
            * Ideal.rsqrt (max (Ideal.div (∑ p, h p * h p) nLit - Ideal.div (∑ p, h p) nLit * Ideal.div (∑ p, h p) nLit) 0 + epsLit)) := rfl

theorem referenceOut_def (h : Fin 50000 → EReal) (γ β : EReal) (p : Fin 50000) :
    referenceOut h γ β p =
      ((h p - Ideal.div (0 + ∑ p, h p) nLit)
          * Ideal.rsqrt (Ideal.div (0 + ∑ p, (h p - Ideal.div (0 + ∑ p, h p) nLit) * (h p - Ideal.div (0 + ∑ p, h p) nLit)) nLit + epsLit))
        * γ + β := rfl

/-! ## Over the reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real mean, variance and reciprocal root of a column. -/
def mean (x : Fin 50000 → ℝ) : ℝ := (∑ p, x p) / 50000
def variance (x : Fin 50000 → ℝ) : ℝ := (∑ p, (x p - mean x) * (x p - mean x)) / 50000
def invStd (x : Fin 50000 → ℝ) (e : ℝ) : ℝ := (Real.sqrt (variance x + e))⁻¹

/-- THE VARIANCE IDENTITY: the mean squared deviation is the mean of squares minus the squared mean. -/
theorem variance_eq (x : Fin 50000 → ℝ) : variance x = (∑ p, x p * x p) / 50000 - mean x * mean x := by
  have e : ∑ p, (x p - mean x) * (x p - mean x) = ∑ p, x p * x p - 2 * mean x * ∑ p, x p + 50000 * (mean x * mean x) := by
    have e1 : ∀ p, (x p - mean x) * (x p - mean x) = x p * x p - 2 * mean x * x p + mean x * mean x := fun p => by ring
    simp only [e1]
    rw [Finset.sum_add_distrib, Finset.sum_sub_distrib, ← Finset.mul_sum, Finset.sum_const, Finset.card_univ,
      Fintype.card_fin, nsmul_eq_mul]
    norm_num
  unfold variance
  rw [e]
  unfold mean
  field_simp
  ring

theorem variance_nonneg (x : Fin 50000 → ℝ) : 0 ≤ variance x :=
  div_nonneg (Finset.sum_nonneg fun p _ => mul_self_nonneg _) (by norm_num)

/-! ## Each computation on real entries -/

section Real
variable (x : Fin 50000 → ℝ)

theorem S1_coe : S1 (fun p => (x p : EReal)) = ((∑ p, x p : ℝ) : EReal) := by
  unfold S1; rw [coe_sum]
theorem S2_coe : S2 (fun p => (x p : EReal)) = ((∑ p, x p * x p : ℝ) : EReal) := by
  unfold S2; rw [coe_sum]; exact Finset.sum_congr rfl fun p _ => (EReal.coe_mul _ _).symm

theorem div_n (a : ℝ) : Ideal.div (a : EReal) nLit = ((a / 50000 : ℝ) : EReal) := by
  show Ideal.div (a : EReal) (Ideal.ofBits .f32 0x47435000#32) = _
  rw [ofBits_50000, Ideal.div_coe (by norm_num : (50000 : ℝ) ≠ 0), ← EReal.coe_mul]
  congr 1
  ring

theorem kMu_coe : kMu (fun p => (x p : EReal)) = (mean x : EReal) := by
  unfold kMu; rw [S1_coe, div_n]; rfl

theorem rMu_coe : rMu (fun p => (x p : EReal)) = (mean x : EReal) := by
  unfold rMu; rw [zero_add, S1_coe, div_n]; rfl

theorem kVar_coe : kVar (fun p => (x p : EReal)) = (variance x : EReal) := by
  unfold kVar
  rw [kMu_coe, S2_coe, div_n, ← EReal.coe_mul, ← EReal.coe_sub, ← variance_eq]
  exact max_eq_left (EReal.coe_nonneg.mpr (variance_nonneg x))

theorem rVar_coe : rVar (fun p => (x p : EReal)) = (variance x : EReal) := by
  unfold rVar rCen
  rw [rMu_coe, zero_add]
  have e : ∑ p, ((x p : EReal) - (mean x : EReal)) * ((x p : EReal) - (mean x : EReal))
      = ((∑ p, (x p - mean x) * (x p - mean x) : ℝ) : EReal) := by
    rw [coe_sum]
    exact Finset.sum_congr rfl fun p _ => by rw [EReal.coe_mul, EReal.coe_sub]
  rw [e, div_n]
  rfl

theorem rsqrt_pos (v e : ℝ) (hv : 0 ≤ v) (he : 0 < e) :
    Ideal.rsqrt ((v : EReal) + (e : EReal)) = (((Real.sqrt (v + e))⁻¹ : ℝ) : EReal) := by
  have hp : 0 < v + e := by linarith
  rw [← EReal.coe_add, Ideal.rsqrt_coe, if_neg (not_lt.mpr hp.le), if_neg hp.ne']

end Real

/-! ## The join -/

/-- On real entries, with real scale and shift and a positive real stabilizer `e`, the first grouping's output is
    this real, -/
theorem kernelOut_coe (x : Fin 50000 → ℝ) (g b e : ℝ) (he : 0 < e) (hε : epsLit = (e : EReal)) (p : Fin 50000) :
    kernelOut (fun p => (x p : EReal)) g b p = ((x p * (g * invStd x e) + (b - mean x * g * invStd x e) : ℝ) : EReal) := by
  unfold kernelOut kInv
  rw [kVar_coe, kMu_coe, hε, rsqrt_pos _ _ (variance_nonneg x) he]
  show (x p : EReal) * ((g : EReal) * (invStd x e : EReal)) + ((b : EReal) - (mean x : EReal) * (g : EReal) * (invStd x e : EReal)) = _
  rw [← EReal.coe_mul, ← EReal.coe_mul, ← EReal.coe_mul, ← EReal.coe_mul, ← EReal.coe_sub, ← EReal.coe_add]

/-- and the second grouping's is this one. -/
theorem referenceOut_coe (x : Fin 50000 → ℝ) (g b e : ℝ) (he : 0 < e) (hε : epsLit = (e : EReal)) (p : Fin 50000) :
    referenceOut (fun p => (x p : EReal)) g b p = (((x p - mean x) * invStd x e * g + b : ℝ) : EReal) := by
  unfold referenceOut rInv rCen
  rw [rVar_coe, rMu_coe, hε, rsqrt_pos _ _ (variance_nonneg x) he]
  show (((x p : EReal) - (mean x : EReal)) * (invStd x e : EReal)) * (g : EReal) + (b : EReal) = _
  rw [← EReal.coe_sub, ← EReal.coe_mul, ← EReal.coe_mul, ← EReal.coe_add]

/-- THE JOIN: on a column of real entries, with real scale and shift, the two groupings give the same output. -/
theorem bn_join (h : Fin 50000 → EReal) (γ β : EReal) (hh : ∀ p, ∃ r : ℝ, h p = (r : EReal))
    (hg : ∃ r : ℝ, γ = (r : EReal)) (hb : ∃ r : ℝ, β = (r : EReal)) (p : Fin 50000) :
    kernelOut h γ β p = referenceOut h γ β p := by
  choose x hx using hh
  obtain rfl : h = fun p => (x p : EReal) := funext hx
  obtain ⟨g, rfl⟩ := hg
  obtain ⟨b, rfl⟩ := hb
  obtain ⟨e, he, hε⟩ := eps_pos_real
  rw [kernelOut_coe x g b e he hε p, referenceOut_coe x g b e he hε p]
  congr 1
  ring

/-- Either output is again the coercion of a real. -/
theorem kernelOut_real (h : Fin 50000 → EReal) (γ β : EReal) (hh : ∀ p, ∃ r : ℝ, h p = (r : EReal))
    (hg : ∃ r : ℝ, γ = (r : EReal)) (hb : ∃ r : ℝ, β = (r : EReal)) (p : Fin 50000) :
    ∃ r : ℝ, kernelOut h γ β p = (r : EReal) := by
  choose x hx using hh
  obtain rfl : h = fun p => (x p : EReal) := funext hx
  obtain ⟨g, rfl⟩ := hg
  obtain ⟨b, rfl⟩ := hb
  obtain ⟨e, he, hε⟩ := eps_pos_real
  exact ⟨_, kernelOut_coe x g b e he hε p⟩

theorem referenceOut_real (h : Fin 50000 → EReal) (γ β : EReal) (hh : ∀ p, ∃ r : ℝ, h p = (r : EReal))
    (hg : ∃ r : ℝ, γ = (r : EReal)) (hb : ∃ r : ℝ, β = (r : EReal)) (p : Fin 50000) :
    ∃ r : ℝ, referenceOut h γ β p = (r : EReal) := by
  choose x hx using hh
  obtain rfl : h = fun p => (x p : EReal) := funext hx
  obtain ⟨g, rfl⟩ := hg
  obtain ⟨b, rfl⟩ := hb
  obtain ⟨e, he, hε⟩ := eps_pos_real
  exact ⟨_, referenceOut_coe x g b e he hε p⟩

end Cert.BnAlgebra

end
-- ==== Proof.Ideal.BnReference.lean ====
/- The reference program's bias, rectification and batch normalization of a layer, read at an index: entry (p, q) of
   the layer's output is the normalization `Cert.BnAlgebra.referenceOut` of column q of max (agg + bias, 0) with that
   column's scale and shift — at any contents of the buffers before those operations, for each of the three layers. -/
import proofs.«132734_j72301479461275_2_alg».proof.Proof.RefRun
import proofs.«132734_j72301479461275_2_alg».proof.Proof.Ideal.BnAlgebra
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The two stages as pure functions -/

section Stages
variable {F : FTy → Type} [FloatOps F]

/-- The aggregation plus the bias row, rectified. -/
def reluBias (a : FVec F S50000x64 .f32) (b : FVec F S64 .f32) : FVec F S50000x64 .f32 :=
  maximumf (addf a (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The batch normalization of `h` down its 50000 rows, column by column, with scale row `g` and shift row `b`: the
    operations of the printed program in its order. -/
def normTail (h : FVec F S50000x64 .f32) (g : FVec F S64 .f32) (b : FVec F S64 .f32) : FVec F S50000x64 .f32 :=
  have v58 : FVec F S64 .f32 := Host.reduceAdd h (constant S_ .f32 0x00000000#32) reducesTo_S50000x64_S64_d0 h_S_
  have v59 : FVec F S64 .f32 := broadcastInDim S64 ![] bcast_S_S64 (constant S_ .f32 0x47435000#32)
  have v60 : FVec F S64 .f32 := Host.divf v58 v59
  have v62 : FVec F S50000x64 .f32 := (broadcastInDim S50000x64 ![0, 1] bcast_S1x64_S50000x64_0_1 (broadcastInDim S1x64 ![1] bcast_S64_S1x64_1 v60))
  have v63 : FVec F S50000x64 .f32 := subf h v62
  have v64 : FVec F S50000x64 .f32 := mulf v63 v63
  have v65 : FVec F S64 .f32 := Host.reduceAdd v64 (constant S_ .f32 0x00000000#32) reducesTo_S50000x64_S64_d0 h_S_
  have v66 : FVec F S64 .f32 := broadcastInDim S64 ![] bcast_S_S64 (constant S_ .f32 0x47435000#32)
  have v67 : FVec F S64 .f32 := Host.divf v65 v66
  have v69 : FVec F S50000x64 .f32 := (broadcastInDim S50000x64 ![0, 1] bcast_S1x64_S50000x64_0_1 (broadcastInDim S1x64 ![1] bcast_S64_S1x64_1 v60))
  have v70 : FVec F S50000x64 .f32 := subf h v69
  have v71 : FVec F S64 .f32 := broadcastInDim S64 ![] bcast_S_S64 (constant S_ .f32 0x3727C5AC#32)
  have v72 : FVec F S64 .f32 := addf v67 v71
  have v73 : FVec F S64 .f32 := Host.rsqrt v72
  have v75 : FVec F S50000x64 .f32 := (broadcastInDim S50000x64 ![0, 1] bcast_S1x64_S50000x64_0_1 (broadcastInDim S1x64 ![1] bcast_S64_S1x64_1 v73))
  have v76 : FVec F S50000x64 .f32 := mulf v70 v75
  have v78 : FVec F S50000x64 .f32 := (broadcastInDim S50000x64 ![0, 1] bcast_S1x64_S50000x64_0_1 (broadcastInDim S1x64 ![1] bcast_S64_S1x64_1 g))
  have v79 : FVec F S50000x64 .f32 := mulf v76 v78
  have v81 : FVec F S50000x64 .f32 := (broadcastInDim S50000x64 ![0, 1] bcast_S1x64_S50000x64_0_1 (broadcastInDim S1x64 ![1] bcast_S64_S1x64_1 b))
  addf v79 v81

end Stages

/-! ## The stages at an index, at the exact values -/

/-- Entry `q` of a [64] row. -/
def vecAt (v : (⟨1, ![64]⟩ : Shape).Idx → EReal) (q : Fin 64) : EReal := v (ix1 q)

/-- Column `q` of max (a + bias, 0). -/
def colRelu (a : (⟨2, ![50000, 64]⟩ : Shape).Idx → EReal) (b : (⟨1, ![64]⟩ : Shape).Idx → EReal) (q : Fin 64) :
    Fin 50000 → EReal :=
  fun p => max (a (ix2 p q) + b (ix1 q)) 0

/-- A [64] row broadcast down the 50000 rows reads, at (p, q), the row's entry q. -/
theorem row_bcast {α : Type} (v : S64.Idx → α) (p : Fin 50000) (q : Fin 64) :
    (broadcastInDim S50000x64 ![0, 1] bcast_S1x64_S50000x64_0_1 (broadcastInDim S1x64 ![1] bcast_S64_S1x64_1 v)) (ix2 p q) = v (ix1 q) := by
  rw [broadcastInDim_apply ![0, 1] bcast_S1x64_S50000x64_0_1 _ (ix2 p q) (ix2 0 q) (fun a => by
    match a with
    | ⟨0, _⟩ => rfl
    | ⟨1, _⟩ => rfl)]
  exact broadcastInDim_apply ![1] bcast_S64_S1x64_1 v (ix2 0 q) (ix1 q) (fun a => by
    match a with
    | ⟨0, _⟩ => rfl)

/-- The host's sum down the rows, started from a scalar, at column q. -/
theorem colsum_apply (x : FVec Ideal S50000x64 .f32) (w : BitVec 32) (q : Fin 64) :
    Host.reduceAdd x (constant (F := Ideal) S_ .f32 w) reducesTo_S50000x64_S64_d0 h_S_ (ix1 q)
      = Ideal.ofBits .f32 w + ∑ p : Fin 50000, x (ix2 p q) := by
  show Ideal.hostReduceAdd reducesTo_S50000x64_S64_d0 x (Ideal.ofBits .f32 w) (ix1 q) = _
  rw [Ideal.hostReduceAdd_single reducesTo_S50000x64_S64_d0 (by decide)]
  refine congrArg (_ + ·) (Finset.sum_congr rfl fun k _ => ?_)
  exact congrArg x (funext fun a => Fin.ext (by match a with | ⟨0, _⟩ => rfl | ⟨1, _⟩ => rfl))

/-- The host's quotient, reciprocal square root and a broadcast scalar, at an index. -/
theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl
theorem scalar_bcast (w : BitVec 32) (j : S64.Idx) :
    broadcastInDim S64 ![] bcast_S_S64 (constant (F := Ideal) S_ .f32 w) j = Ideal.ofBits .f32 w := rfl

/-- The rectified biased aggregation at (p, q). -/
theorem reluBias_apply (a : FVec Ideal S50000x64 .f32) (b : FVec Ideal S64 .f32) (p : Fin 50000) (q : Fin 64) :
    reluBias a b (ix2 p q) = colRelu a b q p := by
  unfold reluBias colRelu
  rw [maximumf_apply, addf_apply, row_bcast]
  show max (a (ix2 p q) + b (ix1 q)) (Ideal.ofBits .f32 0x00000000#32) = _
  rw [Ideal.ofBits_zero_f32]

/-- The column mean: the host's sum down the rows from zero, divided by the row count. -/
theorem mean_apply (h : FVec Ideal S50000x64 .f32) (q : Fin 64) :
    Host.divf (Host.reduceAdd h (constant (F := Ideal) S_ .f32 0x00000000#32) reducesTo_S50000x64_S64_d0 h_S_)
        (broadcastInDim S64 ![] bcast_S_S64 (constant (F := Ideal) S_ .f32 0x47435000#32)) (ix1 q)
      = Ideal.div (0 + ∑ p : Fin 50000, h (ix2 p q)) Cert.BnAlgebra.nLit := by
  rw [hostDivf_apply, colsum_apply, scalar_bcast, Ideal.ofBits_zero_f32]

/-- An entry less its column's entry of a [64] row. -/
theorem cen_apply (h : FVec Ideal S50000x64 .f32) (m : FVec Ideal S64 .f32) (p : Fin 50000) (q : Fin 64) :
    subf h (broadcastInDim S50000x64 ![0, 1] bcast_S1x64_S50000x64_0_1 (broadcastInDim S1x64 ![1] bcast_S64_S1x64_1 m)) (ix2 p q) = h (ix2 p q) - m (ix1 q) := by
  rw [subf_apply, row_bcast]

/-- The column mean of the squared deviations from a [64] row. -/
theorem var_apply (h : FVec Ideal S50000x64 .f32) (m : FVec Ideal S64 .f32) (q : Fin 64) :
    Host.divf (Host.reduceAdd (mulf (subf h (broadcastInDim S50000x64 ![0, 1] bcast_S1x64_S50000x64_0_1 (broadcastInDim S1x64 ![1] bcast_S64_S1x64_1 m))) (subf h (broadcastInDim S50000x64 ![0, 1] bcast_S1x64_S50000x64_0_1 (broadcastInDim S1x64 ![1] bcast_S64_S1x64_1 m))))
          (constant (F := Ideal) S_ .f32 0x00000000#32) reducesTo_S50000x64_S64_d0 h_S_)
        (broadcastInDim S64 ![] bcast_S_S64 (constant (F := Ideal) S_ .f32 0x47435000#32)) (ix1 q)
      = Ideal.div (0 + ∑ p : Fin 50000, (h (ix2 p q) - m (ix1 q)) * (h (ix2 p q) - m (ix1 q))) Cert.BnAlgebra.nLit := by
  rw [hostDivf_apply, colsum_apply, scalar_bcast, Ideal.ofBits_zero_f32]
  refine congrArg (fun s => Ideal.div (0 + s) Cert.BnAlgebra.nLit) (Finset.sum_congr rfl fun p _ => ?_)
  rw [mulf_apply, cen_apply]

/-- The normalization at (p, q): column q of `h` through `Cert.BnAlgebra.referenceOut` with the column's scale and shift. -/
theorem normTail_apply (h : FVec Ideal S50000x64 .f32) (g : FVec Ideal S64 .f32) (b : FVec Ideal S64 .f32) (p : Fin 50000) (q : Fin 64) :
    normTail h g b (ix2 p q) = Cert.BnAlgebra.referenceOut (fun p' => h (ix2 p' q)) (vecAt g q) (vecAt b q) p := by
  unfold normTail vecAt
  rw [Cert.BnAlgebra.referenceOut_def]
  rw [addf_apply, mulf_apply, mulf_apply, row_bcast, row_bcast, row_bcast, cen_apply, hostRsqrt_apply, addf_apply,
    scalar_bcast, var_apply, mean_apply]

/-! ## The three layers -/

variable {F : FTy → Type} [FloatOps F]

/-- The reference's operations 67 … 102: bias, rectification and normalization of layer 1. -/
abbrev opsBn1 : List (HloOp τ sig (Elt F)) :=
  [ unary main_v7 main_v54 (broadcastInDim S1x64 ![1] bcast_S64_S1x64_1 : (⟨S64, .f32⟩ : BufTy).Contents (Elt F) → (⟨S1x64, .f32⟩ : BufTy).Contents (Elt F)),
    unary main_v54 main_v55 (broadcastInDim S50000x64 ![0, 1] bcast_S1x64_S50000x64_0_1 : (⟨S1x64, .f32⟩ : BufTy).Contents (Elt F) → (⟨S50000x64, .f32⟩ : BufTy).Contents (Elt F)),
    binary main_v53 main_v55 main_v56 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v56) (TRef.of (T := ⟨S50000x64, .f32⟩) main_call1_v0) (TRef.of (T := ⟨S50000x64, .f32⟩) main_v57) maximumf,
    nullary main_cst_9 (constant S_ .f32 0x00000000#32),
    binary main_v57 main_cst_9 main_v58 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_10 (constant S_ .f32 0x47435000#32),
    unary main_cst_10 main_v59 (broadcastInDim S64 ![] bcast_S_S64 : (⟨S_, .f32⟩ : BufTy).Contents (Elt F) → (⟨S64, .f32⟩ : BufTy).Contents (Elt F)),
    binary main_v58 main_v59 main_v60 (Host.divf : (⟨S64, .f32⟩ : BufTy).Contents (Elt F) → (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v57 main_v62 main_v63 (subf : (⟨S50000x64, .f32⟩ : BufTy).Contents (Elt F) → (⟨S50000x64, .f32⟩ : BufTy).Contents (Elt F) → (⟨S50000x64, .f32⟩ : BufTy).Contents (Elt F)),
    binary main_v63 main_v63 main_v64 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    binary main_v64 main_cst_11 main_v65 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_12 (constant S_ .f32 0x47435000#32),
    unary main_cst_12 main_v66 (broadcastInDim S64 ![] bcast_S_S64 : (⟨S_, .f32⟩ : BufTy).Contents (Elt F) → (⟨S64, .f32⟩ : BufTy).Contents (Elt F)),
    binary main_v65 main_v66 main_v67 (Host.divf : (⟨S64, .f32⟩ : BufTy).Contents (Elt F) → (⟨S64, .f32⟩ : BufTy).Contents (Elt F) → (⟨S64, .f32⟩ : BufTy).Contents (Elt F)),
    unary main_v60 main_v68 (broadcastInDim S1x64 ![1] bcast_S64_S1x64_1 : (⟨S64, .f32⟩ : BufTy).Contents (Elt F) → (⟨S1x64, .f32⟩ : BufTy).Contents (Elt F)),
    unary main_v68 main_v69 (broadcastInDim S50000x64 ![0, 1] bcast_S1x64_S50000x64_0_1 : (⟨S1x64, .f32⟩ : BufTy).Contents (Elt F) → (⟨S50000x64, .f32⟩ : BufTy).Contents (Elt F)),
    binary main_v57 main_v69 main_v70 (subf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v71 (broadcastInDim S64 ![] bcast_S_S64 : (⟨S_, .f32⟩ : BufTy).Contents (Elt F) → (⟨S64, .f32⟩ : BufTy).Contents (Elt F)),
    binary main_v67 main_v71 main_v72 (addf : (⟨S64, .f32⟩ : BufTy).Contents (Elt F) → (⟨S64, .f32⟩ : BufTy).Contents (Elt F) → (⟨S64, .f32⟩ : BufTy).Contents (Elt F)),
    unary main_v72 main_v73 (Host.rsqrt : (⟨S64, .f32⟩ : BufTy).Contents (Elt F) → (⟨S64, .f32⟩ : BufTy).Contents (Elt F)),
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v70 main_v75 main_v76 (mulf : (⟨S50000x64, .f32⟩ : BufTy).Contents (Elt F) → (⟨S50000x64, .f32⟩ : BufTy).Contents (Elt F) → (⟨S50000x64, .f32⟩ : BufTy).Contents (Elt F)),
    unary main_v9 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (mulf : (⟨S50000x64, .f32⟩ : BufTy).Contents (Elt F) → (⟨S50000x64, .f32⟩ : BufTy).Contents (Elt F) → (⟨S50000x64, .f32⟩ : BufTy).Contents (Elt F)),
    unary main_v11 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)) ]

set_option maxRecDepth 65536 in
/-- The reference's operation list cut at these operations. -/
theorem ops_cutBn1 : (RefRun.ops (F := F)) = (RefRun.ops (F := F)).take 67 ++ opsBn1 ++ (RefRun.ops (F := F)).drop 103 := rfl

set_option maxHeartbeats 4000000 in
set_option maxRecDepth 65536 in
/-- Layer 1: at any contents of the buffers before them, these operations leave the normalization of the rectified
    biased first aggregation. -/
theorem bn_tail1 (W : Valuation τ sig (Elt F)) :
    StableHlo.after (opsBn1 (F := F)) W (Proc.devRef .tc main_v82)
      = normTail (reluBias (W (Proc.devRef .tc main_v53)) (W (Proc.devRef .tc main_v7))) (W (Proc.devRef .tc main_v9))
          (W (Proc.devRef .tc main_v11)) := by
  simp only [opsBn1]
  after_results_simp
  rfl

/-- Layer 1, at an index: column `q` of the rectified biased aggregation goes through the normalization with that
    column's scale and shift. -/
theorem bn_reference1 (W : Valuation τ sig (Elt Ideal)) (p : Fin 50000) (q : Fin 64) :
    StableHlo.after (opsBn1 (F := Ideal)) W (Proc.devRef .tc main_v82) (ix2 p q)
      = Cert.BnAlgebra.referenceOut
          (colRelu (W (Proc.devRef .tc main_v53)) (W (Proc.devRef .tc main_v7)) q)
          (vecAt (W (Proc.devRef .tc main_v9)) q) (vecAt (W (Proc.devRef .tc main_v11)) q) p := by
  rw [bn_tail1, normTail_apply]
  exact congrArg (fun h => Cert.BnAlgebra.referenceOut h _ _ p) (funext fun p' => reluBias_apply _ _ p' q)

/-- The reference's operations 166 … 201: bias, rectification and normalization of layer 2. -/
abbrev opsBn2 : List (HloOp τ sig (Elt F)) :=
  [ unary main_v86 main_v133 (broadcastInDim S1x64 ![1] bcast_S64_S1x64_1 : (⟨S64, .f32⟩ : BufTy).Contents (Elt F) → (⟨S1x64, .f32⟩ : BufTy).Contents (Elt F)),
    unary main_v133 main_v134 (broadcastInDim S50000x64 ![0, 1] bcast_S1x64_S50000x64_0_1 : (⟨S1x64, .f32⟩ : BufTy).Contents (Elt F) → (⟨S50000x64, .f32⟩ : BufTy).Contents (Elt F)),
    binary main_v132 main_v134 main_v135 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v135) (TRef.of (T := ⟨S50000x64, .f32⟩) main_call3_v0) (TRef.of (T := ⟨S50000x64, .f32⟩) main_v136) maximumf,
    nullary main_cst_25 (constant S_ .f32 0x00000000#32),
    binary main_v136 main_cst_25 main_v137 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_26 (constant S_ .f32 0x47435000#32),
    unary main_cst_26 main_v138 (broadcastInDim S64 ![] bcast_S_S64 : (⟨S_, .f32⟩ : BufTy).Contents (Elt F) → (⟨S64, .f32⟩ : BufTy).Contents (Elt F)),
    binary main_v137 main_v138 main_v139 (Host.divf : (⟨S64, .f32⟩ : BufTy).Contents (Elt F) → (⟨S64, .f32⟩ : BufTy).Contents (Elt F) → (⟨S64, .f32⟩ : BufTy).Contents (Elt F)),
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S50000x64 ![0, 1] bcast_S1x64_S50000x64_0_1 : (⟨S1x64, .f32⟩ : BufTy).Contents (Elt F) → (⟨S50000x64, .f32⟩ : BufTy).Contents (Elt F)),
    binary main_v136 main_v141 main_v142 (subf : (⟨S50000x64, .f32⟩ : BufTy).Contents (Elt F) → (⟨S50000x64, .f32⟩ : BufTy).Contents (Elt F) → (⟨S50000x64, .f32⟩ : BufTy).Contents (Elt F)),
    binary main_v142 main_v142 main_v143 (mulf : (⟨S50000x64, .f32⟩ : BufTy).Contents (Elt F) → (⟨S50000x64, .f32⟩ : BufTy).Contents (Elt F) → (⟨S50000x64, .f32⟩ : BufTy).Contents (Elt F)),
    nullary main_cst_27 (constant S_ .f32 0x00000000#32),
    binary main_v143 main_cst_27 main_v144 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_28 (constant S_ .f32 0x47435000#32),
    unary main_cst_28 main_v145 (broadcastInDim S64 ![] bcast_S_S64 : (⟨S_, .f32⟩ : BufTy).Contents (Elt F) → (⟨S64, .f32⟩ : BufTy).Contents (Elt F)),
    binary main_v144 main_v145 main_v146 (Host.divf : (⟨S64, .f32⟩ : BufTy).Contents (Elt F) → (⟨S64, .f32⟩ : BufTy).Contents (Elt F) → (⟨S64, .f32⟩ : BufTy).Contents (Elt F)),
    unary main_v139 main_v147 (broadcastInDim S1x64 ![1] bcast_S64_S1x64_1 : (⟨S64, .f32⟩ : BufTy).Contents (Elt F) → (⟨S1x64, .f32⟩ : BufTy).Contents (Elt F)),
    unary main_v147 main_v148 (broadcastInDim S50000x64 ![0, 1] bcast_S1x64_S50000x64_0_1 : (⟨S1x64, .f32⟩ : BufTy).Contents (Elt F) → (⟨S50000x64, .f32⟩ : BufTy).Contents (Elt F)),
    binary main_v136 main_v148 main_v149 (subf : (⟨S50000x64, .f32⟩ : BufTy).Contents (Elt F) → (⟨S50000x64, .f32⟩ : BufTy).Contents (Elt F) → (⟨S50000x64, .f32⟩ : BufTy).Contents (Elt F)),
    nullary main_cst_29 (constant S_ .f32 0x3727C5AC#32),
    unary main_cst_29 main_v150 (broadcastInDim S64 ![] bcast_S_S64 : (⟨S_, .f32⟩ : BufTy).Contents (Elt F) → (⟨S64, .f32⟩ : BufTy).Contents (Elt F)),
    binary main_v146 main_v150 main_v151 (addf : (⟨S64, .f32⟩ : BufTy).Contents (Elt F) → (⟨S64, .f32⟩ : BufTy).Contents (Elt F) → (⟨S64, .f32⟩ : BufTy).Contents (Elt F)),
    unary main_v151 main_v152 (Host.rsqrt : (⟨S64, .f32⟩ : BufTy).Contents (Elt F) → (⟨S64, .f32⟩ : BufTy).Contents (Elt F)),
    unary main_v152 main_v153 (broadcastInDim S1x64 ![1] bcast_S64_S1x64_1 : (⟨S64, .f32⟩ : BufTy).Contents (Elt F) → (⟨S1x64, .f32⟩ : BufTy).Contents (Elt F)),
    unary main_v153 main_v154 (broadcastInDim S50000x64 ![0, 1] bcast_S1x64_S50000x64_0_1 : (⟨S1x64, .f32⟩ : BufTy).Contents (Elt F) → (⟨S50000x64, .f32⟩ : BufTy).Contents (Elt F)),
    binary main_v149 main_v154 main_v155 (mulf : (⟨S50000x64, .f32⟩ : BufTy).Contents (Elt F) → (⟨S50000x64, .f32⟩ : BufTy).Contents (Elt F) → (⟨S50000x64, .f32⟩ : BufTy).Contents (Elt F)),
    unary main_v88 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v155 main_v157 main_v158 (mulf : (⟨S50000x64, .f32⟩ : BufTy).Contents (Elt F) → (⟨S50000x64, .f32⟩ : BufTy).Contents (Elt F) → (⟨S50000x64, .f32⟩ : BufTy).Contents (Elt F)),
    unary main_v90 main_v159 (broadcastInDim S1x64 ![1] bcast_S64_S1x64_1 : (⟨S64, .f32⟩ : BufTy).Contents (Elt F) → (⟨S1x64, .f32⟩ : BufTy).Contents (Elt F)),
    unary main_v159 main_v160 (broadcastInDim S50000x64 ![0, 1] bcast_S1x64_S50000x64_0_1 : (⟨S1x64, .f32⟩ : BufTy).Contents (Elt F) → (⟨S50000x64, .f32⟩ : BufTy).Contents (Elt F)),
    binary main_v158 main_v160 main_v161 (addf : (⟨S50000x64, .f32⟩ : BufTy).Contents (Elt F) → (⟨S50000x64, .f32⟩ : BufTy).Contents (Elt F) → (⟨S50000x64, .f32⟩ : BufTy).Contents (Elt F)) ]

set_option maxRecDepth 65536 in
/-- The reference's operation list cut at these operations. -/
theorem ops_cutBn2 : (RefRun.ops (F := F)) = (RefRun.ops (F := F)).take 166 ++ opsBn2 ++ (RefRun.ops (F := F)).drop 202 := rfl

set_option maxHeartbeats 4000000 in
set_option maxRecDepth 65536 in
/-- Layer 2: at any contents of the buffers before them, these operations leave the normalization of the rectified
    biased second aggregation. -/
theorem bn_tail2 (W : Valuation τ sig (Elt F)) :
    StableHlo.after (opsBn2 (F := F)) W (Proc.devRef .tc main_v161)
      = normTail (reluBias (W (Proc.devRef .tc main_v132)) (W (Proc.devRef .tc main_v86))) (W (Proc.devRef .tc main_v88))
          (W (Proc.devRef .tc main_v90)) := by
  simp only [opsBn2]
  after_results_simp
  rfl

/-- Layer 2, at an index: column `q` of the rectified biased aggregation goes through the normalization with that
    column's scale and shift. -/
theorem bn_reference2 (W : Valuation τ sig (Elt Ideal)) (p : Fin 50000) (q : Fin 64) :
    StableHlo.after (opsBn2 (F := Ideal)) W (Proc.devRef .tc main_v161) (ix2 p q)
      = Cert.BnAlgebra.referenceOut
          (colRelu (W (Proc.devRef .tc main_v132)) (W (Proc.devRef .tc main_v86)) q)
          (vecAt (W (Proc.devRef .tc main_v88)) q) (vecAt (W (Proc.devRef .tc main_v90)) q) p := by
  rw [bn_tail2, normTail_apply]
  exact congrArg (fun h => Cert.BnAlgebra.referenceOut h _ _ p) (funext fun p' => reluBias_apply _ _ p' q)

/-- The reference's operations 265 … 300: bias, rectification and normalization of layer 3. -/
abbrev opsBn3 : List (HloOp τ sig (Elt F)) :=
  [ unary main_v165 main_v212 (broadcastInDim S1x64 ![1] bcast_S64_S1x64_1 : (⟨S64, .f32⟩ : BufTy).Contents (Elt F) → (⟨S1x64, .f32⟩ : BufTy).Contents (Elt F)),
    unary main_v212 main_v213 (broadcastInDim S50000x64 ![0, 1] bcast_S1x64_S50000x64_0_1 : (⟨S1x64, .f32⟩ : BufTy).Contents (Elt F) → (⟨S50000x64, .f32⟩ : BufTy).Contents (Elt F)),
    binary main_v211 main_v213 main_v214 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v214) (TRef.of (T := ⟨S50000x64, .f32⟩) main_call5_v0) (TRef.of (T := ⟨S50000x64, .f32⟩) main_v215) maximumf,
    nullary main_cst_41 (constant S_ .f32 0x00000000#32),
    binary main_v215 main_cst_41 main_v216 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_42 (constant S_ .f32 0x47435000#32),
    unary main_cst_42 main_v217 (broadcastInDim S64 ![] bcast_S_S64 : (⟨S_, .f32⟩ : BufTy).Contents (Elt F) → (⟨S64, .f32⟩ : BufTy).Contents (Elt F)),
    binary main_v216 main_v217 main_v218 (Host.divf : (⟨S64, .f32⟩ : BufTy).Contents (Elt F) → (⟨S64, .f32⟩ : BufTy).Contents (Elt F) → (⟨S64, .f32⟩ : BufTy).Contents (Elt F)),
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S50000x64 ![0, 1] bcast_S1x64_S50000x64_0_1 : (⟨S1x64, .f32⟩ : BufTy).Contents (Elt F) → (⟨S50000x64, .f32⟩ : BufTy).Contents (Elt F)),
    binary main_v215 main_v220 main_v221 (subf : (⟨S50000x64, .f32⟩ : BufTy).Contents (Elt F) → (⟨S50000x64, .f32⟩ : BufTy).Contents (Elt F) → (⟨S50000x64, .f32⟩ : BufTy).Contents (Elt F)),
    binary main_v221 main_v221 main_v222 (mulf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x00000000#32),
    binary main_v222 main_cst_43 main_v223 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_44 (constant S_ .f32 0x47435000#32),
    unary main_cst_44 main_v224 (broadcastInDim S64 ![] bcast_S_S64 : (⟨S_, .f32⟩ : BufTy).Contents (Elt F) → (⟨S64, .f32⟩ : BufTy).Contents (Elt F)),
    binary main_v223 main_v224 main_v225 (Host.divf : (⟨S64, .f32⟩ : BufTy).Contents (Elt F) → (⟨S64, .f32⟩ : BufTy).Contents (Elt F) → (⟨S64, .f32⟩ : BufTy).Contents (Elt F)),
    unary main_v218 main_v226 (broadcastInDim S1x64 ![1] bcast_S64_S1x64_1 : (⟨S64, .f32⟩ : BufTy).Contents (Elt F) → (⟨S1x64, .f32⟩ : BufTy).Contents (Elt F)),
    unary main_v226 main_v227 (broadcastInDim S50000x64 ![0, 1] bcast_S1x64_S50000x64_0_1 : (⟨S1x64, .f32⟩ : BufTy).Contents (Elt F) → (⟨S50000x64, .f32⟩ : BufTy).Contents (Elt F)),
    binary main_v215 main_v227 main_v228 (subf : (⟨S50000x64, .f32⟩ : BufTy).Contents (Elt F) → (⟨S50000x64, .f32⟩ : BufTy).Contents (Elt F) → (⟨S50000x64, .f32⟩ : BufTy).Contents (Elt F)),
    nullary main_cst_45 (constant S_ .f32 0x3727C5AC#32),
    unary main_cst_45 main_v229 (broadcastInDim S64 ![] bcast_S_S64 : (⟨S_, .f32⟩ : BufTy).Contents (Elt F) → (⟨S64, .f32⟩ : BufTy).Contents (Elt F)),
    binary main_v225 main_v229 main_v230 (addf : (⟨S64, .f32⟩ : BufTy).Contents (Elt F) → (⟨S64, .f32⟩ : BufTy).Contents (Elt F) → (⟨S64, .f32⟩ : BufTy).Contents (Elt F)),
    unary main_v230 main_v231 (Host.rsqrt : (⟨S64, .f32⟩ : BufTy).Contents (Elt F) → (⟨S64, .f32⟩ : BufTy).Contents (Elt F)),
    unary main_v231 main_v232 (broadcastInDim S1x64 ![1] bcast_S64_S1x64_1 : (⟨S64, .f32⟩ : BufTy).Contents (Elt F) → (⟨S1x64, .f32⟩ : BufTy).Contents (Elt F)),
    unary main_v232 main_v233 (broadcastInDim S50000x64 ![0, 1] bcast_S1x64_S50000x64_0_1 : (⟨S1x64, .f32⟩ : BufTy).Contents (Elt F) → (⟨S50000x64, .f32⟩ : BufTy).Contents (Elt F)),
    binary main_v228 main_v233 main_v234 (mulf : (⟨S50000x64, .f32⟩ : BufTy).Contents (Elt F) → (⟨S50000x64, .f32⟩ : BufTy).Contents (Elt F) → (⟨S50000x64, .f32⟩ : BufTy).Contents (Elt F)),
    unary main_v167 main_v235 (broadcastInDim S1x64 ![1] bcast_S64_S1x64_1 : (⟨S64, .f32⟩ : BufTy).Contents (Elt F) → (⟨S1x64, .f32⟩ : BufTy).Contents (Elt F)),
    unary main_v235 main_v236 (broadcastInDim S50000x64 ![0, 1] bcast_S1x64_S50000x64_0_1 : (⟨S1x64, .f32⟩ : BufTy).Contents (Elt F) → (⟨S50000x64, .f32⟩ : BufTy).Contents (Elt F)),
    binary main_v234 main_v236 main_v237 (mulf : (⟨S50000x64, .f32⟩ : BufTy).Contents (Elt F) → (⟨S50000x64, .f32⟩ : BufTy).Contents (Elt F) → (⟨S50000x64, .f32⟩ : BufTy).Contents (Elt F)),
    unary main_v169 main_v238 (broadcastInDim S1x64 ![1] bcast_S64_S1x64_1 : (⟨S64, .f32⟩ : BufTy).Contents (Elt F) → (⟨S1x64, .f32⟩ : BufTy).Contents (Elt F)),
    unary main_v238 main_v239 (broadcastInDim S50000x64 ![0, 1] bcast_S1x64_S50000x64_0_1 : (⟨S1x64, .f32⟩ : BufTy).Contents (Elt F) → (⟨S50000x64, .f32⟩ : BufTy).Contents (Elt F)),
    binary main_v237 main_v239 main_v240 (addf : (⟨S50000x64, .f32⟩ : BufTy).Contents (Elt F) → (⟨S50000x64, .f32⟩ : BufTy).Contents (Elt F) → (⟨S50000x64, .f32⟩ : BufTy).Contents (Elt F)) ]

set_option maxRecDepth 65536 in
/-- The reference's operation list cut at these operations. -/
theorem ops_cutBn3 : (RefRun.ops (F := F)) = (RefRun.ops (F := F)).take 265 ++ opsBn3 ++ (RefRun.ops (F := F)).drop 301 := rfl

set_option maxHeartbeats 4000000 in
set_option maxRecDepth 65536 in
/-- Layer 3: at any contents of the buffers before them, these operations leave the normalization of the rectified
    biased third aggregation. -/
theorem bn_tail3 (W : Valuation τ sig (Elt F)) :
    StableHlo.after (opsBn3 (F := F)) W (Proc.devRef .tc main_v240)
      = normTail (reluBias (W (Proc.devRef .tc main_v211)) (W (Proc.devRef .tc main_v165))) (W (Proc.devRef .tc main_v167))
          (W (Proc.devRef .tc main_v169)) := by
  simp only [opsBn3]
  after_results_simp
  rfl

/-- Layer 3, at an index: column `q` of the rectified biased aggregation goes through the normalization with that
    column's scale and shift. -/
theorem bn_reference3 (W : Valuation τ sig (Elt Ideal)) (p : Fin 50000) (q : Fin 64) :
    StableHlo.after (opsBn3 (F := Ideal)) W (Proc.devRef .tc main_v240) (ix2 p q)
      = Cert.BnAlgebra.referenceOut
          (colRelu (W (Proc.devRef .tc main_v211)) (W (Proc.devRef .tc main_v165)) q)
          (vecAt (W (Proc.devRef .tc main_v167)) q) (vecAt (W (Proc.devRef .tc main_v169)) q) p := by
  rw [bn_tail3, normTail_apply]
  exact congrArg (fun h => Cert.BnAlgebra.referenceOut h _ _ p) (funext fun p' => reluBias_apply _ _ p' q)

end Cert.ReferenceIdeal.RefValue

end
-- ==== Proof.Ideal.RefStages.lean ====
/- The reference program's 305 host operations as ten consecutive stages — per layer: parameter slices and the
   product, the aggregation, bias-rectification-normalization; then the final stacking — with the buffer contents
   after each stage, and what passes through a stage unchanged. -/
import proofs.«132734_j72301479461275_2_alg».proof.Proof.RefRun
import proofs.«132734_j72301479461275_2_alg».proof.Proof.LibFoldStages
import proofs.«132734_j72301479461275_2_alg».proof.Proof.Ideal.AggReference
import proofs.«132734_j72301479461275_2_alg».proof.Proof.Ideal.BnReference
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages not named elsewhere -/

/-- Operations 0 … 12: the edge rows, layer 1's parameter slices, and the first product. -/
abbrev opsPre1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg3 main_v4 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v4 main_v5 rfl shapeCasts_S1x64x64_S64x64,
    unary main_arg4 main_v6 ((extractStridedSlice S1x64 ![0, 0] · slices_S3x64_S1x64_0_0) : (⟨S3x64, .f32⟩ : BufTy).Contents (Elt F) → (⟨S1x64, .f32⟩ : BufTy).Contents (Elt F)),
    reshape main_v6 main_v7 rfl shapeCasts_S1x64_S64,
    unary main_arg5 main_v8 ((extractStridedSlice S1x64 ![0, 0] · slices_S3x64_S1x64_0_0) : (⟨S3x64, .f32⟩ : BufTy).Contents (Elt F) → (⟨S1x64, .f32⟩ : BufTy).Contents (Elt F)),
    reshape main_v8 main_v9 rfl shapeCasts_S1x64_S64,
    unary main_arg6 main_v10 ((extractStridedSlice S1x64 ![0, 0] · slices_S3x64_S1x64_0_0) : (⟨S3x64, .f32⟩ : BufTy).Contents (Elt F) → (⟨S1x64, .f32⟩ : BufTy).Contents (Elt F)),
    reshape main_v10 main_v11 rfl shapeCasts_S1x64_S64,
    binary main_arg0 main_v5 main_v12 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- Operations 103 … 111: layer 2's parameter slices and the second product. -/
abbrev opsPre2 : List (HloOp τ sig (Elt F)) :=
  [ unary main_arg3 main_v83 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v83 main_v84 rfl shapeCasts_S1x64x64_S64x64,
    unary main_arg4 main_v85 ((extractStridedSlice S1x64 ![1, 0] · slices_S3x64_S1x64_1_0) : (⟨S3x64, .f32⟩ : BufTy).Contents (Elt F) → (⟨S1x64, .f32⟩ : BufTy).Contents (Elt F)),
    reshape main_v85 main_v86 rfl shapeCasts_S1x64_S64,
    unary main_arg5 main_v87 ((extractStridedSlice S1x64 ![1, 0] · slices_S3x64_S1x64_1_0) : (⟨S3x64, .f32⟩ : BufTy).Contents (Elt F) → (⟨S1x64, .f32⟩ : BufTy).Contents (Elt F)),
    reshape main_v87 main_v88 rfl shapeCasts_S1x64_S64,
    unary main_arg6 main_v89 ((extractStridedSlice S1x64 ![1, 0] · slices_S3x64_S1x64_1_0) : (⟨S3x64, .f32⟩ : BufTy).Contents (Elt F) → (⟨S1x64, .f32⟩ : BufTy).Contents (Elt F)),
    reshape main_v89 main_v90 rfl shapeCasts_S1x64_S64,
    binary main_v82 main_v84 main_v91 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- Operations 202 … 210: layer 3's parameter slices and the third product. -/
abbrev opsPre3 : List (HloOp τ sig (Elt F)) :=
  [ unary main_arg3 main_v162 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v162 main_v163 rfl shapeCasts_S1x64x64_S64x64,
    unary main_arg4 main_v164 ((extractStridedSlice S1x64 ![2, 0] · slices_S3x64_S1x64_2_0) : (⟨S3x64, .f32⟩ : BufTy).Contents (Elt F) → (⟨S1x64, .f32⟩ : BufTy).Contents (Elt F)),
    reshape main_v164 main_v165 rfl shapeCasts_S1x64_S64,
    unary main_arg5 main_v166 ((extractStridedSlice S1x64 ![2, 0] · slices_S3x64_S1x64_2_0) : (⟨S3x64, .f32⟩ : BufTy).Contents (Elt F) → (⟨S1x64, .f32⟩ : BufTy).Contents (Elt F)),
    reshape main_v166 main_v167 rfl shapeCasts_S1x64_S64,
    unary main_arg6 main_v168 ((extractStridedSlice S1x64 ![2, 0] · slices_S3x64_S1x64_2_0) : (⟨S3x64, .f32⟩ : BufTy).Contents (Elt F) → (⟨S1x64, .f32⟩ : BufTy).Contents (Elt F)),
    reshape main_v168 main_v169 rfl shapeCasts_S1x64_S64,
    binary main_v161 main_v163 main_v170 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- Operations 301 … 304: the three layer outputs stacked into one array. -/
abbrev opsTail : List (HloOp τ sig (Elt F)) :=
  [ unary main_v82 main_v241 (broadcastInDim S1x50000x64 ![1, 2] bcast_S50000x64_S1x50000x64_1_2 : (⟨S50000x64, .f32⟩ : BufTy).Contents (Elt F) → (⟨S1x50000x64, .f32⟩ : BufTy).Contents (Elt F)),
    unary main_v161 main_v242 (broadcastInDim S1x50000x64 ![1, 2] bcast_S50000x64_S1x50000x64_1_2 : (⟨S50000x64, .f32⟩ : BufTy).Contents (Elt F) → (⟨S1x50000x64, .f32⟩ : BufTy).Contents (Elt F)),
    unary main_v240 main_v243 (broadcastInDim S1x50000x64 ![1, 2] bcast_S50000x64_S1x50000x64_1_2 : (⟨S50000x64, .f32⟩ : BufTy).Contents (Elt F) → (⟨S1x50000x64, .f32⟩ : BufTy).Contents (Elt F)),
    nary ![main_v241, main_v242, main_v243] main_v244 (fun u => concatenate S3x50000x64 0 [⟨S1x50000x64, u 0⟩, ⟨S1x50000x64, u 1⟩, ⟨S1x50000x64, u 2⟩] concatenates_S1x50000x64_S1x50000x64_S1x50000x64_S3x50000x64_d0) ]

/-! ## The partition -/

set_option maxRecDepth 65536 in
/-- The operation list is the ten stages in a row. -/
theorem ops_stages : (RefRun.ops (F := F)) = opsPre1 ++ opsAgg1 ++ opsBn1 ++ opsPre2 ++ opsAgg2 ++ opsBn2 ++ opsPre3 ++ opsAgg3 ++ opsBn3 ++ opsTail := rfl

/-- The buffer contents after stage 1 (`opsPre1`). -/
abbrev R1 (W0 : Valuation τ sig (Elt F)) : Valuation τ sig (Elt F) := after (opsPre1 (F := F)) W0
/-- The buffer contents after stage 2 (`opsAgg1`). -/
abbrev R2 (W0 : Valuation τ sig (Elt F)) : Valuation τ sig (Elt F) := after (opsAgg1 (F := F)) (R1 W0)
/-- The buffer contents after stage 3 (`opsBn1`). -/
abbrev R3 (W0 : Valuation τ sig (Elt F)) : Valuation τ sig (Elt F) := after (opsBn1 (F := F)) (R2 W0)
/-- The buffer contents after stage 4 (`opsPre2`). -/
abbrev R4 (W0 : Valuation τ sig (Elt F)) : Valuation τ sig (Elt F) := after (opsPre2 (F := F)) (R3 W0)
/-- The buffer contents after stage 5 (`opsAgg2`). -/
abbrev R5 (W0 : Valuation τ sig (Elt F)) : Valuation τ sig (Elt F) := after (opsAgg2 (F := F)) (R4 W0)
/-- The buffer contents after stage 6 (`opsBn2`). -/
abbrev R6 (W0 : Valuation τ sig (Elt F)) : Valuation τ sig (Elt F) := after (opsBn2 (F := F)) (R5 W0)
/-- The buffer contents after stage 7 (`opsPre3`). -/
abbrev R7 (W0 : Valuation τ sig (Elt F)) : Valuation τ sig (Elt F) := after (opsPre3 (F := F)) (R6 W0)
/-- The buffer contents after stage 8 (`opsAgg3`). -/
abbrev R8 (W0 : Valuation τ sig (Elt F)) : Valuation τ sig (Elt F) := after (opsAgg3 (F := F)) (R7 W0)
/-- The buffer contents after stage 9 (`opsBn3`). -/
abbrev R9 (W0 : Valuation τ sig (Elt F)) : Valuation τ sig (Elt F) := after (opsBn3 (F := F)) (R8 W0)
/-- The buffer contents after stage 10 (`opsTail`). -/
abbrev R10 (W0 : Valuation τ sig (Elt F)) : Valuation τ sig (Elt F) := after (opsTail (F := F)) (R9 W0)

/-- The contents after the whole list are those after the tenth stage. -/
theorem after_ops (W0 : Valuation τ sig (Elt F)) : after (RefRun.ops (F := F)) W0 = R10 W0 := by
  rw [ops_stages]
  simp only [Cert.LibFoldStages.after_append]

/-! ## What each stage writes, and what passes through it -/

/-- The buffers stage 1 writes. -/
abbrev opsPre1_W : List (Ref sig .tc) := [main_v0, main_v1, main_v2, main_v3, main_v4, main_v5, main_v6, main_v7, main_v8, main_v9, main_v10, main_v11, main_v12]
set_option maxRecDepth 65536 in
theorem opsPre1_writes : (opsPre1 : List (HloOp τ sig (Elt F))).Forall fun op => op.writes ⊆ (opsPre1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 1 does not write passes through it. -/
theorem keep1 (W0 : Valuation τ sig (Elt F)) (r : Ref sig .tc) (h : r ∉ opsPre1_W) :
    R1 W0 (Proc.devRef .tc r) = W0 (Proc.devRef .tc r) :=
  after_of_writes_sub (opsPre1 (F := F)) _ opsPre1_writes h

/-- The buffers stage 2 writes. -/
abbrev opsAgg1_W : List (Ref sig .tc) := [main_v13, main_v14, main_v15, main_cst, main_v16, main_v17, main_cst_0, main_v18, main_v19, main_v20, main_cst_1, main_v21, main_v22, main_v23, main_cst_2, main_call0_v0, main_call0_v1, main_v24, main_c, main_v25, main_v26, main_c_3, main_v27, main_v28, main_v29, main_v30, main_v31, main_v32, main_c_4, main_v33, main_v34, main_c_5, main_v35, main_v36, main_v37, main_v38, main_v39, main_v40, main_c_6, main_v41, main_v42, main_c_7, main_v43, main_v44, main_v45, main_v46, main_v47, main_v48, main_v49, main_v50, main_cst_8, main_v51, main_v52, main_v53]
set_option maxRecDepth 65536 in
theorem opsAgg1_writes : (opsAgg1 : List (HloOp τ sig (Elt F))).Forall fun op => op.writes ⊆ (opsAgg1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 2 does not write passes through it. -/
theorem keep2 (W0 : Valuation τ sig (Elt F)) (r : Ref sig .tc) (h : r ∉ opsAgg1_W) :
    R2 W0 (Proc.devRef .tc r) = R1 W0 (Proc.devRef .tc r) :=
  after_of_writes_sub (opsAgg1 (F := F)) _ opsAgg1_writes h

/-- The buffers stage 3 writes. -/
abbrev opsBn1_W : List (Ref sig .tc) := [main_v54, main_v55, main_v56, main_call1_cst, main_call1_v0, main_v57, main_cst_9, main_v58, main_cst_10, main_v59, main_v60, main_v61, main_v62, main_v63, main_v64, main_cst_11, main_v65, main_cst_12, main_v66, main_v67, main_v68, main_v69, main_v70, main_cst_13, main_v71, main_v72, main_v73, main_v74, main_v75, main_v76, main_v77, main_v78, main_v79, main_v80, main_v81, main_v82]
set_option maxRecDepth 65536 in
theorem opsBn1_writes : (opsBn1 : List (HloOp τ sig (Elt F))).Forall fun op => op.writes ⊆ (opsBn1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 3 does not write passes through it. -/
theorem keep3 (W0 : Valuation τ sig (Elt F)) (r : Ref sig .tc) (h : r ∉ opsBn1_W) :
    R3 W0 (Proc.devRef .tc r) = R2 W0 (Proc.devRef .tc r) :=
  after_of_writes_sub (opsBn1 (F := F)) _ opsBn1_writes h

/-- The buffers stage 4 writes. -/
abbrev opsPre2_W : List (Ref sig .tc) := [main_v83, main_v84, main_v85, main_v86, main_v87, main_v88, main_v89, main_v90, main_v91]
set_option maxRecDepth 65536 in
theorem opsPre2_writes : (opsPre2 : List (HloOp τ sig (Elt F))).Forall fun op => op.writes ⊆ (opsPre2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 4 does not write passes through it. -/
theorem keep4 (W0 : Valuation τ sig (Elt F)) (r : Ref sig .tc) (h : r ∉ opsPre2_W) :
    R4 W0 (Proc.devRef .tc r) = R3 W0 (Proc.devRef .tc r) :=
  after_of_writes_sub (opsPre2 (F := F)) _ opsPre2_writes h

/-- The buffers stage 5 writes. -/
abbrev opsAgg2_W : List (Ref sig .tc) := [main_v92, main_v93, main_v94, main_cst_14, main_v95, main_v96, main_cst_15, main_v97, main_v98, main_v99, main_cst_16, main_v100, main_v101, main_v102, main_cst_17, main_call2_v0, main_call2_v1, main_v103, main_c_18, main_v104, main_v105, main_c_19, main_v106, main_v107, main_v108, main_v109, main_v110, main_v111, main_c_20, main_v112, main_v113, main_c_21, main_v114, main_v115, main_v116, main_v117, main_v118, main_v119, main_c_22, main_v120, main_v121, main_c_23, main_v122, main_v123, main_v124, main_v125, main_v126, main_v127, main_v128, main_v129, main_cst_24, main_v130, main_v131, main_v132]
set_option maxRecDepth 65536 in
theorem opsAgg2_writes : (opsAgg2 : List (HloOp τ sig (Elt F))).Forall fun op => op.writes ⊆ (opsAgg2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 5 does not write passes through it. -/
theorem keep5 (W0 : Valuation τ sig (Elt F)) (r : Ref sig .tc) (h : r ∉ opsAgg2_W) :
    R5 W0 (Proc.devRef .tc r) = R4 W0 (Proc.devRef .tc r) :=
  after_of_writes_sub (opsAgg2 (F := F)) _ opsAgg2_writes h

/-- The buffers stage 6 writes. -/
abbrev opsBn2_W : List (Ref sig .tc) := [main_v133, main_v134, main_v135, main_call3_cst, main_call3_v0, main_v136, main_cst_25, main_v137, main_cst_26, main_v138, main_v139, main_v140, main_v141, main_v142, main_v143, main_cst_27, main_v144, main_cst_28, main_v145, main_v146, main_v147, main_v148, main_v149, main_cst_29, main_v150, main_v151, main_v152, main_v153, main_v154, main_v155, main_v156, main_v157, main_v158, main_v159, main_v160, main_v161]
set_option maxRecDepth 65536 in
theorem opsBn2_writes : (opsBn2 : List (HloOp τ sig (Elt F))).Forall fun op => op.writes ⊆ (opsBn2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 6 does not write passes through it. -/
theorem keep6 (W0 : Valuation τ sig (Elt F)) (r : Ref sig .tc) (h : r ∉ opsBn2_W) :
    R6 W0 (Proc.devRef .tc r) = R5 W0 (Proc.devRef .tc r) :=
  after_of_writes_sub (opsBn2 (F := F)) _ opsBn2_writes h

/-- The buffers stage 7 writes. -/
abbrev opsPre3_W : List (Ref sig .tc) := [main_v162, main_v163, main_v164, main_v165, main_v166, main_v167, main_v168, main_v169, main_v170]
set_option maxRecDepth 65536 in
theorem opsPre3_writes : (opsPre3 : List (HloOp τ sig (Elt F))).Forall fun op => op.writes ⊆ (opsPre3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 7 does not write passes through it. -/
theorem keep7 (W0 : Valuation τ sig (Elt F)) (r : Ref sig .tc) (h : r ∉ opsPre3_W) :
    R7 W0 (Proc.devRef .tc r) = R6 W0 (Proc.devRef .tc r) :=
  after_of_writes_sub (opsPre3 (F := F)) _ opsPre3_writes h

/-- The buffers stage 8 writes. -/
abbrev opsAgg3_W : List (Ref sig .tc) := [main_v171, main_v172, main_v173, main_cst_30, main_v174, main_v175, main_cst_31, main_v176, main_v177, main_v178, main_cst_32, main_v179, main_v180, main_v181, main_cst_33, main_call4_v0, main_call4_v1, main_v182, main_c_34, main_v183, main_v184, main_c_35, main_v185, main_v186, main_v187, main_v188, main_v189, main_v190, main_c_36, main_v191, main_v192, main_c_37, main_v193, main_v194, main_v195, main_v196, main_v197, main_v198, main_c_38, main_v199, main_v200, main_c_39, main_v201, main_v202, main_v203, main_v204, main_v205, main_v206, main_v207, main_v208, main_cst_40, main_v209, main_v210, main_v211]
set_option maxRecDepth 65536 in
theorem opsAgg3_writes : (opsAgg3 : List (HloOp τ sig (Elt F))).Forall fun op => op.writes ⊆ (opsAgg3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 8 does not write passes through it. -/
theorem keep8 (W0 : Valuation τ sig (Elt F)) (r : Ref sig .tc) (h : r ∉ opsAgg3_W) :
    R8 W0 (Proc.devRef .tc r) = R7 W0 (Proc.devRef .tc r) :=
  after_of_writes_sub (opsAgg3 (F := F)) _ opsAgg3_writes h

/-- The buffers stage 9 writes. -/
abbrev opsBn3_W : List (Ref sig .tc) := [main_v212, main_v213, main_v214, main_call5_cst, main_call5_v0, main_v215, main_cst_41, main_v216, main_cst_42, main_v217, main_v218, main_v219, main_v220, main_v221, main_v222, main_cst_43, main_v223, main_cst_44, main_v224, main_v225, main_v226, main_v227, main_v228, main_cst_45, main_v229, main_v230, main_v231, main_v232, main_v233, main_v234, main_v235, main_v236, main_v237, main_v238, main_v239, main_v240]
set_option maxRecDepth 65536 in
theorem opsBn3_writes : (opsBn3 : List (HloOp τ sig (Elt F))).Forall fun op => op.writes ⊆ (opsBn3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 9 does not write passes through it. -/
theorem keep9 (W0 : Valuation τ sig (Elt F)) (r : Ref sig .tc) (h : r ∉ opsBn3_W) :
    R9 W0 (Proc.devRef .tc r) = R8 W0 (Proc.devRef .tc r) :=
  after_of_writes_sub (opsBn3 (F := F)) _ opsBn3_writes h

/-- The buffers stage 10 writes. -/
abbrev opsTail_W : List (Ref sig .tc) := [main_v241, main_v242, main_v243, main_v244]
set_option maxRecDepth 65536 in
theorem opsTail_writes : (opsTail : List (HloOp τ sig (Elt F))).Forall fun op => op.writes ⊆ (opsTail_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer stage 10 does not write passes through it. -/
theorem keep10 (W0 : Valuation τ sig (Elt F)) (r : Ref sig .tc) (h : r ∉ opsTail_W) :
    R10 W0 (Proc.devRef .tc r) = R9 W0 (Proc.devRef .tc r) :=
  after_of_writes_sub (opsTail (F := F)) _ opsTail_writes h

/-! ## The buffers carried across stages -/

/-- No stage writes an argument: after stage 1 each still holds its launch contents. -/
theorem keep_arg_1 (W0 : Valuation τ sig (Elt F)) (r : Ref sig .tc)
    (h : r ∈ ([main_arg0, main_arg1, main_arg2, main_arg3, main_arg4, main_arg5, main_arg6] : List (Ref sig .tc))) :
    R1 W0 (Proc.devRef .tc r) = W0 (Proc.devRef .tc r) := by
  simp only [List.mem_cons, List.not_mem_nil, or_false] at h
  rcases h with rfl | rfl | rfl | rfl | rfl | rfl | rfl <;>
    rw [keep1 W0 _ (by decide)]
/-- No stage writes an argument: after stage 2 each still holds its launch contents. -/
theorem keep_arg_2 (W0 : Valuation τ sig (Elt F)) (r : Ref sig .tc)
    (h : r ∈ ([main_arg0, main_arg1, main_arg2, main_arg3, main_arg4, main_arg5, main_arg6] : List (Ref sig .tc))) :
    R2 W0 (Proc.devRef .tc r) = W0 (Proc.devRef .tc r) := by
  simp only [List.mem_cons, List.not_mem_nil, or_false] at h
  rcases h with rfl | rfl | rfl | rfl | rfl | rfl | rfl <;>
    rw [keep2 W0 _ (by decide), keep1 W0 _ (by decide)]
/-- No stage writes an argument: after stage 3 each still holds its launch contents. -/
theorem keep_arg_3 (W0 : Valuation τ sig (Elt F)) (r : Ref sig .tc)
    (h : r ∈ ([main_arg0, main_arg1, main_arg2, main_arg3, main_arg4, main_arg5, main_arg6] : List (Ref sig .tc))) :
    R3 W0 (Proc.devRef .tc r) = W0 (Proc.devRef .tc r) := by
  simp only [List.mem_cons, List.not_mem_nil, or_false] at h
  rcases h with rfl | rfl | rfl | rfl | rfl | rfl | rfl <;>
    rw [keep3 W0 _ (by decide), keep2 W0 _ (by decide), keep1 W0 _ (by decide)]
/-- No stage writes an argument: after stage 4 each still holds its launch contents. -/
theorem keep_arg_4 (W0 : Valuation τ sig (Elt F)) (r : Ref sig .tc)
    (h : r ∈ ([main_arg0, main_arg1, main_arg2, main_arg3, main_arg4, main_arg5, main_arg6] : List (Ref sig .tc))) :
    R4 W0 (Proc.devRef .tc r) = W0 (Proc.devRef .tc r) := by
  simp only [List.mem_cons, List.not_mem_nil, or_false] at h
  rcases h with rfl | rfl | rfl | rfl | rfl | rfl | rfl <;>
    rw [keep4 W0 _ (by decide), keep3 W0 _ (by decide), keep2 W0 _ (by decide), keep1 W0 _ (by decide)]
/-- No stage writes an argument: after stage 5 each still holds its launch contents. -/
theorem keep_arg_5 (W0 : Valuation τ sig (Elt F)) (r : Ref sig .tc)
    (h : r ∈ ([main_arg0, main_arg1, main_arg2, main_arg3, main_arg4, main_arg5, main_arg6] : List (Ref sig .tc))) :
    R5 W0 (Proc.devRef .tc r) = W0 (Proc.devRef .tc r) := by
  simp only [List.mem_cons, List.not_mem_nil, or_false] at h
  rcases h with rfl | rfl | rfl | rfl | rfl | rfl | rfl <;>
    rw [keep5 W0 _ (by decide), keep4 W0 _ (by decide), keep3 W0 _ (by decide), keep2 W0 _ (by decide), keep1 W0 _ (by decide)]
/-- No stage writes an argument: after stage 6 each still holds its launch contents. -/
theorem keep_arg_6 (W0 : Valuation τ sig (Elt F)) (r : Ref sig .tc)
    (h : r ∈ ([main_arg0, main_arg1, main_arg2, main_arg3, main_arg4, main_arg5, main_arg6] : List (Ref sig .tc))) :
    R6 W0 (Proc.devRef .tc r) = W0 (Proc.devRef .tc r) := by
  simp only [List.mem_cons, List.not_mem_nil, or_false] at h
  rcases h with rfl | rfl | rfl | rfl | rfl | rfl | rfl <;>
    rw [keep6 W0 _ (by decide), keep5 W0 _ (by decide), keep4 W0 _ (by decide), keep3 W0 _ (by decide), keep2 W0 _ (by decide), keep1 W0 _ (by decide)]
/-- No stage writes an argument: after stage 7 each still holds its launch contents. -/
theorem keep_arg_7 (W0 : Valuation τ sig (Elt F)) (r : Ref sig .tc)
    (h : r ∈ ([main_arg0, main_arg1, main_arg2, main_arg3, main_arg4, main_arg5, main_arg6] : List (Ref sig .tc))) :
    R7 W0 (Proc.devRef .tc r) = W0 (Proc.devRef .tc r) := by
  simp only [List.mem_cons, List.not_mem_nil, or_false] at h
  rcases h with rfl | rfl | rfl | rfl | rfl | rfl | rfl <;>
    rw [keep7 W0 _ (by decide), keep6 W0 _ (by decide), keep5 W0 _ (by decide), keep4 W0 _ (by decide), keep3 W0 _ (by decide), keep2 W0 _ (by decide), keep1 W0 _ (by decide)]
/-- No stage writes an argument: after stage 8 each still holds its launch contents. -/
theorem keep_arg_8 (W0 : Valuation τ sig (Elt F)) (r : Ref sig .tc)
    (h : r ∈ ([main_arg0, main_arg1, main_arg2, main_arg3, main_arg4, main_arg5, main_arg6] : List (Ref sig .tc))) :
    R8 W0 (Proc.devRef .tc r) = W0 (Proc.devRef .tc r) := by
  simp only [List.mem_cons, List.not_mem_nil, or_false] at h
  rcases h with rfl | rfl | rfl | rfl | rfl | rfl | rfl <;>
    rw [keep8 W0 _ (by decide), keep7 W0 _ (by decide), keep6 W0 _ (by decide), keep5 W0 _ (by decide), keep4 W0 _ (by decide), keep3 W0 _ (by decide), keep2 W0 _ (by decide), keep1 W0 _ (by decide)]
/-- No stage writes an argument: after stage 9 each still holds its launch contents. -/
theorem keep_arg_9 (W0 : Valuation τ sig (Elt F)) (r : Ref sig .tc)
    (h : r ∈ ([main_arg0, main_arg1, main_arg2, main_arg3, main_arg4, main_arg5, main_arg6] : List (Ref sig .tc))) :
    R9 W0 (Proc.devRef .tc r) = W0 (Proc.devRef .tc r) := by
  simp only [List.mem_cons, List.not_mem_nil, or_false] at h
  rcases h with rfl | rfl | rfl | rfl | rfl | rfl | rfl <;>
    rw [keep9 W0 _ (by decide), keep8 W0 _ (by decide), keep7 W0 _ (by decide), keep6 W0 _ (by decide), keep5 W0 _ (by decide), keep4 W0 _ (by decide), keep3 W0 _ (by decide), keep2 W0 _ (by decide), keep1 W0 _ (by decide)]
/-- No stage writes an argument: after stage 10 each still holds its launch contents. -/
theorem keep_arg_10 (W0 : Valuation τ sig (Elt F)) (r : Ref sig .tc)
    (h : r ∈ ([main_arg0, main_arg1, main_arg2, main_arg3, main_arg4, main_arg5, main_arg6] : List (Ref sig .tc))) :
    R10 W0 (Proc.devRef .tc r) = W0 (Proc.devRef .tc r) := by
  simp only [List.mem_cons, List.not_mem_nil, or_false] at h
  rcases h with rfl | rfl | rfl | rfl | rfl | rfl | rfl <;>
    rw [keep10 W0 _ (by decide), keep9 W0 _ (by decide), keep8 W0 _ (by decide), keep7 W0 _ (by decide), keep6 W0 _ (by decide), keep5 W0 _ (by decide), keep4 W0 _ (by decide), keep3 W0 _ (by decide), keep2 W0 _ (by decide), keep1 W0 _ (by decide)]

/-- The edge rows, written in stage 1 only. -/
theorem keep_v1_2 (W0 : Valuation τ sig (Elt F)) : R2 W0 (Proc.devRef .tc main_v1) = R1 W0 (Proc.devRef .tc main_v1) := by
  rw [keep2 W0 main_v1 (by decide)]
theorem keep_v1_3 (W0 : Valuation τ sig (Elt F)) : R3 W0 (Proc.devRef .tc main_v1) = R1 W0 (Proc.devRef .tc main_v1) := by
  rw [keep3 W0 main_v1 (by decide), keep2 W0 main_v1 (by decide)]
theorem keep_v1_4 (W0 : Valuation τ sig (Elt F)) : R4 W0 (Proc.devRef .tc main_v1) = R1 W0 (Proc.devRef .tc main_v1) := by
  rw [keep4 W0 main_v1 (by decide), keep3 W0 main_v1 (by decide), keep2 W0 main_v1 (by decide)]
theorem keep_v1_5 (W0 : Valuation τ sig (Elt F)) : R5 W0 (Proc.devRef .tc main_v1) = R1 W0 (Proc.devRef .tc main_v1) := by
  rw [keep5 W0 main_v1 (by decide), keep4 W0 main_v1 (by decide), keep3 W0 main_v1 (by decide), keep2 W0 main_v1 (by decide)]
theorem keep_v1_6 (W0 : Valuation τ sig (Elt F)) : R6 W0 (Proc.devRef .tc main_v1) = R1 W0 (Proc.devRef .tc main_v1) := by
  rw [keep6 W0 main_v1 (by decide), keep5 W0 main_v1 (by decide), keep4 W0 main_v1 (by decide), keep3 W0 main_v1 (by decide), keep2 W0 main_v1 (by decide)]
theorem keep_v1_7 (W0 : Valuation τ sig (Elt F)) : R7 W0 (Proc.devRef .tc main_v1) = R1 W0 (Proc.devRef .tc main_v1) := by
  rw [keep7 W0 main_v1 (by decide), keep6 W0 main_v1 (by decide), keep5 W0 main_v1 (by decide), keep4 W0 main_v1 (by decide), keep3 W0 main_v1 (by decide), keep2 W0 main_v1 (by decide)]
theorem keep_v1_8 (W0 : Valuation τ sig (Elt F)) : R8 W0 (Proc.devRef .tc main_v1) = R1 W0 (Proc.devRef .tc main_v1) := by
  rw [keep8 W0 main_v1 (by decide), keep7 W0 main_v1 (by decide), keep6 W0 main_v1 (by decide), keep5 W0 main_v1 (by decide), keep4 W0 main_v1 (by decide), keep3 W0 main_v1 (by decide), keep2 W0 main_v1 (by decide)]
theorem keep_v1_9 (W0 : Valuation τ sig (Elt F)) : R9 W0 (Proc.devRef .tc main_v1) = R1 W0 (Proc.devRef .tc main_v1) := by
  rw [keep9 W0 main_v1 (by decide), keep8 W0 main_v1 (by decide), keep7 W0 main_v1 (by decide), keep6 W0 main_v1 (by decide), keep5 W0 main_v1 (by decide), keep4 W0 main_v1 (by decide), keep3 W0 main_v1 (by decide), keep2 W0 main_v1 (by decide)]
theorem keep_v1_10 (W0 : Valuation τ sig (Elt F)) : R10 W0 (Proc.devRef .tc main_v1) = R1 W0 (Proc.devRef .tc main_v1) := by
  rw [keep10 W0 main_v1 (by decide), keep9 W0 main_v1 (by decide), keep8 W0 main_v1 (by decide), keep7 W0 main_v1 (by decide), keep6 W0 main_v1 (by decide), keep5 W0 main_v1 (by decide), keep4 W0 main_v1 (by decide), keep3 W0 main_v1 (by decide), keep2 W0 main_v1 (by decide)]
theorem keep_v3_2 (W0 : Valuation τ sig (Elt F)) : R2 W0 (Proc.devRef .tc main_v3) = R1 W0 (Proc.devRef .tc main_v3) := by
  rw [keep2 W0 main_v3 (by decide)]
theorem keep_v3_3 (W0 : Valuation τ sig (Elt F)) : R3 W0 (Proc.devRef .tc main_v3) = R1 W0 (Proc.devRef .tc main_v3) := by
  rw [keep3 W0 main_v3 (by decide), keep2 W0 main_v3 (by decide)]
theorem keep_v3_4 (W0 : Valuation τ sig (Elt F)) : R4 W0 (Proc.devRef .tc main_v3) = R1 W0 (Proc.devRef .tc main_v3) := by
  rw [keep4 W0 main_v3 (by decide), keep3 W0 main_v3 (by decide), keep2 W0 main_v3 (by decide)]
theorem keep_v3_5 (W0 : Valuation τ sig (Elt F)) : R5 W0 (Proc.devRef .tc main_v3) = R1 W0 (Proc.devRef .tc main_v3) := by
  rw [keep5 W0 main_v3 (by decide), keep4 W0 main_v3 (by decide), keep3 W0 main_v3 (by decide), keep2 W0 main_v3 (by decide)]
theorem keep_v3_6 (W0 : Valuation τ sig (Elt F)) : R6 W0 (Proc.devRef .tc main_v3) = R1 W0 (Proc.devRef .tc main_v3) := by
  rw [keep6 W0 main_v3 (by decide), keep5 W0 main_v3 (by decide), keep4 W0 main_v3 (by decide), keep3 W0 main_v3 (by decide), keep2 W0 main_v3 (by decide)]
theorem keep_v3_7 (W0 : Valuation τ sig (Elt F)) : R7 W0 (Proc.devRef .tc main_v3) = R1 W0 (Proc.devRef .tc main_v3) := by
  rw [keep7 W0 main_v3 (by decide), keep6 W0 main_v3 (by decide), keep5 W0 main_v3 (by decide), keep4 W0 main_v3 (by decide), keep3 W0 main_v3 (by decide), keep2 W0 main_v3 (by decide)]
theorem keep_v3_8 (W0 : Valuation τ sig (Elt F)) : R8 W0 (Proc.devRef .tc main_v3) = R1 W0 (Proc.devRef .tc main_v3) := by
  rw [keep8 W0 main_v3 (by decide), keep7 W0 main_v3 (by decide), keep6 W0 main_v3 (by decide), keep5 W0 main_v3 (by decide), keep4 W0 main_v3 (by decide), keep3 W0 main_v3 (by decide), keep2 W0 main_v3 (by decide)]
theorem keep_v3_9 (W0 : Valuation τ sig (Elt F)) : R9 W0 (Proc.devRef .tc main_v3) = R1 W0 (Proc.devRef .tc main_v3) := by
  rw [keep9 W0 main_v3 (by decide), keep8 W0 main_v3 (by decide), keep7 W0 main_v3 (by decide), keep6 W0 main_v3 (by decide), keep5 W0 main_v3 (by decide), keep4 W0 main_v3 (by decide), keep3 W0 main_v3 (by decide), keep2 W0 main_v3 (by decide)]
theorem keep_v3_10 (W0 : Valuation τ sig (Elt F)) : R10 W0 (Proc.devRef .tc main_v3) = R1 W0 (Proc.devRef .tc main_v3) := by
  rw [keep10 W0 main_v3 (by decide), keep9 W0 main_v3 (by decide), keep8 W0 main_v3 (by decide), keep7 W0 main_v3 (by decide), keep6 W0 main_v3 (by decide), keep5 W0 main_v3 (by decide), keep4 W0 main_v3 (by decide), keep3 W0 main_v3 (by decide), keep2 W0 main_v3 (by decide)]

/-- Layer 1's bias, scale and shift rows through the first aggregation. -/
theorem keep_v7_2 (W0 : Valuation τ sig (Elt F)) : R2 W0 (Proc.devRef .tc main_v7) = R1 W0 (Proc.devRef .tc main_v7) := by
  rw [keep2 W0 main_v7 (by decide)]
theorem keep_v9_2 (W0 : Valuation τ sig (Elt F)) : R2 W0 (Proc.devRef .tc main_v9) = R1 W0 (Proc.devRef .tc main_v9) := by
  rw [keep2 W0 main_v9 (by decide)]
theorem keep_v11_2 (W0 : Valuation τ sig (Elt F)) : R2 W0 (Proc.devRef .tc main_v11) = R1 W0 (Proc.devRef .tc main_v11) := by
  rw [keep2 W0 main_v11 (by decide)]

/-- Layer 1's output, written in stage 3 only. -/
theorem keep_v82_4 (W0 : Valuation τ sig (Elt F)) : R4 W0 (Proc.devRef .tc main_v82) = R3 W0 (Proc.devRef .tc main_v82) := by
  rw [keep4 W0 main_v82 (by decide)]
theorem keep_v82_5 (W0 : Valuation τ sig (Elt F)) : R5 W0 (Proc.devRef .tc main_v82) = R3 W0 (Proc.devRef .tc main_v82) := by
  rw [keep5 W0 main_v82 (by decide), keep4 W0 main_v82 (by decide)]
theorem keep_v82_6 (W0 : Valuation τ sig (Elt F)) : R6 W0 (Proc.devRef .tc main_v82) = R3 W0 (Proc.devRef .tc main_v82) := by
  rw [keep6 W0 main_v82 (by decide), keep5 W0 main_v82 (by decide), keep4 W0 main_v82 (by decide)]
theorem keep_v82_7 (W0 : Valuation τ sig (Elt F)) : R7 W0 (Proc.devRef .tc main_v82) = R3 W0 (Proc.devRef .tc main_v82) := by
  rw [keep7 W0 main_v82 (by decide), keep6 W0 main_v82 (by decide), keep5 W0 main_v82 (by decide), keep4 W0 main_v82 (by decide)]
theorem keep_v82_8 (W0 : Valuation τ sig (Elt F)) : R8 W0 (Proc.devRef .tc main_v82) = R3 W0 (Proc.devRef .tc main_v82) := by
  rw [keep8 W0 main_v82 (by decide), keep7 W0 main_v82 (by decide), keep6 W0 main_v82 (by decide), keep5 W0 main_v82 (by decide), keep4 W0 main_v82 (by decide)]
theorem keep_v82_9 (W0 : Valuation τ sig (Elt F)) : R9 W0 (Proc.devRef .tc main_v82) = R3 W0 (Proc.devRef .tc main_v82) := by
  rw [keep9 W0 main_v82 (by decide), keep8 W0 main_v82 (by decide), keep7 W0 main_v82 (by decide), keep6 W0 main_v82 (by decide), keep5 W0 main_v82 (by decide), keep4 W0 main_v82 (by decide)]

/-- Layer 2's bias, scale and shift rows through the second aggregation. -/
theorem keep_v86_5 (W0 : Valuation τ sig (Elt F)) : R5 W0 (Proc.devRef .tc main_v86) = R4 W0 (Proc.devRef .tc main_v86) := by
  rw [keep5 W0 main_v86 (by decide)]
theorem keep_v88_5 (W0 : Valuation τ sig (Elt F)) : R5 W0 (Proc.devRef .tc main_v88) = R4 W0 (Proc.devRef .tc main_v88) := by
  rw [keep5 W0 main_v88 (by decide)]
theorem keep_v90_5 (W0 : Valuation τ sig (Elt F)) : R5 W0 (Proc.devRef .tc main_v90) = R4 W0 (Proc.devRef .tc main_v90) := by
  rw [keep5 W0 main_v90 (by decide)]

/-- Layer 2's output, written in stage 6 only. -/
theorem keep_v161_7 (W0 : Valuation τ sig (Elt F)) : R7 W0 (Proc.devRef .tc main_v161) = R6 W0 (Proc.devRef .tc main_v161) := by
  rw [keep7 W0 main_v161 (by decide)]
theorem keep_v161_8 (W0 : Valuation τ sig (Elt F)) : R8 W0 (Proc.devRef .tc main_v161) = R6 W0 (Proc.devRef .tc main_v161) := by
  rw [keep8 W0 main_v161 (by decide), keep7 W0 main_v161 (by decide)]
theorem keep_v161_9 (W0 : Valuation τ sig (Elt F)) : R9 W0 (Proc.devRef .tc main_v161) = R6 W0 (Proc.devRef .tc main_v161) := by
  rw [keep9 W0 main_v161 (by decide), keep8 W0 main_v161 (by decide), keep7 W0 main_v161 (by decide)]

/-- Layer 3's bias, scale and shift rows through the third aggregation. -/
theorem keep_v165_8 (W0 : Valuation τ sig (Elt F)) : R8 W0 (Proc.devRef .tc main_v165) = R7 W0 (Proc.devRef .tc main_v165) := by
  rw [keep8 W0 main_v165 (by decide)]
theorem keep_v167_8 (W0 : Valuation τ sig (Elt F)) : R8 W0 (Proc.devRef .tc main_v167) = R7 W0 (Proc.devRef .tc main_v167) := by
  rw [keep8 W0 main_v167 (by decide)]
theorem keep_v169_8 (W0 : Valuation τ sig (Elt F)) : R8 W0 (Proc.devRef .tc main_v169) = R7 W0 (Proc.devRef .tc main_v169) := by
  rw [keep8 W0 main_v169 (by decide)]

/-! ## What the short stages compute, at any contents before them -/

/-- Row 0 of the edge endpoints. -/
theorem pre1_v1 (W : Valuation τ sig (Elt F)) :
    after (opsPre1 (F := F)) W (Proc.devRef .tc main_v1) = shapeCast S800000 (extractStridedSlice S1x800000 ![0, 0] (W (Proc.devRef .tc main_arg1)) slices_S2x800000_S1x800000_0_0) shapeCasts_S1x800000_S800000 := by
  simp only [opsPre1]
  after_results_simp
  rfl
/-- Row 1 of the edge endpoints. -/
theorem pre1_v3 (W : Valuation τ sig (Elt F)) :
    after (opsPre1 (F := F)) W (Proc.devRef .tc main_v3) = shapeCast S800000 (extractStridedSlice S1x800000 ![1, 0] (W (Proc.devRef .tc main_arg1)) slices_S2x800000_S1x800000_1_0) shapeCasts_S1x800000_S800000 := by
  simp only [opsPre1]
  after_results_simp
  rfl
/-- Layer 1's weight matrix. -/
theorem pre1_v5 (W : Valuation τ sig (Elt F)) :
    after (opsPre1 (F := F)) W (Proc.devRef .tc main_v5) = shapeCast S64x64 (extractStridedSlice S1x64x64 ![0, 0, 0] (W (Proc.devRef .tc main_arg3)) slices_S3x64x64_S1x64x64_0_0_0) shapeCasts_S1x64x64_S64x64 := by
  simp only [opsPre1]
  after_results_simp
  rfl
/-- Layer 1's bias row. -/
theorem pre1_v7 (W : Valuation τ sig (Elt F)) :
    after (opsPre1 (F := F)) W (Proc.devRef .tc main_v7) = shapeCast S64 (extractStridedSlice S1x64 ![0, 0] (W (Proc.devRef .tc main_arg4)) slices_S3x64_S1x64_0_0) shapeCasts_S1x64_S64 := by
  simp only [opsPre1]
  after_results_simp
  rfl
/-- Layer 1's scale row. -/
theorem pre1_v9 (W : Valuation τ sig (Elt F)) :
    after (opsPre1 (F := F)) W (Proc.devRef .tc main_v9) = shapeCast S64 (extractStridedSlice S1x64 ![0, 0] (W (Proc.devRef .tc main_arg5)) slices_S3x64_S1x64_0_0) shapeCasts_S1x64_S64 := by
  simp only [opsPre1]
  after_results_simp
  rfl
/-- Layer 1's shift row. -/
theorem pre1_v11 (W : Valuation τ sig (Elt F)) :
    after (opsPre1 (F := F)) W (Proc.devRef .tc main_v11) = shapeCast S64 (extractStridedSlice S1x64 ![0, 0] (W (Proc.devRef .tc main_arg6)) slices_S3x64_S1x64_0_0) shapeCasts_S1x64_S64 := by
  simp only [opsPre1]
  after_results_simp
  rfl
/-- The first product: the features times layer 1's weight matrix. -/
theorem pre1_v12 (W : Valuation τ sig (Elt F)) :
    after (opsPre1 (F := F)) W (Proc.devRef .tc main_v12) = Host.dotGeneral dot_S50000x64_S64x64_S50000x64_1_0_0_1_n_n none (W (Proc.devRef .tc main_arg0)) (shapeCast S64x64 (extractStridedSlice S1x64x64 ![0, 0, 0] (W (Proc.devRef .tc main_arg3)) slices_S3x64x64_S1x64x64_0_0_0) shapeCasts_S1x64x64_S64x64) := by
  simp only [opsPre1]
  after_results_simp
  rfl
/-- Layer 2's bias row. -/
theorem pre2_v86 (W : Valuation τ sig (Elt F)) :
    after (opsPre2 (F := F)) W (Proc.devRef .tc main_v86) = shapeCast S64 (extractStridedSlice S1x64 ![1, 0] (W (Proc.devRef .tc main_arg4)) slices_S3x64_S1x64_1_0) shapeCasts_S1x64_S64 := by
  simp only [opsPre2]
  after_results_simp
  rfl
/-- Layer 2's scale row. -/
theorem pre2_v88 (W : Valuation τ sig (Elt F)) :
    after (opsPre2 (F := F)) W (Proc.devRef .tc main_v88) = shapeCast S64 (extractStridedSlice S1x64 ![1, 0] (W (Proc.devRef .tc main_arg5)) slices_S3x64_S1x64_1_0) shapeCasts_S1x64_S64 := by
  simp only [opsPre2]
  after_results_simp
  rfl
/-- Layer 2's shift row. -/
theorem pre2_v90 (W : Valuation τ sig (Elt F)) :
    after (opsPre2 (F := F)) W (Proc.devRef .tc main_v90) = shapeCast S64 (extractStridedSlice S1x64 ![1, 0] (W (Proc.devRef .tc main_arg6)) slices_S3x64_S1x64_1_0) shapeCasts_S1x64_S64 := by
  simp only [opsPre2]
  after_results_simp
  rfl
/-- The second product: layer 1's output times layer 2's weight matrix. -/
theorem pre2_v91 (W : Valuation τ sig (Elt F)) :
    after (opsPre2 (F := F)) W (Proc.devRef .tc main_v91) = Host.dotGeneral dot_S50000x64_S64x64_S50000x64_1_0_0_1_n_n none (W (Proc.devRef .tc main_v82)) (shapeCast S64x64 (extractStridedSlice S1x64x64 ![1, 0, 0] (W (Proc.devRef .tc main_arg3)) slices_S3x64x64_S1x64x64_1_0_0) shapeCasts_S1x64x64_S64x64) := by
  simp only [opsPre2]
  after_results_simp
  rfl
/-- Layer 3's bias row. -/
theorem pre3_v165 (W : Valuation τ sig (Elt F)) :
    after (opsPre3 (F := F)) W (Proc.devRef .tc main_v165) = shapeCast S64 (extractStridedSlice S1x64 ![2, 0] (W (Proc.devRef .tc main_arg4)) slices_S3x64_S1x64_2_0) shapeCasts_S1x64_S64 := by
  simp only [opsPre3]
  after_results_simp
  rfl
/-- Layer 3's scale row. -/
theorem pre3_v167 (W : Valuation τ sig (Elt F)) :
    after (opsPre3 (F := F)) W (Proc.devRef .tc main_v167) = shapeCast S64 (extractStridedSlice S1x64 ![2, 0] (W (Proc.devRef .tc main_arg5)) slices_S3x64_S1x64_2_0) shapeCasts_S1x64_S64 := by
  simp only [opsPre3]
  after_results_simp
  rfl
/-- Layer 3's shift row. -/
theorem pre3_v169 (W : Valuation τ sig (Elt F)) :
    after (opsPre3 (F := F)) W (Proc.devRef .tc main_v169) = shapeCast S64 (extractStridedSlice S1x64 ![2, 0] (W (Proc.devRef .tc main_arg6)) slices_S3x64_S1x64_2_0) shapeCasts_S1x64_S64 := by
  simp only [opsPre3]
  after_results_simp
  rfl
/-- The third product: layer 2's output times layer 3's weight matrix. -/
theorem pre3_v170 (W : Valuation τ sig (Elt F)) :
    after (opsPre3 (F := F)) W (Proc.devRef .tc main_v170) = Host.dotGeneral dot_S50000x64_S64x64_S50000x64_1_0_0_1_n_n none (W (Proc.devRef .tc main_v161)) (shapeCast S64x64 (extractStridedSlice S1x64x64 ![2, 0, 0] (W (Proc.devRef .tc main_arg3)) slices_S3x64x64_S1x64x64_2_0_0) shapeCasts_S1x64x64_S64x64) := by
  simp only [opsPre3]
  after_results_simp
  rfl
/-- The result: the three layer outputs stacked along a new leading axis. -/
theorem tail_v244 (W : Valuation τ sig (Elt F)) :
    after (opsTail (F := F)) W (Proc.devRef .tc main_v244) = concatenate S3x50000x64 0 [⟨S1x50000x64, broadcastInDim S1x50000x64 ![1, 2] bcast_S50000x64_S1x50000x64_1_2 (W (Proc.devRef .tc main_v82))⟩, ⟨S1x50000x64, broadcastInDim S1x50000x64 ![1, 2] bcast_S50000x64_S1x50000x64_1_2 (W (Proc.devRef .tc main_v161))⟩, ⟨S1x50000x64, broadcastInDim S1x50000x64 ![1, 2] bcast_S50000x64_S1x50000x64_1_2 (W (Proc.devRef .tc main_v240))⟩] concatenates_S1x50000x64_S1x50000x64_S1x50000x64_S3x50000x64_d0 := by
  simp only [opsTail]
  after_results_simp
  rfl

end Cert.ReferenceIdeal.RefValue

end
-- ==== Proof.Ideal.RefFrame.lean ====
/- The reference program runs — every weakly fair execution terminates without fault — and its seven argument arrays
   end unchanged: no operation of its list writes an argument, so after the whole list each still holds its launch
   contents. -/
import proofs.«132734_j72301479461275_2_alg».proof.Proof.Ideal.RefStages
import proofs.«132734_j72301479461275_2_alg».proof.Defs
import proofs.«132734_j72301479461275_2_alg».proof.Proof.Gen.ReferenceIdeal
import proofs.«132734_j72301479461275_2_alg».proof.Proof.Gen.Pre_finite_inputs

noncomputable section

namespace Cert.ReferenceIdeal.RefValue

open Cert.ReferenceIdeal Cert.ReferenceIdeal.Gen Idealize.ShloMosaic Idealize.ShloMosaic.TcCoe Idealize.SL.Sem Idealize.ShloMosaic.StableHlo

/-- After the whole operation list an argument still holds what it held before it. -/
theorem after_ops_arg {F : FTy → Type} [FloatOps F] (W0 : Valuation τ sig (Elt F)) (r : Ref sig .tc)
    (hr : r ∈ ([main_arg0, main_arg1, main_arg2, main_arg3, main_arg4, main_arg5, main_arg6] : List (Ref sig .tc))) :
    after (RefRun.ops (F := F)) W0 (Proc.devRef .tc r) = W0 (Proc.devRef .tc r) := by
  rw [after_ops]
  exact keep_arg_10 W0 r hr

/-- The reference's frame: it runs, and its arguments end unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun r h c =>
    ⟨(h c main_arg0).trans (after_ops_arg _ main_arg0 (by decide)),
     (h c main_arg1).trans (after_ops_arg _ main_arg1 (by decide)),
     (h c main_arg2).trans (after_ops_arg _ main_arg2 (by decide)),
     (h c main_arg3).trans (after_ops_arg _ main_arg3 (by decide)),
     (h c main_arg4).trans (after_ops_arg _ main_arg4 (by decide)),
     (h c main_arg5).trans (after_ops_arg _ main_arg5 (by decide)),
     (h c main_arg6).trans (after_ops_arg _ main_arg6 (by decide))⟩)
    (Cert.ReferenceIdeal.RefRun.run (F := Ideal) m ρ)

end Cert.ReferenceIdeal.RefValue

end
-- ==== Proof.Ideal.RunValue.lean ====
/- The idealized kernel's run with its result: the conditional run that also reads the result array off the last
   valuation, at the nine region records of the run assembly. -/
import proofs.«132734_j72301479461275_2_alg».proof.Proof.Ideal.Run
import proofs.«132734_j72301479461275_2_alg».proof.Proof.Ideal.RunCond

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the conditional run's implicit arguments are found by unifying its conclusion with this one
set_option backward.isDefEq.respectTransparency.types false in
/-- THE RUN WITH ITS RESULT: as the frame, and the result array ends at the last valuation read over the leavings. -/
theorem run_main (ρ : Dev nD → PrngReg) :
    θ_run defs (onTc (τ := τ) (main (F := F))) ⟨m, fun _ => 0, ρ⟩ (fun r => ∀ c : Dev nD,
      r.2.mem ((c.tc : Thread nD τ).loc main_v229) = V25 m (outs m) c main_v229
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m emb₁ () Variants.none L lv (fun _ _ => rfl) ρ (outs m) (pdats m) 0 (fun _ => iprop(emp))
    (initOf (Pipeline.cells cfgs cellOf_inj) (Pipeline.launchToks cfgs cellOf_inj)) hu0 EE (hE0 ρ) hE9
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl) (reg8 m) (fun _ => .rfl) (fun _ => .rfl)

end Cert.KernelIdeal.Reg

end
-- ==== Proof.Ideal.MatmulSum.lean ====
/- The [10000,64] x [64,64] matrix product with a zero accumulator, at the exact values and at an index:
   entry (p, q) is the sum over k of left (p, k) times right (k, q). Shared by the three product regions. -/
import proofs.«132734_j72301479461275_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## The operand indices of the product, coordinate by coordinate -/

/-- The left operand's row is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the summation index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the summation index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-! ## The product at an index -/

/-- Entry (p, q) of the product into the zero accumulator: the sum over k of left (p, k) times right (k, q). -/
theorem matmul_zero_apply {φ₁ φ₂ : FTy} (x : FVec Ideal S10000x64 φ₁) (w : FVec Ideal S64x64 φ₂) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  show FloatOps.matmul dot_S10000x64_S64x64_S10000x64_1_0_0_1_n_n none x w (constant (F := Ideal) S10000x64 .f32 0x00000000#32) (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

end Cert.KernelIdeal.RegValue

end
-- ==== Proof.Ideal.ClassASpec.lean ====
/- The two closed forms the product regions and the affine regions leave in their output arrays, entry by entry,
   over literal shapes and the extended reals: a row of a [50000,64] array times a column of a [64,64] matrix, and
   an entry of a [50000,64] array times a [1,64] scale row's entry plus a [1,64] shift row's entry. -/
import Idealize.ShloMosaic.Lib.ValueIdx
import Idealize.ShloMosaic.PureOps.Ideal.Laws

noncomputable section

namespace Cert.KernelIdeal.RegValue

open Idealize.ShloMosaic
open Idealize.ShloMosaic.ValueIdx

/-- Entry (p, q) of the product of `a` and `w`: the sum over k of a (p, k) * w (k, q). -/
def rowDot (a : (⟨2, ![50000, 64]⟩ : Shape).Idx → EReal) (w : (⟨2, ![64, 64]⟩ : Shape).Idx → EReal)
    (p : Fin 50000) (q : Fin 64) : EReal :=
  ∑ k : Fin 64, a (ix2 p k) * w (ix2 k q)

theorem rowDot_def (a : (⟨2, ![50000, 64]⟩ : Shape).Idx → EReal) (w : (⟨2, ![64, 64]⟩ : Shape).Idx → EReal)
    (p : Fin 50000) (q : Fin 64) : rowDot a w p q = ∑ k : Fin 64, a (ix2 p k) * w (ix2 k q) := rfl

/-- Entry (p, q) of `a` scaled by the row `s` and shifted by the row `b`: a (p, q) * s (0, q) + b (0, q). -/
def affineAt (a : (⟨2, ![50000, 64]⟩ : Shape).Idx → EReal) (s : (⟨2, ![1, 64]⟩ : Shape).Idx → EReal)
    (b : (⟨2, ![1, 64]⟩ : Shape).Idx → EReal) (p : Fin 50000) (q : Fin 64) : EReal :=
  a (ix2 p q) * s (ix2 0 q) + b (ix2 0 q)

theorem affineAt_def (a : (⟨2, ![50000, 64]⟩ : Shape).Idx → EReal) (s : (⟨2, ![1, 64]⟩ : Shape).Idx → EReal)
    (b : (⟨2, ![1, 64]⟩ : Shape).Idx → EReal) (p : Fin 50000) (q : Fin 64) :
    affineAt a s b p q = a (ix2 p q) * s (ix2 0 q) + b (ix2 0 q) := rfl

end Cert.KernelIdeal.RegValue

end
-- ==== Proof.Ideal.Matmul0Value.lean ====
/- Region 0 (a row-block matrix product): the value half, at the exact values. The array the region leaves in
   its output window is the product of the two arrays it finds in its input windows: entry (p, q) is the sum over k
   of left (p, k) times right (k, q). -/
import proofs.«132734_j72301479461275_2_alg».proof.Proof.Ideal.Matmul0
import proofs.«132734_j72301479461275_2_alg».proof.Proof.Ideal.MatmulSum
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off0 : (![0, 0] : Fin 2 → Nat) = fun _ => 0 := funext fun a => by fin_cases a <;> rfl

/-- The stored value at local entry (p, q): both roundings are the identity at the exact values, so it is the sum
    over k of the loaded block's (p, k) times the loaded matrix's (k, q). -/
theorem pay0_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  rw [matmul_zero_apply]
  refine Finset.sum_congr rfl fun k _ => ?_
  rw [truncf_apply, truncf_apply]
  simp only [shapeCast_self]

/-! ## The product of the whole arrays -/

/-- The product of a [50000,64] array and a [64,64] array, index by index. -/
def prod0 (a : S50000x64.Idx → EReal) (w : S64x64.Idx → EReal) : S50000x64.Idx → EReal :=
  fun i => rowDot a w (⟨(i 0).val, (i 0).isLt⟩ : Fin 50000) (⟨(i 1).val, (i 1).isLt⟩ : Fin 64)

/-- The stored value of a row block, at a local index `j`, is the product at the array index `i` that `j` sits at:
    row `b * 10000 + j 0`, column `j 1`, when the loaded block is rows `b * 10000 …` of `a` and the loaded matrix is `w`. -/
theorem pay0_at (x0 : Vec Ideal S10000x64 .f32) (x1 : Vec Ideal S64x64 .f32) (a : S50000x64.Idx → EReal) (w : S64x64.Idx → EReal)
    (j : S10000x64.Idx) (i : S50000x64.Idx) (b : ℕ)
    (hi0 : (i 0).val = b * 10000 + (j 0).val) (hi1 : (i 1).val = (j 1).val)
    (h0 : ∀ (y : S10000x64.Idx) (z : S50000x64.Idx), (z 0).val = b * 10000 + (y 0).val → (z 1).val = (y 1).val → x0 y = a z)
    (h1 : ∀ y : S64x64.Idx, x1 y = w y) :
    k0_pay1 x0 x1 j = prod0 a w i := by
  obtain ⟨p, q, rfl⟩ : ∃ (p : Fin 10000) (q : Fin 64), j = ix2 p q := ⟨j 0, j 1, eq_ix2 j⟩
  rw [pay0_apply]
  unfold prod0 rowDot
  refine Finset.sum_congr rfl fun k _ => ?_
  rw [h0 (ix2 p k) (ix2 (⟨(i 0).val, (i 0).isLt⟩ : Fin 50000) k) hi0 rfl, h1]
  have e : (⟨(i 1).val, (i 1).isLt⟩ : Fin 64) = q := Fin.ext hi1
  rw [e]

/-! ## From the blocks to the array -/

/-- The printed index maps over the grid: the left block and the output block move together down the rows, one
    block per point; the matrix stays at block (0, 0). -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 4
    ∧ win0_2.index t (1 : Fin 2) = 0 :=
  (by decide +kernel : ∀ t : Fin grid0.N, _)

/-- Every row block is some point's. -/
theorem idx_onto0 : ∀ (q0 : Fin 5), ∃ t : Fin cfg0.N, win0_2.index t = ![q0.val, 0] :=
  (by decide +kernel : ∀ (q0 : Fin 5), ∃ t : Fin grid0.N, win0_2.index t = ![q0.val, 0])

/-- What point `t` writes back is block `t` of the product of the two arrays found on entry. -/
theorem flushed0_eq (c : Dev nD) (t : Fin cfg0.N) :
    (dat0 V c).flushed 2 t = ((cfg0.win 2).blk t).view.read (Elt Ideal) (prod0 (V c main_arg0) (V c main_v5)) := by
  show (cfg0.win 2).cut (grid0.coords t) ((dat0 V c).after 2 t) = _
  rw [after0_2]
  unfold out0_2
  rw [View.canon_unit_zero zero_off0]
  simp only [View.ld_unit_zero (S := S10000x64) zero_off0, View.ld_unit_zero (S := S64x64) zero_off0]
  obtain ⟨e0, e1, e2, e3, e4, e5⟩ := idx_facts0 t
  funext j
  show k0_pay1 (iblk0 V c 0 t) (iblk0 V c 1 t) j = prod0 (V c main_arg0) (V c main_v5) (((cfg0.win 2).blk t).view.emb j)
  refine pay0_at _ _ _ _ j _ (win0_2.index t (0 : Fin 2)) ?_ ?_ ?_ ?_
  · show win0_2.index t (0 : Fin 2) * 10000 + 1 * (j 0).val = _
    omega
  · show win0_2.index t (1 : Fin 2) * 64 + 1 * (j 1).val = _
    omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 64 + 1 * (y 1).val = (z 1).val; omega
  · intro y
    show V c main_v5 (((cfg0.win 1).blk t).view.emb y) = V c main_v5 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega

/-- An index of the array is in the block of point `t` iff each coordinate is in the block's range on its axis. -/
theorem mem_blk0 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v6).slice (win0_2.rect t)).set ↔ _
  rw [View.set_slice_whole, Rect.mem_set_unit]
  exact Iff.rfl

/-- The five row blocks cover the array: row `r` is in block `r / 10000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region is the product of the two input arrays as found on entry. -/
theorem arr0_2 (c : Dev nD) : (dat0 (F := Ideal) V c).arrAt 2 cfg0.N = prod0 (V c main_arg0) (V c main_v5) :=
  (dat0 V c).arrAt_eq_of_cover 2 (prod0 (V c main_arg0) (V c main_v5)) (fun t _ => flushed0_eq V c t) cover0

/-- Entry (p, q) of the output array after the region. -/
theorem final0_2 (c : Dev nD) (p : Fin 50000) (q : Fin 64) :
    (Cert.KernelIdeal.Reg.dat0 (F := Ideal) V c).arrAt 2 cfg0.N (ix2 p q)
      = rowDot (V c main_arg0) (V c main_v5) p q := by
  rw [arr0_2]
  rfl

end Cert.KernelIdeal.RegValue

end
-- ==== Proof.Ideal.Bn1Value.lean ====
import proofs.«132734_j72301479461275_2_alg».proof.Proof.Ideal.Bn1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegValue

open Cert.KernelIdeal Cert.KernelIdeal.Gen Cert.KernelIdeal.Reg
open Idealize.ShloMosaic Idealize.ShloMosaic.TcCoe Idealize.SL.Sem Idealize.ShloMosaic.Tactic
open Idealize.ShloMosaic.Pipeline (Dat)
open Idealize.ShloMosaic.ValueIdx
open scoped BigOperators

/-! # Region 1, the values: the rectified block, its column sums and the column sums of its squares -/

theorem bn1_hz : (![0, 0] : Fin 2 → Nat) = fun _ => 0 := funext fun a => by fin_cases a <;> rfl

/-! ## What each case's pieces are: the body's payloads of the loaded blocks (any float values) -/

section Pieces
variable {F : FTy → Type} [FloatOps F]

/-- First point, block output: the rectified sum of the two loaded blocks. -/
theorem bn1_out_A_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) :
    out1_A_2 c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  rw [View.canon_unit_zero bn1_hz]
  simp only [View.readAt_eq_ld, harg1.read_unread, harg2.read_unread, harg4.read_unread, harg5.read_unread, View.ld_unit_zero (S := S10000x64) bn1_hz, View.ld_unit_zero (S := S1x64) bn1_hz]

/-- Later points, block output: the same. -/
theorem bn1_out_B_2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 xo4 : Vec F S1x64 .f32) :
    out1_B_2 c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  rw [View.canon_unit_zero bn1_hz]
  simp only [View.readAt_eq_ld, harg1.read_unread, harg2.read_unread, harg4.read_unread, harg5.read_unread, View.ld_unit_zero (S := S10000x64) bn1_hz, View.ld_unit_zero (S := S1x64) bn1_hz]

/-- First point, sum row: the zero row is stored, read back, and the block's column sums are added to it. -/
theorem bn1_out_A_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) :
    out1_A_3 c i arg1 harg1 arg2 harg2 arg3 harg3 arg4 harg4 arg5 harg5 hc0 x0 x1 = k1_pay4 x0 x1 (k1_pay1 (F := F)) := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero (S := S1x64) bn1_hz, View.readCov_unit_zero (S := S1x64) _ bn1_hz]
  simp only [View.readAt_eq_ld, harg1.read_unread, harg2.read_unread, harg4.read_unread, harg5.read_unread, View.ld_unit_zero (S := S10000x64) bn1_hz, View.ld_unit_zero (S := S1x64) bn1_hz]

/-- First point, sum-of-squares row: likewise. -/
theorem bn1_out_A_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S1x64 .f32) :
    out1_A_4 c i arg1 harg1 arg2 harg2 arg3 harg3 arg4 harg4 arg5 harg5 hc0 x0 x1 = k1_pay5 x0 x1 (k1_pay2 (F := F)) := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero (S := S1x64) bn1_hz, View.readCov_unit_zero (S := S1x64) _ bn1_hz]
  simp only [View.readAt_eq_ld, harg1.read_unread, harg2.read_unread, harg4.read_unread, harg5.read_unread, View.ld_unit_zero (S := S10000x64) bn1_hz, View.ld_unit_zero (S := S1x64) bn1_hz]

/-- Later points, sum row: the block's column sums added to the running row. -/
theorem bn1_out_B_3 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 xo4 : Vec F S1x64 .f32) :
    out1_B_3 c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  rw [View.canon_unit_zero bn1_hz]
  simp only [View.readAt_eq_ld, harg1.read_unread, harg2.read_unread, harg4.read_unread, harg5.read_unread, View.ld_unit_zero (S := S10000x64) bn1_hz, View.ld_unit_zero (S := S1x64) bn1_hz]

/-- Later points, sum-of-squares row: likewise. -/
theorem bn1_out_B_4 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S1x64 .f32) (xo3 xo4 : Vec F S1x64 .f32) :
    out1_B_4 c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  rw [View.canon_unit_zero bn1_hz]
  simp only [View.readAt_eq_ld, harg1.read_unread, harg2.read_unread, harg4.read_unread, harg5.read_unread, View.ld_unit_zero (S := S10000x64) bn1_hz, View.ld_unit_zero (S := S1x64) bn1_hz]

end Pieces

/-! ## The payloads read at an index, over the extended reals -/

/-- The rectified sum at row `p`, column `q`: the larger of `x0 p q + x1 0 q` and zero. -/
theorem bn1_relu_apply (x0 : Vec Ideal S10000x64 .f32) (x1 : Vec Ideal S1x64 .f32) (p : Fin 10000) (q : Fin 64) :
    k1_pay3 x0 x1 (ix2 p q) = max (x0 (ix2 p q) + x1 (ix2 (0 : Fin 1) q)) 0 := by
  have e1 : broadcastTo S10000x64 x1 broadcasts_S1x64_S10000x64 (ix2 p q) = x1 (ix2 (0 : Fin 1) q) :=
    broadcastTo_1b_ab_apply x1 broadcasts_S1x64_S10000x64 p q
  unfold k1_pay3
  simp only [shapeCast_self]
  show max (x0 (ix2 p q) + broadcastTo S10000x64 x1 broadcasts_S1x64_S10000x64 (ix2 p q)) (Ideal.ofBits .f32 0x00000000#32) = _
  rw [e1, Ideal.ofBits_zero_f32]

/-- A column reduction of a [10000,64] block from the zero word, at column `q`: the sum down the column. -/
theorem bn1_colsum (src : FVec Ideal S10000x64 .f32) (h : S10000x64.Reduces [0] S64) (hφ : FKind.Formats .f32)
    (hacc : (0x00000000#32 : BitVec 32) = 0x00000000#32) (q : Fin 64) :
    multiReduction .add [0] S64 src 0x00000000#32 h hφ hacc (ix1 q) = ∑ p : Fin 10000, src (ix2 p q) :=
  (Ideal.multiReduction_add_single src 0x00000000#32 h hφ hacc (ix1 q)).trans
    (Finset.sum_congr rfl fun p _ => congrArg src (funext fun a => match a with
      | ⟨0, _⟩ => Fin.ext rfl
      | ⟨1, _⟩ => Fin.ext rfl))

/-- The sum row's new value at column `q`: the running value plus the column sum of the rectified block. -/
theorem bn1_sum_apply (x0 : Vec Ideal S10000x64 .f32) (x1 : Vec Ideal S1x64 .f32) (acc : Vec Ideal S1x64 .f32) (q : Fin 64) :
    k1_pay4 x0 x1 acc (ix2 (0 : Fin 1) q) = acc (ix2 (0 : Fin 1) q) + ∑ p : Fin 10000, k1_pay3 x0 x1 (ix2 p q) := by
  unfold k1_pay4
  simp only [shapeCast_self]
  show acc (ix2 (0 : Fin 1) q) + shapeCast S1x64 (multiReduction .add [0] S64 (k1_pay3 x0 x1) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn1_colsum (k1_pay3 x0 x1) reduces_S10000x64_S64 (.inl rfl) rfl q

/-- The sum-of-squares row's new value at column `q`. -/
theorem bn1_sq_apply (x0 : Vec Ideal S10000x64 .f32) (x1 : Vec Ideal S1x64 .f32) (acc : Vec Ideal S1x64 .f32) (q : Fin 64) :
    k1_pay5 x0 x1 acc (ix2 (0 : Fin 1) q) = acc (ix2 (0 : Fin 1) q) + ∑ p : Fin 10000, k1_pay3 x0 x1 (ix2 p q) * k1_pay3 x0 x1 (ix2 p q) := by
  unfold k1_pay5
  simp only [shapeCast_self]
  show acc (ix2 (0 : Fin 1) q) + shapeCast S1x64 (multiReduction .add [0] S64 (mulf (k1_pay3 x0 x1) (k1_pay3 x0 x1)) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn1_colsum (mulf (k1_pay3 x0 x1) (k1_pay3 x0 x1)) reduces_S10000x64_S64 (.inl rfl) rfl q

/-- The two zero rows the first point stores are zero at every column. -/
theorem bn1_zero3_apply (q : Fin 64) : (k1_pay1 (F := Ideal)) (ix2 (0 : Fin 1) q) = 0 := by
  unfold k1_pay1
  show Ideal.ofBits .f32 0x00000000#32 = 0
  exact Ideal.ofBits_zero_f32
theorem bn1_zero4_apply (q : Fin 64) : (k1_pay2 (F := Ideal)) (ix2 (0 : Fin 1) q) = 0 := by
  unfold k1_pay2
  show Ideal.ofBits .f32 0x00000000#32 = 0
  exact Ideal.ofBits_zero_f32

/-! ## The blocks of the two inputs, by rows of the whole arrays -/

variable (V : (c : Dev nD) → (b : Ref sig .tc) → Buf (Elt Ideal) ((c : Thread nD τ).loc b))

/-- Row `j` of row block `k` is row `j + 10000 k` of the array. -/
def bn1_row (k : Fin 5) (j : Fin 10000) : Fin 50000 := ⟨j.val + 10000 * k.val, by have := k.isLt; have := j.isLt; omega⟩

/-- The two input arrays as the region finds them, as functions of their indices into the extended reals. -/
abbrev bn1_x (c : Dev nD) : S50000x64.Idx → EReal := V c main_v47
abbrev bn1_b (c : Dev nD) : S1x64.Idx → EReal := V c main_v50

/-- The rectified value at row `p`, column `q` of the whole array. -/
def bn1_r (c : Dev nD) (p : Fin 50000) (q : Fin 64) : EReal :=
  max (bn1_x V c (ix2 p q) + bn1_b V c (ix2 (0 : Fin 1) q)) 0

/-- The block index maps over the grid: the row-block windows sit at block row `t`, the three rows at block (0, 0). -/
theorem bn1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The row-block input's block at point `t` reads rows `10000 t ..` of its array. -/
theorem bn1_blk0 (c : Dev nD) (t : Fin cfg1.N) (k : Fin 5) (hk : k.val = t.val) (j : Fin 10000) (q : Fin 64) :
    iblk1 V c 0 t (ix2 j q) = bn1_x V c (ix2 (bn1_row k j) q) := by
  obtain ⟨e0, e1, -⟩ := bn1_idx t
  unfold iblk1
  rw [View.read_apply]
  show V c main_v47 _ = V c main_v47 _
  refine congrArg (V c main_v47) ?_
  funext a
  apply Fin.ext
  match a with
  | ⟨0, _⟩ => show win1_0.index t (0 : Fin 2) * 10000 + 1 * j.val = j.val + 10000 * k.val; rw [e0, hk]; omega
  | ⟨1, _⟩ => show win1_0.index t (1 : Fin 2) * 64 + 1 * q.val = q.val; rw [e1]; omega

/-- The bias row's block is the row itself at every point. -/
theorem bn1_blk1 (c : Dev nD) (t : Fin cfg1.N) (q : Fin 64) :
    iblk1 V c 1 t (ix2 (0 : Fin 1) q) = bn1_b V c (ix2 (0 : Fin 1) q) := by
  obtain ⟨-, -, e0, e1, -⟩ := bn1_idx t
  unfold iblk1
  rw [View.read_apply]
  show V c main_v50 _ = V c main_v50 _
  refine congrArg (V c main_v50) ?_
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- So the body's rectified block at point `t` is the rectified array on that block's rows. -/
theorem bn1_relu_blk (c : Dev nD) (t : Fin cfg1.N) (k : Fin 5) (hk : k.val = t.val) (j : Fin 10000) (q : Fin 64) :
    k1_pay3 (iblk1 V c 0 t) (iblk1 V c 1 t) (ix2 j q) = bn1_r V c (bn1_row k j) q := by
  refine (bn1_relu_apply (iblk1 V c 0 t) (iblk1 V c 1 t) j q).trans ?_
  rw [bn1_blk0 V c t k hk j q, bn1_blk1 V c t q]
  rfl

/-! ## The accumulators after each point: sums over the row blocks so far -/

/-- Row block `k`'s column sum of the rectified array (zero past the last block), and of its squares. -/
def bn1_g3 (c : Dev nD) (q : Fin 64) (k : ℕ) : EReal :=
  if h : k < 5 then ∑ j : Fin 10000, bn1_r V c (bn1_row ⟨k, h⟩ j) q else 0
def bn1_g4 (c : Dev nD) (q : Fin 64) (k : ℕ) : EReal :=
  if h : k < 5 then ∑ j : Fin 10000, bn1_r V c (bn1_row ⟨k, h⟩ j) q * bn1_r V c (bn1_row ⟨k, h⟩ j) q else 0

theorem bn1_blocksum3 (c : Dev nD) (q : Fin 64) (t : Fin cfg1.N) :
    ∑ j : Fin 10000, k1_pay3 (iblk1 V c 0 t) (iblk1 V c 1 t) (ix2 j q) = bn1_g3 V c q t.val := by
  have ht : t.val < 5 := lt_of_lt_of_eq t.isLt (show cfg1.N = 5 from N_1)
  unfold bn1_g3
  rw [dif_pos ht]
  exact Finset.sum_congr rfl fun j _ => bn1_relu_blk V c t ⟨t.val, ht⟩ rfl j q

theorem bn1_blocksum4 (c : Dev nD) (q : Fin 64) (t : Fin cfg1.N) :
    ∑ j : Fin 10000, k1_pay3 (iblk1 V c 0 t) (iblk1 V c 1 t) (ix2 j q) * k1_pay3 (iblk1 V c 0 t) (iblk1 V c 1 t) (ix2 j q) = bn1_g4 V c q t.val := by
  have ht : t.val < 5 := lt_of_lt_of_eq t.isLt (show cfg1.N = 5 from N_1)
  unfold bn1_g4
  rw [dif_pos ht]
  exact Finset.sum_congr rfl fun j _ => by rw [bn1_relu_blk V c t ⟨t.val, ht⟩ rfl j q]

/-- THE RUNNING SUMS. After point `n` the sum row holds, at column `q`, the column sums of row blocks `0..n`;
    the sum-of-squares row likewise. By induction on the point. -/
theorem bn1_acc (c : Dev nD) (q : Fin 64) : ∀ (n : ℕ) (h : n < cfg1.N),
    (outsAt1 V c n h).1 (ix2 (0 : Fin 1) q) = ∑ k ∈ Finset.range (n + 1), bn1_g3 V c q k
    ∧ (outsAt1 V c n h).2 (ix2 (0 : Fin 1) q) = ∑ k ∈ Finset.range (n + 1), bn1_g4 V c q k
  | 0, h => by
    rw [outsAt1_A V c ⟨0, h⟩ rfl]
    dsimp only
    rw [bn1_out_A_3, bn1_out_A_4, Finset.sum_range_one, Finset.sum_range_one]
    constructor
    · refine (bn1_sum_apply _ _ _ q).trans ?_
      rw [bn1_zero3_apply, zero_add]
      exact bn1_blocksum3 V c q ⟨0, h⟩
    · refine (bn1_sq_apply _ _ _ q).trans ?_
      rw [bn1_zero4_apply, zero_add]
      exact bn1_blocksum4 V c q ⟨0, h⟩
  | n + 1, h => by
    have hN : cfg1.N = 5 := N_1
    have hB : ¬(⟨n + 1, h⟩ : Fin cfg1.N).val % 5 = 0 := by dsimp only; omega
    obtain ⟨ih3, ih4⟩ := bn1_acc c q n (Nat.lt_of_succ_lt h)
    rw [outsAt1_B V c ⟨n + 1, h⟩ hB]
    dsimp only
    rw [bn1_out_B_3, bn1_out_B_4, Finset.sum_range_succ _ (n + 1), Finset.sum_range_succ _ (n + 1)]
    constructor
    · refine (bn1_sum_apply _ _ _ q).trans ?_
      show (outsAt1 V c n _).1 (ix2 (0 : Fin 1) q) + _ = _
      rw [ih3]
      exact congrArg (_ + ·) (bn1_blocksum3 V c q ⟨n + 1, h⟩)
    · refine (bn1_sq_apply _ _ _ q).trans ?_
      show (outsAt1 V c n _).2 (ix2 (0 : Fin 1) q) + _ = _
      rw [ih4]
      exact congrArg (_ + ·) (bn1_blocksum4 V c q ⟨n + 1, h⟩)

/-- The five block sums are the sum over all 50000 rows (extended-real addition is commutative and associative). -/
theorem bn1_regroup (f : Fin 50000 → EReal) :
    (∑ k ∈ Finset.range 5, if h : k < 5 then ∑ j : Fin 10000, f (bn1_row ⟨k, h⟩ j) else 0) = ∑ p : Fin 50000, f p := by
  have e := Equiv.sum_comp (finProdFinEquiv : Fin 5 × Fin 10000 ≃ Fin (5 * 10000)) f
  rw [Fintype.sum_prod_type] at e
  rw [← e, ← Fin.sum_univ_eq_sum_range (fun k => if h : k < 5 then ∑ j : Fin 10000, f (bn1_row ⟨k, h⟩ j) else 0) 5]
  exact Finset.sum_congr rfl fun k _ => (dif_pos k.isLt).trans (Finset.sum_congr rfl fun j _ => rfl)

/-! ## What the three arrays end holding -/

/-- The block output's array, index by index. -/
def bn1_G2 (c : Dev nD) : S50000x64.Idx → EReal := fun i => bn1_r V c ⟨(i 0).val, idx2_lt0 i⟩ ⟨(i 1).val, idx2_lt1 i⟩
/-- The sum row and the sum-of-squares row. -/
def bn1_G3 (c : Dev nD) : S1x64.Idx → EReal := fun y => ∑ p : Fin 50000, bn1_r V c p ⟨(y 1).val, idx2_lt1 y⟩
def bn1_G4 (c : Dev nD) : S1x64.Idx → EReal := fun y => ∑ p : Fin 50000, bn1_r V c p ⟨(y 1).val, idx2_lt1 y⟩ * bn1_r V c p ⟨(y 1).val, idx2_lt1 y⟩

/-- At every point the block output's buffer holds the rectified block, whichever case ran. -/
theorem bn1_reluAt (c : Dev nD) (t : Fin cfg1.N) : reluAt1 V c t = k1_pay3 (iblk1 V c 0 t) (iblk1 V c 1 t) := by
  by_cases h0 : t.val % 5 = 0
  · rw [reluAt1_A V c t h0, bn1_out_A_2]
  · rw [reluAt1_B V c t h0, bn1_out_B_2]

/-- One entry of what point `t` writes back of the block output. -/
theorem bn1_flush2_pt (c : Dev nD) (t : Fin cfg1.N) (y : S10000x64.Idx) :
    k1_pay3 (iblk1 V c 0 t) (iblk1 V c 1 t) y = bn1_G2 V c (((cfg1.win 2).blk t).view.emb y) := by
  have ht : t.val < 5 := lt_of_lt_of_eq t.isLt (show cfg1.N = 5 from N_1)
  obtain ⟨-, -, -, -, e0, e1, -⟩ := bn1_idx t
  obtain ⟨j, q, rfl⟩ : ∃ (j : Fin 10000) (q : Fin 64), y = ix2 j q := ⟨y 0, y 1, eq_ix2 y⟩
  rw [bn1_relu_blk V c t ⟨t.val, ht⟩ rfl j q]
  unfold bn1_G2
  congr 1
  · apply Fin.ext
    show j.val + 10000 * t.val = win1_2.index t (0 : Fin 2) * 10000 + 1 * j.val
    rw [e0]; omega
  · apply Fin.ext
    show q.val = win1_2.index t (1 : Fin 2) * 64 + 1 * q.val
    rw [e1]; omega

theorem bn1_flushed2 (c : Dev nD) (t : Fin cfg1.N) :
    (dat1 V c).flushed 2 t = ((cfg1.win 2).blk t).view.read (Elt Ideal) (bn1_G2 V c) := by
  show (cfg1.win 2).cut (grid1.coords t) ((dat1 V c).after 2 t) = _
  rw [after1_2, bn1_reluAt]
  funext y
  exact bn1_flush2_pt V c t y

/-- An index of the block output's array is in point `t`'s block iff its row is in that block's range. -/
theorem bn1_mem_blk2 (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v51_0).slice (win1_2.rect t)).set ↔ _
  rw [View.set_slice_whole, Rect.mem_set_unit]
  exact Iff.rfl

/-- THE BLOCK OUTPUT after the region: the rectified array. -/
theorem bn1_final2 (c : Dev nD) : (dat1 (F := Ideal) V c).arrAt 2 cfg1.N = bn1_G2 V c :=
  (dat1 V c).arrAt_eq_of_cover 2 (bn1_G2 V c) (fun t _ => bn1_flushed2 V c t) fun i => by
    have hi0 : (i 0).val < 50000 := (i 0).isLt
    have hi1 : (i 1).val < 64 := (i 1).isLt
    have hN : cfg1.N = 5 := N_1
    refine ⟨⟨(i 0).val / 10000, by rw [hN]; omega⟩, flush1_2 _, ?_⟩
    obtain ⟨-, -, -, -, e0, e1, -⟩ := bn1_idx ⟨(i 0).val / 10000, by rw [hN]; omega⟩
    rw [bn1_mem_blk2]
    intro a
    match a with
    | ⟨0, _⟩ => show win1_2.index _ (0 : Fin 2) * 10000 ≤ (i 0).val ∧ (i 0).val < win1_2.index _ (0 : Fin 2) * 10000 + 10000
                rw [e0]; dsimp only; omega
    | ⟨1, _⟩ => show win1_2.index _ (1 : Fin 2) * 64 ≤ (i 1).val ∧ (i 1).val < win1_2.index _ (1 : Fin 2) * 64 + 64
                rw [e1]; omega

/-- One entry of what the last point writes back of each accumulator. -/
theorem bn1_flush3_pt (c : Dev nD) (t : Fin cfg1.N) (h4 : t.val = 4) (y : S1x64.Idx) :
    (outsAt1 V c t.val t.isLt).1 y = bn1_G3 V c (((cfg1.win 3).blk t).view.emb y) := by
  obtain ⟨-, -, -, -, -, -, e0, e1, -⟩ := bn1_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn1_acc V c q t.val t.isLt).1).trans ?_
  rw [h5]
  unfold bn1_G3 bn1_g3
  rw [bn1_regroup (fun p => bn1_r V c p q)]
  refine Finset.sum_congr rfl fun p _ => congrArg (bn1_r V c p) (Fin.ext ?_)
  show q.val = win1_3.index t (1 : Fin 2) * 64 + 1 * q.val
  rw [e1]; omega

theorem bn1_flush4_pt (c : Dev nD) (t : Fin cfg1.N) (h4 : t.val = 4) (y : S1x64.Idx) :
    (outsAt1 V c t.val t.isLt).2 y = bn1_G4 V c (((cfg1.win 4).blk t).view.emb y) := by
  obtain ⟨-, -, -, -, -, -, -, -, e0, e1⟩ := bn1_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn1_acc V c q t.val t.isLt).2).trans ?_
  rw [h5]
  unfold bn1_G4 bn1_g4
  rw [bn1_regroup (fun p => bn1_r V c p q * bn1_r V c p q)]
  refine Finset.sum_congr rfl fun p _ => ?_
  have eq : q = ⟨(((cfg1.win 4).blk t).view.emb (ix2 (0 : Fin 1) q) 1).val, idx2_lt1 _⟩ := Fin.ext (by
    show q.val = win1_4.index t (1 : Fin 2) * 64 + 1 * q.val
    rw [e1]; omega)
  exact congrArg (fun q' => bn1_r V c p q' * bn1_r V c p q') eq

set_option maxRecDepth 131072 in
theorem bn1_flushed3 (c : Dev nD) (t : Fin cfg1.N) (hf : (cfg1.win 3).flush t = true) :
    (dat1 V c).flushed 3 t = ((cfg1.win 3).blk t).view.read (Elt Ideal) (bn1_G3 V c) := by
  have hN : cfg1.N = 5 := N_1
  have h4 : t.val = 4 := by have := (flush1_3 t).mp hf; have := t.isLt; omega
  show (cfg1.win 3).cut (grid1.coords t) ((dat1 V c).after 3 t) = _
  rw [after1_3]
  funext y
  exact bn1_flush3_pt V c t h4 y

set_option maxRecDepth 131072 in
theorem bn1_flushed4 (c : Dev nD) (t : Fin cfg1.N) (hf : (cfg1.win 4).flush t = true) :
    (dat1 V c).flushed 4 t = ((cfg1.win 4).blk t).view.read (Elt Ideal) (bn1_G4 V c) := by
  have hN : cfg1.N = 5 := N_1
  have h4 : t.val = 4 := by have := (flush1_4 t).mp hf; have := t.isLt; omega
  show (cfg1.win 4).cut (grid1.coords t) ((dat1 V c).after 4 t) = _
  rw [after1_4]
  funext y
  exact bn1_flush4_pt V c t h4 y

/-- THE SUM ROW after the region. The last point's block (0, 0) is the whole [1,64] array. -/
theorem bn1_final3 (c : Dev nD) : (dat1 (F := Ideal) V c).arrAt 3 cfg1.N = bn1_G3 V c :=
  (dat1 V c).arrAt_eq_of_cover 3 (bn1_G3 V c) (bn1_flushed3 V c) fun i =>
    ⟨t1_4, (flush1_3 t1_4).mpr rfl, by
      obtain ⟨-, -, -, -, -, -, e0, e1, -⟩ := bn1_idx t1_4
      show i ∈ ((View.whole main_v51_1).slice (win1_3.rect t1_4)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_4 (0 : Fin 2) * 1 ≤ (i 0 : Nat) ∧ (i 0 : Nat) < win1_3.index t1_4 (0 : Fin 2) * 1 + 1
                  rw [e0]; omega
      | ⟨1, _⟩ => show win1_3.index t1_4 (1 : Fin 2) * 64 ≤ (i 1 : Nat) ∧ (i 1 : Nat) < win1_3.index t1_4 (1 : Fin 2) * 64 + 64
                  rw [e1]; omega⟩

/-- THE SUM-OF-SQUARES ROW after the region. -/
theorem bn1_final4 (c : Dev nD) : (dat1 (F := Ideal) V c).arrAt 4 cfg1.N = bn1_G4 V c :=
  (dat1 V c).arrAt_eq_of_cover 4 (bn1_G4 V c) (bn1_flushed4 V c) fun i =>
    ⟨t1_4, (flush1_4 t1_4).mpr rfl, by
      obtain ⟨-, -, -, -, -, -, -, -, e0, e1⟩ := bn1_idx t1_4
      show i ∈ ((View.whole main_v51_2).slice (win1_4.rect t1_4)).set
      rw [View.set_slice_whole, Rect.mem_set_unit]
      intro a
      have h0 : (i 0 : Nat) < 1 := (i 0).isLt
      have h1 : (i 1 : Nat) < 64 := (i 1).isLt
      match a with
      | ⟨0, _⟩ => show win1_4.index t1_4 (0 : Fin 2) * 1 ≤ (i 0 : Nat) ∧ (i 0 : Nat) < win1_4.index t1_4 (0 : Fin 2) * 1 + 1
                  rw [e0]; omega
      | ⟨1, _⟩ => show win1_4.index t1_4 (1 : Fin 2) * 64 ≤ (i 1 : Nat) ∧ (i 1 : Nat) < win1_4.index t1_4 (1 : Fin 2) * 64 + 64
                  rw [e1]; omega⟩

/-! ## The three arrays, entry by entry -/

theorem final1_2 (c : Dev nD) (p : Fin 50000) (q : Fin 64) :
    (Cert.KernelIdeal.Reg.dat1 (F := Ideal) V c).arrAt 2 cfg1.N (ix2 p q) = bn1_r V c p q :=
  (congrFun (bn1_final2 V c) (ix2 p q)).trans rfl

theorem final1_3 (c : Dev nD) (q : Fin 64) :
    (Cert.KernelIdeal.Reg.dat1 (F := Ideal) V c).arrAt 3 cfg1.N (ix2 (0 : Fin 1) q) = ∑ p : Fin 50000, bn1_r V c p q :=
  (congrFun (bn1_final3 V c) (ix2 (0 : Fin 1) q)).trans rfl

theorem final1_4 (c : Dev nD) (q : Fin 64) :
    (Cert.KernelIdeal.Reg.dat1 (F := Ideal) V c).arrAt 4 cfg1.N (ix2 (0 : Fin 1) q) = ∑ p : Fin 50000, bn1_r V c p q * bn1_r V c p q :=
  (congrFun (bn1_final4 V c) (ix2 (0 : Fin 1) q)).trans rfl

end Cert.KernelIdeal.RegValue

end
-- ==== Proof.Ideal.Affine2Value.lean ====
/- Region 2 (a row-block affine map): the value half, at the exact values. The array the region leaves in its
   output window is, entry by entry, the data array times the scale row plus the shift row: entry (p, q) is
   data (p, q) * scale (0, q) + shift (0, q). -/
import proofs.«132734_j72301479461275_2_alg».proof.Proof.Ideal.Affine2
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off2 : (![0, 0] : Fin 2 → Nat) = fun _ => 0 := funext fun a => by fin_cases a <;> rfl

/-- A [1,64] row broadcast down the 10000 rows reads, at (p, q), the row's entry (0, q). -/
theorem row_bcast2 (r : S1x64.Idx → EReal) (p : Fin 10000) (q : Fin 64) :
    broadcastTo S10000x64 r broadcasts_S1x64_S10000x64 (ix2 p q) = r (ix2 0 q) :=
  broadcastTo_apply r broadcasts_S1x64_S10000x64 (ix2 p q) (ix2 0 q) (fun a => by
    match a with
    | ⟨0, _⟩ => rfl
    | ⟨1, _⟩ => rfl)

/-- The stored value at local entry (p, q): the loaded block's (p, q) times the scale row's (0, q) plus the shift
    row's (0, q). -/
theorem pay2_apply (x0 : Vec Ideal S10000x64 .f32) (x1 : Vec Ideal S1x64 .f32) (x2 : Vec Ideal S1x64 .f32) (p : Fin 10000) (q : Fin 64) :
    k2_pay1 x0 x1 x2 (ix2 p q) = x0 (ix2 p q) * x1 (ix2 0 q) + x2 (ix2 0 q) := by
  unfold k2_pay1
  rw [addf_apply, mulf_apply]
  simp only [shapeCast_self]
  rw [row_bcast2, row_bcast2]

/-! ## The affine map of the whole arrays -/

/-- Data times scale row plus shift row, index by index. -/
def affine2 (a : S50000x64.Idx → EReal) (s : S1x64.Idx → EReal) (b : S1x64.Idx → EReal) : S50000x64.Idx → EReal :=
  fun i => affineAt a s b (⟨(i 0).val, (i 0).isLt⟩ : Fin 50000) (⟨(i 1).val, (i 1).isLt⟩ : Fin 64)

/-- The stored value of a row block, at a local index `j`, is the affine map at the array index `i` that `j` sits at,
    when the loaded block reads `a` at such indices and the loaded rows are `s` and `b`. -/
theorem pay2_at (x0 : Vec Ideal S10000x64 .f32) (x1 : Vec Ideal S1x64 .f32) (x2 : Vec Ideal S1x64 .f32)
    (a : S50000x64.Idx → EReal) (s : S1x64.Idx → EReal) (b : S1x64.Idx → EReal)
    (j : S10000x64.Idx) (i : S50000x64.Idx)
    (hi1 : (i 1).val = (j 1).val)
    (h0 : ∀ z : S50000x64.Idx, (z 0).val = (i 0).val → (z 1).val = (i 1).val → x0 j = a z) (h1 : ∀ y : S1x64.Idx, x1 y = s y) (h2 : ∀ y : S1x64.Idx, x2 y = b y) :
    k2_pay1 x0 x1 x2 j = affine2 a s b i := by
  obtain ⟨p, q, rfl⟩ : ∃ (p : Fin 10000) (q : Fin 64), j = ix2 p q := ⟨j 0, j 1, eq_ix2 j⟩
  rw [pay2_apply, h0 (ix2 (⟨(i 0).val, (i 0).isLt⟩ : Fin 50000) (⟨(i 1).val, (i 1).isLt⟩ : Fin 64)) rfl rfl, h1, h2]
  unfold affine2 affineAt
  have e : (⟨(i 1).val, (i 1).isLt⟩ : Fin 64) = q := Fin.ext hi1
  rw [e]

/-! ## From the blocks to the array -/

/-- The printed index maps over the grid: the data block and the output block move together down the rows, one
    block per point; the two rows stay at block (0, 0). -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 4
    ∧ win2_3.index t (1 : Fin 2) = 0 :=
  (by decide +kernel : ∀ t : Fin grid2.N, _)

/-- Every row block is some point's. -/
theorem idx_onto2 : ∀ (q0 : Fin 5), ∃ t : Fin cfg2.N, win2_3.index t = ![q0.val, 0] :=
  (by decide +kernel : ∀ (q0 : Fin 5), ∃ t : Fin grid2.N, win2_3.index t = ![q0.val, 0])

/-- What point `t` writes back is block `t` of the affine map of the three arrays found on entry. -/
theorem flushed2_eq (c : Dev nD) (t : Fin cfg2.N) :
    (dat2 V c).flushed 3 t = ((cfg2.win 3).blk t).view.read (Elt Ideal) (affine2 (V c main_v51_0) (V c main_v68) (V c main_v76)) := by
  show (cfg2.win 3).cut (grid2.coords t) ((dat2 V c).after 3 t) = _
  rw [after2_3]
  unfold out2_3
  rw [View.canon_unit_zero zero_off2]
  simp only [View.ld_unit_zero (S := S10000x64) zero_off2, View.ld_unit_zero (S := S1x64) zero_off2]
  obtain ⟨e0, e1, e2, e3, e4, e5, e6, e7⟩ := idx_facts2 t
  funext j
  show k2_pay1 (iblk2 V c 0 t) (iblk2 V c 1 t) (iblk2 V c 2 t) j
    = affine2 (V c main_v51_0) (V c main_v68) (V c main_v76) (((cfg2.win 3).blk t).view.emb j)
  refine pay2_at _ _ _ _ _ _ j _ ?_ ?_ ?_ ?_
  · show win2_3.index t (1 : Fin 2) * 64 + 1 * (j 1).val = _
    omega
  · intro z hz0 hz1
    show V c main_v51_0 (((cfg2.win 0).blk t).view.emb j) = V c main_v51_0 z
    refine congrArg _ (funext fun a => Fin.ext ?_)
    match a with
    | ⟨0, _⟩ => exact (show win2_0.index t (0 : Fin 2) * 10000 + 1 * (j 0).val = win2_3.index t (0 : Fin 2) * 10000 + 1 * (j 0).val by omega).trans hz0.symm
    | ⟨1, _⟩ => exact (show win2_0.index t (1 : Fin 2) * 64 + 1 * (j 1).val = win2_3.index t (1 : Fin 2) * 64 + 1 * (j 1).val by omega).trans hz1.symm
  · intro y
    show V c main_v68 (((cfg2.win 1).blk t).view.emb y) = V c main_v68 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 64 + 1 * (y 1).val = (y 1).val; omega
  · intro y
    show V c main_v76 (((cfg2.win 2).blk t).view.emb y) = V c main_v76 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega

/-- An index of the array is in the block of point `t` iff each coordinate is in the block's range on its axis. -/
theorem mem_blk2 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v77).slice (win2_3.rect t)).set ↔ _
  rw [View.set_slice_whole, Rect.mem_set_unit]
  exact Iff.rfl

/-- The five row blocks cover the array: row `r` is in block `r / 10000`. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region is the affine map of the three input arrays as found on entry. -/
theorem arr2_3 (c : Dev nD) : (dat2 (F := Ideal) V c).arrAt 3 cfg2.N = affine2 (V c main_v51_0) (V c main_v68) (V c main_v76) :=
  (dat2 V c).arrAt_eq_of_cover 3 (affine2 (V c main_v51_0) (V c main_v68) (V c main_v76)) (fun t _ => flushed2_eq V c t) cover2

/-- Entry (p, q) of the output array after the region. -/
theorem final2_3 (c : Dev nD) (p : Fin 50000) (q : Fin 64) :
    (Cert.KernelIdeal.Reg.dat2 (F := Ideal) V c).arrAt 3 cfg2.N (ix2 p q)
      = affineAt (V c main_v51_0) (V c main_v68) (V c main_v76) p q := by
  rw [arr2_3]
  rfl

end Cert.KernelIdeal.RegValue

end
-- ==== Proof.Ideal.AggKernel.lean ====
/- The kernel program's host stretch between a layer's product region and its bias-and-statistics region computes the
   aggregation `Cert.Agg.agg` of the product, the two endpoint rows and the edge weights it finds — at any contents of
   the buffers on entry, for each of the three layers. -/
import proofs.«132734_j72301479461275_2_alg».proof.Proof.Ideal.AggSpec
import proofs.«132734_j72301479461275_2_alg».proof.Proof.Gen.KernelIdeal.Launch
import Idealize.ShloMosaic.Lib.StableHlo.Run

noncomputable section

namespace Cert.KernelIdeal.RegValue

open Cert.KernelIdeal Cert.KernelIdeal.Gen
open Idealize.ShloMosaic Idealize.ShloMosaic.StableHlo

variable {F : FTy → Type} [FloatOps F]

set_option maxHeartbeats 4000000 in
set_option maxRecDepth 65536 in
/-- Layer 1: after the three host stretches, the array handed to the statistics region is the aggregation of the
    first product. -/
theorem agg_kernel1 (W : Valuation τ sig (Elt F)) :
    StableHlo.after hostOps1_2 (StableHlo.after hostOps1_1 (StableHlo.after hostOps1 W)) (Proc.devRef .tc main_v47)
      = Cert.Agg.agg (W (Proc.devRef .tc main_v6)) (W (Proc.devRef .tc main_v1)) (W (Proc.devRef .tc main_v3))
          (W (Proc.devRef .tc main_arg2)) := by
  simp only [hostOps1, hostOps1_1, hostOps1_2]
  after_results_simp
  rfl

set_option maxHeartbeats 4000000 in
set_option maxRecDepth 65536 in
/-- Layer 2: after the three host stretches, the array handed to the statistics region is the aggregation of the
    second product. -/
theorem agg_kernel2 (W : Valuation τ sig (Elt F)) :
    StableHlo.after hostOps4_2 (StableHlo.after hostOps4_1 (StableHlo.after hostOps4 W)) (Proc.devRef .tc main_v121)
      = Cert.Agg.agg (W (Proc.devRef .tc main_v80)) (W (Proc.devRef .tc main_v1)) (W (Proc.devRef .tc main_v3))
          (W (Proc.devRef .tc main_arg2)) := by
  simp only [hostOps4, hostOps4_1, hostOps4_2]
  after_results_simp
  rfl

set_option maxHeartbeats 4000000 in
set_option maxRecDepth 65536 in
/-- Layer 3: after the three host stretches, the array handed to the statistics region is the aggregation of the
    third product. -/
theorem agg_kernel3 (W : Valuation τ sig (Elt F)) :
    StableHlo.after hostOps7_2 (StableHlo.after hostOps7_1 (StableHlo.after hostOps7 W)) (Proc.devRef .tc main_v195)
      = Cert.Agg.agg (W (Proc.devRef .tc main_v154)) (W (Proc.devRef .tc main_v1)) (W (Proc.devRef .tc main_v3))
          (W (Proc.devRef .tc main_arg2)) := by
  simp only [hostOps7, hostOps7_1, hostOps7_2]
  after_results_simp
  rfl

end Cert.KernelIdeal.RegValue

end
-- ==== Proof.Ideal.Bn4Value.lean ====
import proofs.«132734_j72301479461275_2_alg».proof.Proof.Ideal.Bn4
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegValue

open Cert.KernelIdeal Cert.KernelIdeal.Gen Cert.KernelIdeal.Reg
open Idealize.ShloMosaic Idealize.ShloMosaic.TcCoe Idealize.SL.Sem Idealize.ShloMosaic.Tactic
open Idealize.ShloMosaic.Pipeline (Dat)
open Idealize.ShloMosaic.ValueIdx
open scoped BigOperators

/-! # Region 4, the values: the rectified block, its column sums and the column sums of its squares -/

theorem bn4_hz : (![0, 0] : Fin 2 → Nat) = fun _ => 0 := funext fun a => by fin_cases a <;> rfl

/-! ## What each case's pieces are: the body's payloads of the loaded blocks (any float values) -/

section Pieces
variable {F : FTy → Type} [FloatOps F]

/-- First point, block output: the rectified sum of the two loaded blocks. -/
theorem bn4_out_A_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) :
    out4_A_2 c i arg1 harg1 arg2 harg2 arg3 harg3 arg4 harg4 arg5 harg5 hc0 x0 x1 = k4_pay3 x0 x1 := by
  unfold out4_A_2
  rw [View.read_writes_eq_canon _ _ _ (cover4_A_2 c i arg1 harg1 arg2 harg2 arg3 harg3 arg4 harg4 arg5 harg5 hc0 x0 x1)]
  unfold kernelRun4_A
  dsimp only
  rw [View.canon_unit_zero bn4_hz]
  simp only [View.readAt_eq_ld, harg1.read_unread, harg2.read_unread, harg4.read_unread, harg5.read_unread, View.ld_unit_zero (S := S10000x64) bn4_hz, View.ld_unit_zero (S := S1x64) bn4_hz]

/-- Later points, block output: the same. -/
theorem bn4_out_B_2 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 xo4 : Vec F S1x64 .f32) :
    out4_B_2 c i arg1 harg1 arg2 harg2 arg3 harg3 arg4 harg4 arg5 harg5 hc0 x0 x1 xo3 xo4 = k4_pay3 x0 x1 := by
  unfold out4_B_2
  rw [View.read_writes_eq_canon _ _ _ (cover4_B_2 c i arg1 harg1 arg2 harg2 arg3 harg3 arg4 harg4 arg5 harg5 hc0 x0 x1 xo3 xo4)]
  unfold kernelRun4_B
  dsimp only
  rw [View.canon_unit_zero bn4_hz]
  simp only [View.readAt_eq_ld, harg1.read_unread, harg2.read_unread, harg4.read_unread, harg5.read_unread, View.ld_unit_zero (S := S10000x64) bn4_hz, View.ld_unit_zero (S := S1x64) bn4_hz]

/-- First point, sum row: the zero row is stored, read back, and the block's column sums are added to it. -/
theorem bn4_out_A_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) :
    out4_A_3 c i arg1 harg1 arg2 harg2 arg3 harg3 arg4 harg4 arg5 harg5 hc0 x0 x1 = k4_pay4 x0 x1 (k4_pay1 (F := F)) := by
  unfold out4_A_3
  rw [View.read_writes_eq_canon _ _ _ (cover4_A_3 c i arg1 harg1 arg2 harg2 arg3 harg3 arg4 harg4 arg5 harg5 hc0 x0 x1)]
  unfold kernelRun4_A
  dsimp only
  sl_unfold_words
  rw [View.canon_cons_unit_zero (S := S1x64) bn4_hz, View.readCov_unit_zero (S := S1x64) _ bn4_hz]
  simp only [View.readAt_eq_ld, harg1.read_unread, harg2.read_unread, harg4.read_unread, harg5.read_unread, View.ld_unit_zero (S := S10000x64) bn4_hz, View.ld_unit_zero (S := S1x64) bn4_hz]

/-- First point, sum-of-squares row: likewise. -/
theorem bn4_out_A_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S10000x64 .f32) (x1 : Vec F S1x64 .f32) :
    out4_A_4 c i arg1 harg1 arg2 harg2 arg3 harg3 arg4 harg4 arg5 harg5 hc0 x0 x1 = k4_pay5 x0 x1 (k4_pay2 (F := F)) := by
  unfold out4_A_4
  rw [View.read_writes_eq_canon _ _ _ (cover4_A_4 c i arg1 harg1 arg2 harg2 arg3 harg3 arg4 harg4 arg5 harg5 hc0 x0 x1)]
  unfold kernelRun4_A
  dsimp only
  sl_unfold_words
  rw [View.canon_cons_unit_zero (S := S1x64) bn4_hz, View.readCov_unit_zero (S := S1x64) _ bn4_hz]
  simp only [View.readAt_eq_ld, harg1.read_unread, harg2.read_unread, harg4.read_unread, harg5.read_unread, View.ld_unit_zero (S := S10000x64) bn4_hz, View.ld_unit_zero (S := S1x64) bn4_hz]

/-- Later points, sum row: the block's column sums added to the running row. -/
theorem bn4_out_B_3 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 xo4 : Vec F S1x64 .f32) :
    out4_B_3 c i arg1 harg1 arg2 harg2 arg3 harg3 arg4 harg4 arg5 harg5 hc0 x0 x1 xo3 xo4 = k4_pay4 x0 x1 xo3 := by
  unfold out4_B_3
  rw [View.read_writes_eq_canon _ _ _ (cover4_B_3 c i arg1 harg1 arg2 harg2 arg3 harg3 arg4 harg4 arg5 harg5 hc0 x0 x1 xo3 xo4)]
  unfold kernelRun4_B
  dsimp only
  rw [View.canon_unit_zero bn4_hz]
  simp only [View.readAt_eq_ld, harg1.read_unread, harg2.read_unread, harg4.read_unread, harg5.read_unread, View.ld_unit_zero (S := S10000x64) bn4_hz, View.ld_unit_zero (S := S1x64) bn4_hz]

/-- Later points, sum-of-squares row: likewise. -/
theorem bn4_out_B_4 (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S10000x64 .f32) (x1 : Vec F S1x64 .f32) (xo3 xo4 : Vec F S1x64 .f32) :
    out4_B_4 c i arg1 harg1 arg2 harg2 arg3 harg3 arg4 harg4 arg5 harg5 hc0 x0 x1 xo3 xo4 = k4_pay5 x0 x1 xo4 := by
  unfold out4_B_4
  rw [View.read_writes_eq_canon _ _ _ (cover4_B_4 c i arg1 harg1 arg2 harg2 arg3 harg3 arg4 harg4 arg5 harg5 hc0 x0 x1 xo3 xo4)]
  unfold kernelRun4_B
  dsimp only
  rw [View.canon_unit_zero bn4_hz]
  simp only [View.readAt_eq_ld, harg1.read_unread, harg2.read_unread, harg4.read_unread, harg5.read_unread, View.ld_unit_zero (S := S10000x64) bn4_hz, View.ld_unit_zero (S := S1x64) bn4_hz]

end Pieces

/-! ## The payloads read at an index, over the extended reals -/

/-- The rectified sum at row `p`, column `q`: the larger of `x0 p q + x1 0 q` and zero. -/
theorem bn4_relu_apply (x0 : Vec Ideal S10000x64 .f32) (x1 : Vec Ideal S1x64 .f32) (p : Fin 10000) (q : Fin 64) :
    k4_pay3 x0 x1 (ix2 p q) = max (x0 (ix2 p q) + x1 (ix2 (0 : Fin 1) q)) 0 := by
  have e1 : broadcastTo S10000x64 x1 broadcasts_S1x64_S10000x64 (ix2 p q) = x1 (ix2 (0 : Fin 1) q) :=
    broadcastTo_1b_ab_apply x1 broadcasts_S1x64_S10000x64 p q
  unfold k4_pay3
  simp only [shapeCast_self]
  show max (x0 (ix2 p q) + broadcastTo S10000x64 x1 broadcasts_S1x64_S10000x64 (ix2 p q)) (Ideal.ofBits .f32 0x00000000#32) = _
  rw [e1, Ideal.ofBits_zero_f32]

/-- A column reduction of a [10000,64] block from the zero word, at column `q`: the sum down the column. -/
theorem bn4_colsum (src : FVec Ideal S10000x64 .f32) (h : S10000x64.Reduces [0] S64) (hφ : FKind.Formats .f32)
    (hacc : (0x00000000#32 : BitVec 32) = 0x00000000#32) (q : Fin 64) :
    multiReduction .add [0] S64 src 0x00000000#32 h hφ hacc (ix1 q) = ∑ p : Fin 10000, src (ix2 p q) :=
  (Ideal.multiReduction_add_single src 0x00000000#32 h hφ hacc (ix1 q)).trans
    (Finset.sum_congr rfl fun p _ => congrArg src (funext fun a => match a with
      | ⟨0, _⟩ => Fin.ext rfl
      | ⟨1, _⟩ => Fin.ext rfl))

/-- The sum row's new value at column `q`: the running value plus the column sum of the rectified block. -/
theorem bn4_sum_apply (x0 : Vec Ideal S10000x64 .f32) (x1 : Vec Ideal S1x64 .f32) (acc : Vec Ideal S1x64 .f32) (q : Fin 64) :
    k4_pay4 x0 x1 acc (ix2 (0 : Fin 1) q) = acc (ix2 (0 : Fin 1) q) + ∑ p : Fin 10000, k4_pay3 x0 x1 (ix2 p q) := by
  unfold k4_pay4
  simp only [shapeCast_self]
  show acc (ix2 (0 : Fin 1) q) + shapeCast S1x64 (multiReduction .add [0] S64 (k4_pay3 x0 x1) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn4_colsum (k4_pay3 x0 x1) reduces_S10000x64_S64 (.inl rfl) rfl q

/-- The sum-of-squares row's new value at column `q`. -/
theorem bn4_sq_apply (x0 : Vec Ideal S10000x64 .f32) (x1 : Vec Ideal S1x64 .f32) (acc : Vec Ideal S1x64 .f32) (q : Fin 64) :
    k4_pay5 x0 x1 acc (ix2 (0 : Fin 1) q) = acc (ix2 (0 : Fin 1) q) + ∑ p : Fin 10000, k4_pay3 x0 x1 (ix2 p q) * k4_pay3 x0 x1 (ix2 p q) := by
  unfold k4_pay5
  simp only [shapeCast_self]
  show acc (ix2 (0 : Fin 1) q) + shapeCast S1x64 (multiReduction .add [0] S64 (mulf (k4_pay3 x0 x1) (k4_pay3 x0 x1)) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn4_colsum (mulf (k4_pay3 x0 x1) (k4_pay3 x0 x1)) reduces_S10000x64_S64 (.inl rfl) rfl q

/-- The two zero rows the first point stores are zero at every column. -/
theorem bn4_zero3_apply (q : Fin 64) : (k4_pay1 (F := Ideal)) (ix2 (0 : Fin 1) q) = 0 := by
  unfold k4_pay1
  show Ideal.ofBits .f32 0x00000000#32 = 0
  exact Ideal.ofBits_zero_f32
theorem bn4_zero4_apply (q : Fin 64) : (k4_pay2 (F := Ideal)) (ix2 (0 : Fin 1) q) = 0 := by
  unfold k4_pay2
  show Ideal.ofBits .f32 0x00000000#32 = 0
  exact Ideal.ofBits_zero_f32

/-! ## The blocks of the two inputs, by rows of the whole arrays -/

variable (V : (c : Dev nD) → (b : Ref sig .tc) → Buf (Elt Ideal) ((c : Thread nD τ).loc b))

/-- Row `j` of row block `k` is row `j + 10000 k` of the array. -/
def bn4_row (k : Fin 5) (j : Fin 10000) : Fin 50000 := ⟨j.val + 10000 * k.val, by have := k.isLt; have := j.isLt; omega⟩

/-- The two input arrays as the region finds them, as functions of their indices into the extended reals. -/
abbrev bn4_x (c : Dev nD) : S50000x64.Idx → EReal := V c main_v121
abbrev bn4_b (c : Dev nD) : S1x64.Idx → EReal := V c main_v124

/-- The rectified value at row `p`, column `q` of the whole array. -/
def bn4_r (c : Dev nD) (p : Fin 50000) (q : Fin 64) : EReal :=
  max (bn4_x V c (ix2 p q) + bn4_b V c (ix2 (0 : Fin 1) q)) 0

/-- The block index maps over the grid: the row-block windows sit at block row `t`, the three rows at block (0, 0). -/
theorem bn4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The row-block input's block at point `t` reads rows `10000 t ..` of its array. -/
theorem bn4_blk0 (c : Dev nD) (t : Fin cfg4.N) (k : Fin 5) (hk : k.val = t.val) (j : Fin 10000) (q : Fin 64) :
    iblk4 V c 0 t (ix2 j q) = bn4_x V c (ix2 (bn4_row k j) q) := by
  obtain ⟨e0, e1, -⟩ := bn4_idx t
  unfold iblk4
  rw [View.read_apply]
  show V c main_v121 _ = V c main_v121 _
  refine congrArg (V c main_v121) ?_
  funext a
  apply Fin.ext
  match a with
  | ⟨0, _⟩ => show win4_0.index t (0 : Fin 2) * 10000 + 1 * j.val = j.val + 10000 * k.val; rw [e0, hk]; omega
  | ⟨1, _⟩ => show win4_0.index t (1 : Fin 2) * 64 + 1 * q.val = q.val; rw [e1]; omega

/-- The bias row's block is the row itself at every point. -/
theorem bn4_blk1 (c : Dev nD) (t : Fin cfg4.N) (q : Fin 64) :
    iblk4 V c 1 t (ix2 (0 : Fin 1) q) = bn4_b V c (ix2 (0 : Fin 1) q) := by
  obtain ⟨-, -, e0, e1, -⟩ := bn4_idx t
  unfold iblk4
  rw [View.read_apply]
  show V c main_v124 _ = V c main_v124 _
  refine congrArg (V c main_v124) ?_
  funext a
  apply Fin.ext
  match a with
  | ⟨0, _⟩ => show win4_1.index t (0 : Fin 2) * 1 + 1 * 0 = 0; rw [e0]
  | ⟨1, _⟩ => show win4_1.index t (1 : Fin 2) * 64 + 1 * q.val = q.val; rw [e1]; omega

/-- So the body's rectified block at point `t` is the rectified array on that block's rows. -/
theorem bn4_relu_blk (c : Dev nD) (t : Fin cfg4.N) (k : Fin 5) (hk : k.val = t.val) (j : Fin 10000) (q : Fin 64) :
    k4_pay3 (iblk4 V c 0 t) (iblk4 V c 1 t) (ix2 j q) = bn4_r V c (bn4_row k j) q := by
  refine (bn4_relu_apply (iblk4 V c 0 t) (iblk4 V c 1 t) j q).trans ?_
  rw [bn4_blk0 V c t k hk j q, bn4_blk1 V c t q]
  rfl

/-! ## The accumulators after each point: sums over the row blocks so far -/

/-- Row block `k`'s column sum of the rectified array (zero past the last block), and of its squares. -/
def bn4_g3 (c : Dev nD) (q : Fin 64) (k : ℕ) : EReal :=
  if h : k < 5 then ∑ j : Fin 10000, bn4_r V c (bn4_row ⟨k, h⟩ j) q else 0
def bn4_g4 (c : Dev nD) (q : Fin 64) (k : ℕ) : EReal :=
  if h : k < 5 then ∑ j : Fin 10000, bn4_r V c (bn4_row ⟨k, h⟩ j) q * bn4_r V c (bn4_row ⟨k, h⟩ j) q else 0

theorem bn4_blocksum3 (c : Dev nD) (q : Fin 64) (t : Fin cfg4.N) :
    ∑ j : Fin 10000, k4_pay3 (iblk4 V c 0 t) (iblk4 V c 1 t) (ix2 j q) = bn4_g3 V c q t.val := by
  have ht : t.val < 5 := lt_of_lt_of_eq t.isLt (show cfg4.N = 5 from N_4)
  unfold bn4_g3
  rw [dif_pos ht]
  exact Finset.sum_congr rfl fun j _ => bn4_relu_blk V c t ⟨t.val, ht⟩ rfl j q

theorem bn4_blocksum4 (c : Dev nD) (q : Fin 64) (t : Fin cfg4.N) :
    ∑ j : Fin 10000, k4_pay3 (iblk4 V c 0 t) (iblk4 V c 1 t) (ix2 j q) * k4_pay3 (iblk4 V c 0 t) (iblk4 V c 1 t) (ix2 j q) = bn4_g4 V c q t.val := by
  have ht : t.val < 5 := lt_of_lt_of_eq t.isLt (show cfg4.N = 5 from N_4)
  unfold bn4_g4
  rw [dif_pos ht]
  exact Finset.sum_congr rfl fun j _ => by rw [bn4_relu_blk V c t ⟨t.val, ht⟩ rfl j q]

/-- THE RUNNING SUMS. After point `n` the sum row holds, at column `q`, the column sums of row blocks `0..n`;
    the sum-of-squares row likewise. By induction on the point. -/
theorem bn4_acc (c : Dev nD) (q : Fin 64) : ∀ (n : ℕ) (h : n < cfg4.N),
    (outsAt4 V c n h).1 (ix2 (0 : Fin 1) q) = ∑ k ∈ Finset.range (n + 1), bn4_g3 V c q k
    ∧ (outsAt4 V c n h).2 (ix2 (0 : Fin 1) q) = ∑ k ∈ Finset.range (n + 1), bn4_g4 V c q k
  | 0, h => by
    rw [outsAt4_A V c ⟨0, h⟩ rfl]
    dsimp only
    rw [bn4_out_A_3, bn4_out_A_4, Finset.sum_range_one, Finset.sum_range_one]
    constructor
    · refine (bn4_sum_apply _ _ _ q).trans ?_
      rw [bn4_zero3_apply, zero_add]
      exact bn4_blocksum3 V c q ⟨0, h⟩
    · refine (bn4_sq_apply _ _ _ q).trans ?_
      rw [bn4_zero4_apply, zero_add]
      exact bn4_blocksum4 V c q ⟨0, h⟩
  | n + 1, h => by
    have hN : cfg4.N = 5 := N_4
    have hB : ¬(⟨n + 1, h⟩ : Fin cfg4.N).val % 5 = 0 := by dsimp only; omega
    obtain ⟨ih3, ih4⟩ := bn4_acc c q n (Nat.lt_of_succ_lt h)
    rw [outsAt4_B V c ⟨n + 1, h⟩ hB]
    dsimp only
    rw [bn4_out_B_3, bn4_out_B_4, Finset.sum_range_succ _ (n + 1), Finset.sum_range_succ _ (n + 1)]
    constructor
    · refine (bn4_sum_apply _ _ _ q).trans ?_
      show (outsAt4 V c n _).1 (ix2 (0 : Fin 1) q) + _ = _
      rw [ih3]
      exact congrArg (_ + ·) (bn4_blocksum3 V c q ⟨n + 1, h⟩)
    · refine (bn4_sq_apply _ _ _ q).trans ?_
      show (outsAt4 V c n _).2 (ix2 (0 : Fin 1) q) + _ = _
      rw [ih4]
      exact congrArg (_ + ·) (bn4_blocksum4 V c q ⟨n + 1, h⟩)

/-- The five block sums are the sum over all 50000 rows (extended-real addition is commutative and associative). -/
theorem bn4_regroup (f : Fin 50000 → EReal) :
    (∑ k ∈ Finset.range 5, if h : k < 5 then ∑ j : Fin 10000, f (bn4_row ⟨k, h⟩ j) else 0) = ∑ p : Fin 50000, f p := by
  have e := Equiv.sum_comp (finProdFinEquiv : Fin 5 × Fin 10000 ≃ Fin (5 * 10000)) f
  rw [Fintype.sum_prod_type] at e
  rw [← e, ← Fin.sum_univ_eq_sum_range (fun k => if h : k < 5 then ∑ j : Fin 10000, f (bn4_row ⟨k, h⟩ j) else 0) 5]
  exact Finset.sum_congr rfl fun k _ => (dif_pos k.isLt).trans (Finset.sum_congr rfl fun j _ => rfl)

/-! ## What the three arrays end holding -/

/-- The block output's array, index by index. -/
def bn4_G2 (c : Dev nD) : S50000x64.Idx → EReal := fun i => bn4_r V c ⟨(i 0).val, idx2_lt0 i⟩ ⟨(i 1).val, idx2_lt1 i⟩
/-- The sum row and the sum-of-squares row. -/
def bn4_G3 (c : Dev nD) : S1x64.Idx → EReal := fun y => ∑ p : Fin 50000, bn4_r V c p ⟨(y 1).val, idx2_lt1 y⟩
def bn4_G4 (c : Dev nD) : S1x64.Idx → EReal := fun y => ∑ p : Fin 50000, bn4_r V c p ⟨(y 1).val, idx2_lt1 y⟩ * bn4_r V c p ⟨(y 1).val, idx2_lt1 y⟩

/-- At every point the block output's buffer holds the rectified block, whichever case ran. -/
theorem bn4_reluAt (c : Dev nD) (t : Fin cfg4.N) : reluAt4 V c t = k4_pay3 (iblk4 V c 0 t) (iblk4 V c 1 t) := by
  by_cases h0 : t.val % 5 = 0
  · rw [reluAt4_A V c t h0, bn4_out_A_2]
  · rw [reluAt4_B V c t h0, bn4_out_B_2]

/-- One entry of what point `t` writes back of the block output. -/
theorem bn4_flush2_pt (c : Dev nD) (t : Fin cfg4.N) (y : S10000x64.Idx) :
    k4_pay3 (iblk4 V c 0 t) (iblk4 V c 1 t) y = bn4_G2 V c (((cfg4.win 2).blk t).view.emb y) := by
  have ht : t.val < 5 := lt_of_lt_of_eq t.isLt (show cfg4.N = 5 from N_4)
  obtain ⟨-, -, -, -, e0, e1, -⟩ := bn4_idx t
  obtain ⟨j, q, rfl⟩ : ∃ (j : Fin 10000) (q : Fin 64), y = ix2 j q := ⟨y 0, y 1, eq_ix2 y⟩
  rw [bn4_relu_blk V c t ⟨t.val, ht⟩ rfl j q]
  unfold bn4_G2
  congr 1
  · apply Fin.ext
    show j.val + 10000 * t.val = win4_2.index t (0 : Fin 2) * 10000 + 1 * j.val
    rw [e0]; omega
  · apply Fin.ext
    show q.val = win4_2.index t (1 : Fin 2) * 64 + 1 * q.val
    rw [e1]; omega

theorem bn4_flushed2 (c : Dev nD) (t : Fin cfg4.N) :
    (dat4 V c).flushed 2 t = ((cfg4.win 2).blk t).view.read (Elt Ideal) (bn4_G2 V c) := by
  show (cfg4.win 2).cut (grid4.coords t) ((dat4 V c).after 2 t) = _
  rw [after4_2, bn4_reluAt]
  funext y
  exact bn4_flush2_pt V c t y

/-- An index of the block output's array is in point `t`'s block iff its row is in that block's range. -/
theorem bn4_mem_blk2 (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v125_0).slice (win4_2.rect t)).set ↔ _
  rw [View.set_slice_whole, Rect.mem_set_unit]
  exact Iff.rfl

/-- THE BLOCK OUTPUT after the region: the rectified array. -/
theorem bn4_final2 (c : Dev nD) : (dat4 (F := Ideal) V c).arrAt 2 cfg4.N = bn4_G2 V c :=
  (dat4 V c).arrAt_eq_of_cover 2 (bn4_G2 V c) (fun t _ => bn4_flushed2 V c t) fun i => by
    have hi0 : (i 0).val < 50000 := (i 0).isLt
    have hi1 : (i 1).val < 64 := (i 1).isLt
    have hN : cfg4.N = 5 := N_4
    refine ⟨⟨(i 0).val / 10000, by rw [hN]; omega⟩, flush4_2 _, ?_⟩
    obtain ⟨-, -, -, -, e0, e1, -⟩ := bn4_idx ⟨(i 0).val / 10000, by rw [hN]; omega⟩
    rw [bn4_mem_blk2]
    intro a
    match a with
    | ⟨0, _⟩ => show win4_2.index _ (0 : Fin 2) * 10000 ≤ (i 0).val ∧ (i 0).val < win4_2.index _ (0 : Fin 2) * 10000 + 10000
                rw [e0]; dsimp only; omega
    | ⟨1, _⟩ => show win4_2.index _ (1 : Fin 2) * 64 ≤ (i 1).val ∧ (i 1).val < win4_2.index _ (1 : Fin 2) * 64 + 64
                rw [e1]; omega

/-- One entry of what the last point writes back of each accumulator. -/
theorem bn4_flush3_pt (c : Dev nD) (t : Fin cfg4.N) (h4 : t.val = 4) (y : S1x64.Idx) :
    (outsAt4 V c t.val t.isLt).1 y = bn4_G3 V c (((cfg4.win 3).blk t).view.emb y) := by
  obtain ⟨-, -, -, -, -, -, e0, e1, -⟩ := bn4_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn4_acc V c q t.val t.isLt).1).trans ?_
  rw [h5]
  unfold bn4_G3 bn4_g3
  rw [bn4_regroup (fun p => bn4_r V c p q)]
  refine Finset.sum_congr rfl fun p _ => congrArg (bn4_r V c p) (Fin.ext ?_)
  show q.val = win4_3.index t (1 : Fin 2) * 64 + 1 * q.val
  rw [e1]; omega

theorem bn4_flush4_pt (c : Dev nD) (t : Fin cfg4.N) (h4 : t.val = 4) (y : S1x64.Idx) :
    (outsAt4 V c t.val t.isLt).2 y = bn4_G4 V c (((cfg4.win 4).blk t).view.emb y) := by
  obtain ⟨-, -, -, -, -, -, -, -, e0, e1⟩ := bn4_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn4_acc V c q t.val t.isLt).2).trans ?_
  rw [h5]
  unfold bn4_G4 bn4_g4
  rw [bn4_regroup (fun p => bn4_r V c p q * bn4_r V c p q)]
  refine Finset.sum_congr rfl fun p _ => ?_
  have eq : q = ⟨(((cfg4.win 4).blk t).view.emb (ix2 (0 : Fin 1) q) 1).val, idx2_lt1 _⟩ := Fin.ext (by
    show q.val = win4_4.index t (1 : Fin 2) * 64 + 1 * q.val
    rw [e1]; omega)
  exact congrArg (fun q' => bn4_r V c p q' * bn4_r V c p q') eq

set_option maxRecDepth 131072 in
theorem bn4_flushed3 (c : Dev nD) (t : Fin cfg4.N) (hf : (cfg4.win 3).flush t = true) :
    (dat4 V c).flushed 3 t = ((cfg4.win 3).blk t).view.read (Elt Ideal) (bn4_G3 V c) := by
  have hN : cfg4.N = 5 := N_4
  have h4 : t.val = 4 := by have := (flush4_3 t).mp hf; have := t.isLt; omega
  show (cfg4.win 3).cut (grid4.coords t) ((dat4 V c).after 3 t) = _
  rw [after4_3]
  funext y
  exact bn4_flush3_pt V c t h4 y

set_option maxRecDepth 131072 in
theorem bn4_flushed4 (c : Dev nD) (t : Fin cfg4.N) (hf : (cfg4.win 4).flush t = true) :
    (dat4 V c).flushed 4 t = ((cfg4.win 4).blk t).view.read (Elt Ideal) (bn4_G4 V c) := by
  have hN : cfg4.N = 5 := N_4
  have h4 : t.val = 4 := by have := (flush4_4 t).mp hf; have := t.isLt; omega
  show (cfg4.win 4).cut (grid4.coords t) ((dat4 V c).after 4 t) = _
  rw [after4_4]
  funext y
  exact bn4_flush4_pt V c t h4 y

/-- THE SUM ROW after the region. The last point's block (0, 0) is the whole [1,64] array. -/
theorem bn4_final3 (c : Dev nD) : (dat4 (F := Ideal) V c).arrAt 3 cfg4.N = bn4_G3 V c :=
  (dat4 V c).arrAt_eq_of_cover 3 (bn4_G3 V c) (bn4_flushed3 V c) fun i =>
    ⟨t4_4, (flush4_3 t4_4).mpr rfl, by
      obtain ⟨-, -, -, -, -, -, e0, e1, -⟩ := bn4_idx t4_4
      show i ∈ ((View.whole main_v125_1).slice (win4_3.rect t4_4)).set
      rw [View.set_slice_whole, Rect.mem_set_unit]
      intro a
      have h0 : (i 0 : Nat) < 1 := (i 0).isLt
      have h1 : (i 1 : Nat) < 64 := (i 1).isLt
      match a with
      | ⟨0, _⟩ => show win4_3.index t4_4 (0 : Fin 2) * 1 ≤ (i 0 : Nat) ∧ (i 0 : Nat) < win4_3.index t4_4 (0 : Fin 2) * 1 + 1
                  rw [e0]; omega
      | ⟨1, _⟩ => show win4_3.index t4_4 (1 : Fin 2) * 64 ≤ (i 1 : Nat) ∧ (i 1 : Nat) < win4_3.index t4_4 (1 : Fin 2) * 64 + 64
                  rw [e1]; omega⟩

/-- THE SUM-OF-SQUARES ROW after the region. -/
theorem bn4_final4 (c : Dev nD) : (dat4 (F := Ideal) V c).arrAt 4 cfg4.N = bn4_G4 V c :=
  (dat4 V c).arrAt_eq_of_cover 4 (bn4_G4 V c) (bn4_flushed4 V c) fun i =>
    ⟨t4_4, (flush4_4 t4_4).mpr rfl, by
      obtain ⟨-, -, -, -, -, -, -, -, e0, e1⟩ := bn4_idx t4_4
      show i ∈ ((View.whole main_v125_2).slice (win4_4.rect t4_4)).set
      rw [View.set_slice_whole, Rect.mem_set_unit]
      intro a
      have h0 : (i 0 : Nat) < 1 := (i 0).isLt
      have h1 : (i 1 : Nat) < 64 := (i 1).isLt
      match a with
      | ⟨0, _⟩ => show win4_4.index t4_4 (0 : Fin 2) * 1 ≤ (i 0 : Nat) ∧ (i 0 : Nat) < win4_4.index t4_4 (0 : Fin 2) * 1 + 1
                  rw [e0]; omega
      | ⟨1, _⟩ => show win4_4.index t4_4 (1 : Fin 2) * 64 ≤ (i 1 : Nat) ∧ (i 1 : Nat) < win4_4.index t4_4 (1 : Fin 2) * 64 + 64
                  rw [e1]; omega⟩

/-! ## The three arrays, entry by entry -/

theorem final4_2 (c : Dev nD) (p : Fin 50000) (q : Fin 64) :
    (Cert.KernelIdeal.Reg.dat4 (F := Ideal) V c).arrAt 2 cfg4.N (ix2 p q) = bn4_r V c p q :=
  (congrFun (bn4_final2 V c) (ix2 p q)).trans rfl

theorem final4_3 (c : Dev nD) (q : Fin 64) :
    (Cert.KernelIdeal.Reg.dat4 (F := Ideal) V c).arrAt 3 cfg4.N (ix2 (0 : Fin 1) q) = ∑ p : Fin 50000, bn4_r V c p q :=
  (congrFun (bn4_final3 V c) (ix2 (0 : Fin 1) q)).trans rfl

theorem final4_4 (c : Dev nD) (q : Fin 64) :
    (Cert.KernelIdeal.Reg.dat4 (F := Ideal) V c).arrAt 4 cfg4.N (ix2 (0 : Fin 1) q) = ∑ p : Fin 50000, bn4_r V c p q * bn4_r V c p q :=
  (congrFun (bn4_final4 V c) (ix2 (0 : Fin 1) q)).trans rfl

end Cert.KernelIdeal.RegValue

end
-- ==== Proof.Ideal.Bn7Value.lean ====
import proofs.«132734_j72301479461275_2_alg».proof.Proof.Ideal.Bn7
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegValue

open Cert.KernelIdeal Cert.KernelIdeal.Gen Cert.KernelIdeal.Reg
open Idealize.ShloMosaic Idealize.ShloMosaic.TcCoe Idealize.SL.Sem Idealize.ShloMosaic.Tactic
open Idealize.ShloMosaic.Pipeline (Dat)
open Idealize.ShloMosaic.ValueIdx
open scoped BigOperators

/-! # Region 7, the values: the rectified block, its column sums and the column sums of its squares -/

theorem bn7_hz : (![0, 0] : Fin 2 → Nat) = fun _ => 0 := funext fun a => by fin_cases a <;> rfl

/-! ## What each case's pieces are: the body's payloads of the loaded blocks (any float values) -/

section Pieces
variable {F : FTy → Type} [FloatOps F]

/-- First point, block output: the rectified sum of the two loaded blocks. -/
theorem bn7_out_A_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) :
    out7_A_2 c i arg1 harg1 arg2 harg2 arg3 harg3 arg4 harg4 arg5 harg5 hc0 x0 x1 = k7_pay3 x0 x1 := by
  unfold out7_A_2
  rw [View.read_writes_eq_canon _ _ _ (cover7_A_2 c i arg1 harg1 arg2 harg2 arg3 harg3 arg4 harg4 arg5 harg5 hc0 x0 x1)]
  unfold kernelRun7_A
  dsimp only
  rw [View.canon_unit_zero bn7_hz]
  simp only [View.readAt_eq_ld, harg1.read_unread, harg2.read_unread, harg4.read_unread, harg5.read_unread, View.ld_unit_zero (S := S10000x64) bn7_hz, View.ld_unit_zero (S := S1x64) bn7_hz]

/-- Later points, block output: the same. -/
theorem bn7_out_B_2 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 xo4 : Vec F S1x64 .f32) :
    out7_B_2 c i arg1 harg1 arg2 harg2 arg3 harg3 arg4 harg4 arg5 harg5 hc0 x0 x1 xo3 xo4 = k7_pay3 x0 x1 := by
  unfold out7_B_2
  rw [View.read_writes_eq_canon _ _ _ (cover7_B_2 c i arg1 harg1 arg2 harg2 arg3 harg3 arg4 harg4 arg5 harg5 hc0 x0 x1 xo3 xo4)]
  unfold kernelRun7_B
  dsimp only
  rw [View.canon_unit_zero bn7_hz]
  simp only [View.readAt_eq_ld, harg1.read_unread, harg2.read_unread, harg4.read_unread, harg5.read_unread, View.ld_unit_zero (S := S10000x64) bn7_hz, View.ld_unit_zero (S := S1x64) bn7_hz]

/-- First point, sum row: the zero row is stored, read back, and the block's column sums are added to it. -/
theorem bn7_out_A_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) :
    out7_A_3 c i arg1 harg1 arg2 harg2 arg3 harg3 arg4 harg4 arg5 harg5 hc0 x0 x1 = k7_pay4 x0 x1 (k7_pay1 (F := F)) := by
  unfold out7_A_3
  rw [View.read_writes_eq_canon _ _ _ (cover7_A_3 c i arg1 harg1 arg2 harg2 arg3 harg3 arg4 harg4 arg5 harg5 hc0 x0 x1)]
  unfold kernelRun7_A
  dsimp only
  sl_unfold_words
  rw [View.canon_cons_unit_zero (S := S1x64) bn7_hz, View.readCov_unit_zero (S := S1x64) _ bn7_hz]
  simp only [View.readAt_eq_ld, harg1.read_unread, harg2.read_unread, harg4.read_unread, harg5.read_unread, View.ld_unit_zero (S := S10000x64) bn7_hz, View.ld_unit_zero (S := S1x64) bn7_hz]

/-- First point, sum-of-squares row: likewise. -/
theorem bn7_out_A_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S10000x64 .f32) (x1 : Vec F S1x64 .f32) :
    out7_A_4 c i arg1 harg1 arg2 harg2 arg3 harg3 arg4 harg4 arg5 harg5 hc0 x0 x1 = k7_pay5 x0 x1 (k7_pay2 (F := F)) := by
  unfold out7_A_4
  rw [View.read_writes_eq_canon _ _ _ (cover7_A_4 c i arg1 harg1 arg2 harg2 arg3 harg3 arg4 harg4 arg5 harg5 hc0 x0 x1)]
  unfold kernelRun7_A
  dsimp only
  sl_unfold_words
  rw [View.canon_cons_unit_zero (S := S1x64) bn7_hz, View.readCov_unit_zero (S := S1x64) _ bn7_hz]
  simp only [View.readAt_eq_ld, harg1.read_unread, harg2.read_unread, harg4.read_unread, harg5.read_unread, View.ld_unit_zero (S := S10000x64) bn7_hz, View.ld_unit_zero (S := S1x64) bn7_hz]

/-- Later points, sum row: the block's column sums added to the running row. -/
theorem bn7_out_B_3 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 xo4 : Vec F S1x64 .f32) :
    out7_B_3 c i arg1 harg1 arg2 harg2 arg3 harg3 arg4 harg4 arg5 harg5 hc0 x0 x1 xo3 xo4 = k7_pay4 x0 x1 xo3 := by
  unfold out7_B_3
  rw [View.read_writes_eq_canon _ _ _ (cover7_B_3 c i arg1 harg1 arg2 harg2 arg3 harg3 arg4 harg4 arg5 harg5 hc0 x0 x1 xo3 xo4)]
  unfold kernelRun7_B
  dsimp only
  rw [View.canon_unit_zero bn7_hz]
  simp only [View.readAt_eq_ld, harg1.read_unread, harg2.read_unread, harg4.read_unread, harg5.read_unread, View.ld_unit_zero (S := S10000x64) bn7_hz, View.ld_unit_zero (S := S1x64) bn7_hz]

/-- Later points, sum-of-squares row: likewise. -/
theorem bn7_out_B_4 (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S10000x64 .f32) (x1 : Vec F S1x64 .f32) (xo3 xo4 : Vec F S1x64 .f32) :
    out7_B_4 c i arg1 harg1 arg2 harg2 arg3 harg3 arg4 harg4 arg5 harg5 hc0 x0 x1 xo3 xo4 = k7_pay5 x0 x1 xo4 := by
  unfold out7_B_4
  rw [View.read_writes_eq_canon _ _ _ (cover7_B_4 c i arg1 harg1 arg2 harg2 arg3 harg3 arg4 harg4 arg5 harg5 hc0 x0 x1 xo3 xo4)]
  unfold kernelRun7_B
  dsimp only
  rw [View.canon_unit_zero bn7_hz]
  simp only [View.readAt_eq_ld, harg1.read_unread, harg2.read_unread, harg4.read_unread, harg5.read_unread, View.ld_unit_zero (S := S10000x64) bn7_hz, View.ld_unit_zero (S := S1x64) bn7_hz]

end Pieces

/-! ## The payloads read at an index, over the extended reals -/

/-- The rectified sum at row `p`, column `q`: the larger of `x0 p q + x1 0 q` and zero. -/
theorem bn7_relu_apply (x0 : Vec Ideal S10000x64 .f32) (x1 : Vec Ideal S1x64 .f32) (p : Fin 10000) (q : Fin 64) :
    k7_pay3 x0 x1 (ix2 p q) = max (x0 (ix2 p q) + x1 (ix2 (0 : Fin 1) q)) 0 := by
  have e1 : broadcastTo S10000x64 x1 broadcasts_S1x64_S10000x64 (ix2 p q) = x1 (ix2 (0 : Fin 1) q) :=
    broadcastTo_1b_ab_apply x1 broadcasts_S1x64_S10000x64 p q
  unfold k7_pay3
  simp only [shapeCast_self]
  show max (x0 (ix2 p q) + broadcastTo S10000x64 x1 broadcasts_S1x64_S10000x64 (ix2 p q)) (Ideal.ofBits .f32 0x00000000#32) = _
  rw [e1, Ideal.ofBits_zero_f32]

/-- A column reduction of a [10000,64] block from the zero word, at column `q`: the sum down the column. -/
theorem bn7_colsum (src : FVec Ideal S10000x64 .f32) (h : S10000x64.Reduces [0] S64) (hφ : FKind.Formats .f32)
    (hacc : (0x00000000#32 : BitVec 32) = 0x00000000#32) (q : Fin 64) :
    multiReduction .add [0] S64 src 0x00000000#32 h hφ hacc (ix1 q) = ∑ p : Fin 10000, src (ix2 p q) :=
  (Ideal.multiReduction_add_single src 0x00000000#32 h hφ hacc (ix1 q)).trans
    (Finset.sum_congr rfl fun p _ => congrArg src (funext fun a => match a with
      | ⟨0, _⟩ => Fin.ext rfl
      | ⟨1, _⟩ => Fin.ext rfl))

/-- The sum row's new value at column `q`: the running value plus the column sum of the rectified block. -/
theorem bn7_sum_apply (x0 : Vec Ideal S10000x64 .f32) (x1 : Vec Ideal S1x64 .f32) (acc : Vec Ideal S1x64 .f32) (q : Fin 64) :
    k7_pay4 x0 x1 acc (ix2 (0 : Fin 1) q) = acc (ix2 (0 : Fin 1) q) + ∑ p : Fin 10000, k7_pay3 x0 x1 (ix2 p q) := by
  unfold k7_pay4
  simp only [shapeCast_self]
  show acc (ix2 (0 : Fin 1) q) + shapeCast S1x64 (multiReduction .add [0] S64 (k7_pay3 x0 x1) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn7_colsum (k7_pay3 x0 x1) reduces_S10000x64_S64 (.inl rfl) rfl q

/-- The sum-of-squares row's new value at column `q`. -/
theorem bn7_sq_apply (x0 : Vec Ideal S10000x64 .f32) (x1 : Vec Ideal S1x64 .f32) (acc : Vec Ideal S1x64 .f32) (q : Fin 64) :
    k7_pay5 x0 x1 acc (ix2 (0 : Fin 1) q) = acc (ix2 (0 : Fin 1) q) + ∑ p : Fin 10000, k7_pay3 x0 x1 (ix2 p q) * k7_pay3 x0 x1 (ix2 p q) := by
  unfold k7_pay5
  simp only [shapeCast_self]
  show acc (ix2 (0 : Fin 1) q) + shapeCast S1x64 (multiReduction .add [0] S64 (mulf (k7_pay3 x0 x1) (k7_pay3 x0 x1)) 0x00000000#32 reduces_S10000x64_S64 (.inl rfl) rfl) shapeCasts_S64_S1x64 (ix2 (0 : Fin 1) q) = _
  refine congrArg (acc (ix2 (0 : Fin 1) q) + ·) ?_
  refine (shapeCast_a_1a_apply _ shapeCasts_S64_S1x64 (0 : Fin 1) q).trans ?_
  exact bn7_colsum (mulf (k7_pay3 x0 x1) (k7_pay3 x0 x1)) reduces_S10000x64_S64 (.inl rfl) rfl q

/-- The two zero rows the first point stores are zero at every column. -/
theorem bn7_zero3_apply (q : Fin 64) : (k7_pay1 (F := Ideal)) (ix2 (0 : Fin 1) q) = 0 := by
  unfold k7_pay1
  show Ideal.ofBits .f32 0x00000000#32 = 0
  exact Ideal.ofBits_zero_f32
theorem bn7_zero4_apply (q : Fin 64) : (k7_pay2 (F := Ideal)) (ix2 (0 : Fin 1) q) = 0 := by
  unfold k7_pay2
  show Ideal.ofBits .f32 0x00000000#32 = 0
  exact Ideal.ofBits_zero_f32

/-! ## The blocks of the two inputs, by rows of the whole arrays -/

variable (V : (c : Dev nD) → (b : Ref sig .tc) → Buf (Elt Ideal) ((c : Thread nD τ).loc b))

/-- Row `j` of row block `k` is row `j + 10000 k` of the array. -/
def bn7_row (k : Fin 5) (j : Fin 10000) : Fin 50000 := ⟨j.val + 10000 * k.val, by have := k.isLt; have := j.isLt; omega⟩

/-- The two input arrays as the region finds them, as functions of their indices into the extended reals. -/
abbrev bn7_x (c : Dev nD) : S50000x64.Idx → EReal := V c main_v195
abbrev bn7_b (c : Dev nD) : S1x64.Idx → EReal := V c main_v198

/-- The rectified value at row `p`, column `q` of the whole array. -/
def bn7_r (c : Dev nD) (p : Fin 50000) (q : Fin 64) : EReal :=
  max (bn7_x V c (ix2 p q) + bn7_b V c (ix2 (0 : Fin 1) q)) 0

/-- The block index maps over the grid: the row-block windows sit at block row `t`, the three rows at block (0, 0). -/
theorem bn7_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The row-block input's block at point `t` reads rows `10000 t ..` of its array. -/
theorem bn7_blk0 (c : Dev nD) (t : Fin cfg7.N) (k : Fin 5) (hk : k.val = t.val) (j : Fin 10000) (q : Fin 64) :
    iblk7 V c 0 t (ix2 j q) = bn7_x V c (ix2 (bn7_row k j) q) := by
  obtain ⟨e0, e1, -⟩ := bn7_idx t
  unfold iblk7
  rw [View.read_apply]
  show V c main_v195 _ = V c main_v195 _
  refine congrArg (V c main_v195) ?_
  funext a
  apply Fin.ext
  match a with
  | ⟨0, _⟩ => show win7_0.index t (0 : Fin 2) * 10000 + 1 * j.val = j.val + 10000 * k.val; rw [e0, hk]; omega
  | ⟨1, _⟩ => show win7_0.index t (1 : Fin 2) * 64 + 1 * q.val = q.val; rw [e1]; omega

/-- The bias row's block is the row itself at every point. -/
theorem bn7_blk1 (c : Dev nD) (t : Fin cfg7.N) (q : Fin 64) :
    iblk7 V c 1 t (ix2 (0 : Fin 1) q) = bn7_b V c (ix2 (0 : Fin 1) q) := by
  obtain ⟨-, -, e0, e1, -⟩ := bn7_idx t
  unfold iblk7
  rw [View.read_apply]
  show V c main_v198 _ = V c main_v198 _
  refine congrArg (V c main_v198) ?_
  funext a
  apply Fin.ext
  match a with
  | ⟨0, _⟩ => show win7_1.index t (0 : Fin 2) * 1 + 1 * 0 = 0; rw [e0]
  | ⟨1, _⟩ => show win7_1.index t (1 : Fin 2) * 64 + 1 * q.val = q.val; rw [e1]; omega

/-- So the body's rectified block at point `t` is the rectified array on that block's rows. -/
theorem bn7_relu_blk (c : Dev nD) (t : Fin cfg7.N) (k : Fin 5) (hk : k.val = t.val) (j : Fin 10000) (q : Fin 64) :
    k7_pay3 (iblk7 V c 0 t) (iblk7 V c 1 t) (ix2 j q) = bn7_r V c (bn7_row k j) q := by
  refine (bn7_relu_apply (iblk7 V c 0 t) (iblk7 V c 1 t) j q).trans ?_
  rw [bn7_blk0 V c t k hk j q, bn7_blk1 V c t q]
  rfl

/-! ## The accumulators after each point: sums over the row blocks so far -/

/-- Row block `k`'s column sum of the rectified array (zero past the last block), and of its squares. -/
def bn7_g3 (c : Dev nD) (q : Fin 64) (k : ℕ) : EReal :=
  if h : k < 5 then ∑ j : Fin 10000, bn7_r V c (bn7_row ⟨k, h⟩ j) q else 0
def bn7_g4 (c : Dev nD) (q : Fin 64) (k : ℕ) : EReal :=
  if h : k < 5 then ∑ j : Fin 10000, bn7_r V c (bn7_row ⟨k, h⟩ j) q * bn7_r V c (bn7_row ⟨k, h⟩ j) q else 0

theorem bn7_blocksum3 (c : Dev nD) (q : Fin 64) (t : Fin cfg7.N) :
    ∑ j : Fin 10000, k7_pay3 (iblk7 V c 0 t) (iblk7 V c 1 t) (ix2 j q) = bn7_g3 V c q t.val := by
  have ht : t.val < 5 := lt_of_lt_of_eq t.isLt (show cfg7.N = 5 from N_7)
  unfold bn7_g3
  rw [dif_pos ht]
  exact Finset.sum_congr rfl fun j _ => bn7_relu_blk V c t ⟨t.val, ht⟩ rfl j q

theorem bn7_blocksum4 (c : Dev nD) (q : Fin 64) (t : Fin cfg7.N) :
    ∑ j : Fin 10000, k7_pay3 (iblk7 V c 0 t) (iblk7 V c 1 t) (ix2 j q) * k7_pay3 (iblk7 V c 0 t) (iblk7 V c 1 t) (ix2 j q) = bn7_g4 V c q t.val := by
  have ht : t.val < 5 := lt_of_lt_of_eq t.isLt (show cfg7.N = 5 from N_7)
  unfold bn7_g4
  rw [dif_pos ht]
  exact Finset.sum_congr rfl fun j _ => by rw [bn7_relu_blk V c t ⟨t.val, ht⟩ rfl j q]

/-- THE RUNNING SUMS. After point `n` the sum row holds, at column `q`, the column sums of row blocks `0..n`;
    the sum-of-squares row likewise. By induction on the point. -/
theorem bn7_acc (c : Dev nD) (q : Fin 64) : ∀ (n : ℕ) (h : n < cfg7.N),
    (outsAt7 V c n h).1 (ix2 (0 : Fin 1) q) = ∑ k ∈ Finset.range (n + 1), bn7_g3 V c q k
    ∧ (outsAt7 V c n h).2 (ix2 (0 : Fin 1) q) = ∑ k ∈ Finset.range (n + 1), bn7_g4 V c q k
  | 0, h => by
    rw [outsAt7_A V c ⟨0, h⟩ rfl]
    dsimp only
    rw [bn7_out_A_3, bn7_out_A_4, Finset.sum_range_one, Finset.sum_range_one]
    constructor
    · refine (bn7_sum_apply _ _ _ q).trans ?_
      rw [bn7_zero3_apply, zero_add]
      exact bn7_blocksum3 V c q ⟨0, h⟩
    · refine (bn7_sq_apply _ _ _ q).trans ?_
      rw [bn7_zero4_apply, zero_add]
      exact bn7_blocksum4 V c q ⟨0, h⟩
  | n + 1, h => by
    have hN : cfg7.N = 5 := N_7
    have hB : ¬(⟨n + 1, h⟩ : Fin cfg7.N).val % 5 = 0 := by dsimp only; omega
    obtain ⟨ih3, ih4⟩ := bn7_acc c q n (Nat.lt_of_succ_lt h)
    rw [outsAt7_B V c ⟨n + 1, h⟩ hB]
    dsimp only
    rw [bn7_out_B_3, bn7_out_B_4, Finset.sum_range_succ _ (n + 1), Finset.sum_range_succ _ (n + 1)]
    constructor
    · refine (bn7_sum_apply _ _ _ q).trans ?_
      show (outsAt7 V c n _).1 (ix2 (0 : Fin 1) q) + _ = _
      rw [ih3]
      exact congrArg (_ + ·) (bn7_blocksum3 V c q ⟨n + 1, h⟩)
    · refine (bn7_sq_apply _ _ _ q).trans ?_
      show (outsAt7 V c n _).2 (ix2 (0 : Fin 1) q) + _ = _
      rw [ih4]
      exact congrArg (_ + ·) (bn7_blocksum4 V c q ⟨n + 1, h⟩)

/-- The five block sums are the sum over all 50000 rows (extended-real addition is commutative and associative). -/
theorem bn7_regroup (f : Fin 50000 → EReal) :
    (∑ k ∈ Finset.range 5, if h : k < 5 then ∑ j : Fin 10000, f (bn7_row ⟨k, h⟩ j) else 0) = ∑ p : Fin 50000, f p := by
  have e := Equiv.sum_comp (finProdFinEquiv : Fin 5 × Fin 10000 ≃ Fin (5 * 10000)) f
  rw [Fintype.sum_prod_type] at e
  rw [← e, ← Fin.sum_univ_eq_sum_range (fun k => if h : k < 5 then ∑ j : Fin 10000, f (bn7_row ⟨k, h⟩ j) else 0) 5]
  exact Finset.sum_congr rfl fun k _ => (dif_pos k.isLt).trans (Finset.sum_congr rfl fun j _ => rfl)

/-! ## What the three arrays end holding -/

/-- The block output's array, index by index. -/
def bn7_G2 (c : Dev nD) : S50000x64.Idx → EReal := fun i => bn7_r V c ⟨(i 0).val, idx2_lt0 i⟩ ⟨(i 1).val, idx2_lt1 i⟩
/-- The sum row and the sum-of-squares row. -/
def bn7_G3 (c : Dev nD) : S1x64.Idx → EReal := fun y => ∑ p : Fin 50000, bn7_r V c p ⟨(y 1).val, idx2_lt1 y⟩
def bn7_G4 (c : Dev nD) : S1x64.Idx → EReal := fun y => ∑ p : Fin 50000, bn7_r V c p ⟨(y 1).val, idx2_lt1 y⟩ * bn7_r V c p ⟨(y 1).val, idx2_lt1 y⟩

/-- At every point the block output's buffer holds the rectified block, whichever case ran. -/
theorem bn7_reluAt (c : Dev nD) (t : Fin cfg7.N) : reluAt7 V c t = k7_pay3 (iblk7 V c 0 t) (iblk7 V c 1 t) := by
  by_cases h0 : t.val % 5 = 0
  · rw [reluAt7_A V c t h0, bn7_out_A_2]
  · rw [reluAt7_B V c t h0, bn7_out_B_2]

/-- One entry of what point `t` writes back of the block output. -/
theorem bn7_flush2_pt (c : Dev nD) (t : Fin cfg7.N) (y : S10000x64.Idx) :
    k7_pay3 (iblk7 V c 0 t) (iblk7 V c 1 t) y = bn7_G2 V c (((cfg7.win 2).blk t).view.emb y) := by
  have ht : t.val < 5 := lt_of_lt_of_eq t.isLt (show cfg7.N = 5 from N_7)
  obtain ⟨-, -, -, -, e0, e1, -⟩ := bn7_idx t
  obtain ⟨j, q, rfl⟩ : ∃ (j : Fin 10000) (q : Fin 64), y = ix2 j q := ⟨y 0, y 1, eq_ix2 y⟩
  rw [bn7_relu_blk V c t ⟨t.val, ht⟩ rfl j q]
  unfold bn7_G2
  congr 1
  · apply Fin.ext
    show j.val + 10000 * t.val = win7_2.index t (0 : Fin 2) * 10000 + 1 * j.val
    rw [e0]; omega
  · apply Fin.ext
    show q.val = win7_2.index t (1 : Fin 2) * 64 + 1 * q.val
    rw [e1]; omega

theorem bn7_flushed2 (c : Dev nD) (t : Fin cfg7.N) :
    (dat7 V c).flushed 2 t = ((cfg7.win 2).blk t).view.read (Elt Ideal) (bn7_G2 V c) := by
  show (cfg7.win 2).cut (grid7.coords t) ((dat7 V c).after 2 t) = _
  rw [after7_2, bn7_reluAt]
  funext y
  exact bn7_flush2_pt V c t y

/-- An index of the block output's array is in point `t`'s block iff its row is in that block's range. -/
theorem bn7_mem_blk2 (t : Fin cfg7.N) (i : S50000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v199_0).slice (win7_2.rect t)).set ↔ _
  rw [View.set_slice_whole, Rect.mem_set_unit]
  exact Iff.rfl

/-- THE BLOCK OUTPUT after the region: the rectified array. -/
theorem bn7_final2 (c : Dev nD) : (dat7 (F := Ideal) V c).arrAt 2 cfg7.N = bn7_G2 V c :=
  (dat7 V c).arrAt_eq_of_cover 2 (bn7_G2 V c) (fun t _ => bn7_flushed2 V c t) fun i => by
    have hi0 : (i 0).val < 50000 := (i 0).isLt
    have hi1 : (i 1).val < 64 := (i 1).isLt
    have hN : cfg7.N = 5 := N_7
    refine ⟨⟨(i 0).val / 10000, by rw [hN]; omega⟩, flush7_2 _, ?_⟩
    obtain ⟨-, -, -, -, e0, e1, -⟩ := bn7_idx ⟨(i 0).val / 10000, by rw [hN]; omega⟩
    rw [bn7_mem_blk2]
    intro a
    match a with
    | ⟨0, _⟩ => show win7_2.index _ (0 : Fin 2) * 10000 ≤ (i 0).val ∧ (i 0).val < win7_2.index _ (0 : Fin 2) * 10000 + 10000
                rw [e0]; dsimp only; omega
    | ⟨1, _⟩ => show win7_2.index _ (1 : Fin 2) * 64 ≤ (i 1).val ∧ (i 1).val < win7_2.index _ (1 : Fin 2) * 64 + 64
                rw [e1]; omega

/-- One entry of what the last point writes back of each accumulator. -/
theorem bn7_flush3_pt (c : Dev nD) (t : Fin cfg7.N) (h4 : t.val = 4) (y : S1x64.Idx) :
    (outsAt7 V c t.val t.isLt).1 y = bn7_G3 V c (((cfg7.win 3).blk t).view.emb y) := by
  obtain ⟨-, -, -, -, -, -, e0, e1, -⟩ := bn7_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn7_acc V c q t.val t.isLt).1).trans ?_
  rw [h5]
  unfold bn7_G3 bn7_g3
  rw [bn7_regroup (fun p => bn7_r V c p q)]
  refine Finset.sum_congr rfl fun p _ => congrArg (bn7_r V c p) (Fin.ext ?_)
  show q.val = win7_3.index t (1 : Fin 2) * 64 + 1 * q.val
  rw [e1]; omega

theorem bn7_flush4_pt (c : Dev nD) (t : Fin cfg7.N) (h4 : t.val = 4) (y : S1x64.Idx) :
    (outsAt7 V c t.val t.isLt).2 y = bn7_G4 V c (((cfg7.win 4).blk t).view.emb y) := by
  obtain ⟨-, -, -, -, -, -, -, -, e0, e1⟩ := bn7_idx t
  obtain ⟨u, q, rfl⟩ : ∃ (u : Fin 1) (q : Fin 64), y = ix2 u q := ⟨y 0, y 1, eq_ix2 y⟩
  obtain rfl : u = 0 := Subsingleton.elim _ _
  have h5 : t.val + 1 = 5 := by omega
  refine ((bn7_acc V c q t.val t.isLt).2).trans ?_
  rw [h5]
  unfold bn7_G4 bn7_g4
  rw [bn7_regroup (fun p => bn7_r V c p q * bn7_r V c p q)]
  refine Finset.sum_congr rfl fun p _ => ?_
  have eq : q = ⟨(((cfg7.win 4).blk t).view.emb (ix2 (0 : Fin 1) q) 1).val, idx2_lt1 _⟩ := Fin.ext (by
    show q.val = win7_4.index t (1 : Fin 2) * 64 + 1 * q.val
    rw [e1]; omega)
  exact congrArg (fun q' => bn7_r V c p q' * bn7_r V c p q') eq

set_option maxRecDepth 131072 in
theorem bn7_flushed3 (c : Dev nD) (t : Fin cfg7.N) (hf : (cfg7.win 3).flush t = true) :
    (dat7 V c).flushed 3 t = ((cfg7.win 3).blk t).view.read (Elt Ideal) (bn7_G3 V c) := by
  have hN : cfg7.N = 5 := N_7
  have h4 : t.val = 4 := by have := (flush7_3 t).mp hf; have := t.isLt; omega
  show (cfg7.win 3).cut (grid7.coords t) ((dat7 V c).after 3 t) = _
  rw [after7_3]
  funext y
  exact bn7_flush3_pt V c t h4 y

set_option maxRecDepth 131072 in
theorem bn7_flushed4 (c : Dev nD) (t : Fin cfg7.N) (hf : (cfg7.win 4).flush t = true) :
    (dat7 V c).flushed 4 t = ((cfg7.win 4).blk t).view.read (Elt Ideal) (bn7_G4 V c) := by
  have hN : cfg7.N = 5 := N_7
  have h4 : t.val = 4 := by have := (flush7_4 t).mp hf; have := t.isLt; omega
  show (cfg7.win 4).cut (grid7.coords t) ((dat7 V c).after 4 t) = _
  rw [after7_4]
  funext y
  exact bn7_flush4_pt V c t h4 y

/-- THE SUM ROW after the region. The last point's block (0, 0) is the whole [1,64] array. -/
theorem bn7_final3 (c : Dev nD) : (dat7 (F := Ideal) V c).arrAt 3 cfg7.N = bn7_G3 V c :=
  (dat7 V c).arrAt_eq_of_cover 3 (bn7_G3 V c) (bn7_flushed3 V c) fun i =>
    ⟨t7_4, (flush7_3 t7_4).mpr rfl, by
      obtain ⟨-, -, -, -, -, -, e0, e1, -⟩ := bn7_idx t7_4
      show i ∈ ((View.whole main_v199_1).slice (win7_3.rect t7_4)).set
      rw [View.set_slice_whole, Rect.mem_set_unit]
      intro a
      have h0 : (i 0 : Nat) < 1 := (i 0).isLt
      have h1 : (i 1 : Nat) < 64 := (i 1).isLt
      match a with
      | ⟨0, _⟩ => show win7_3.index t7_4 (0 : Fin 2) * 1 ≤ (i 0 : Nat) ∧ (i 0 : Nat) < win7_3.index t7_4 (0 : Fin 2) * 1 + 1
                  rw [e0]; omega
      | ⟨1, _⟩ => show win7_3.index t7_4 (1 : Fin 2) * 64 ≤ (i 1 : Nat) ∧ (i 1 : Nat) < win7_3.index t7_4 (1 : Fin 2) * 64 + 64
                  rw [e1]; omega⟩

/-- THE SUM-OF-SQUARES ROW after the region. -/
theorem bn7_final4 (c : Dev nD) : (dat7 (F := Ideal) V c).arrAt 4 cfg7.N = bn7_G4 V c :=
  (dat7 V c).arrAt_eq_of_cover 4 (bn7_G4 V c) (bn7_flushed4 V c) fun i =>
    ⟨t7_4, (flush7_4 t7_4).mpr rfl, by
      obtain ⟨-, -, -, -, -, -, -, -, e0, e1⟩ := bn7_idx t7_4
      show i ∈ ((View.whole main_v199_2).slice (win7_4.rect t7_4)).set
      rw [View.set_slice_whole, Rect.mem_set_unit]
      intro a
      have h0 : (i 0 : Nat) < 1 := (i 0).isLt
      have h1 : (i 1 : Nat) < 64 := (i 1).isLt
      match a with
      | ⟨0, _⟩ => show win7_4.index t7_4 (0 : Fin 2) * 1 ≤ (i 0 : Nat) ∧ (i 0 : Nat) < win7_4.index t7_4 (0 : Fin 2) * 1 + 1
                  rw [e0]; omega
      | ⟨1, _⟩ => show win7_4.index t7_4 (1 : Fin 2) * 64 ≤ (i 1 : Nat) ∧ (i 1 : Nat) < win7_4.index t7_4 (1 : Fin 2) * 64 + 64
                  rw [e1]; omega⟩

/-! ## The three arrays, entry by entry -/

theorem final7_2 (c : Dev nD) (p : Fin 50000) (q : Fin 64) :
    (Cert.KernelIdeal.Reg.dat7 (F := Ideal) V c).arrAt 2 cfg7.N (ix2 p q) = bn7_r V c p q :=
  (congrFun (bn7_final2 V c) (ix2 p q)).trans rfl

theorem final7_3 (c : Dev nD) (q : Fin 64) :
    (Cert.KernelIdeal.Reg.dat7 (F := Ideal) V c).arrAt 3 cfg7.N (ix2 (0 : Fin 1) q) = ∑ p : Fin 50000, bn7_r V c p q :=
  (congrFun (bn7_final3 V c) (ix2 (0 : Fin 1) q)).trans rfl

theorem final7_4 (c : Dev nD) (q : Fin 64) :
    (Cert.KernelIdeal.Reg.dat7 (F := Ideal) V c).arrAt 4 cfg7.N (ix2 (0 : Fin 1) q) = ∑ p : Fin 50000, bn7_r V c p q * bn7_r V c p q :=
  (congrFun (bn7_final4 V c) (ix2 (0 : Fin 1) q)).trans rfl

end Cert.KernelIdeal.RegValue

end
-- ==== Proof.Ideal.Affine5Value.lean ====
/- Region 5 (a row-block affine map): the value half, at the exact values. The array the region leaves in its
   output window is, entry by entry, the data array times the scale row plus the shift row: entry (p, q) is
   data (p, q) * scale (0, q) + shift (0, q). -/
import proofs.«132734_j72301479461275_2_alg».proof.Proof.Ideal.Affine5
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off5 : (![0, 0] : Fin 2 → Nat) = fun _ => 0 := funext fun a => by fin_cases a <;> rfl

/-- A [1,64] row broadcast down the 10000 rows reads, at (p, q), the row's entry (0, q). -/
theorem row_bcast5 (r : S1x64.Idx → EReal) (p : Fin 10000) (q : Fin 64) :
    broadcastTo S10000x64 r broadcasts_S1x64_S10000x64 (ix2 p q) = r (ix2 0 q) :=
  broadcastTo_apply r broadcasts_S1x64_S10000x64 (ix2 p q) (ix2 0 q) (fun a => by
    match a with
    | ⟨0, _⟩ => rfl
    | ⟨1, _⟩ => rfl)

/-- The stored value at local entry (p, q): the loaded block's (p, q) times the scale row's (0, q) plus the shift
    row's (0, q). -/
theorem pay5_apply (x0 : Vec Ideal S10000x64 .f32) (x1 : Vec Ideal S1x64 .f32) (x2 : Vec Ideal S1x64 .f32) (p : Fin 10000) (q : Fin 64) :
    k5_pay1 x0 x1 x2 (ix2 p q) = x0 (ix2 p q) * x1 (ix2 0 q) + x2 (ix2 0 q) := by
  unfold k5_pay1
  rw [addf_apply, mulf_apply]
  simp only [shapeCast_self]
  rw [row_bcast5, row_bcast5]

/-! ## The affine map of the whole arrays -/

/-- Data times scale row plus shift row, index by index. -/
def affine5 (a : S50000x64.Idx → EReal) (s : S1x64.Idx → EReal) (b : S1x64.Idx → EReal) : S50000x64.Idx → EReal :=
  fun i => affineAt a s b (⟨(i 0).val, (i 0).isLt⟩ : Fin 50000) (⟨(i 1).val, (i 1).isLt⟩ : Fin 64)

/-- The stored value of a row block, at a local index `j`, is the affine map at the array index `i` that `j` sits at,
    when the loaded block reads `a` at such indices and the loaded rows are `s` and `b`. -/
theorem pay5_at (x0 : Vec Ideal S10000x64 .f32) (x1 : Vec Ideal S1x64 .f32) (x2 : Vec Ideal S1x64 .f32)
    (a : S50000x64.Idx → EReal) (s : S1x64.Idx → EReal) (b : S1x64.Idx → EReal)
    (j : S10000x64.Idx) (i : S50000x64.Idx)
    (hi1 : (i 1).val = (j 1).val)
    (h0 : ∀ z : S50000x64.Idx, (z 0).val = (i 0).val → (z 1).val = (i 1).val → x0 j = a z) (h1 : ∀ y : S1x64.Idx, x1 y = s y) (h2 : ∀ y : S1x64.Idx, x2 y = b y) :
    k5_pay1 x0 x1 x2 j = affine5 a s b i := by
  obtain ⟨p, q, rfl⟩ : ∃ (p : Fin 10000) (q : Fin 64), j = ix2 p q := ⟨j 0, j 1, eq_ix2 j⟩
  rw [pay5_apply, h0 (ix2 (⟨(i 0).val, (i 0).isLt⟩ : Fin 50000) (⟨(i 1).val, (i 1).isLt⟩ : Fin 64)) rfl rfl, h1, h2]
  unfold affine5 affineAt
  have e : (⟨(i 1).val, (i 1).isLt⟩ : Fin 64) = q := Fin.ext hi1
  rw [e]

/-! ## From the blocks to the array -/

/-- The printed index maps over the grid: the data block and the output block move together down the rows, one
    block per point; the two rows stay at block (0, 0). -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) ≤ 4
    ∧ win5_3.index t (1 : Fin 2) = 0 :=
  (by decide +kernel : ∀ t : Fin grid5.N, _)

/-- Every row block is some point's. -/
theorem idx_onto5 : ∀ (q0 : Fin 5), ∃ t : Fin cfg5.N, win5_3.index t = ![q0.val, 0] :=
  (by decide +kernel : ∀ (q0 : Fin 5), ∃ t : Fin grid5.N, win5_3.index t = ![q0.val, 0])

/-- What point `t` writes back is block `t` of the affine map of the three arrays found on entry. -/
theorem flushed5_eq (c : Dev nD) (t : Fin cfg5.N) :
    (dat5 V c).flushed 3 t = ((cfg5.win 3).blk t).view.read (Elt Ideal) (affine5 (V c main_v125_0) (V c main_v142) (V c main_v150)) := by
  show (cfg5.win 3).cut (grid5.coords t) ((dat5 V c).after 3 t) = _
  rw [after5_3]
  unfold out5_3
  rw [View.canon_unit_zero zero_off5]
  simp only [View.ld_unit_zero (S := S10000x64) zero_off5, View.ld_unit_zero (S := S1x64) zero_off5]
  obtain ⟨e0, e1, e2, e3, e4, e5, e6, e7⟩ := idx_facts5 t
  funext j
  show k5_pay1 (iblk5 V c 0 t) (iblk5 V c 1 t) (iblk5 V c 2 t) j
    = affine5 (V c main_v125_0) (V c main_v142) (V c main_v150) (((cfg5.win 3).blk t).view.emb j)
  refine pay5_at _ _ _ _ _ _ j _ ?_ ?_ ?_ ?_
  · show win5_3.index t (1 : Fin 2) * 64 + 1 * (j 1).val = _
    omega
  · intro z hz0 hz1
    show V c main_v125_0 (((cfg5.win 0).blk t).view.emb j) = V c main_v125_0 z
    refine congrArg _ (funext fun a => Fin.ext ?_)
    match a with
    | ⟨0, _⟩ => exact (show win5_0.index t (0 : Fin 2) * 10000 + 1 * (j 0).val = win5_3.index t (0 : Fin 2) * 10000 + 1 * (j 0).val by omega).trans hz0.symm
    | ⟨1, _⟩ => exact (show win5_0.index t (1 : Fin 2) * 64 + 1 * (j 1).val = win5_3.index t (1 : Fin 2) * 64 + 1 * (j 1).val by omega).trans hz1.symm
  · intro y
    show V c main_v142 (((cfg5.win 1).blk t).view.emb y) = V c main_v142 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 64 + 1 * (y 1).val = (y 1).val; omega
  · intro y
    show V c main_v150 (((cfg5.win 2).blk t).view.emb y) = V c main_v150 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 64 + 1 * (y 1).val = (y 1).val; omega

/-- An index of the array is in the block of point `t` iff each coordinate is in the block's range on its axis. -/
theorem mem_blk5 (t : Fin cfg5.N) (i : S50000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v151).slice (win5_3.rect t)).set ↔ _
  rw [View.set_slice_whole, Rect.mem_set_unit]
  exact Iff.rfl

/-- The five row blocks cover the array: row `r` is in block `r / 10000`. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto5 ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- The output array after the region is the affine map of the three input arrays as found on entry. -/
theorem arr5_3 (c : Dev nD) : (dat5 (F := Ideal) V c).arrAt 3 cfg5.N = affine5 (V c main_v125_0) (V c main_v142) (V c main_v150) :=
  (dat5 V c).arrAt_eq_of_cover 3 (affine5 (V c main_v125_0) (V c main_v142) (V c main_v150)) (fun t _ => flushed5_eq V c t) cover5

/-- Entry (p, q) of the output array after the region. -/
theorem final5_3 (c : Dev nD) (p : Fin 50000) (q : Fin 64) :
    (Cert.KernelIdeal.Reg.dat5 (F := Ideal) V c).arrAt 3 cfg5.N (ix2 p q)
      = affineAt (V c main_v125_0) (V c main_v142) (V c main_v150) p q := by
  rw [arr5_3]
  rfl

end Cert.KernelIdeal.RegValue

end
-- ==== Proof.Ideal.Affine8Value.lean ====
/- Region 8 (a row-block affine map): the value half, at the exact values. The array the region leaves in its
   output window is, entry by entry, the data array times the scale row plus the shift row: entry (p, q) is
   data (p, q) * scale (0, q) + shift (0, q). -/
import proofs.«132734_j72301479461275_2_alg».proof.Proof.Ideal.Affine8
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off8 : (![0, 0] : Fin 2 → Nat) = fun _ => 0 := funext fun a => by fin_cases a <;> rfl

/-- A [1,64] row broadcast down the 10000 rows reads, at (p, q), the row's entry (0, q). -/
theorem row_bcast8 (r : S1x64.Idx → EReal) (p : Fin 10000) (q : Fin 64) :
    broadcastTo S10000x64 r broadcasts_S1x64_S10000x64 (ix2 p q) = r (ix2 0 q) :=
  broadcastTo_apply r broadcasts_S1x64_S10000x64 (ix2 p q) (ix2 0 q) (fun a => by
    match a with
    | ⟨0, _⟩ => rfl
    | ⟨1, _⟩ => rfl)

/-- The stored value at local entry (p, q): the loaded block's (p, q) times the scale row's (0, q) plus the shift
    row's (0, q). -/
theorem pay8_apply (x0 : Vec Ideal S10000x64 .f32) (x1 : Vec Ideal S1x64 .f32) (x2 : Vec Ideal S1x64 .f32) (p : Fin 10000) (q : Fin 64) :
    k8_pay1 x0 x1 x2 (ix2 p q) = x0 (ix2 p q) * x1 (ix2 0 q) + x2 (ix2 0 q) := by
  unfold k8_pay1
  rw [addf_apply, mulf_apply]
  simp only [shapeCast_self]
  rw [row_bcast8, row_bcast8]

/-! ## The affine map of the whole arrays -/

/-- Data times scale row plus shift row, index by index. -/
def affine8 (a : S50000x64.Idx → EReal) (s : S1x64.Idx → EReal) (b : S1x64.Idx → EReal) : S50000x64.Idx → EReal :=
  fun i => affineAt a s b (⟨(i 0).val, (i 0).isLt⟩ : Fin 50000) (⟨(i 1).val, (i 1).isLt⟩ : Fin 64)

/-- The stored value of a row block, at a local index `j`, is the affine map at the array index `i` that `j` sits at,
    when the loaded block reads `a` at such indices and the loaded rows are `s` and `b`. -/
theorem pay8_at (x0 : Vec Ideal S10000x64 .f32) (x1 : Vec Ideal S1x64 .f32) (x2 : Vec Ideal S1x64 .f32)
    (a : S50000x64.Idx → EReal) (s : S1x64.Idx → EReal) (b : S1x64.Idx → EReal)
    (j : S10000x64.Idx) (i : S50000x64.Idx)
    (hi1 : (i 1).val = (j 1).val)
    (h0 : ∀ z : S50000x64.Idx, (z 0).val = (i 0).val → (z 1).val = (i 1).val → x0 j = a z) (h1 : ∀ y : S1x64.Idx, x1 y = s y) (h2 : ∀ y : S1x64.Idx, x2 y = b y) :
    k8_pay1 x0 x1 x2 j = affine8 a s b i := by
  obtain ⟨p, q, rfl⟩ : ∃ (p : Fin 10000) (q : Fin 64), j = ix2 p q := ⟨j 0, j 1, eq_ix2 j⟩
  rw [pay8_apply, h0 (ix2 (⟨(i 0).val, (i 0).isLt⟩ : Fin 50000) (⟨(i 1).val, (i 1).isLt⟩ : Fin 64)) rfl rfl, h1, h2]
  unfold affine8 affineAt
  have e : (⟨(i 1).val, (i 1).isLt⟩ : Fin 64) = q := Fin.ext hi1
  rw [e]

/-! ## From the blocks to the array -/

/-- The printed index maps over the grid: the data block and the output block move together down the rows, one
    block per point; the two rows stay at block (0, 0). -/
theorem idx_facts8 : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) ≤ 4
    ∧ win8_3.index t (1 : Fin 2) = 0 :=
  (by decide +kernel : ∀ t : Fin grid8.N, _)

/-- Every row block is some point's. -/
theorem idx_onto8 : ∀ (q0 : Fin 5), ∃ t : Fin cfg8.N, win8_3.index t = ![q0.val, 0] :=
  (by decide +kernel : ∀ (q0 : Fin 5), ∃ t : Fin grid8.N, win8_3.index t = ![q0.val, 0])

/-- What point `t` writes back is block `t` of the affine map of the three arrays found on entry. -/
theorem flushed8_eq (c : Dev nD) (t : Fin cfg8.N) :
    (dat8 V c).flushed 3 t = ((cfg8.win 3).blk t).view.read (Elt Ideal) (affine8 (V c main_v199_0) (V c main_v216) (V c main_v224)) := by
  show (cfg8.win 3).cut (grid8.coords t) ((dat8 V c).after 3 t) = _
  rw [after8_3]
  unfold out8_3
  rw [View.canon_unit_zero zero_off8]
  simp only [View.ld_unit_zero (S := S10000x64) zero_off8, View.ld_unit_zero (S := S1x64) zero_off8]
  obtain ⟨e0, e1, e2, e3, e4, e5, e6, e7⟩ := idx_facts8 t
  funext j
  show k8_pay1 (iblk8 V c 0 t) (iblk8 V c 1 t) (iblk8 V c 2 t) j
    = affine8 (V c main_v199_0) (V c main_v216) (V c main_v224) (((cfg8.win 3).blk t).view.emb j)
  refine pay8_at _ _ _ _ _ _ j _ ?_ ?_ ?_ ?_
  · show win8_3.index t (1 : Fin 2) * 64 + 1 * (j 1).val = _
    omega
  · intro z hz0 hz1
    show V c main_v199_0 (((cfg8.win 0).blk t).view.emb j) = V c main_v199_0 z
    refine congrArg _ (funext fun a => Fin.ext ?_)
    match a with
    | ⟨0, _⟩ => exact (show win8_0.index t (0 : Fin 2) * 10000 + 1 * (j 0).val = win8_3.index t (0 : Fin 2) * 10000 + 1 * (j 0).val by omega).trans hz0.symm
    | ⟨1, _⟩ => exact (show win8_0.index t (1 : Fin 2) * 64 + 1 * (j 1).val = win8_3.index t (1 : Fin 2) * 64 + 1 * (j 1).val by omega).trans hz1.symm
  · intro y
    show V c main_v216 (((cfg8.win 1).blk t).view.emb y) = V c main_v216 y
    refine congrArg _ (funext fun a => Fin.ext ?_)
    match a with
    | ⟨0, _⟩ => show win8_1.index t (0 : Fin 2) * 1 + 1 * (y 0).val = (y 0).val; omega
    | ⟨1, _⟩ => show win8_1.index t (1 : Fin 2) * 64 + 1 * (y 1).val = (y 1).val; omega
  · intro y
    show V c main_v224 (((cfg8.win 2).blk t).view.emb y) = V c main_v224 y
    refine congrArg _ (funext fun a => Fin.ext ?_)
    match a with
    | ⟨0, _⟩ => show win8_2.index t (0 : Fin 2) * 1 + 1 * (y 0).val = (y 0).val; omega
    | ⟨1, _⟩ => show win8_2.index t (1 : Fin 2) * 64 + 1 * (y 1).val = (y 1).val; omega

/-- An index of the array is in the block of point `t` iff each coordinate is in the block's range on its axis. -/
theorem mem_blk8 (t : Fin cfg8.N) (i : S50000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v225).slice (win8_3.rect t)).set ↔ _
  rw [View.set_slice_whole, Rect.mem_set_unit]
  exact Iff.rfl

/-- The five row blocks cover the array: row `r` is in block `r / 10000`. -/
theorem cover8 (i : S50000x64.Idx) : ∃ t : Fin cfg8.N, (cfg8.win 3).flush t = true ∧ i ∈ ((cfg8.win 3).blk t).view.set := by
  have hi0 : (i 0).val < 50000 := (i 0).isLt
  have hi1 : (i 1).val < 64 := (i 1).isLt
  obtain ⟨t, ht⟩ := idx_onto8 ⟨(i 0).val / 10000, by omega⟩
  have q0 : win8_3.index t (0 : Fin 2) = (i 0).val / 10000 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 64 ≤ (i 1).val ∧ (i 1).val < win8_3.index t (1 : Fin 2) * 64 + 64; omega

/-- The output array after the region is the affine map of the three input arrays as found on entry. -/
theorem arr8_3 (c : Dev nD) : (dat8 (F := Ideal) V c).arrAt 3 cfg8.N = affine8 (V c main_v199_0) (V c main_v216) (V c main_v224) :=
  (dat8 V c).arrAt_eq_of_cover 3 (affine8 (V c main_v199_0) (V c main_v216) (V c main_v224)) (fun t _ => flushed8_eq V c t) cover8

/-- Entry (p, q) of the output array after the region. -/
theorem final8_3 (c : Dev nD) (p : Fin 50000) (q : Fin 64) :
    (Cert.KernelIdeal.Reg.dat8 (F := Ideal) V c).arrAt 3 cfg8.N (ix2 p q)
      = affineAt (V c main_v199_0) (V c main_v216) (V c main_v224) p q := by
  rw [arr8_3]
  rfl

end Cert.KernelIdeal.RegValue

end
-- ==== Proof.Ideal.BnKernel.lean ====
import proofs.«132734_j72301479461275_2_alg».proof.Proof.Gen.KernelIdeal.Launch
import proofs.«132734_j72301479461275_2_alg».proof.Proof.Ideal.BnAlgebra
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.RegValue

open Cert.KernelIdeal Cert.KernelIdeal.Gen
open Idealize.ShloMosaic Idealize.ShloMosaic.TcCoe Idealize.SL.Sem Idealize.ShloMosaic.StableHlo
open Idealize.ShloMosaic.ValueIdx
open Cert.BnAlgebra
open scoped BigOperators

/-! # The scale and shift rows between a statistics region and its affine region

From the column sums `a1` and the column sums of squares `a2` (two [1,64] rows) and row `k` of the [3,64] tables of
scales `G` and shifts `B`, the host stretch forms, column by column: the mean `a1/n`, the clamped variance
`max (a2/n − mean²) 0`, its stabilized reciprocal root, the scale `G k · root` and the shift `B k − (mean · G k) · root`. -/

/-! ## Rows, vectors and a table's row, read at a column -/

theorem bnk_row_of_vec (T : S64.Idx → EReal) (q : Fin 64) :
    shapeCast S1x64 T shapeCasts_S64_S1x64 (ix2 (0 : Fin 1) q) = T (ix1 q) :=
  shapeCast_a_1a_apply T shapeCasts_S64_S1x64 (0 : Fin 1) q

theorem bnk_vec_of_row (R : S1x64.Idx → EReal) (q : Fin 64) :
    shapeCast S64 R shapeCasts_S1x64_S64 (ix1 q) = R (ix2 (0 : Fin 1) q) :=
  shapeCast_1a_a_apply R shapeCasts_S1x64_S64 q

theorem bnk_slice_row (G : S3x64.Idx → EReal) (off : Fin 2 → ℕ) (k : Fin 3) (hoff : off = ![k.val, 0])
    (hsl : S3x64.Slices off S1x64) (q : Fin 64) :
    extractStridedSlice S1x64 off G hsl (ix2 (0 : Fin 1) q) = G (ix2 k q) := by
  subst hoff
  refine extractStridedSlice_apply _ G hsl (ix2 (0 : Fin 1) q) (ix2 k q) fun a => ?_
  match a with
  | ⟨0, _⟩ => show k.val = k.val + 0; omega
  | ⟨1, _⟩ => show q.val = 0 + q.val; omega

/-! ## The two rows at a column -/

theorem bnk_scale_apply (a1 a2 : S1x64.Idx → EReal) (G : S3x64.Idx → EReal) (off : Fin 2 → ℕ) (k : Fin 3)
    (hoff : off = ![k.val, 0]) (hsl : S3x64.Slices off S1x64) (q : Fin 64) :
    shapeCast S1x64 (mulf (fun i => shapeCast S64 (extractStridedSlice S1x64 off G hsl) shapeCasts_S1x64_S64 i) (Host.rsqrt (addf (maximumf (subf (Host.divf (fun i => shapeCast S64 a2 shapeCasts_S1x64_S64 i) (broadcastInDim S64 ![] bcast_S_S64 (constant (F := Ideal) S_ .f32 0x47435000#32))) (mulf (Host.divf (fun i => shapeCast S64 a1 shapeCasts_S1x64_S64 i) (broadcastInDim S64 ![] bcast_S_S64 (constant (F := Ideal) S_ .f32 0x47435000#32))) (Host.divf (fun i => shapeCast S64 a1 shapeCasts_S1x64_S64 i) (broadcastInDim S64 ![] bcast_S_S64 (constant (F := Ideal) S_ .f32 0x47435000#32))))) (broadcastInDim S64 ![] bcast_S_S64 (constant (F := Ideal) S_ .f32 0x00000000#32))) (broadcastInDim S64 ![] bcast_S_S64 (constant (F := Ideal) S_ .f32 0x3727C5AC#32))))) shapeCasts_S64_S1x64 (ix2 (0 : Fin 1) q)
      = G (ix2 k q) * Ideal.rsqrt (max (Ideal.div (a2 (ix2 (0 : Fin 1) q)) nLit - Ideal.div (a1 (ix2 (0 : Fin 1) q)) nLit * Ideal.div (a1 (ix2 (0 : Fin 1) q)) nLit) 0 + epsLit) := by
  refine (bnk_row_of_vec _ q).trans ?_
  show shapeCast S64 (extractStridedSlice S1x64 off G hsl) shapeCasts_S1x64_S64 (ix1 q)
      * Ideal.rsqrt (max (Ideal.div (shapeCast S64 a2 shapeCasts_S1x64_S64 (ix1 q)) (Ideal.ofBits .f32 0x47435000#32)
          - Ideal.div (shapeCast S64 a1 shapeCasts_S1x64_S64 (ix1 q)) (Ideal.ofBits .f32 0x47435000#32)
            * Ideal.div (shapeCast S64 a1 shapeCasts_S1x64_S64 (ix1 q)) (Ideal.ofBits .f32 0x47435000#32))
          (Ideal.ofBits .f32 0x00000000#32) + Ideal.ofBits .f32 0x3727C5AC#32) = _
  rw [bnk_vec_of_row, bnk_vec_of_row, bnk_vec_of_row, bnk_slice_row G off k hoff hsl q, Ideal.ofBits_zero_f32]

theorem bnk_shift_apply (a1 a2 : S1x64.Idx → EReal) (G B : S3x64.Idx → EReal) (off : Fin 2 → ℕ) (k : Fin 3)
    (hoff : off = ![k.val, 0]) (hsl : S3x64.Slices off S1x64) (q : Fin 64) :
    shapeCast S1x64 (subf (fun i => shapeCast S64 (extractStridedSlice S1x64 off B hsl) shapeCasts_S1x64_S64 i) (mulf (mulf (Host.divf (fun i => shapeCast S64 a1 shapeCasts_S1x64_S64 i) (broadcastInDim S64 ![] bcast_S_S64 (constant (F := Ideal) S_ .f32 0x47435000#32))) (fun i => shapeCast S64 (extractStridedSlice S1x64 off G hsl) shapeCasts_S1x64_S64 i)) (Host.rsqrt (addf (maximumf (subf (Host.divf (fun i => shapeCast S64 a2 shapeCasts_S1x64_S64 i) (broadcastInDim S64 ![] bcast_S_S64 (constant (F := Ideal) S_ .f32 0x47435000#32))) (mulf (Host.divf (fun i => shapeCast S64 a1 shapeCasts_S1x64_S64 i) (broadcastInDim S64 ![] bcast_S_S64 (constant (F := Ideal) S_ .f32 0x47435000#32))) (Host.divf (fun i => shapeCast S64 a1 shapeCasts_S1x64_S64 i) (broadcastInDim S64 ![] bcast_S_S64 (constant (F := Ideal) S_ .f32 0x47435000#32))))) (broadcastInDim S64 ![] bcast_S_S64 (constant (F := Ideal) S_ .f32 0x00000000#32))) (broadcastInDim S64 ![] bcast_S_S64 (constant (F := Ideal) S_ .f32 0x3727C5AC#32)))))) shapeCasts_S64_S1x64 (ix2 (0 : Fin 1) q)
      = B (ix2 k q) - Ideal.div (a1 (ix2 (0 : Fin 1) q)) nLit * G (ix2 k q) * Ideal.rsqrt (max (Ideal.div (a2 (ix2 (0 : Fin 1) q)) nLit - Ideal.div (a1 (ix2 (0 : Fin 1) q)) nLit * Ideal.div (a1 (ix2 (0 : Fin 1) q)) nLit) 0 + epsLit) := by
  refine (bnk_row_of_vec _ q).trans ?_
  show shapeCast S64 (extractStridedSlice S1x64 off B hsl) shapeCasts_S1x64_S64 (ix1 q)
      - Ideal.div (shapeCast S64 a1 shapeCasts_S1x64_S64 (ix1 q)) (Ideal.ofBits .f32 0x47435000#32)
        * shapeCast S64 (extractStridedSlice S1x64 off G hsl) shapeCasts_S1x64_S64 (ix1 q)
        * Ideal.rsqrt (max (Ideal.div (shapeCast S64 a2 shapeCasts_S1x64_S64 (ix1 q)) (Ideal.ofBits .f32 0x47435000#32)
          - Ideal.div (shapeCast S64 a1 shapeCasts_S1x64_S64 (ix1 q)) (Ideal.ofBits .f32 0x47435000#32)
            * Ideal.div (shapeCast S64 a1 shapeCasts_S1x64_S64 (ix1 q)) (Ideal.ofBits .f32 0x47435000#32))
          (Ideal.ofBits .f32 0x00000000#32) + Ideal.ofBits .f32 0x3727C5AC#32) = _
  rw [bnk_vec_of_row, bnk_vec_of_row, bnk_vec_of_row, bnk_vec_of_row, bnk_slice_row G off k hoff hsl q, bnk_slice_row B off k hoff hsl q,
    Ideal.ofBits_zero_f32]

/-! ## The three stretches of the program -/

/-- The tables of scales and shifts, typed. -/
abbrev bnk_gam (W : Valuation τ sig (Elt Ideal)) : S3x64.Idx → EReal := W (Proc.devRef .tc main_arg5)
abbrev bnk_bet (W : Valuation τ sig (Elt Ideal)) : S3x64.Idx → EReal := W (Proc.devRef .tc main_arg6)

/-- Region 1's two accumulator rows as the stretch finds them. -/
abbrev bnk_s1_1 (W : Valuation τ sig (Elt Ideal)) : S1x64.Idx → EReal := W (Proc.devRef .tc main_v51_1)
abbrev bnk_s2_1 (W : Valuation τ sig (Elt Ideal)) : S1x64.Idx → EReal := W (Proc.devRef .tc main_v51_2)

/-- Layer of region 1: the scale row the host stretch leaves, at column `q`. -/
theorem scale1 (W : Valuation τ sig (Elt Ideal)) (q : Fin 64) :
    (StableHlo.after (hostOps2 (F := Ideal)) W (Proc.devRef .tc main_v68)) (ix2 (0 : Fin 1) q)
      = bnk_gam W (ix2 (0 : Fin 3) q) * Ideal.rsqrt (max (Ideal.div (bnk_s2_1 W (ix2 (0 : Fin 1) q)) nLit - Ideal.div (bnk_s1_1 W (ix2 (0 : Fin 1) q)) nLit * Ideal.div (bnk_s1_1 W (ix2 (0 : Fin 1) q)) nLit) 0 + epsLit) := by
  simp only [hostOps2]
  after_results_simp
  exact bnk_scale_apply _ _ _ _ (0 : Fin 3) rfl slices_S3x64_S1x64_0_0 q

/-- Layer of region 1: the shift row, at column `q`. -/
theorem shift1 (W : Valuation τ sig (Elt Ideal)) (q : Fin 64) :
    (StableHlo.after (hostOps2 (F := Ideal)) W (Proc.devRef .tc main_v76)) (ix2 (0 : Fin 1) q)
      = bnk_bet W (ix2 (0 : Fin 3) q)
        - Ideal.div (bnk_s1_1 W (ix2 (0 : Fin 1) q)) nLit * bnk_gam W (ix2 (0 : Fin 3) q)
          * Ideal.rsqrt (max (Ideal.div (bnk_s2_1 W (ix2 (0 : Fin 1) q)) nLit - Ideal.div (bnk_s1_1 W (ix2 (0 : Fin 1) q)) nLit * Ideal.div (bnk_s1_1 W (ix2 (0 : Fin 1) q)) nLit) 0 + epsLit) := by
  simp only [hostOps2]
  after_results_simp
  exact bnk_shift_apply _ _ _ _ _ (0 : Fin 3) rfl slices_S3x64_S1x64_0_0 q

/-- Region 4's two accumulator rows as the stretch finds them. -/
abbrev bnk_s1_4 (W : Valuation τ sig (Elt Ideal)) : S1x64.Idx → EReal := W (Proc.devRef .tc main_v125_1)
abbrev bnk_s2_4 (W : Valuation τ sig (Elt Ideal)) : S1x64.Idx → EReal := W (Proc.devRef .tc main_v125_2)

/-- Layer of region 4: the scale row the host stretch leaves, at column `q`. -/
theorem scale4 (W : Valuation τ sig (Elt Ideal)) (q : Fin 64) :
    (StableHlo.after (hostOps5 (F := Ideal)) W (Proc.devRef .tc main_v142)) (ix2 (0 : Fin 1) q)
      = bnk_gam W (ix2 (1 : Fin 3) q) * Ideal.rsqrt (max (Ideal.div (bnk_s2_4 W (ix2 (0 : Fin 1) q)) nLit - Ideal.div (bnk_s1_4 W (ix2 (0 : Fin 1) q)) nLit * Ideal.div (bnk_s1_4 W (ix2 (0 : Fin 1) q)) nLit) 0 + epsLit) := by
  simp only [hostOps5]
  after_results_simp
  exact bnk_scale_apply _ _ _ _ (1 : Fin 3) rfl slices_S3x64_S1x64_1_0 q

/-- Layer of region 4: the shift row, at column `q`. -/
theorem shift4 (W : Valuation τ sig (Elt Ideal)) (q : Fin 64) :
    (StableHlo.after (hostOps5 (F := Ideal)) W (Proc.devRef .tc main_v150)) (ix2 (0 : Fin 1) q)
      = bnk_bet W (ix2 (1 : Fin 3) q)
        - Ideal.div (bnk_s1_4 W (ix2 (0 : Fin 1) q)) nLit * bnk_gam W (ix2 (1 : Fin 3) q)
          * Ideal.rsqrt (max (Ideal.div (bnk_s2_4 W (ix2 (0 : Fin 1) q)) nLit - Ideal.div (bnk_s1_4 W (ix2 (0 : Fin 1) q)) nLit * Ideal.div (bnk_s1_4 W (ix2 (0 : Fin 1) q)) nLit) 0 + epsLit) := by
  simp only [hostOps5]
  after_results_simp
  exact bnk_shift_apply _ _ _ _ _ (1 : Fin 3) rfl slices_S3x64_S1x64_1_0 q

/-- Region 7's two accumulator rows as the stretch finds them. -/
abbrev bnk_s1_7 (W : Valuation τ sig (Elt Ideal)) : S1x64.Idx → EReal := W (Proc.devRef .tc main_v199_1)
abbrev bnk_s2_7 (W : Valuation τ sig (Elt Ideal)) : S1x64.Idx → EReal := W (Proc.devRef .tc main_v199_2)

/-- Layer of region 7: the scale row the host stretch leaves, at column `q`. -/
theorem scale7 (W : Valuation τ sig (Elt Ideal)) (q : Fin 64) :
    (StableHlo.after (hostOps8 (F := Ideal)) W (Proc.devRef .tc main_v216)) (ix2 (0 : Fin 1) q)
      = bnk_gam W (ix2 (2 : Fin 3) q) * Ideal.rsqrt (max (Ideal.div (bnk_s2_7 W (ix2 (0 : Fin 1) q)) nLit - Ideal.div (bnk_s1_7 W (ix2 (0 : Fin 1) q)) nLit * Ideal.div (bnk_s1_7 W (ix2 (0 : Fin 1) q)) nLit) 0 + epsLit) := by
  simp only [hostOps8]
  after_results_simp
  exact bnk_scale_apply _ _ _ _ (2 : Fin 3) rfl slices_S3x64_S1x64_2_0 q

/-- Layer of region 7: the shift row, at column `q`. -/
theorem shift7 (W : Valuation τ sig (Elt Ideal)) (q : Fin 64) :
    (StableHlo.after (hostOps8 (F := Ideal)) W (Proc.devRef .tc main_v224)) (ix2 (0 : Fin 1) q)
      = bnk_bet W (ix2 (2 : Fin 3) q)
        - Ideal.div (bnk_s1_7 W (ix2 (0 : Fin 1) q)) nLit * bnk_gam W (ix2 (2 : Fin 3) q)
          * Ideal.rsqrt (max (Ideal.div (bnk_s2_7 W (ix2 (0 : Fin 1) q)) nLit - Ideal.div (bnk_s1_7 W (ix2 (0 : Fin 1) q)) nLit * Ideal.div (bnk_s1_7 W (ix2 (0 : Fin 1) q)) nLit) 0 + epsLit) := by
  simp only [hostOps8]
  after_results_simp
  exact bnk_shift_apply _ _ _ _ _ (2 : Fin 3) rfl slices_S3x64_S1x64_2_0 q

/-! ## The affine region's output is the first grouping's output -/

theorem affine_is_kernelOut (h : Fin 50000 → EReal) (γ β : EReal) (p : Fin 50000) :
    h p * (γ * Ideal.rsqrt (max (Ideal.div (∑ p, h p * h p) nLit - Ideal.div (∑ p, h p) nLit * Ideal.div (∑ p, h p) nLit) 0 + epsLit))
      + (β - Ideal.div (∑ p, h p) nLit * γ
          * Ideal.rsqrt (max (Ideal.div (∑ p, h p * h p) nLit - Ideal.div (∑ p, h p) nLit * Ideal.div (∑ p, h p) nLit) 0 + epsLit))
      = Cert.BnAlgebra.kernelOut h γ β p :=
  (kernelOut_def h γ β p).symm

end Cert.KernelIdeal.RegValue

end
-- ==== Proof.Ideal.LayerKernel.lean ====
import proofs.«132734_j72301479461275_2_alg».proof.Proof.Ideal.Bn1Value
import proofs.«132734_j72301479461275_2_alg».proof.Proof.Ideal.Bn4Value
import proofs.«132734_j72301479461275_2_alg».proof.Proof.Ideal.Bn7Value
import proofs.«132734_j72301479461275_2_alg».proof.Proof.Ideal.Affine2Value
import proofs.«132734_j72301479461275_2_alg».proof.Proof.Ideal.Affine5Value
import proofs.«132734_j72301479461275_2_alg».proof.Proof.Ideal.Affine8Value
import proofs.«132734_j72301479461275_2_alg».proof.Proof.Ideal.BnKernel

set_option maxRecDepth 16384

noncomputable section

namespace Cert.KernelIdeal.RegValue

open Cert.KernelIdeal Cert.KernelIdeal.Gen Cert.KernelIdeal.Reg
open Idealize.ShloMosaic Idealize.ShloMosaic.TcCoe Idealize.SL.Sem Idealize.ShloMosaic.StableHlo
open Idealize.ShloMosaic.Pipeline (Dat)
open Idealize.ShloMosaic.ValueIdx
open Cert.BnAlgebra
open scoped BigOperators

/-! # One layer: statistics region, scale-and-shift stretch, affine region -/

/-- THE COMBINATION, naming no buffer. If the block array holds the rectified values `h`, the two rows their column
    sums and column sums of squares, and the scale and shift rows are formed from those rows and a column's scale
    `γ q` and shift `β q` as the stretch forms them, then the affine value at (p, q) is the first grouping's
    normalization of column `q` at row `p`. -/
theorem layer1_out (h : Fin 50000 → Fin 64 → EReal)
    (relu : S50000x64.Idx → EReal) (s1 s2 : S1x64.Idx → EReal) (sc sh : S1x64.Idx → EReal)
    (γ β : Fin 64 → EReal)
    (hrelu : ∀ p q, relu (ix2 p q) = h p q)
    (hs1 : ∀ q, s1 (ix2 (0 : Fin 1) q) = ∑ p : Fin 50000, h p q)
    (hs2 : ∀ q, s2 (ix2 (0 : Fin 1) q) = ∑ p : Fin 50000, h p q * h p q)
    (hsc : ∀ q, sc (ix2 (0 : Fin 1) q) = γ q * Ideal.rsqrt (max (Ideal.div (s2 (ix2 (0 : Fin 1) q)) nLit - Ideal.div (s1 (ix2 (0 : Fin 1) q)) nLit * Ideal.div (s1 (ix2 (0 : Fin 1) q)) nLit) 0 + epsLit))
    (hsh : ∀ q, sh (ix2 (0 : Fin 1) q) = β q - Ideal.div (s1 (ix2 (0 : Fin 1) q)) nLit * γ q * Ideal.rsqrt (max (Ideal.div (s2 (ix2 (0 : Fin 1) q)) nLit - Ideal.div (s1 (ix2 (0 : Fin 1) q)) nLit * Ideal.div (s1 (ix2 (0 : Fin 1) q)) nLit) 0 + epsLit))
    (p : Fin 50000) (q : Fin 64) :
    affineAt relu sc sh p q = Cert.BnAlgebra.kernelOut (fun p' => h p' q) (γ q) (β q) p := by
  rw [affineAt_def, hrelu, hsc, hsh, hs1, hs2]
  exact affine_is_kernelOut (fun p' => h p' q) (γ q) (β q) p

/-! ## The three layers of the program -/

/-- Region 1 with its host stretch and region 2: the affine region's output array is the first grouping's output
    of the rectified array, column by column, given how the contents at the three boundaries are tied. -/
theorem layer1_kernel (Vb Va : (c : Dev nD) → (b : Ref sig .tc) → Buf (Elt Ideal) ((c : Thread nD τ).loc b))
    (W : Valuation τ sig (Elt Ideal)) (c : Dev nD)
    (h0 : ∀ i, W (Proc.devRef .tc main_v51_0) i = (dat1 (F := Ideal) Vb c).arrAt 2 cfg1.N i)
    (h1 : ∀ i, W (Proc.devRef .tc main_v51_1) i = (dat1 (F := Ideal) Vb c).arrAt 3 cfg1.N i)
    (h2 : ∀ i, W (Proc.devRef .tc main_v51_2) i = (dat1 (F := Ideal) Vb c).arrAt 4 cfg1.N i)
    (ha0 : ∀ i, Va c main_v51_0 i = W (Proc.devRef .tc main_v51_0) i)
    (ha1 : ∀ i, Va c main_v68 i = StableHlo.after (hostOps2 (F := Ideal)) W (Proc.devRef .tc main_v68) i)
    (ha2 : ∀ i, Va c main_v76 i = StableHlo.after (hostOps2 (F := Ideal)) W (Proc.devRef .tc main_v76) i)
    (p : Fin 50000) (q : Fin 64) :
    (dat2 (F := Ideal) Va c).arrAt 3 cfg2.N (ix2 p q)
      = Cert.BnAlgebra.kernelOut (fun p' => bn1_r Vb c p' q) (bnk_gam W (ix2 (0 : Fin 3) q)) (bnk_bet W (ix2 (0 : Fin 3) q)) p := by
  rw [final2_3 Va c p q]
  exact layer1_out (fun p q => bn1_r Vb c p q) (Va c main_v51_0) (bnk_s1_1 W) (bnk_s2_1 W) (Va c main_v68) (Va c main_v76)
    (fun q => bnk_gam W (ix2 (0 : Fin 3) q)) (fun q => bnk_bet W (ix2 (0 : Fin 3) q))
    (fun p q => (ha0 _).trans ((h0 _).trans (final1_2 Vb c p q)))
    (fun q => (h1 _).trans (final1_3 Vb c q))
    (fun q => (h2 _).trans (final1_4 Vb c q))
    (fun q => (ha1 _).trans (scale1 W q))
    (fun q => (ha2 _).trans (shift1 W q)) p q

/-- Region 4 with its host stretch and region 5: the affine region's output array is the first grouping's output
    of the rectified array, column by column, given how the contents at the three boundaries are tied. -/
theorem layer4_kernel (Vb Va : (c : Dev nD) → (b : Ref sig .tc) → Buf (Elt Ideal) ((c : Thread nD τ).loc b))
    (W : Valuation τ sig (Elt Ideal)) (c : Dev nD)
    (h0 : ∀ i, W (Proc.devRef .tc main_v125_0) i = (dat4 (F := Ideal) Vb c).arrAt 2 cfg4.N i)
    (h1 : ∀ i, W (Proc.devRef .tc main_v125_1) i = (dat4 (F := Ideal) Vb c).arrAt 3 cfg4.N i)
    (h2 : ∀ i, W (Proc.devRef .tc main_v125_2) i = (dat4 (F := Ideal) Vb c).arrAt 4 cfg4.N i)
    (ha0 : ∀ i, Va c main_v125_0 i = W (Proc.devRef .tc main_v125_0) i)
    (ha1 : ∀ i, Va c main_v142 i = StableHlo.after (hostOps5 (F := Ideal)) W (Proc.devRef .tc main_v142) i)
    (ha2 : ∀ i, Va c main_v150 i = StableHlo.after (hostOps5 (F := Ideal)) W (Proc.devRef .tc main_v150) i)
    (p : Fin 50000) (q : Fin 64) :
    (dat5 (F := Ideal) Va c).arrAt 3 cfg5.N (ix2 p q)
      = Cert.BnAlgebra.kernelOut (fun p' => bn4_r Vb c p' q) (bnk_gam W (ix2 (1 : Fin 3) q)) (bnk_bet W (ix2 (1 : Fin 3) q)) p := by
  rw [final5_3 Va c p q]
  exact layer1_out (fun p q => bn4_r Vb c p q) (Va c main_v125_0) (bnk_s1_4 W) (bnk_s2_4 W) (Va c main_v142) (Va c main_v150)
    (fun q => bnk_gam W (ix2 (1 : Fin 3) q)) (fun q => bnk_bet W (ix2 (1 : Fin 3) q))
    (fun p q => (ha0 _).trans ((h0 _).trans (final4_2 Vb c p q)))
    (fun q => (h1 _).trans (final4_3 Vb c q))
    (fun q => (h2 _).trans (final4_4 Vb c q))
    (fun q => (ha1 _).trans (scale4 W q))
    (fun q => (ha2 _).trans (shift4 W q)) p q

/-- Region 7 with its host stretch and region 8: the affine region's output array is the first grouping's output
    of the rectified array, column by column, given how the contents at the three boundaries are tied. -/
theorem layer7_kernel (Vb Va : (c : Dev nD) → (b : Ref sig .tc) → Buf (Elt Ideal) ((c : Thread nD τ).loc b))
    (W : Valuation τ sig (Elt Ideal)) (c : Dev nD)
    (h0 : ∀ i, W (Proc.devRef .tc main_v199_0) i = (dat7 (F := Ideal) Vb c).arrAt 2 cfg7.N i)
    (h1 : ∀ i, W (Proc.devRef .tc main_v199_1) i = (dat7 (F := Ideal) Vb c).arrAt 3 cfg7.N i)
    (h2 : ∀ i, W (Proc.devRef .tc main_v199_2) i = (dat7 (F := Ideal) Vb c).arrAt 4 cfg7.N i)
    (ha0 : ∀ i, Va c main_v199_0 i = W (Proc.devRef .tc main_v199_0) i)
    (ha1 : ∀ i, Va c main_v216 i = StableHlo.after (hostOps8 (F := Ideal)) W (Proc.devRef .tc main_v216) i)
    (ha2 : ∀ i, Va c main_v224 i = StableHlo.after (hostOps8 (F := Ideal)) W (Proc.devRef .tc main_v224) i)
    (p : Fin 50000) (q : Fin 64) :
    (dat8 (F := Ideal) Va c).arrAt 3 cfg8.N (ix2 p q)
      = Cert.BnAlgebra.kernelOut (fun p' => bn7_r Vb c p' q) (bnk_gam W (ix2 (2 : Fin 3) q)) (bnk_bet W (ix2 (2 : Fin 3) q)) p := by
  rw [final8_3 Va c p q]
  exact layer1_out (fun p q => bn7_r Vb c p q) (Va c main_v199_0) (bnk_s1_7 W) (bnk_s2_7 W) (Va c main_v216) (Va c main_v224)
    (fun q => bnk_gam W (ix2 (2 : Fin 3) q)) (fun q => bnk_bet W (ix2 (2 : Fin 3) q))
    (fun p q => (ha0 _).trans ((h0 _).trans (final7_2 Vb c p q)))
    (fun q => (h1 _).trans (final7_3 Vb c q))
    (fun q => (h2 _).trans (final7_4 Vb c q))
    (fun q => (ha1 _).trans (scale7 W q))
    (fun q => (ha2 _).trans (shift7 W q)) p q

end Cert.KernelIdeal.RegValue

end
-- ==== Proof.Ideal.KernelStages.lean ====
/- The kernel program's short host stretches, at any contents of the buffers before them: the edge rows and the weight
   matrices sliced out of the arguments, each layer's bias row, and the final stacking of the three layer outputs. -/
import proofs.«132734_j72301479461275_2_alg».proof.Proof.Gen.KernelIdeal.Launch
import proofs.«132734_j72301479461275_2_alg».proof.Proof.Ideal.BnKernel
import Idealize.ShloMosaic.Lib.StableHlo.Run

set_option maxRecDepth 65536

noncomputable section

namespace Cert.KernelIdeal.RegValue

open Cert.KernelIdeal Cert.KernelIdeal.Gen
open Idealize.ShloMosaic Idealize.ShloMosaic.TcCoe Idealize.SL.Sem Idealize.ShloMosaic.StableHlo
open Idealize.ShloMosaic.ValueIdx

section AnyF
variable {F : FTy → Type} [FloatOps F]

/-! ## The final stacking -/

/-- The result: the three layer outputs stacked along a new leading axis. -/
theorem k9_v229 (W : Valuation τ sig (Elt F)) :
    after (hostOps9 (F := F)) W (Proc.devRef .tc main_v229) = concatenate S3x50000x64 0 [⟨S1x50000x64, broadcastInDim S1x50000x64 ![1, 2] bcast_S50000x64_S1x50000x64_1_2 (W (Proc.devRef .tc main_v77))⟩, ⟨S1x50000x64, broadcastInDim S1x50000x64 ![1, 2] bcast_S50000x64_S1x50000x64_1_2 (W (Proc.devRef .tc main_v151))⟩, ⟨S1x50000x64, broadcastInDim S1x50000x64 ![1, 2] bcast_S50000x64_S1x50000x64_1_2 (W (Proc.devRef .tc main_v225))⟩] concatenates_S1x50000x64_S1x50000x64_S1x50000x64_S3x50000x64_d0 := by
  simp only [hostOps9]
  after_results_simp
  rfl

/-! ## The edge rows and the first weight matrix -/

/-- Row 0 of the edge endpoints. -/
theorem k0_v1 (W : Valuation τ sig (Elt F)) :
    after (hostOps0 (F := F)) W (Proc.devRef .tc main_v1) = shapeCast S800000 (extractStridedSlice S1x800000 ![0, 0] (W (Proc.devRef .tc main_arg1)) slices_S2x800000_S1x800000_0_0) shapeCasts_S1x800000_S800000 := by
  simp only [hostOps0]
  after_results_simp
  rfl

/-- Row 1 of the edge endpoints. -/
theorem k0_v3 (W : Valuation τ sig (Elt F)) :
    after (hostOps0 (F := F)) W (Proc.devRef .tc main_v3) = shapeCast S800000 (extractStridedSlice S1x800000 ![1, 0] (W (Proc.devRef .tc main_arg1)) slices_S2x800000_S1x800000_1_0) shapeCasts_S1x800000_S800000 := by
  simp only [hostOps0]
  after_results_simp
  rfl

/-- Layer 1's weight matrix. -/
theorem k0_v5 (W : Valuation τ sig (Elt F)) :
    after (hostOps0 (F := F)) W (Proc.devRef .tc main_v5) = shapeCast S64x64 (extractStridedSlice S1x64x64 ![0, 0, 0] (W (Proc.devRef .tc main_arg3)) slices_S3x64x64_S1x64x64_0_0_0) shapeCasts_S1x64x64_S64x64 := by
  simp only [hostOps0]
  after_results_simp
  rfl

/-! ## The bias rows -/

set_option maxHeartbeats 4000000 in
/-- Layer 1's bias as a [1,64] row. -/
theorem k1_v50 (W : Valuation τ sig (Elt F)) :
    after (hostOps1_2 (F := F)) W (Proc.devRef .tc main_v50) = shapeCast S1x64 (shapeCast S64 (extractStridedSlice S1x64 ![0, 0] (W (Proc.devRef .tc main_arg4)) slices_S3x64_S1x64_0_0) shapeCasts_S1x64_S64) shapeCasts_S64_S1x64 := by
  simp only [hostOps1_2]
  after_results_simp
  rfl

set_option maxHeartbeats 4000000 in
/-- Layer 2's bias as a [1,64] row. -/
theorem k4_v124 (W : Valuation τ sig (Elt F)) :
    after (hostOps4_2 (F := F)) W (Proc.devRef .tc main_v124) = shapeCast S1x64 (shapeCast S64 (extractStridedSlice S1x64 ![1, 0] (W (Proc.devRef .tc main_arg4)) slices_S3x64_S1x64_1_0) shapeCasts_S1x64_S64) shapeCasts_S64_S1x64 := by
  simp only [hostOps4_2]
  after_results_simp
  rfl

set_option maxHeartbeats 4000000 in
/-- Layer 3's bias as a [1,64] row. -/
theorem k7_v198 (W : Valuation τ sig (Elt F)) :
    after (hostOps7_2 (F := F)) W (Proc.devRef .tc main_v198) = shapeCast S1x64 (shapeCast S64 (extractStridedSlice S1x64 ![2, 0] (W (Proc.devRef .tc main_arg4)) slices_S3x64_S1x64_2_0) shapeCasts_S1x64_S64) shapeCasts_S64_S1x64 := by
  simp only [hostOps7_2]
  after_results_simp
  rfl

/-! ## The second and third weight matrices -/

/-- Layer 2's weight matrix. -/
theorem k3_v79 (W : Valuation τ sig (Elt F)) :
    after (hostOps3 (F := F)) W (Proc.devRef .tc main_v79) = shapeCast S64x64 (extractStridedSlice S1x64x64 ![1, 0, 0] (W (Proc.devRef .tc main_arg3)) slices_S3x64x64_S1x64x64_1_0_0) shapeCasts_S1x64x64_S64x64 := by
  simp only [hostOps3]
  after_results_simp
  rfl

/-- Layer 3's weight matrix. -/
theorem k6_v153 (W : Valuation τ sig (Elt F)) :
    after (hostOps6 (F := F)) W (Proc.devRef .tc main_v153) = shapeCast S64x64 (extractStridedSlice S1x64x64 ![2, 0, 0] (W (Proc.devRef .tc main_arg3)) slices_S3x64x64_S1x64x64_2_0_0) shapeCasts_S1x64x64_S64x64 := by
  simp only [hostOps6]
  after_results_simp
  rfl

end AnyF

/-! ## A bias row at a column -/

/-- Row `k` of a [3,64] table, sliced, flattened and made a [1,64] row again, reads at column `q` the table's (k, q). -/
theorem bias_row_at (a : S3x64.Idx → EReal) (off : Fin 2 → ℕ) (k : Fin 3) (hoff : off = ![k.val, 0])
    (hsl : S3x64.Slices off S1x64) (q : Fin 64) :
    shapeCast S1x64 (shapeCast S64 (extractStridedSlice S1x64 off a hsl) shapeCasts_S1x64_S64) shapeCasts_S64_S1x64 (ix2 (0 : Fin 1) q)
      = a (ix2 k q) := by
  rw [bnk_row_of_vec, bnk_vec_of_row, bnk_slice_row a off k hoff hsl q]

/-- The flattened slice alone, at entry `q`. -/
theorem bias_vec_at (a : S3x64.Idx → EReal) (off : Fin 2 → ℕ) (k : Fin 3) (hoff : off = ![k.val, 0])
    (hsl : S3x64.Slices off S1x64) (q : Fin 64) :
    shapeCast S64 (extractStridedSlice S1x64 off a hsl) shapeCasts_S1x64_S64 (ix1 q) = a (ix2 k q) := by
  rw [bnk_vec_of_row, bnk_slice_row a off k hoff hsl q]

end Cert.KernelIdeal.RegValue

end
-- ==== Proof.Ideal.RefProduct.lean ====
/- The reference's [50000,64] x [64,64] matrix product on the host, at the exact values and at an index: entry (p, q)
   is the sum over k of left (p, k) times right (k, q) — the same closed form the product regions of the kernel leave. -/
import proofs.«132734_j72301479461275_2_alg».proof.Proof.Ideal.ClassASpec
import proofs.«132734_j72301479461275_2_alg».proof.Proof.Gen.ReferenceIdeal
import Idealize.ShloMosaic.PureOps.Ideal.Laws
import Idealize.ShloMosaic.Lib.ValueIdx

noncomputable section

namespace Cert.ReferenceIdeal.RefValue

open Idealize.ShloMosaic
open Idealize.ShloMosaic.ValueIdx

/-! ## The operand indices of the product, coordinate by coordinate -/

/-- The left operand's row is the output's row. -/
theorem lhs_row (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide),
    dif_pos (show (0 : Fin Cert.ReferenceIdeal.S50000x64.rank) ∈ Cert.ReferenceIdeal.dot_S50000x64_S64x64_S50000x64_1_0_0_1_n_n.lhsNonContracting by decide)]
  rfl

/-- The left operand's column is the summation index. -/
theorem lhs_col (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q

/-- The right operand's row is the summation index. -/
theorem rhs_row (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q

/-- The right operand's column is the output's column. -/
theorem rhs_col (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide),
    dif_pos (show (1 : Fin Cert.ReferenceIdeal.S64x64.rank) ∈ Cert.ReferenceIdeal.dot_S50000x64_S64x64_S50000x64_1_0_0_1_n_n.rhsNonContracting by decide)]
  rfl

/-! ## The product at an index -/

/-- Entry (p, q) of the host product: the sum over k of left (p, k) times right (k, q). -/
theorem dot_rowDot (a : FVec Ideal Cert.ReferenceIdeal.S50000x64 .f32) (w : FVec Ideal Cert.ReferenceIdeal.S64x64 .f32)
    (p : Fin 50000) (q : Fin 64) :
    Host.dotGeneral (F := Ideal) Cert.ReferenceIdeal.dot_S50000x64_S64x64_S50000x64_1_0_0_1_n_n none a w (ix2 p q) = Cert.KernelIdeal.RegValue.rowDot a w p q := by
  show FloatOps.dotGeneral Cert.ReferenceIdeal.dot_S50000x64_S64x64_S50000x64_1_0_0_1_n_n none .single a w (ix2 p q) = _
  rw [Ideal.dotGeneral_apply, ← Equiv.sum_comp (contrEquiv1 Cert.ReferenceIdeal.dot_S50000x64_S64x64_S50000x64_1_0_0_1_n_n 64 rfl rfl).symm,
    Cert.KernelIdeal.RegValue.rowDot_def]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 p q) ((contrEquiv1 Cert.ReferenceIdeal.dot_S50000x64_S64x64_S50000x64_1_0_0_1_n_n 64 rfl rfl).symm k) = ix2 p k :=
    funext fun a => Fin.ext (by
      match a with
      | ⟨0, _⟩ => exact lhs_row _ _
      | ⟨1, _⟩ => exact (lhs_col _ _).trans hk)
  have er : Cert.ReferenceIdeal.dot_S50000x64_S64x64_S50000x64_1_0_0_1_n_n.rhsIdx (ix2 p q) ((contrEquiv1 Cert.ReferenceIdeal.dot_S50000x64_S64x64_S50000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

end Cert.ReferenceIdeal.RefValue

end
-- ==== Proof.Ideal.AggReal.lean ====
/- The aggregation keeps entries real: if every entry of the product and of the edge weights is a real number, so is
   every entry of `Cert.Agg.agg`. Each step does: appending the constant 2, summing reals into zeros, the inverse
   square root taken only where the degree is positive (zero elsewhere), reading entries at indices, products. -/
import proofs.«132734_j72301479461275_2_alg».proof.Proof.Ideal.AggSpec
import proofs.«132734_j72301479461275_2_alg».proof.Proof.LibRealClosure
import proofs.«132734_j72301479461275_2_alg».proof.Proof.Ideal.BnAlgebra

noncomputable section

namespace Cert.Agg

open Cert.KernelIdeal Cert.KernelIdeal.Gen
open Idealize.ShloMosaic
open LibRealClosure

/-- The single-precision pattern `0x40000000` denotes the real number two. -/
theorem isReal_ofBits_two : IsReal (Ideal.ofBits .f32 0x40000000#32) :=
  ⟨2, Cert.BnAlgebra.ofBits_two⟩

/-- A concatenation only repeats entries of its pieces. -/
theorem allReal_concatenate {t : Shape} (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Where `deg` is positive its inverse square root is real, and elsewhere the selection takes the other array. -/
theorem allReal_select_rsqrt {s : Shape} (deg z z' : FVec Ideal s .f32) (hdeg : AllReal deg) (hz : ∀ i, z i = 0)
    (hz' : AllReal z') : AllReal (select (cmpf .ogt deg z) (Host.rsqrt deg) z') := by
  intro i
  show IsReal (Scalar.select (Ideal.cmp .ogt (deg i) (z i)) (Ideal.rsqrt (deg i)) (z' i))
  unfold Scalar.select
  split
  · rename_i hc
    have hpos : 0 < deg i := by
      rw [hz i] at hc
      by_contra hn
      simp [Ideal.cmp, hn] at hc
    exact (hdeg i).rsqrt hpos
  · exact hz' i

/-- Every entry of the aggregation is real when every entry of the product and of the edge weights is. -/
theorem agg_real (lin : FVec Ideal S50000x64 .f32) (e1 : IVec S800000 32) (e3 : IVec S800000 32) (ew : FVec Ideal S800000 .f32)
    (hl : AllReal lin) (hw : AllReal ew) : AllReal (agg (F := Ideal) lin e1 e3 ew) := by
  -- the weights with the self loops' 2 appended
  have hwf : AllReal (concatenate S850000 0 [⟨S800000, ew⟩, ⟨S50000, broadcastInDim S50000 ![] bcast_S_S50000 (constant (F := Ideal) S_ .f32 0x40000000#32)⟩] concatenates_S800000_S50000_S850000_d0) :=
    allReal_concatenate _ _ _ (fun p hp => by
      simp only [List.mem_cons, List.not_mem_nil, or_false] at hp
      rcases hp with rfl | rfl
      · exact hw
      · show AllReal (broadcastInDim S50000 ![] bcast_S_S50000 (constant (F := Ideal) S_ .f32 0x40000000#32))
        exact AllReal.broadcastInDim (allReal_constant (s := S_) _ isReal_ofBits_two) _ _)
  -- zeros
  have hzero : ∀ i, broadcastInDim S50000 ![] bcast_S_S50000 (constant (F := Ideal) S_ .f32 0x00000000#32) i = 0 :=
    fun i => Ideal.ofBits_zero_f32
  have hz0 : AllReal (broadcastInDim S50000 ![] bcast_S_S50000 (constant (F := Ideal) S_ .f32 0x00000000#32)) :=
    AllReal.broadcastInDim (allReal_constant_zero (s := S_)) _ _
  have hz1 : AllReal (broadcastInDim S50000x64 ![] bcast_S_S50000x64 (constant (F := Ideal) S_ .f32 0x00000000#32)) :=
    AllReal.broadcastInDim (allReal_constant_zero (s := S_)) _ _
  unfold agg
  refine AllReal.scatterAdd hz1 (AllReal.mulf (hl.gather _ _) (AllReal.broadcastInDim (AllReal.broadcastInDim ?_ _ _) _ _)) _ _
  have hdeg := AllReal.scatterAdd (φ := .f32) (x := broadcastInDim S50000 ![] bcast_S_S50000 (constant (F := Ideal) S_ .f32 0x00000000#32)) hz0 hwf scatter_S50000_S850000x1_S850000_n_0_0_1
    (broadcastInDim S850000x1 ![0] bcast_S850000_S850000x1_0 (concatenate S850000 0 [⟨S800000, e3⟩, ⟨S50000, iotaInDim S50000 32 0⟩] concatenates_S800000_S50000_S850000_d0))
  have hdinv := allReal_select_rsqrt _ _ (broadcastInDim S50000 ![] bcast_S_S50000 (id (constant (F := Ideal) S_ .f32 0x00000000#32))) hdeg hzero hz0
  exact AllReal.mulf (AllReal.mulf (hdinv.gather _ _) hwf) (hdinv.gather _ _)

end Cert.Agg

end
-- ==== Proof.Ideal.LayerJoin.lean ====
import proofs.«132734_j72301479461275_2_alg».proof.Proof.Ideal.BnAlgebra
import proofs.«132734_j72301479461275_2_alg».proof.Proof.LibRealClosure

noncomputable section

namespace Cert.LayerJoin

open Idealize.ShloMosaic LibRealClosure

/-! # Joining one column of the two normalizations

Two columns that agree entry by entry, with equal scale and shift, all of them real: the first grouping's output on
the one is the second grouping's output on the other, and it is again real. -/

/-- `IsReal x` is the statement "`x` is the coercion of a real" the normalization algebra takes. -/
theorem isReal_iff_exists (x : EReal) : IsReal x ↔ ∃ r : ℝ, x = (r : EReal) := Iff.rfl

theorem join_columns (hk hr : Fin 50000 → EReal) (γk βk γr βr : EReal)
    (hcol : ∀ p, hk p = hr p) (hγ : γk = γr) (hβ : βk = βr)
    (hreal : ∀ p, IsReal (hk p)) (hγreal : IsReal γk) (hβreal : IsReal βk) (p : Fin 50000) :
    Cert.BnAlgebra.kernelOut hk γk βk p = Cert.BnAlgebra.referenceOut hr γr βr p
      ∧ IsReal (Cert.BnAlgebra.kernelOut hk γk βk p) := by
  obtain rfl : hk = hr := funext hcol
  subst hγ hβ
  exact ⟨Cert.BnAlgebra.bn_join hk γk βk hreal hγreal hβreal p, Cert.BnAlgebra.kernelOut_real hk γk βk hreal hγreal hβreal p⟩

/-- The rectified biased entry is real. -/
theorem relu_col_real (a : EReal) (b : EReal) (ha : IsReal a) (hb : IsReal b) : IsReal (max (a + b) 0) :=
  (ha.add hb).max isReal_zero

/-- and depends only on its two summands. -/
theorem relu_col_congr (a a' b b' : EReal) (ha : a = a') (hb : b = b') : max (a + b) 0 = max (a' + b') 0 := by
  rw [ha, hb]

end Cert.LayerJoin

end
-- ==== Proof.Ideal.ProductReal.lean ====
import proofs.«132734_j72301479461275_2_alg».proof.Proof.Gen.KernelIdeal
import proofs.«132734_j72301479461275_2_alg».proof.Proof.Ideal.ClassASpec
import proofs.«132734_j72301479461275_2_alg».proof.Proof.LibRealClosure
import Idealize.ShloMosaic.Lib.ValueIdx

noncomputable section

namespace Cert.LayerJoin

open Idealize.ShloMosaic Idealize.ShloMosaic.ValueIdx LibRealClosure
open Cert.KernelIdeal Cert.KernelIdeal.Gen
open scoped BigOperators

/-! # Realness through the product stage and the sliced parameters -/

/-- An entry of the product of two arrays of reals is real: a finite sum of products of reals. -/
theorem rowDot_real (a : (⟨2, ![50000, 64]⟩ : Shape).Idx → EReal) (w : (⟨2, ![64, 64]⟩ : Shape).Idx → EReal)
    (ha : AllReal a) (hw : AllReal w) (p : Fin 50000) (q : Fin 64) :
    IsReal (Cert.KernelIdeal.RegValue.rowDot a w p q) := by
  rw [Cert.KernelIdeal.RegValue.rowDot_def]
  exact isReal_sum _ _ fun k _ => (ha _).mul (hw _)

/-- "Every entry is real", entry by entry. -/
theorem allReal_of_entries {s : Shape} (x : s.Idx → EReal) (h : ∀ i, IsReal (x i)) : AllReal x := h

/-- Every index of a [50000,64] array is a pair (row, column). -/
theorem allReal_rows (x : (⟨2, ![50000, 64]⟩ : Shape).Idx → EReal)
    (h : ∀ (p : Fin 50000) (q : Fin 64), IsReal (x (ix2 p q))) : AllReal x := fun i => by
  rw [eq_ix2 i]; exact h (i 0) (i 1)

/-- A layer's [64,64] weight matrix — one slab of the [3,64,64] table, its unit axis dropped — keeps only entries of
    the table. -/
theorem slice_w_real (a3 : (⟨3, ![3, 64, 64]⟩ : Shape).Idx → EReal) (h : AllReal a3) (off : Fin 3 → ℕ)
    (hsl : S3x64x64.Slices off S1x64x64) (hsc : S1x64x64.ShapeCasts S64x64) :
    AllReal (shapeCast S64x64 (extractStridedSlice S1x64x64 off a3 hsl) hsc) :=
  (h.extractStridedSlice off hsl).shapeCast hsc

/-- A layer's [1,64] bias row — one row of the [3,64] table, flattened and restored — likewise. -/
theorem slice_b_real (a4 : (⟨2, ![3, 64]⟩ : Shape).Idx → EReal) (h : AllReal a4) (off : Fin 2 → ℕ)
    (hsl : S3x64.Slices off S1x64) (hsc : S1x64.ShapeCasts S64) (hsc' : S64.ShapeCasts S1x64) :
    AllReal (shapeCast S1x64 (shapeCast S64 (extractStridedSlice S1x64 off a4 hsl) hsc) hsc') :=
  ((h.extractStridedSlice off hsl).shapeCast hsc).shapeCast hsc'

/-! ## At the program's three layers -/

theorem slice_w0_real (a3 : (⟨3, ![3, 64, 64]⟩ : Shape).Idx → EReal) (h : AllReal a3) :
    AllReal (shapeCast S64x64 (extractStridedSlice S1x64x64 ![0, 0, 0] a3 slices_S3x64x64_S1x64x64_0_0_0) shapeCasts_S1x64x64_S64x64) :=
  slice_w_real a3 h _ _ _

theorem slice_w1_real (a3 : (⟨3, ![3, 64, 64]⟩ : Shape).Idx → EReal) (h : AllReal a3) :
    AllReal (shapeCast S64x64 (extractStridedSlice S1x64x64 ![1, 0, 0] a3 slices_S3x64x64_S1x64x64_1_0_0) shapeCasts_S1x64x64_S64x64) :=
  slice_w_real a3 h _ _ _

theorem slice_w2_real (a3 : (⟨3, ![3, 64, 64]⟩ : Shape).Idx → EReal) (h : AllReal a3) :
    AllReal (shapeCast S64x64 (extractStridedSlice S1x64x64 ![2, 0, 0] a3 slices_S3x64x64_S1x64x64_2_0_0) shapeCasts_S1x64x64_S64x64) :=
  slice_w_real a3 h _ _ _

theorem slice_b0_real (a4 : (⟨2, ![3, 64]⟩ : Shape).Idx → EReal) (h : AllReal a4) :
    AllReal (shapeCast S1x64 (shapeCast S64 (extractStridedSlice S1x64 ![0, 0] a4 slices_S3x64_S1x64_0_0) shapeCasts_S1x64_S64) shapeCasts_S64_S1x64) :=
  slice_b_real a4 h _ _ _ _

theorem slice_b1_real (a4 : (⟨2, ![3, 64]⟩ : Shape).Idx → EReal) (h : AllReal a4) :
    AllReal (shapeCast S1x64 (shapeCast S64 (extractStridedSlice S1x64 ![1, 0] a4 slices_S3x64_S1x64_1_0) shapeCasts_S1x64_S64) shapeCasts_S64_S1x64) :=
  slice_b_real a4 h _ _ _ _

theorem slice_b2_real (a4 : (⟨2, ![3, 64]⟩ : Shape).Idx → EReal) (h : AllReal a4) :
    AllReal (shapeCast S1x64 (shapeCast S64 (extractStridedSlice S1x64 ![2, 0] a4 slices_S3x64_S1x64_2_0) shapeCasts_S1x64_S64) shapeCasts_S64_S1x64) :=
  slice_b_real a4 h _ _ _ _

end Cert.LayerJoin

end
-- ==== Proof.Ideal.RefLayers.lean ====
import proofs.«132734_j72301479461275_2_alg».proof.Proof.Ideal.RefStages
import proofs.«132734_j72301479461275_2_alg».proof.Proof.Ideal.RefProduct
import proofs.«132734_j72301479461275_2_alg».proof.Proof.Ideal.AggReal
import proofs.«132734_j72301479461275_2_alg».proof.Proof.Ideal.LayerJoin
import proofs.«132734_j72301479461275_2_alg».proof.Proof.Ideal.ProductReal
import proofs.«132734_j72301479461275_2_alg».proof.Proof.Ideal.KernelStages

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open LibRealClosure
open scoped BigOperators

/-! # The reference, layer by layer, as one pure function of arrays -/

/-- The product of a [50000,64] array and a [64,64] matrix as an array: entry (p, q) is the row-by-column sum. -/
def prodArr (a : S50000x64.Idx → EReal) (w : S64x64.Idx → EReal) : S50000x64.Idx → EReal :=
  fun i => Cert.KernelIdeal.RegValue.rowDot a w (⟨(i 0).val, (i 0).isLt⟩ : Fin 50000) (⟨(i 1).val, (i 1).isLt⟩ : Fin 64)

theorem prodArr_apply (a : S50000x64.Idx → EReal) (w : S64x64.Idx → EReal) (p : Fin 50000) (q : Fin 64) :
    prodArr a w (ix2 p q) = Cert.KernelIdeal.RegValue.rowDot a w p q := rfl

/-- An array that agrees with the row-by-column sums entry by entry is that array. -/
theorem prodArr_of_entries (lin : S50000x64.Idx → EReal) (a : S50000x64.Idx → EReal) (w : S64x64.Idx → EReal)
    (h : ∀ (p : Fin 50000) (q : Fin 64), lin (ix2 p q) = Cert.KernelIdeal.RegValue.rowDot a w p q) : lin = prodArr a w :=
  funext fun i => by
    obtain ⟨p, q, rfl⟩ : ∃ (p : Fin 50000) (q : Fin 64), i = ix2 p q := ⟨i 0, i 1, eq_ix2 i⟩
    exact h p q

/-- The host's matrix product is that array. -/
theorem dot_eq_prodArr (a : FVec Ideal S50000x64 .f32) (w : FVec Ideal S64x64 .f32) :
    Host.dotGeneral (F := Ideal) dot_S50000x64_S64x64_S50000x64_1_0_0_1_n_n none a w = prodArr a w :=
  (prodArr_of_entries _ a w fun p q => dot_rowDot a w p q)

/-- ONE LAYER: product with the layer's matrix, aggregation along the edges, bias, rectification, and the second
    grouping's normalization of each column with that column's scale and shift. -/
def layerFn (x : S50000x64.Idx → EReal) (wk : S64x64.Idx → EReal) (bk gk bek : Fin 64 → EReal)
    (e1 e3 : IVec S800000 32) (ew : S800000.Idx → EReal) : Fin 50000 → Fin 64 → EReal :=
  fun p q => Cert.BnAlgebra.referenceOut
    (fun p' => max (Cert.Agg.agg (F := Ideal) (prodArr x wk) e1 e3 ew (ix2 p' q) + bk q) 0) (gk q) (bek q) p

theorem layerFn_def (x : S50000x64.Idx → EReal) (wk : S64x64.Idx → EReal) (bk gk bek : Fin 64 → EReal)
    (e1 e3 : IVec S800000 32) (ew : S800000.Idx → EReal) (p : Fin 50000) (q : Fin 64) :
    layerFn x wk bk gk bek e1 e3 ew p q = Cert.BnAlgebra.referenceOut
      (fun p' => max (Cert.Agg.agg (F := Ideal) (prodArr x wk) e1 e3 ew (ix2 p' q) + bk q) 0) (gk q) (bek q) p := rfl

/-- A layer keeps entries real. -/
theorem layerFn_real (x : S50000x64.Idx → EReal) (wk : S64x64.Idx → EReal) (bk gk bek : Fin 64 → EReal)
    (e1 e3 : IVec S800000 32) (ew : S800000.Idx → EReal) (hx : AllReal x) (hw : AllReal wk)
    (hb : ∀ q, IsReal (bk q)) (hg : ∀ q, IsReal (gk q)) (hbe : ∀ q, IsReal (bek q)) (hew : AllReal ew)
    (p : Fin 50000) (q : Fin 64) : IsReal (layerFn x wk bk gk bek e1 e3 ew p q) := by
  have hprod : AllReal (prodArr x wk) :=
    Cert.LayerJoin.allReal_rows _ fun p q => Cert.LayerJoin.rowDot_real x wk hx hw p q
  have hagg := Cert.Agg.agg_real (prodArr x wk) e1 e3 ew hprod hew
  exact Cert.BnAlgebra.referenceOut_real _ _ _
    (fun p' => Cert.LayerJoin.relu_col_real _ _ (hagg (ix2 p' q)) (hb q)) (hg q) (hbe q) p

/-- What a layer's stages say, joined: from the aggregated array and the three parameter vectors to `layerFn`. -/
theorem layerFn_of (lin : FVec Ideal S50000x64 .f32) (x : FVec Ideal S50000x64 .f32) (wk : FVec Ideal S64x64 .f32)
    (e1 e3 : IVec S800000 32) (ew : FVec Ideal S800000 .f32) (bvec gvec bevec : S64.Idx → EReal)
    (a4 a5 a6 : S3x64.Idx → EReal) (k : Fin 3)
    (hlin : lin = Cert.Agg.agg (F := Ideal) (Host.dotGeneral (F := Ideal) dot_S50000x64_S64x64_S50000x64_1_0_0_1_n_n none x wk) e1 e3 ew)
    (hb : ∀ q, bvec (ix1 q) = a4 (ix2 k q)) (hg : ∀ q, vecAt gvec q = a5 (ix2 k q)) (hbe : ∀ q, vecAt bevec q = a6 (ix2 k q))
    (p : Fin 50000) (q : Fin 64) :
    Cert.BnAlgebra.referenceOut (colRelu lin bvec q) (vecAt gvec q) (vecAt bevec q) p
      = layerFn x wk (fun q => a4 (ix2 k q)) (fun q => a5 (ix2 k q)) (fun q => a6 (ix2 k q)) e1 e3 ew p q := by
  subst hlin
  rw [layerFn_def, hg q, hbe q, dot_eq_prodArr x wk]
  refine congrArg (fun h => Cert.BnAlgebra.referenceOut h _ _ p) (funext fun p' => ?_)
  show max (Cert.Agg.agg (F := Ideal) (prodArr x wk) e1 e3 ew (ix2 p' q) + bvec (ix1 q)) 0 = _
  rw [hb q]

/-! ## The reference's parameters, from the contents at launch -/

/-- The two rows of edge endpoints. -/
abbrev edgeRow0 (W0 : Valuation τ sig (Elt Ideal)) : IVec S800000 32 :=
  shapeCast S800000 (extractStridedSlice S1x800000 ![0, 0] (W0 (Proc.devRef .tc main_arg1)) slices_S2x800000_S1x800000_0_0) shapeCasts_S1x800000_S800000
abbrev edgeRow1 (W0 : Valuation τ sig (Elt Ideal)) : IVec S800000 32 :=
  shapeCast S800000 (extractStridedSlice S1x800000 ![1, 0] (W0 (Proc.devRef .tc main_arg1)) slices_S2x800000_S1x800000_1_0) shapeCasts_S1x800000_S800000
/-- The three layers' weight matrices. -/
abbrev weight0 (W0 : Valuation τ sig (Elt Ideal)) : FVec Ideal S64x64 .f32 := (shapeCast S64x64 (extractStridedSlice S1x64x64 ![0, 0, 0] (W0 (Proc.devRef .tc main_arg3)) slices_S3x64x64_S1x64x64_0_0_0) shapeCasts_S1x64x64_S64x64)
abbrev weight1 (W0 : Valuation τ sig (Elt Ideal)) : FVec Ideal S64x64 .f32 := (shapeCast S64x64 (extractStridedSlice S1x64x64 ![1, 0, 0] (W0 (Proc.devRef .tc main_arg3)) slices_S3x64x64_S1x64x64_1_0_0) shapeCasts_S1x64x64_S64x64)
abbrev weight2 (W0 : Valuation τ sig (Elt Ideal)) : FVec Ideal S64x64 .f32 := (shapeCast S64x64 (extractStridedSlice S1x64x64 ![2, 0, 0] (W0 (Proc.devRef .tc main_arg3)) slices_S3x64x64_S1x64x64_2_0_0) shapeCasts_S1x64x64_S64x64)

/-! ## The three layers along the stages -/

/-- Layer 1 of the reference, from the contents at launch. -/
theorem ref_layer1 (W0 : Valuation τ sig (Elt Ideal)) (p : Fin 50000) (q : Fin 64) :
    R3 W0 (Proc.devRef .tc main_v82) (ix2 p q)
      = layerFn (W0 (Proc.devRef .tc main_arg0)) (weight0 W0)
          (fun q => W0 (Proc.devRef .tc main_arg4) (ix2 (0 : Fin 3) q)) (fun q => W0 (Proc.devRef .tc main_arg5) (ix2 (0 : Fin 3) q))
          (fun q => W0 (Proc.devRef .tc main_arg6) (ix2 (0 : Fin 3) q)) (edgeRow0 W0) (edgeRow1 W0) (W0 (Proc.devRef .tc main_arg2)) p q := by
  refine (bn_reference1 (R2 W0) p q).trans ?_
  refine layerFn_of _ _ _ _ _ _ _ _ _ (W0 (Proc.devRef .tc main_arg4)) (W0 (Proc.devRef .tc main_arg5)) (W0 (Proc.devRef .tc main_arg6)) (0 : Fin 3) ?_ ?_ ?_ ?_ p q
  · rw [show R2 W0 (Proc.devRef .tc main_v53) = _ from agg_reference1 (R1 W0)]
    rw [show R1 W0 (Proc.devRef .tc main_v12) = _ from pre1_v12 W0, show R1 W0 (Proc.devRef .tc main_v1) = _ from pre1_v1 W0,
      show R1 W0 (Proc.devRef .tc main_v3) = _ from pre1_v3 W0, keep_arg_1 W0 main_arg2 (by decide)]
  · intro q
    rw [keep_v7_2, show R1 W0 (Proc.devRef .tc main_v7) = _ from pre1_v7 W0]
    exact Cert.KernelIdeal.RegValue.bias_vec_at _ ![0, 0] (0 : Fin 3) rfl slices_S3x64_S1x64_0_0 q
  · intro q
    unfold vecAt
    rw [keep_v9_2, show R1 W0 (Proc.devRef .tc main_v9) = _ from pre1_v9 W0]
    exact Cert.KernelIdeal.RegValue.bias_vec_at _ ![0, 0] (0 : Fin 3) rfl slices_S3x64_S1x64_0_0 q
  · intro q
    unfold vecAt
    rw [keep_v11_2, show R1 W0 (Proc.devRef .tc main_v11) = _ from pre1_v11 W0]
    exact Cert.KernelIdeal.RegValue.bias_vec_at _ ![0, 0] (0 : Fin 3) rfl slices_S3x64_S1x64_0_0 q

/-- Layer 2 of the reference, from the contents at launch. -/
theorem ref_layer2 (W0 : Valuation τ sig (Elt Ideal)) (p : Fin 50000) (q : Fin 64) :
    R6 W0 (Proc.devRef .tc main_v161) (ix2 p q)
      = layerFn (R3 W0 (Proc.devRef .tc main_v82)) (weight1 W0)
          (fun q => W0 (Proc.devRef .tc main_arg4) (ix2 (1 : Fin 3) q)) (fun q => W0 (Proc.devRef .tc main_arg5) (ix2 (1 : Fin 3) q))
          (fun q => W0 (Proc.devRef .tc main_arg6) (ix2 (1 : Fin 3) q)) (edgeRow0 W0) (edgeRow1 W0) (W0 (Proc.devRef .tc main_arg2)) p q := by
  refine (bn_reference2 (R5 W0) p q).trans ?_
  refine layerFn_of _ _ _ _ _ _ _ _ _ (W0 (Proc.devRef .tc main_arg4)) (W0 (Proc.devRef .tc main_arg5)) (W0 (Proc.devRef .tc main_arg6)) (1 : Fin 3) ?_ ?_ ?_ ?_ p q
  · rw [show R5 W0 (Proc.devRef .tc main_v132) = _ from agg_reference2 (R4 W0)]
    rw [keep_v1_4, keep_v3_4, keep_arg_4 W0 main_arg2 (by decide),
      show R4 W0 (Proc.devRef .tc main_v91) = _ from pre2_v91 (R3 W0),
      show R1 W0 (Proc.devRef .tc main_v1) = _ from pre1_v1 W0, show R1 W0 (Proc.devRef .tc main_v3) = _ from pre1_v3 W0,
      keep_arg_3 W0 main_arg3 (by decide)]
  · intro q
    rw [keep_v86_5, show R4 W0 (Proc.devRef .tc main_v86) = _ from pre2_v86 (R3 W0), keep_arg_3 W0 main_arg4 (by decide)]
    exact Cert.KernelIdeal.RegValue.bias_vec_at _ ![1, 0] (1 : Fin 3) rfl slices_S3x64_S1x64_1_0 q
  · intro q
    unfold vecAt
    rw [keep_v88_5, show R4 W0 (Proc.devRef .tc main_v88) = _ from pre2_v88 (R3 W0), keep_arg_3 W0 main_arg5 (by decide)]
    exact Cert.KernelIdeal.RegValue.bias_vec_at _ ![1, 0] (1 : Fin 3) rfl slices_S3x64_S1x64_1_0 q
  · intro q
    unfold vecAt
    rw [keep_v90_5, show R4 W0 (Proc.devRef .tc main_v90) = _ from pre2_v90 (R3 W0), keep_arg_3 W0 main_arg6 (by decide)]
    exact Cert.KernelIdeal.RegValue.bias_vec_at _ ![1, 0] (1 : Fin 3) rfl slices_S3x64_S1x64_1_0 q

/-- Layer 3 of the reference, from the contents at launch. -/
theorem ref_layer3 (W0 : Valuation τ sig (Elt Ideal)) (p : Fin 50000) (q : Fin 64) :
    R9 W0 (Proc.devRef .tc main_v240) (ix2 p q)
      = layerFn (R6 W0 (Proc.devRef .tc main_v161)) (weight2 W0)
          (fun q => W0 (Proc.devRef .tc main_arg4) (ix2 (2 : Fin 3) q)) (fun q => W0 (Proc.devRef .tc main_arg5) (ix2 (2 : Fin 3) q))
          (fun q => W0 (Proc.devRef .tc main_arg6) (ix2 (2 : Fin 3) q)) (edgeRow0 W0) (edgeRow1 W0) (W0 (Proc.devRef .tc main_arg2)) p q := by
  refine (bn_reference3 (R8 W0) p q).trans ?_
  refine layerFn_of _ _ _ _ _ _ _ _ _ (W0 (Proc.devRef .tc main_arg4)) (W0 (Proc.devRef .tc main_arg5)) (W0 (Proc.devRef .tc main_arg6)) (2 : Fin 3) ?_ ?_ ?_ ?_ p q
  · rw [show R8 W0 (Proc.devRef .tc main_v211) = _ from agg_reference3 (R7 W0)]
    rw [keep_v1_7, keep_v3_7, keep_arg_7 W0 main_arg2 (by decide),
      show R7 W0 (Proc.devRef .tc main_v170) = _ from pre3_v170 (R6 W0),
      show R1 W0 (Proc.devRef .tc main_v1) = _ from pre1_v1 W0, show R1 W0 (Proc.devRef .tc main_v3) = _ from pre1_v3 W0,
      keep_arg_6 W0 main_arg3 (by decide)]
  · intro q
    rw [keep_v165_8, show R7 W0 (Proc.devRef .tc main_v165) = _ from pre3_v165 (R6 W0), keep_arg_6 W0 main_arg4 (by decide)]
    exact Cert.KernelIdeal.RegValue.bias_vec_at _ ![2, 0] (2 : Fin 3) rfl slices_S3x64_S1x64_2_0 q
  · intro q
    unfold vecAt
    rw [keep_v167_8, show R7 W0 (Proc.devRef .tc main_v167) = _ from pre3_v167 (R6 W0), keep_arg_6 W0 main_arg5 (by decide)]
    exact Cert.KernelIdeal.RegValue.bias_vec_at _ ![2, 0] (2 : Fin 3) rfl slices_S3x64_S1x64_2_0 q
  · intro q
    unfold vecAt
    rw [keep_v169_8, show R7 W0 (Proc.devRef .tc main_v169) = _ from pre3_v169 (R6 W0), keep_arg_6 W0 main_arg6 (by decide)]
    exact Cert.KernelIdeal.RegValue.bias_vec_at _ ![2, 0] (2 : Fin 3) rfl slices_S3x64_S1x64_2_0 q

/-! ## The result: the three layer outputs stacked -/

theorem ref_result (W0 : Valuation τ sig (Elt Ideal)) :
    after (RefRun.ops (F := Ideal)) W0 (Proc.devRef .tc main_v244)
      = concatenate S3x50000x64 0 [⟨S1x50000x64, broadcastInDim S1x50000x64 ![1, 2] bcast_S50000x64_S1x50000x64_1_2 (R3 W0 (Proc.devRef .tc main_v82))⟩, ⟨S1x50000x64, broadcastInDim S1x50000x64 ![1, 2] bcast_S50000x64_S1x50000x64_1_2 (R6 W0 (Proc.devRef .tc main_v161))⟩, ⟨S1x50000x64, broadcastInDim S1x50000x64 ![1, 2] bcast_S50000x64_S1x50000x64_1_2 (R9 W0 (Proc.devRef .tc main_v240))⟩]
          concatenates_S1x50000x64_S1x50000x64_S1x50000x64_S3x50000x64_d0 := by
  rw [after_ops, show R10 W0 (Proc.devRef .tc main_v244) = _ from tail_v244 (R9 W0), keep_v82_9, keep_v161_9]

end Cert.ReferenceIdeal.RefValue

end
-- ==== Proof.Ideal.LayerMeets.lean ====
/- One layer of the idealized kernel meets the reference's layer function.
   The kernel normalizes a column with folded scale and shift; the reference centres it. On a column of reals, with
   real scale and shift parameters, the two agree (the variance identity and a regrouping over the reals), and the
   result is again real — which is what the next layer needs of its input. -/
import proofs.«132734_j72301479461275_2_alg».proof.Proof.Ideal.RefLayers
import proofs.«132734_j72301479461275_2_alg».proof.Proof.Ideal.LayerJoin
import proofs.«132734_j72301479461275_2_alg».proof.Proof.Ideal.ProductReal
import proofs.«132734_j72301479461275_2_alg».proof.Proof.Ideal.AggReal

noncomputable section

namespace Cert.LayerJoin

open Idealize.ShloMosaic Idealize.ShloMosaic.ValueIdx LibRealClosure
open Cert.ReferenceIdeal.RefValue (layerFn layerFn_def layerFn_real prodArr)

/-- A kernel column that is, entry by entry, the rectified biased aggregation of the product array — with real
    inputs throughout — normalizes to the reference's layer function at that column, and the result is real. -/
theorem kernel_layer_is_layerFn
    (x : Cert.ReferenceIdeal.S50000x64.Idx → EReal) (wk : Cert.ReferenceIdeal.S64x64.Idx → EReal)
    (bk gk bek : Fin 64 → EReal) (e1 e3 : IVec Cert.ReferenceIdeal.S800000 32) (ew : Cert.ReferenceIdeal.S800000.Idx → EReal)
    (col : Fin 50000 → Fin 64 → EReal) (γ β : Fin 64 → EReal)
    (hcol : ∀ p q, col p q = max (Cert.Agg.agg (F := Ideal) (prodArr x wk) e1 e3 ew (ix2 p q) + bk q) 0)
    (hγ : ∀ q, γ q = gk q) (hβ : ∀ q, β q = bek q)
    (hx : AllReal x) (hw : AllReal wk) (hb : ∀ q, IsReal (bk q)) (hg : ∀ q, IsReal (gk q)) (hbe : ∀ q, IsReal (bek q))
    (hew : AllReal ew) (p : Fin 50000) (q : Fin 64) :
    Cert.BnAlgebra.kernelOut (fun p' => col p' q) (γ q) (β q) p = layerFn x wk bk gk bek e1 e3 ew p q
      ∧ IsReal (layerFn x wk bk gk bek e1 e3 ew p q) := by
  have hprod : AllReal (prodArr x wk) := allReal_rows _ fun p q => rowDot_real x wk hx hw p q
  have hagg : AllReal (Cert.Agg.agg (F := Ideal) (prodArr x wk) e1 e3 ew) := Cert.Agg.agg_real _ e1 e3 ew hprod hew
  have hcolreal : ∀ p', IsReal (col p' q) := fun p' => by
    rw [hcol]; exact relu_col_real _ _ (hagg _) (hb q)
  have hj := join_columns (fun p' => col p' q)
    (fun p' => max (Cert.Agg.agg (F := Ideal) (prodArr x wk) e1 e3 ew (ix2 p' q) + bk q) 0)
    (γ q) (β q) (gk q) (bek q) (fun p' => hcol p' q) (hγ q) (hβ q) hcolreal (hγ q ▸ hg q) (hβ q ▸ hbe q) p
  refine ⟨hj.1.trans (layerFn_def x wk bk gk bek e1 e3 ew p q).symm, ?_⟩
  exact layerFn_real x wk bk gk bek e1 e3 ew hx hw hb hg hbe hew p q

end Cert.LayerJoin

end
-- ==== Proof.Ideal.Values1.lean ====
/- The idealized kernel's values along its run: layer 1.
   Region 0 leaves the product of the node features with the first weight matrix; three host stretches aggregate it
   over the edges; region 1 adds the bias, rectifies, and sums each column and its squares; a host stretch turns the
   sums into a scale and a shift per column; region 2 applies them. Read back over the launch contents, the layer's
   output is the reference's layer function of the arguments, and it is real when the arguments are. -/
import proofs.«132734_j72301479461275_2_alg».proof.Proof.Ideal.RunValue
import proofs.«132734_j72301479461275_2_alg».proof.Proof.Ideal.Matmul0Value
import proofs.«132734_j72301479461275_2_alg».proof.Proof.Ideal.Bn1Value
import proofs.«132734_j72301479461275_2_alg».proof.Proof.Ideal.Affine2Value
import proofs.«132734_j72301479461275_2_alg».proof.Proof.Ideal.AggKernel
import proofs.«132734_j72301479461275_2_alg».proof.Proof.Ideal.LayerKernel
import proofs.«132734_j72301479461275_2_alg».proof.Proof.Ideal.KernelStages
import proofs.«132734_j72301479461275_2_alg».proof.Proof.Ideal.RefLayers
import proofs.«132734_j72301479461275_2_alg».proof.Proof.Ideal.LayerMeets
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## What each region's output buffers hold when the region is left

The exit valuation read at an output buffer is the leavings read there, which is the fold of the region's
write-backs over the contents it was entered with. -/

/-- After region 0 the product buffer holds the pipeline's final array. -/
theorem v2_main_v6 (c : Dev nD) :
    V2 m (outs m) c main_v6 = (dat0 (F := Ideal) (fun c b => V1 m c b) c).arrAt 2 cfg0.N := by
  have hkey : V2 m (outs m) c main_v6 = outs m 2 main_v6 c := Function.update_self _ _ _
  rw [hkey]
  show lv0 m c main_v6 = _
  unfold lv0
  exact Pipeline.withArrays_arr spec0 launch0.win.arr_inj c (V1 m c)
    (fun w => (dat0 (fun c b => V1 m c b) c).arrAt w cfg0.N) 2

/-- … which at row `p`, column `q` is the row of the node features against the column of the first weight matrix. -/
theorem v2_main_v6_apply (c : Dev nD) (p : Fin 50000) (q : Fin 64) :
    V2 m (outs m) c main_v6 (ix2 p q)
      = RegValue.rowDot (V1 m c main_arg0) (V1 m c main_v5) p q := by
  rw [v2_main_v6]
  exact RegValue.final0_2 (fun c b => V1 m c b) c p q

/-! ## Layer 1 along the run

The product buffer feeds the three aggregation stretches; their result and the bias row are what region 1 is entered
with; what region 1 leaves feeds the scale-and-shift stretch; region 2 applies them. -/

/-- What region 1 leaves in its three outputs. -/
theorem v6_out (c : Dev nD) (w : Fin 3) :
    (V6 m (outs m) c main_v51_0 = (dat1 (F := Ideal) (fun c b => V5 m (oo1 m) c b) c).arrAt 2 cfg1.N)
    ∧ (V6 m (outs m) c main_v51_1 = (dat1 (F := Ideal) (fun c b => V5 m (oo1 m) c b) c).arrAt 3 cfg1.N)
    ∧ (V6 m (outs m) c main_v51_2 = (dat1 (F := Ideal) (fun c b => V5 m (oo1 m) c b) c).arrAt 4 cfg1.N) :=
  ⟨(hF1_2 m (outs m) (fun _ _ => rfl) c).symm, (hF1_3 m (outs m) (fun _ _ => rfl) c).symm, (hF1_4 m (outs m) (fun _ _ => rfl) c).symm⟩

/-- What region 2 leaves in its output. -/
theorem v8_out (c : Dev nD) :
    V8 m (outs m) c main_v77 = (dat2 (F := Ideal) (fun c b => V7 m (oo2 m) c b) c).arrAt 3 cfg2.N :=
  (hF2_3 m (outs m) (fun _ _ => rfl) c).symm

/-- The aggregation buffer region 1 is entered with is the shared aggregation of the product buffer, the two edge
    rows and the edge weights, all read where region 0 was left. -/
theorem v5_agg (c : Dev nD) :
    V5 m (outs m) c main_v47
      = Cert.Agg.agg (F := Ideal) (V2 m (outs m) c main_v6) (V2 m (outs m) c main_v1) (V2 m (outs m) c main_v3) (V2 m (outs m) c main_arg2) :=
  RegValue.agg_kernel1 (F := Ideal) (V2 m (outs m) c)

/-! ### Layer 1's output along the run -/

/-- The contents region 2 is entered with, read over the whole family of leavings. -/
theorem v7_eq (c : Dev nD) : V7 m (oo2 m) c = StableHlo.after hostOps2 (V6 m (outs m) c) := by
  rw [← ent2' m c]

/-- After region 2 the layer's output buffer at row `p`, column `q` is the kernel's normalization of the rectified
    column that region 1 produced, with the first rows of the scale and shift parameters. -/
theorem v8_kernelOut (c : Dev nD) (p : Fin 50000) (q : Fin 64) :
    V8 m (outs m) c main_v77 (ix2 p q)
      = Cert.BnAlgebra.kernelOut (fun p' => RegValue.bn1_r (fun c b => V5 m (oo1 m) c b) c p' q)
          (RegValue.bnk_gam (V6 m (outs m) c) (ix2 (0 : Fin 3) q)) (RegValue.bnk_bet (V6 m (outs m) c) (ix2 (0 : Fin 3) q)) p := by
  rw [v8_out]
  refine RegValue.layer1_kernel (fun c b => V5 m (oo1 m) c b) (fun c b => V7 m (oo2 m) c b) (V6 m (outs m) c) c
    (fun i => congrFun (v6_out m c 0).1 i) (fun i => congrFun (v6_out m c 0).2.1 i) (fun i => congrFun (v6_out m c 0).2.2 i)
    (fun i => ?_) (fun i => ?_) (fun i => ?_) p q
  · -- the relu array passes through the scale-and-shift stretch
    show V7 m (oo2 m) c main_v51_0 i = _
    rw [v7_eq]
    exact congrFun (StableHlo.after_of_writes_sub (r := main_v51_0) hostOps2 _ hostOps2_writes (by decide)) i
  · show V7 m (oo2 m) c main_v68 i = _
    rw [v7_eq]
  · show V7 m (oo2 m) c main_v76 i = _
    rw [v7_eq]

/-! ## The launch-side buffers along the run

An argument, and each buffer the first host stretch makes from the arguments (the two edge rows and the first weight
matrix), keeps its contents through every later item that does not write it. -/

/-- The launch contents as a valuation. -/
abbrev W0 (c : Dev nD) : Valuation τ sig (Elt Ideal) := V0 m c

/-- Row `n` of the edge list as a vector of 800000 node numbers, from the launch contents. -/
abbrev kEdge0 (c : Dev nD) : IVec S800000 32 :=
  shapeCast S800000 (extractStridedSlice S1x800000 ![0, 0] (W0 m c main_arg1) slices_S2x800000_S1x800000_0_0) shapeCasts_S1x800000_S800000
abbrev kEdge1 (c : Dev nD) : IVec S800000 32 :=
  shapeCast S800000 (extractStridedSlice S1x800000 ![1, 0] (W0 m c main_arg1) slices_S2x800000_S1x800000_1_0) shapeCasts_S1x800000_S800000
/-- The first layer's weight matrix, from the launch contents. -/
abbrev kWeight0 (c : Dev nD) : FVec Ideal S64x64 .f32 :=
  shapeCast S64x64 (extractStridedSlice S1x64x64 ![0, 0, 0] (W0 m c main_arg3) slices_S3x64x64_S1x64x64_0_0_0) shapeCasts_S1x64x64_S64x64

theorem v1_main_v1 (c : Dev nD) : V1 m c main_v1 = kEdge0 m c := RegValue.k0_v1 (F := Ideal) (W0 m c)
theorem v1_main_v3 (c : Dev nD) : V1 m c main_v3 = kEdge1 m c := RegValue.k0_v3 (F := Ideal) (W0 m c)
theorem v1_main_v5 (c : Dev nD) : V1 m c main_v5 = kWeight0 m c := RegValue.k0_v5 (F := Ideal) (W0 m c)
theorem v1_main_arg0 (c : Dev nD) : V1 m c main_arg0 = W0 m c main_arg0 := V1_of m c main_arg0 (by decide)
theorem v1_main_arg2 (c : Dev nD) : V1 m c main_arg2 = W0 m c main_arg2 := V1_of m c main_arg2 (by decide)

/-- Where region 0 is left: the edge rows and the edge weights as launched, the product buffer the product array. -/
theorem v2_main_v1 (c : Dev nD) : V2 m (outs m) c main_v1 = kEdge0 m c := (V2_of m (outs m) c main_v1 (by decide)).trans (v1_main_v1 m c)
theorem v2_main_v3 (c : Dev nD) : V2 m (outs m) c main_v3 = kEdge1 m c := (V2_of m (outs m) c main_v3 (by decide)).trans (v1_main_v3 m c)
theorem v2_main_arg2 (c : Dev nD) : V2 m (outs m) c main_arg2 = W0 m c main_arg2 :=
  (V2_of m (outs m) c main_arg2 (by decide)).trans (v1_main_arg2 m c)
theorem v2_main_v6_prod (c : Dev nD) :
    V2 m (outs m) c main_v6 = Cert.ReferenceIdeal.RefValue.prodArr (W0 m c main_arg0) (kWeight0 m c) :=
  Cert.ReferenceIdeal.RefValue.prodArr_of_entries _ _ _ fun p q => by
    rw [v2_main_v6_apply, v1_main_arg0, v1_main_v5]

/-- The aggregation buffer region 1 is entered with, over the launch contents. -/
theorem v5_main_v47 (c : Dev nD) :
    V5 m (oo1 m) c main_v47
      = Cert.Agg.agg (F := Ideal) (Cert.ReferenceIdeal.RefValue.prodArr (W0 m c main_arg0) (kWeight0 m c)) (kEdge0 m c) (kEdge1 m c) (W0 m c main_arg2) := by
  rw [← ent1' m c, v5_agg, v2_main_v6_prod, v2_main_v1, v2_main_v3, v2_main_arg2]

/-! ### Layer 1 closes: the output buffer is the reference's layer function of the launch contents -/

/-- An argument passes through the first host stretch, region 0 and the first two aggregation stretches. -/
theorem v4_arg (c : Dev nD) (r : Ref sig .tc) (h0 : r ∉ hostOps0_W) (h2 : r ∉ ([main_v6] : List (Ref sig .tc)))
    (h3 : r ∉ hostOps1_W) (h4 : r ∉ hostOps1_1_W) : V4 m (outs m) c r = W0 m c r :=
  (V4_of m (outs m) c r h4).trans ((V3_of m (outs m) c r h3).trans ((V2_of m (outs m) c r h2).trans (V1_of m c r h0)))

/-- The bias row region 1 is entered with, at column `q`: the first row of the bias argument. -/
theorem v5_main_v50_apply (c : Dev nD) (q : Fin 64) :
    V5 m (oo1 m) c main_v50 (ix2 (0 : Fin 1) q) = W0 m c main_arg4 (ix2 (0 : Fin 3) q) := by
  rw [← ent1' m c]
  show StableHlo.after hostOps1_2 (V4 m (outs m) c) main_v50 (ix2 (0 : Fin 1) q) = _
  rw [RegValue.k1_v50 (F := Ideal) (V4 m (outs m) c), v4_arg m c main_arg4 (by decide) (by decide) (by decide) (by decide)]
  exact RegValue.bias_row_at (W0 m c main_arg4) ![0, 0] 0 rfl slices_S3x64_S1x64_0_0 q

/-- The rectified column region 1 produces, over the launch contents. -/
theorem bn1_col (c : Dev nD) (p : Fin 50000) (q : Fin 64) :
    RegValue.bn1_r (fun c b => V5 m (oo1 m) c b) c p q
      = max (Cert.Agg.agg (F := Ideal) (Cert.ReferenceIdeal.RefValue.prodArr (W0 m c main_arg0) (kWeight0 m c)) (kEdge0 m c) (kEdge1 m c)
              (W0 m c main_arg2) (ix2 p q) + W0 m c main_arg4 (ix2 (0 : Fin 3) q)) 0 := by
  have hx : RegValue.bn1_x (fun c b => V5 m (oo1 m) c b) c (ix2 p q)
      = Cert.Agg.agg (F := Ideal) (Cert.ReferenceIdeal.RefValue.prodArr (W0 m c main_arg0) (kWeight0 m c)) (kEdge0 m c) (kEdge1 m c)
          (W0 m c main_arg2) (ix2 p q) := congrFun (v5_main_v47 m c) (ix2 p q)
  have hb : RegValue.bn1_b (fun c b => V5 m (oo1 m) c b) c (ix2 (0 : Fin 1) q) = W0 m c main_arg4 (ix2 (0 : Fin 3) q) :=
    v5_main_v50_apply m c q
  unfold RegValue.bn1_r
  rw [hx, hb]

/-- The scale and shift parameters the second host stretch reads are the arguments as launched. -/
theorem v6_gam (c : Dev nD) (q : Fin 64) (k : Fin 3) :
    RegValue.bnk_gam (V6 m (outs m) c) (ix2 k q) = W0 m c main_arg5 (ix2 k q) := by
  show V6 m (outs m) c main_arg5 (ix2 k q) = _
  rw [V6_of m (outs m) c main_arg5 (by decide), V5_of m (outs m) c main_arg5 (by decide),
    v4_arg m c main_arg5 (by decide) (by decide) (by decide) (by decide)]
theorem v6_bet (c : Dev nD) (q : Fin 64) (k : Fin 3) :
    RegValue.bnk_bet (V6 m (outs m) c) (ix2 k q) = W0 m c main_arg6 (ix2 k q) := by
  show V6 m (outs m) c main_arg6 (ix2 k q) = _
  rw [V6_of m (outs m) c main_arg6 (by decide), V5_of m (outs m) c main_arg6 (by decide),
    v4_arg m c main_arg6 (by decide) (by decide) (by decide) (by decide)]

open LibRealClosure in
/-- LAYER 1. With real arguments, after region 2 the layer's output buffer at row `p`, column `q` is the
    reference's layer function of the launch contents, and it is real. -/
theorem layer1 (c : Dev nD)
    (h0 : AllReal (W0 m c main_arg0)) (h2 : AllReal (W0 m c main_arg2)) (h3 : AllReal (W0 m c main_arg3))
    (h4 : AllReal (W0 m c main_arg4)) (h5 : AllReal (W0 m c main_arg5)) (h6 : AllReal (W0 m c main_arg6))
    (p : Fin 50000) (q : Fin 64) :
    V8 m (outs m) c main_v77 (ix2 p q)
        = Cert.ReferenceIdeal.RefValue.layerFn (W0 m c main_arg0) (kWeight0 m c)
            (fun q => W0 m c main_arg4 (ix2 (0 : Fin 3) q)) (fun q => W0 m c main_arg5 (ix2 (0 : Fin 3) q))
            (fun q => W0 m c main_arg6 (ix2 (0 : Fin 3) q)) (kEdge0 m c) (kEdge1 m c) (W0 m c main_arg2) p q
      ∧ IsReal (V8 m (outs m) c main_v77 (ix2 p q)) := by
  have hk := Cert.LayerJoin.kernel_layer_is_layerFn (W0 m c main_arg0) (kWeight0 m c)
    (fun q => W0 m c main_arg4 (ix2 (0 : Fin 3) q)) (fun q => W0 m c main_arg5 (ix2 (0 : Fin 3) q))
    (fun q => W0 m c main_arg6 (ix2 (0 : Fin 3) q)) (kEdge0 m c) (kEdge1 m c) (W0 m c main_arg2)
    (fun p q => RegValue.bn1_r (fun c b => V5 m (oo1 m) c b) c p q)
    (fun q => RegValue.bnk_gam (V6 m (outs m) c) (ix2 (0 : Fin 3) q)) (fun q => RegValue.bnk_bet (V6 m (outs m) c) (ix2 (0 : Fin 3) q))
    (fun p q => bn1_col m c p q) (fun q => v6_gam m c q 0) (fun q => v6_bet m c q 0)
    h0 (Cert.LayerJoin.slice_w0_real _ h3) (fun q => h4 _) (fun q => h5 _) (fun q => h6 _) h2 p q
  rw [v8_kernelOut]
  exact ⟨hk.1, hk.1 ▸ hk.2⟩

end Cert.KernelIdeal.Reg

end
-- ==== Proof.Ideal.Matmul3Value.lean ====
/- Region 3 (a row-block matrix product): the value half, at the exact values. The array the region leaves in
   its output window is the product of the two arrays it finds in its input windows: entry (p, q) is the sum over k
   of left (p, k) times right (k, q). -/
import proofs.«132734_j72301479461275_2_alg».proof.Proof.Ideal.Matmul3
import proofs.«132734_j72301479461275_2_alg».proof.Proof.Ideal.MatmulSum
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off3 : (![0, 0] : Fin 2 → Nat) = fun _ => 0 := funext fun a => by fin_cases a <;> rfl

/-- The stored value at local entry (p, q): both roundings are the identity at the exact values, so it is the sum
    over k of the loaded block's (p, k) times the loaded matrix's (k, q). -/
theorem pay3_apply (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  rw [matmul_zero_apply]
  refine Finset.sum_congr rfl fun k _ => ?_
  rw [truncf_apply, truncf_apply]
  simp only [shapeCast_self]

/-! ## The product of the whole arrays -/

/-- The product of a [50000,64] array and a [64,64] array, index by index. -/
def prod3 (a : S50000x64.Idx → EReal) (w : S64x64.Idx → EReal) : S50000x64.Idx → EReal :=
  fun i => rowDot a w (⟨(i 0).val, (i 0).isLt⟩ : Fin 50000) (⟨(i 1).val, (i 1).isLt⟩ : Fin 64)

/-- The stored value of a row block, at a local index `j`, is the product at the array index `i` that `j` sits at:
    row `b * 10000 + j 0`, column `j 1`, when the loaded block is rows `b * 10000 …` of `a` and the loaded matrix is `w`. -/
theorem pay3_at (x0 : Vec Ideal S10000x64 .f32) (x1 : Vec Ideal S64x64 .f32) (a : S50000x64.Idx → EReal) (w : S64x64.Idx → EReal)
    (j : S10000x64.Idx) (i : S50000x64.Idx) (b : ℕ)
    (hi0 : (i 0).val = b * 10000 + (j 0).val) (hi1 : (i 1).val = (j 1).val)
    (h0 : ∀ (y : S10000x64.Idx) (z : S50000x64.Idx), (z 0).val = b * 10000 + (y 0).val → (z 1).val = (y 1).val → x0 y = a z)
    (h1 : ∀ y : S64x64.Idx, x1 y = w y) :
    k3_pay1 x0 x1 j = prod3 a w i := by
  obtain ⟨p, q, rfl⟩ : ∃ (p : Fin 10000) (q : Fin 64), j = ix2 p q := ⟨j 0, j 1, eq_ix2 j⟩
  rw [pay3_apply]
  unfold prod3 rowDot
  refine Finset.sum_congr rfl fun k _ => ?_
  rw [h0 (ix2 p k) (ix2 (⟨(i 0).val, (i 0).isLt⟩ : Fin 50000) k) hi0 rfl, h1]
  have e : (⟨(i 1).val, (i 1).isLt⟩ : Fin 64) = q := Fin.ext hi1
  rw [e]

/-! ## From the blocks to the array -/

/-- The printed index maps over the grid: the left block and the output block move together down the rows, one
    block per point; the matrix stays at block (0, 0). -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 4
    ∧ win3_2.index t (1 : Fin 2) = 0 :=
  (by decide +kernel : ∀ t : Fin grid3.N, _)

/-- Every row block is some point's. -/
theorem idx_onto3 : ∀ (q0 : Fin 5), ∃ t : Fin cfg3.N, win3_2.index t = ![q0.val, 0] :=
  (by decide +kernel : ∀ (q0 : Fin 5), ∃ t : Fin grid3.N, win3_2.index t = ![q0.val, 0])

/-- What point `t` writes back is block `t` of the product of the two arrays found on entry. -/
theorem flushed3_eq (c : Dev nD) (t : Fin cfg3.N) :
    (dat3 V c).flushed 2 t = ((cfg3.win 2).blk t).view.read (Elt Ideal) (prod3 (V c main_v77) (V c main_v79)) := by
  show (cfg3.win 2).cut (grid3.coords t) ((dat3 V c).after 2 t) = _
  rw [after3_2]
  unfold out3_2
  rw [View.canon_unit_zero zero_off3]
  simp only [View.ld_unit_zero (S := S10000x64) zero_off3, View.ld_unit_zero (S := S64x64) zero_off3]
  obtain ⟨e0, e1, e2, e3, e4, e5⟩ := idx_facts3 t
  funext j
  show k3_pay1 (iblk3 V c 0 t) (iblk3 V c 1 t) j = prod3 (V c main_v77) (V c main_v79) (((cfg3.win 2).blk t).view.emb j)
  refine pay3_at _ _ _ _ j _ (win3_2.index t (0 : Fin 2)) ?_ ?_ ?_ ?_
  · show win3_2.index t (0 : Fin 2) * 10000 + 1 * (j 0).val = _
    omega
  · show win3_2.index t (1 : Fin 2) * 64 + 1 * (j 1).val = _
    omega
  · intro y z hz0 hz1
    show V c main_v77 (((cfg3.win 0).blk t).view.emb y) = V c main_v77 z
    refine congrArg _ (funext fun a => Fin.ext ?_)
    match a with
    | ⟨0, _⟩ => show win3_0.index t (0 : Fin 2) * 10000 + 1 * (y 0).val = (z 0).val; omega
    | ⟨1, _⟩ => show win3_0.index t (1 : Fin 2) * 64 + 1 * (y 1).val = (z 1).val; omega
  · intro y
    show V c main_v79 (((cfg3.win 1).blk t).view.emb y) = V c main_v79 y
    refine congrArg _ (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega

/-- An index of the array is in the block of point `t` iff each coordinate is in the block's range on its axis. -/
theorem mem_blk3 (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v80).slice (win3_2.rect t)).set ↔ _
  rw [View.set_slice_whole, Rect.mem_set_unit]
  exact Iff.rfl

/-- The five row blocks cover the array: row `r` is in block `r / 10000`. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region is the product of the two input arrays as found on entry. -/
theorem arr3_2 (c : Dev nD) : (dat3 (F := Ideal) V c).arrAt 2 cfg3.N = prod3 (V c main_v77) (V c main_v79) :=
  (dat3 V c).arrAt_eq_of_cover 2 (prod3 (V c main_v77) (V c main_v79)) (fun t _ => flushed3_eq V c t) cover3

/-- Entry (p, q) of the output array after the region. -/
theorem final3_2 (c : Dev nD) (p : Fin 50000) (q : Fin 64) :
    (Cert.KernelIdeal.Reg.dat3 (F := Ideal) V c).arrAt 2 cfg3.N (ix2 p q)
      = rowDot (V c main_v77) (V c main_v79) p q := by
  rw [arr3_2]
  rfl

end Cert.KernelIdeal.RegValue

end
-- ==== Proof.Ideal.Values2.lean ====
/- The idealized kernel's values along its run: layer 2.
   As layer 1 — product, aggregation over the edges, bias and rectifier with column sums, scale and shift, affine map —
   except that the product's left factor is the buffer layer 1 left, carried across the short stretch that slices the
   second weight matrix. -/
import proofs.«132734_j72301479461275_2_alg».proof.Proof.Ideal.Values1
import proofs.«132734_j72301479461275_2_alg».proof.Proof.Ideal.Matmul3Value
import proofs.«132734_j72301479461275_2_alg».proof.Proof.Ideal.Bn4Value
import proofs.«132734_j72301479461275_2_alg».proof.Proof.Ideal.Affine5Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## Layer 2 along the run

As layer 1, except that the product's left factor is not an argument but the buffer layer 1 left, carried across the
two-operation stretch that slices the second weight matrix. It enters as an array `x₁` known entry by entry. -/

/-- The second layer's weight matrix, from the launch contents. -/
abbrev kWeight1 (c : Dev nD) : FVec Ideal S64x64 .f32 :=
  shapeCast S64x64 (extractStridedSlice S1x64x64 ![1, 0, 0] (W0 m c main_arg3) slices_S3x64x64_S1x64x64_1_0_0) shapeCasts_S1x64x64_S64x64

/-- An argument passes through everything up to the end of layer 1. -/
theorem v8_arg (c : Dev nD) (r : Ref sig .tc) (h0 : r ∉ hostOps0_W) (h2 : r ∉ ([main_v6] : List (Ref sig .tc)))
    (h3 : r ∉ hostOps1_W) (h4 : r ∉ hostOps1_1_W) (h5 : r ∉ hostOps1_2_W)
    (h6 : r ∉ ([main_v51_0, main_v51_1, main_v51_2] : List (Ref sig .tc))) (h7 : r ∉ hostOps2_W)
    (h8 : r ∉ ([main_v77] : List (Ref sig .tc))) : V8 m (outs m) c r = W0 m c r :=
  (V8_of m (outs m) c r h8).trans ((V7_of m (outs m) c r h7).trans ((V6_of m (outs m) c r h6).trans
    ((V5_of m (outs m) c r h5).trans (v4_arg m c r h0 h2 h3 h4))))

/-- The edge rows pass through everything up to the end of layer 1 as well. -/
theorem v8_main_v1 (c : Dev nD) : V8 m (outs m) c main_v1 = kEdge0 m c :=
  (V8_of m (outs m) c main_v1 (by decide)).trans ((V7_of m (outs m) c main_v1 (by decide)).trans ((V6_of m (outs m) c main_v1 (by decide)).trans
    ((V5_of m (outs m) c main_v1 (by decide)).trans ((V4_of m (outs m) c main_v1 (by decide)).trans
      ((V3_of m (outs m) c main_v1 (by decide)).trans (v2_main_v1 m c))))))
theorem v8_main_v3 (c : Dev nD) : V8 m (outs m) c main_v3 = kEdge1 m c :=
  (V8_of m (outs m) c main_v3 (by decide)).trans ((V7_of m (outs m) c main_v3 (by decide)).trans ((V6_of m (outs m) c main_v3 (by decide)).trans
    ((V5_of m (outs m) c main_v3 (by decide)).trans ((V4_of m (outs m) c main_v3 (by decide)).trans
      ((V3_of m (outs m) c main_v3 (by decide)).trans (v2_main_v3 m c))))))

/-- Region 3 is entered with layer 1's output as left, and the second weight matrix. -/
theorem v9_main_v77 (c : Dev nD) : V9 m (outs m) c main_v77 = V8 m (outs m) c main_v77 := V9_of m (outs m) c main_v77 (by decide)
theorem v9_main_v79 (c : Dev nD) : V9 m (outs m) c main_v79 = kWeight1 m c := by
  show StableHlo.after hostOps3 (V8 m (outs m) c) main_v79 = _
  rw [RegValue.k3_v79 (F := Ideal) (V8 m (outs m) c),
    v8_arg m c main_arg3 (by decide) (by decide) (by decide) (by decide) (by decide) (by decide) (by decide) (by decide)]

/-- After region 3 the product buffer is the product array of layer 1's output with the second weight matrix. -/
theorem v10_main_v80_prod (c : Dev nD) (x₁ : S50000x64.Idx → EReal) (hx : ∀ p q, V8 m (outs m) c main_v77 (ix2 p q) = x₁ (ix2 p q)) :
    V10 m (outs m) c main_v80 = Cert.ReferenceIdeal.RefValue.prodArr x₁ (kWeight1 m c) := by
  have hout : V10 m (outs m) c main_v80 = (dat3 (F := Ideal) (fun c b => V9 m (oo3 m) c b) c).arrAt 2 cfg3.N :=
    (hF3_2 m (outs m) (fun _ _ => rfl) c).symm
  refine Cert.ReferenceIdeal.RefValue.prodArr_of_entries _ _ _ fun p q => ?_
  rw [hout, RegValue.final3_2 (fun c b => V9 m (oo3 m) c b) c p q]
  show RegValue.rowDot (V9 m (oo3 m) c main_v77) (V9 m (oo3 m) c main_v79) p q = _
  rw [← ent3 m c, v9_main_v79]
  have hx' : V9 m (outs m) c main_v77 = x₁ := funext fun i => by
    obtain ⟨p, q, rfl⟩ : ∃ (p : Fin 50000) (q : Fin 64), i = ix2 p q := ⟨i 0, i 1, eq_ix2 i⟩
    rw [v9_main_v77]; exact hx p q
  rw [hx']

/-- What region 4 leaves in its three outputs, and region 5 in its output. -/
theorem v14_out (c : Dev nD) :
    (V14 m (outs m) c main_v125_0 = (dat4 (F := Ideal) (fun c b => V13 m (oo4 m) c b) c).arrAt 2 cfg4.N)
    ∧ (V14 m (outs m) c main_v125_1 = (dat4 (F := Ideal) (fun c b => V13 m (oo4 m) c b) c).arrAt 3 cfg4.N)
    ∧ (V14 m (outs m) c main_v125_2 = (dat4 (F := Ideal) (fun c b => V13 m (oo4 m) c b) c).arrAt 4 cfg4.N) :=
  ⟨(hF4_2 m (outs m) (fun _ _ => rfl) c).symm, (hF4_3 m (outs m) (fun _ _ => rfl) c).symm, (hF4_4 m (outs m) (fun _ _ => rfl) c).symm⟩
theorem v16_out (c : Dev nD) :
    V16 m (outs m) c main_v151 = (dat5 (F := Ideal) (fun c b => V15 m (oo5 m) c b) c).arrAt 3 cfg5.N :=
  (hF5_3 m (outs m) (fun _ _ => rfl) c).symm

/-- The aggregation buffer region 4 is entered with is the shared aggregation of what region 3 left. -/
theorem v13_agg (c : Dev nD) :
    V13 m (outs m) c main_v121
      = Cert.Agg.agg (F := Ideal) (V10 m (outs m) c main_v80) (V10 m (outs m) c main_v1) (V10 m (outs m) c main_v3) (V10 m (outs m) c main_arg2) :=
  RegValue.agg_kernel2 (F := Ideal) (V10 m (outs m) c)

/-- An argument, and the edge rows, pass through layer 2's first items. -/
theorem v12_arg (c : Dev nD) (r : Ref sig .tc) (h0 : r ∉ hostOps0_W) (h2 : r ∉ ([main_v6] : List (Ref sig .tc)))
    (h3 : r ∉ hostOps1_W) (h4 : r ∉ hostOps1_1_W) (h5 : r ∉ hostOps1_2_W)
    (h6 : r ∉ ([main_v51_0, main_v51_1, main_v51_2] : List (Ref sig .tc))) (h7 : r ∉ hostOps2_W)
    (h8 : r ∉ ([main_v77] : List (Ref sig .tc))) (h9 : r ∉ hostOps3_W) (h10 : r ∉ ([main_v80] : List (Ref sig .tc)))
    (h11 : r ∉ hostOps4_W) (h12 : r ∉ hostOps4_1_W) : V12 m (outs m) c r = W0 m c r :=
  (V12_of m (outs m) c r h12).trans ((V11_of m (outs m) c r h11).trans ((V10_of m (outs m) c r h10).trans
    ((V9_of m (outs m) c r h9).trans (v8_arg m c r h0 h2 h3 h4 h5 h6 h7 h8))))
theorem v10_main_v1 (c : Dev nD) : V10 m (outs m) c main_v1 = kEdge0 m c :=
  (V10_of m (outs m) c main_v1 (by decide)).trans ((V9_of m (outs m) c main_v1 (by decide)).trans (v8_main_v1 m c))
theorem v10_main_v3 (c : Dev nD) : V10 m (outs m) c main_v3 = kEdge1 m c :=
  (V10_of m (outs m) c main_v3 (by decide)).trans ((V9_of m (outs m) c main_v3 (by decide)).trans (v8_main_v3 m c))
theorem v10_main_arg2 (c : Dev nD) : V10 m (outs m) c main_arg2 = W0 m c main_arg2 :=
  (V10_of m (outs m) c main_arg2 (by decide)).trans ((V9_of m (outs m) c main_arg2 (by decide)).trans
    (v8_arg m c main_arg2 (by decide) (by decide) (by decide) (by decide) (by decide) (by decide) (by decide) (by decide)))

/-- The aggregation buffer region 4 is entered with, over layer 1's output and the launch contents. -/
theorem v13_main_v121 (c : Dev nD) (x₁ : S50000x64.Idx → EReal) (hx : ∀ p q, V8 m (outs m) c main_v77 (ix2 p q) = x₁ (ix2 p q)) :
    V13 m (oo4 m) c main_v121
      = Cert.Agg.agg (F := Ideal) (Cert.ReferenceIdeal.RefValue.prodArr x₁ (kWeight1 m c)) (kEdge0 m c) (kEdge1 m c) (W0 m c main_arg2) := by
  rw [← ent4 m c, v13_agg, v10_main_v80_prod m c x₁ hx, v10_main_v1, v10_main_v3, v10_main_arg2]

/-- The bias row region 4 is entered with, at column `q`: the second row of the bias argument. -/
theorem v13_main_v124_apply (c : Dev nD) (q : Fin 64) :
    V13 m (oo4 m) c main_v124 (ix2 (0 : Fin 1) q) = W0 m c main_arg4 (ix2 (1 : Fin 3) q) := by
  rw [← ent4 m c]
  show StableHlo.after hostOps4_2 (V12 m (outs m) c) main_v124 (ix2 (0 : Fin 1) q) = _
  rw [RegValue.k4_v124 (F := Ideal) (V12 m (outs m) c),
    v12_arg m c main_arg4 (by decide) (by decide) (by decide) (by decide) (by decide) (by decide) (by decide) (by decide) (by decide) (by decide) (by decide) (by decide)]
  exact RegValue.bias_row_at (W0 m c main_arg4) ![1, 0] 1 rfl slices_S3x64_S1x64_1_0 q

/-- The rectified column region 4 produces. -/
theorem bn4_col (c : Dev nD) (x₁ : S50000x64.Idx → EReal) (hx : ∀ p q, V8 m (outs m) c main_v77 (ix2 p q) = x₁ (ix2 p q))
    (p : Fin 50000) (q : Fin 64) :
    RegValue.bn4_r (fun c b => V13 m (oo4 m) c b) c p q
      = max (Cert.Agg.agg (F := Ideal) (Cert.ReferenceIdeal.RefValue.prodArr x₁ (kWeight1 m c)) (kEdge0 m c) (kEdge1 m c)
              (W0 m c main_arg2) (ix2 p q) + W0 m c main_arg4 (ix2 (1 : Fin 3) q)) 0 := by
  have hxx : RegValue.bn4_x (fun c b => V13 m (oo4 m) c b) c (ix2 p q)
      = Cert.Agg.agg (F := Ideal) (Cert.ReferenceIdeal.RefValue.prodArr x₁ (kWeight1 m c)) (kEdge0 m c) (kEdge1 m c)
          (W0 m c main_arg2) (ix2 p q) := congrFun (v13_main_v121 m c x₁ hx) (ix2 p q)
  have hb : RegValue.bn4_b (fun c b => V13 m (oo4 m) c b) c (ix2 (0 : Fin 1) q) = W0 m c main_arg4 (ix2 (1 : Fin 3) q) :=
    v13_main_v124_apply m c q
  unfold RegValue.bn4_r
  rw [hxx, hb]

/-- The contents region 5 is entered with, and the scale and shift parameters the stretch before it reads. -/
theorem v15_eq (c : Dev nD) : V15 m (oo5 m) c = StableHlo.after hostOps5 (V14 m (outs m) c) := by
  rw [← ent5 m c]
theorem v14_gam (c : Dev nD) (q : Fin 64) (k : Fin 3) :
    RegValue.bnk_gam (V14 m (outs m) c) (ix2 k q) = W0 m c main_arg5 (ix2 k q) := by
  show V14 m (outs m) c main_arg5 (ix2 k q) = _
  rw [V14_of m (outs m) c main_arg5 (by decide), V13_of m (outs m) c main_arg5 (by decide),
    v12_arg m c main_arg5 (by decide) (by decide) (by decide) (by decide) (by decide) (by decide) (by decide) (by decide) (by decide) (by decide) (by decide) (by decide)]
theorem v14_bet (c : Dev nD) (q : Fin 64) (k : Fin 3) :
    RegValue.bnk_bet (V14 m (outs m) c) (ix2 k q) = W0 m c main_arg6 (ix2 k q) := by
  show V14 m (outs m) c main_arg6 (ix2 k q) = _
  rw [V14_of m (outs m) c main_arg6 (by decide), V13_of m (outs m) c main_arg6 (by decide),
    v12_arg m c main_arg6 (by decide) (by decide) (by decide) (by decide) (by decide) (by decide) (by decide) (by decide) (by decide) (by decide) (by decide) (by decide)]

/-- After region 5 the layer's output buffer is the kernel's normalization of the rectified column region 4 produced. -/
theorem v16_kernelOut (c : Dev nD) (p : Fin 50000) (q : Fin 64) :
    V16 m (outs m) c main_v151 (ix2 p q)
      = Cert.BnAlgebra.kernelOut (fun p' => RegValue.bn4_r (fun c b => V13 m (oo4 m) c b) c p' q)
          (RegValue.bnk_gam (V14 m (outs m) c) (ix2 (1 : Fin 3) q)) (RegValue.bnk_bet (V14 m (outs m) c) (ix2 (1 : Fin 3) q)) p := by
  rw [v16_out]
  refine RegValue.layer4_kernel (fun c b => V13 m (oo4 m) c b) (fun c b => V15 m (oo5 m) c b) (V14 m (outs m) c) c
    (fun i => congrFun (v14_out m c).1 i) (fun i => congrFun (v14_out m c).2.1 i) (fun i => congrFun (v14_out m c).2.2 i)
    (fun i => ?_) (fun i => ?_) (fun i => ?_) p q
  · show V15 m (oo5 m) c main_v125_0 i = _
    rw [v15_eq]
    exact congrFun (StableHlo.after_of_writes_sub (r := main_v125_0) hostOps5 _ hostOps5_writes (by decide)) i
  · show V15 m (oo5 m) c main_v142 i = _
    rw [v15_eq]
  · show V15 m (oo5 m) c main_v150 i = _
    rw [v15_eq]

open LibRealClosure in
/-- LAYER 2. With real arguments and layer 1's output known entry by entry as a real array `x₁`, after region 5 the
    layer's output buffer is the reference's layer function of `x₁` and the launch contents, and it is real. -/
theorem layer2 (c : Dev nD) (x₁ : S50000x64.Idx → EReal) (hx : ∀ p q, V8 m (outs m) c main_v77 (ix2 p q) = x₁ (ix2 p q)) (hx₁ : AllReal x₁)
    (h2 : AllReal (W0 m c main_arg2)) (h3 : AllReal (W0 m c main_arg3))
    (h4 : AllReal (W0 m c main_arg4)) (h5 : AllReal (W0 m c main_arg5)) (h6 : AllReal (W0 m c main_arg6))
    (p : Fin 50000) (q : Fin 64) :
    V16 m (outs m) c main_v151 (ix2 p q)
        = Cert.ReferenceIdeal.RefValue.layerFn x₁ (kWeight1 m c)
            (fun q => W0 m c main_arg4 (ix2 (1 : Fin 3) q)) (fun q => W0 m c main_arg5 (ix2 (1 : Fin 3) q))
            (fun q => W0 m c main_arg6 (ix2 (1 : Fin 3) q)) (kEdge0 m c) (kEdge1 m c) (W0 m c main_arg2) p q
      ∧ IsReal (V16 m (outs m) c main_v151 (ix2 p q)) := by
  have hk := Cert.LayerJoin.kernel_layer_is_layerFn x₁ (kWeight1 m c)
    (fun q => W0 m c main_arg4 (ix2 (1 : Fin 3) q)) (fun q => W0 m c main_arg5 (ix2 (1 : Fin 3) q))
    (fun q => W0 m c main_arg6 (ix2 (1 : Fin 3) q)) (kEdge0 m c) (kEdge1 m c) (W0 m c main_arg2)
    (fun p q => RegValue.bn4_r (fun c b => V13 m (oo4 m) c b) c p q)
    (fun q => RegValue.bnk_gam (V14 m (outs m) c) (ix2 (1 : Fin 3) q)) (fun q => RegValue.bnk_bet (V14 m (outs m) c) (ix2 (1 : Fin 3) q))
    (fun p q => bn4_col m c x₁ hx p q) (fun q => v14_gam m c q 1) (fun q => v14_bet m c q 1)
    hx₁ (Cert.LayerJoin.slice_w1_real _ h3) (fun q => h4 _) (fun q => h5 _) (fun q => h6 _) h2 p q
  rw [v16_kernelOut]
  exact ⟨hk.1, hk.1 ▸ hk.2⟩

end Cert.KernelIdeal.Reg

end
-- ==== Proof.Ideal.Matmul6Value.lean ====
/- Region 6 (a row-block matrix product): the value half, at the exact values. The array the region leaves in
   its output window is the product of the two arrays it finds in its input windows: entry (p, q) is the sum over k
   of left (p, k) times right (k, q). -/
import proofs.«132734_j72301479461275_2_alg».proof.Proof.Ideal.Matmul6
import proofs.«132734_j72301479461275_2_alg».proof.Proof.Ideal.MatmulSum
import proofs.«132734_j72301479461275_2_alg».proof.Proof.Ideal.ClassASpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Reg

variable (V : (c : Dev nD) → (b : Ref sig .tc) → Buf (Elt Ideal) ((c : Thread nD τ).loc b))

/-! ## The payload of the body at an index -/

/-- The zero offsets of a whole-buffer rectangle, however spelt. -/
theorem zero_off6 : (![0, 0] : Fin 2 → Nat) = fun _ => 0 := funext fun a => by fin_cases a <;> rfl

/-- The stored value at local entry (p, q): both roundings are the identity at the exact values, so it is the sum
    over k of the loaded block's (p, k) times the loaded matrix's (k, q). -/
theorem pay6_apply (x0 : Vec Ideal S10000x64 .f32) (x1 : Vec Ideal S64x64 .f32) (p : Fin 10000) (q : Fin 64) :
    k6_pay1 x0 x1 (ix2 p q) = ∑ k : Fin 64, x0 (ix2 p k) * x1 (ix2 k q) := by
  unfold k6_pay1
  rw [matmul_zero_apply]
  refine Finset.sum_congr rfl fun k _ => ?_
  rw [truncf_apply, truncf_apply]
  simp only [shapeCast_self]

/-! ## The product of the whole arrays -/

/-- The product of a [50000,64] array and a [64,64] array, index by index. -/
def prod6 (a : S50000x64.Idx → EReal) (w : S64x64.Idx → EReal) : S50000x64.Idx → EReal :=
  fun i => rowDot a w (⟨(i 0).val, (i 0).isLt⟩ : Fin 50000) (⟨(i 1).val, (i 1).isLt⟩ : Fin 64)

/-- The stored value of a row block, at a local index `j`, is the product at the array index `i` that `j` sits at:
    row `b * 10000 + j 0`, column `j 1`, when the loaded block is rows `b * 10000 …` of `a` and the loaded matrix is `w`. -/
theorem pay6_at (x0 : Vec Ideal S10000x64 .f32) (x1 : Vec Ideal S64x64 .f32) (a : S50000x64.Idx → EReal) (w : S64x64.Idx → EReal)
    (j : S10000x64.Idx) (i : S50000x64.Idx) (b : ℕ)
    (hi0 : (i 0).val = b * 10000 + (j 0).val) (hi1 : (i 1).val = (j 1).val)
    (h0 : ∀ (y : S10000x64.Idx) (z : S50000x64.Idx), (z 0).val = b * 10000 + (y 0).val → (z 1).val = (y 1).val → x0 y = a z)
    (h1 : ∀ y : S64x64.Idx, x1 y = w y) :
    k6_pay1 x0 x1 j = prod6 a w i := by
  obtain ⟨p, q, rfl⟩ : ∃ (p : Fin 10000) (q : Fin 64), j = ix2 p q := ⟨j 0, j 1, eq_ix2 j⟩
  rw [pay6_apply]
  unfold prod6 rowDot
  refine Finset.sum_congr rfl fun k _ => ?_
  rw [h0 (ix2 p k) (ix2 (⟨(i 0).val, (i 0).isLt⟩ : Fin 50000) k) hi0 rfl, h1]
  have e : (⟨(i 1).val, (i 1).isLt⟩ : Fin 64) = q := Fin.ext hi1
  rw [e]

/-! ## From the blocks to the array -/

/-- The printed index maps over the grid: the left block and the output block move together down the rows, one
    block per point; the matrix stays at block (0, 0). -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) ≤ 4
    ∧ win6_2.index t (1 : Fin 2) = 0 :=
  (by decide +kernel : ∀ t : Fin grid6.N, _)

/-- Every row block is some point's. -/
theorem idx_onto6 : ∀ (q0 : Fin 5), ∃ t : Fin cfg6.N, win6_2.index t = ![q0.val, 0] :=
  (by decide +kernel : ∀ (q0 : Fin 5), ∃ t : Fin grid6.N, win6_2.index t = ![q0.val, 0])

/-- What point `t` writes back is block `t` of the product of the two arrays found on entry. -/
theorem flushed6_eq (c : Dev nD) (t : Fin cfg6.N) :
    (dat6 V c).flushed 2 t = ((cfg6.win 2).blk t).view.read (Elt Ideal) (prod6 (V c main_v151) (V c main_v153)) := by
  show (cfg6.win 2).cut (grid6.coords t) ((dat6 V c).after 2 t) = _
  rw [after6_2]
  unfold out6_2
  rw [View.canon_unit_zero zero_off6]
  simp only [View.ld_unit_zero (S := S10000x64) zero_off6, View.ld_unit_zero (S := S64x64) zero_off6]
  obtain ⟨e0, e1, e2, e3, e4, e5⟩ := idx_facts6 t
  funext j
  show k6_pay1 (iblk6 V c 0 t) (iblk6 V c 1 t) j = prod6 (V c main_v151) (V c main_v153) (((cfg6.win 2).blk t).view.emb j)
  refine pay6_at _ _ _ _ j _ (win6_2.index t (0 : Fin 2)) ?_ ?_ ?_ ?_
  · show win6_2.index t (0 : Fin 2) * 10000 + 1 * (j 0).val = _
    omega
  · show win6_2.index t (1 : Fin 2) * 64 + 1 * (j 1).val = _
    omega
  · intro y z hz0 hz1
    show V c main_v151 (((cfg6.win 0).blk t).view.emb y) = V c main_v151 z
    refine congrArg _ (funext fun a => Fin.ext ?_)
    match a with
    | ⟨0, _⟩ => show win6_0.index t (0 : Fin 2) * 10000 + 1 * (y 0).val = (z 0).val; omega
    | ⟨1, _⟩ => show win6_0.index t (1 : Fin 2) * 64 + 1 * (y 1).val = (z 1).val; omega
  · intro y
    show V c main_v153 (((cfg6.win 1).blk t).view.emb y) = V c main_v153 y
    refine congrArg _ (funext fun a => Fin.ext ?_)
    match a with
    | ⟨0, _⟩ => show win6_1.index t (0 : Fin 2) * 64 + 1 * (y 0).val = (y 0).val; omega
    | ⟨1, _⟩ => show win6_1.index t (1 : Fin 2) * 64 + 1 * (y 1).val = (y 1).val; omega

/-- An index of the array is in the block of point `t` iff each coordinate is in the block's range on its axis. -/
theorem mem_blk6 (t : Fin cfg6.N) (i : S50000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v154).slice (win6_2.rect t)).set ↔ _
  rw [View.set_slice_whole, Rect.mem_set_unit]
  exact Iff.rfl

/-- The five row blocks cover the array: row `r` is in block `r / 10000`. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto6 ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The output array after the region is the product of the two input arrays as found on entry. -/
theorem arr6_2 (c : Dev nD) : (dat6 (F := Ideal) V c).arrAt 2 cfg6.N = prod6 (V c main_v151) (V c main_v153) :=
  (dat6 V c).arrAt_eq_of_cover 2 (prod6 (V c main_v151) (V c main_v153)) (fun t _ => flushed6_eq V c t) cover6

/-- Entry (p, q) of the output array after the region. -/
theorem final6_2 (c : Dev nD) (p : Fin 50000) (q : Fin 64) :
    (Cert.KernelIdeal.Reg.dat6 (F := Ideal) V c).arrAt 2 cfg6.N (ix2 p q)
      = rowDot (V c main_v151) (V c main_v153) p q := by
  rw [arr6_2]
  rfl

end Cert.KernelIdeal.RegValue

end
-- ==== Proof.Ideal.Values3.lean ====
/- The idealized kernel's values along its run: layer 3.
   As layer 2, one layer on: the product's left factor is the buffer layer 2 left, the parameters are the third rows
   and the third weight matrix. -/
import proofs.«132734_j72301479461275_2_alg».proof.Proof.Ideal.Values2
import proofs.«132734_j72301479461275_2_alg».proof.Proof.Ideal.Matmul6Value
import proofs.«132734_j72301479461275_2_alg».proof.Proof.Ideal.Bn7Value
import proofs.«132734_j72301479461275_2_alg».proof.Proof.Ideal.Affine8Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## Layer 3 along the run

As layer 2: the product's left factor is the buffer layer 2 left, carried across the short stretch that slices the third
weight matrix. It enters as an array `x₂` known entry by entry. -/

/-- The third layer's weight matrix, from the launch contents. -/
abbrev kWeight2 (c : Dev nD) : FVec Ideal S64x64 .f32 :=
  shapeCast S64x64 (extractStridedSlice S1x64x64 ![2, 0, 0] (W0 m c main_arg3) slices_S3x64x64_S1x64x64_2_0_0) shapeCasts_S1x64x64_S64x64

/-- An argument passes through the rest of layer 2: the last aggregation stretch, region 4, the scale-and-shift
    stretch and region 5. -/
theorem v16_arg (c : Dev nD) (r : Ref sig .tc) (h12 : V12 m (outs m) c r = W0 m c r) (h13 : r ∉ hostOps4_2_W)
    (h14 : r ∉ ([main_v125_0, main_v125_1, main_v125_2] : List (Ref sig .tc))) (h15 : r ∉ hostOps5_W)
    (h16 : r ∉ ([main_v151] : List (Ref sig .tc))) : V16 m (outs m) c r = W0 m c r :=
  (V16_of m (outs m) c r h16).trans ((V15_of m (outs m) c r h15).trans ((V14_of m (outs m) c r h14).trans
    ((V13_of m (outs m) c r h13).trans h12)))
theorem v16_main_arg2 (c : Dev nD) : V16 m (outs m) c main_arg2 = W0 m c main_arg2 :=
  v16_arg m c main_arg2 (v12_arg m c main_arg2 (by decide) (by decide) (by decide) (by decide) (by decide) (by decide) (by decide) (by decide) (by decide) (by decide) (by decide) (by decide)) (by decide) (by decide) (by decide) (by decide)
theorem v16_main_arg3 (c : Dev nD) : V16 m (outs m) c main_arg3 = W0 m c main_arg3 :=
  v16_arg m c main_arg3 (v12_arg m c main_arg3 (by decide) (by decide) (by decide) (by decide) (by decide) (by decide) (by decide) (by decide) (by decide) (by decide) (by decide) (by decide)) (by decide) (by decide) (by decide) (by decide)
theorem v16_main_arg4 (c : Dev nD) : V16 m (outs m) c main_arg4 = W0 m c main_arg4 :=
  v16_arg m c main_arg4 (v12_arg m c main_arg4 (by decide) (by decide) (by decide) (by decide) (by decide) (by decide) (by decide) (by decide) (by decide) (by decide) (by decide) (by decide)) (by decide) (by decide) (by decide) (by decide)
theorem v16_main_arg5 (c : Dev nD) : V16 m (outs m) c main_arg5 = W0 m c main_arg5 :=
  v16_arg m c main_arg5 (v12_arg m c main_arg5 (by decide) (by decide) (by decide) (by decide) (by decide) (by decide) (by decide) (by decide) (by decide) (by decide) (by decide) (by decide)) (by decide) (by decide) (by decide) (by decide)
theorem v16_main_arg6 (c : Dev nD) : V16 m (outs m) c main_arg6 = W0 m c main_arg6 :=
  v16_arg m c main_arg6 (v12_arg m c main_arg6 (by decide) (by decide) (by decide) (by decide) (by decide) (by decide) (by decide) (by decide) (by decide) (by decide) (by decide) (by decide)) (by decide) (by decide) (by decide) (by decide)

/-- The edge rows pass through the rest of layer 2 as well. -/
theorem v16_main_v1 (c : Dev nD) : V16 m (outs m) c main_v1 = kEdge0 m c :=
  (V16_of m (outs m) c main_v1 (by decide)).trans ((V15_of m (outs m) c main_v1 (by decide)).trans ((V14_of m (outs m) c main_v1 (by decide)).trans
    ((V13_of m (outs m) c main_v1 (by decide)).trans ((V12_of m (outs m) c main_v1 (by decide)).trans
      ((V11_of m (outs m) c main_v1 (by decide)).trans (v10_main_v1 m c))))))
theorem v16_main_v3 (c : Dev nD) : V16 m (outs m) c main_v3 = kEdge1 m c :=
  (V16_of m (outs m) c main_v3 (by decide)).trans ((V15_of m (outs m) c main_v3 (by decide)).trans ((V14_of m (outs m) c main_v3 (by decide)).trans
    ((V13_of m (outs m) c main_v3 (by decide)).trans ((V12_of m (outs m) c main_v3 (by decide)).trans
      ((V11_of m (outs m) c main_v3 (by decide)).trans (v10_main_v3 m c))))))

/-- An argument passes through layer 3's first items: the weight-matrix stretch, region 6 and the first two
    aggregation stretches. -/
theorem v20_arg (c : Dev nD) (r : Ref sig .tc) (h16 : V16 m (outs m) c r = W0 m c r) (h17 : r ∉ hostOps6_W)
    (h18 : r ∉ ([main_v154] : List (Ref sig .tc))) (h19 : r ∉ hostOps7_W) (h20 : r ∉ hostOps7_1_W) : V20 m (outs m) c r = W0 m c r :=
  (V20_of m (outs m) c r h20).trans ((V19_of m (outs m) c r h19).trans ((V18_of m (outs m) c r h18).trans
    ((V17_of m (outs m) c r h17).trans h16)))

/-- Region 6 is entered with layer 2's output as left, and the third weight matrix. -/
theorem v17_main_v151 (c : Dev nD) : V17 m (outs m) c main_v151 = V16 m (outs m) c main_v151 := V17_of m (outs m) c main_v151 (by decide)
theorem v17_main_v153 (c : Dev nD) : V17 m (outs m) c main_v153 = kWeight2 m c := by
  show StableHlo.after hostOps6 (V16 m (outs m) c) main_v153 = _
  rw [RegValue.k6_v153 (F := Ideal) (V16 m (outs m) c),
    v16_main_arg3 m c]

/-- After region 6 the product buffer is the product array of layer 2's output with the third weight matrix. -/
theorem v18_main_v154_prod (c : Dev nD) (x₂ : S50000x64.Idx → EReal) (hx : ∀ p q, V16 m (outs m) c main_v151 (ix2 p q) = x₂ (ix2 p q)) :
    V18 m (outs m) c main_v154 = Cert.ReferenceIdeal.RefValue.prodArr x₂ (kWeight2 m c) := by
  have hout : V18 m (outs m) c main_v154 = (dat6 (F := Ideal) (fun c b => V17 m (oo6 m) c b) c).arrAt 2 cfg6.N :=
    (hF6_2 m (outs m) (fun _ _ => rfl) c).symm
  refine Cert.ReferenceIdeal.RefValue.prodArr_of_entries _ _ _ fun p q => ?_
  rw [hout, RegValue.final6_2 (fun c b => V17 m (oo6 m) c b) c p q]
  show RegValue.rowDot (V17 m (oo6 m) c main_v151) (V17 m (oo6 m) c main_v153) p q = _
  rw [← ent6 m c, v17_main_v153]
  have hx' : V17 m (outs m) c main_v151 = x₂ := funext fun i => by
    obtain ⟨p, q, rfl⟩ : ∃ (p : Fin 50000) (q : Fin 64), i = ix2 p q := ⟨i 0, i 1, eq_ix2 i⟩
    rw [v17_main_v151]; exact hx p q
  rw [hx']

/-- What region 7 leaves in its three outputs, and region 8 in its output. -/
theorem v22_out (c : Dev nD) :
    (V22 m (outs m) c main_v199_0 = (dat7 (F := Ideal) (fun c b => V21 m (oo7 m) c b) c).arrAt 2 cfg7.N)
    ∧ (V22 m (outs m) c main_v199_1 = (dat7 (F := Ideal) (fun c b => V21 m (oo7 m) c b) c).arrAt 3 cfg7.N)
    ∧ (V22 m (outs m) c main_v199_2 = (dat7 (F := Ideal) (fun c b => V21 m (oo7 m) c b) c).arrAt 4 cfg7.N) :=
  ⟨(hF7_2 m (outs m) (fun _ _ => rfl) c).symm, (hF7_3 m (outs m) (fun _ _ => rfl) c).symm, (hF7_4 m (outs m) (fun _ _ => rfl) c).symm⟩
theorem v24_out (c : Dev nD) :
    V24 m (outs m) c main_v225 = (dat8 (F := Ideal) (fun c b => V23 m (oo8 m) c b) c).arrAt 3 cfg8.N :=
  (hF8_3 m (outs m) (fun _ _ => rfl) c).symm

/-- The aggregation buffer region 7 is entered with is the shared aggregation of what region 6 left. -/
theorem v21_agg (c : Dev nD) :
    V21 m (outs m) c main_v195
      = Cert.Agg.agg (F := Ideal) (V18 m (outs m) c main_v154) (V18 m (outs m) c main_v1) (V18 m (outs m) c main_v3) (V18 m (outs m) c main_arg2) :=
  RegValue.agg_kernel3 (F := Ideal) (V18 m (outs m) c)

/-- The edge rows and the edge weights where region 6 is left. -/
theorem v18_main_v1 (c : Dev nD) : V18 m (outs m) c main_v1 = kEdge0 m c :=
  (V18_of m (outs m) c main_v1 (by decide)).trans ((V17_of m (outs m) c main_v1 (by decide)).trans (v16_main_v1 m c))
theorem v18_main_v3 (c : Dev nD) : V18 m (outs m) c main_v3 = kEdge1 m c :=
  (V18_of m (outs m) c main_v3 (by decide)).trans ((V17_of m (outs m) c main_v3 (by decide)).trans (v16_main_v3 m c))
theorem v18_main_arg2 (c : Dev nD) : V18 m (outs m) c main_arg2 = W0 m c main_arg2 :=
  (V18_of m (outs m) c main_arg2 (by decide)).trans ((V17_of m (outs m) c main_arg2 (by decide)).trans
    (v16_main_arg2 m c))

/-- The aggregation buffer region 7 is entered with, over layer 2's output and the launch contents. -/
theorem v21_main_v195 (c : Dev nD) (x₂ : S50000x64.Idx → EReal) (hx : ∀ p q, V16 m (outs m) c main_v151 (ix2 p q) = x₂ (ix2 p q)) :
    V21 m (oo7 m) c main_v195
      = Cert.Agg.agg (F := Ideal) (Cert.ReferenceIdeal.RefValue.prodArr x₂ (kWeight2 m c)) (kEdge0 m c) (kEdge1 m c) (W0 m c main_arg2) := by
  rw [← ent7 m c, v21_agg, v18_main_v154_prod m c x₂ hx, v18_main_v1, v18_main_v3, v18_main_arg2]

/-- The bias row region 7 is entered with, at column `q`: the third row of the bias argument. -/
theorem v21_main_v198_apply (c : Dev nD) (q : Fin 64) :
    V21 m (oo7 m) c main_v198 (ix2 (0 : Fin 1) q) = W0 m c main_arg4 (ix2 (2 : Fin 3) q) := by
  rw [← ent7 m c]
  show StableHlo.after hostOps7_2 (V20 m (outs m) c) main_v198 (ix2 (0 : Fin 1) q) = _
  rw [RegValue.k7_v198 (F := Ideal) (V20 m (outs m) c),
    v20_arg m c main_arg4 (v16_main_arg4 m c) (by decide) (by decide) (by decide) (by decide)]
  exact RegValue.bias_row_at (W0 m c main_arg4) ![2, 0] 2 rfl slices_S3x64_S1x64_2_0 q

/-- The rectified column region 7 produces. -/
theorem bn7_col (c : Dev nD) (x₂ : S50000x64.Idx → EReal) (hx : ∀ p q, V16 m (outs m) c main_v151 (ix2 p q) = x₂ (ix2 p q))
    (p : Fin 50000) (q : Fin 64) :
    RegValue.bn7_r (fun c b => V21 m (oo7 m) c b) c p q
      = max (Cert.Agg.agg (F := Ideal) (Cert.ReferenceIdeal.RefValue.prodArr x₂ (kWeight2 m c)) (kEdge0 m c) (kEdge1 m c)
              (W0 m c main_arg2) (ix2 p q) + W0 m c main_arg4 (ix2 (2 : Fin 3) q)) 0 := by
  have hxx : RegValue.bn7_x (fun c b => V21 m (oo7 m) c b) c (ix2 p q)
      = Cert.Agg.agg (F := Ideal) (Cert.ReferenceIdeal.RefValue.prodArr x₂ (kWeight2 m c)) (kEdge0 m c) (kEdge1 m c)
          (W0 m c main_arg2) (ix2 p q) := congrFun (v21_main_v195 m c x₂ hx) (ix2 p q)
  have hb : RegValue.bn7_b (fun c b => V21 m (oo7 m) c b) c (ix2 (0 : Fin 1) q) = W0 m c main_arg4 (ix2 (2 : Fin 3) q) :=
    v21_main_v198_apply m c q
  unfold RegValue.bn7_r
  rw [hxx, hb]

/-- The contents region 8 is entered with, and the scale and shift parameters the stretch before it reads. -/
theorem v23_eq (c : Dev nD) : V23 m (oo8 m) c = StableHlo.after hostOps8 (V22 m (outs m) c) := by
  rw [← ent8 m c]
theorem v22_gam (c : Dev nD) (q : Fin 64) (k : Fin 3) :
    RegValue.bnk_gam (V22 m (outs m) c) (ix2 k q) = W0 m c main_arg5 (ix2 k q) := by
  show V22 m (outs m) c main_arg5 (ix2 k q) = _
  rw [V22_of m (outs m) c main_arg5 (by decide), V21_of m (outs m) c main_arg5 (by decide),
    v20_arg m c main_arg5 (v16_main_arg5 m c) (by decide) (by decide) (by decide) (by decide)]
theorem v22_bet (c : Dev nD) (q : Fin 64) (k : Fin 3) :
    RegValue.bnk_bet (V22 m (outs m) c) (ix2 k q) = W0 m c main_arg6 (ix2 k q) := by
  show V22 m (outs m) c main_arg6 (ix2 k q) = _
  rw [V22_of m (outs m) c main_arg6 (by decide), V21_of m (outs m) c main_arg6 (by decide),
    v20_arg m c main_arg6 (v16_main_arg6 m c) (by decide) (by decide) (by decide) (by decide)]

/-- After region 8 the layer's output buffer is the kernel's normalization of the rectified column region 7 produced. -/
theorem v24_kernelOut (c : Dev nD) (p : Fin 50000) (q : Fin 64) :
    V24 m (outs m) c main_v225 (ix2 p q)
      = Cert.BnAlgebra.kernelOut (fun p' => RegValue.bn7_r (fun c b => V21 m (oo7 m) c b) c p' q)
          (RegValue.bnk_gam (V22 m (outs m) c) (ix2 (2 : Fin 3) q)) (RegValue.bnk_bet (V22 m (outs m) c) (ix2 (2 : Fin 3) q)) p := by
  rw [v24_out]
  refine RegValue.layer7_kernel (fun c b => V21 m (oo7 m) c b) (fun c b => V23 m (oo8 m) c b) (V22 m (outs m) c) c
    (fun i => congrFun (v22_out m c).1 i) (fun i => congrFun (v22_out m c).2.1 i) (fun i => congrFun (v22_out m c).2.2 i)
    (fun i => ?_) (fun i => ?_) (fun i => ?_) p q
  · show V23 m (oo8 m) c main_v199_0 i = _
    rw [v23_eq]
    exact congrFun (StableHlo.after_of_writes_sub (r := main_v199_0) hostOps8 _ hostOps8_writes (by decide)) i
  · show V23 m (oo8 m) c main_v216 i = _
    rw [v23_eq]
  · show V23 m (oo8 m) c main_v224 i = _
    rw [v23_eq]

open LibRealClosure in
/-- LAYER 3. With real arguments and layer 2's output known entry by entry as a real array `x₂`, after region 8 the
    layer's output buffer is the reference's layer function of `x₂` and the launch contents, and it is real. -/
theorem layer3 (c : Dev nD) (x₂ : S50000x64.Idx → EReal) (hx : ∀ p q, V16 m (outs m) c main_v151 (ix2 p q) = x₂ (ix2 p q)) (hx₂ : AllReal x₂)
    (h2 : AllReal (W0 m c main_arg2)) (h3 : AllReal (W0 m c main_arg3))
    (h4 : AllReal (W0 m c main_arg4)) (h5 : AllReal (W0 m c main_arg5)) (h6 : AllReal (W0 m c main_arg6))
    (p : Fin 50000) (q : Fin 64) :
    V24 m (outs m) c main_v225 (ix2 p q)
        = Cert.ReferenceIdeal.RefValue.layerFn x₂ (kWeight2 m c)
            (fun q => W0 m c main_arg4 (ix2 (2 : Fin 3) q)) (fun q => W0 m c main_arg5 (ix2 (2 : Fin 3) q))
            (fun q => W0 m c main_arg6 (ix2 (2 : Fin 3) q)) (kEdge0 m c) (kEdge1 m c) (W0 m c main_arg2) p q
      ∧ IsReal (V24 m (outs m) c main_v225 (ix2 p q)) := by
  have hk := Cert.LayerJoin.kernel_layer_is_layerFn x₂ (kWeight2 m c)
    (fun q => W0 m c main_arg4 (ix2 (2 : Fin 3) q)) (fun q => W0 m c main_arg5 (ix2 (2 : Fin 3) q))
    (fun q => W0 m c main_arg6 (ix2 (2 : Fin 3) q)) (kEdge0 m c) (kEdge1 m c) (W0 m c main_arg2)
    (fun p q => RegValue.bn7_r (fun c b => V21 m (oo7 m) c b) c p q)
    (fun q => RegValue.bnk_gam (V22 m (outs m) c) (ix2 (2 : Fin 3) q)) (fun q => RegValue.bnk_bet (V22 m (outs m) c) (ix2 (2 : Fin 3) q))
    (fun p q => bn7_col m c x₂ hx p q) (fun q => v22_gam m c q 2) (fun q => v22_bet m c q 2)
    hx₂ (Cert.LayerJoin.slice_w2_real _ h3) (fun q => h4 _) (fun q => h5 _) (fun q => h6 _) h2 p q
  rw [v24_kernelOut]
  exact ⟨hk.1, hk.1 ▸ hk.2⟩

end Cert.KernelIdeal.Reg

end
-- ==== Proof.Ideal.Values4.lean ====
/- The idealized kernel's result: the three layers stacked. -/
import proofs.«132734_j72301479461275_2_alg».proof.Proof.Ideal.Values3
import proofs.«132734_j72301479461275_2_alg».proof.Proof.Ideal.KernelStages
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The result: the three layers stacked

The last host stretch broadcasts each layer's output to a leading unit axis and concatenates the three. Layer 1's
buffer has to be carried from where region 2 left it across all of layers 2 and 3, layer 2's across layer 3: no
later item writes either. -/

theorem v24_main_v77 (c : Dev nD) : V24 m (outs m) c main_v77 = V8 m (outs m) c main_v77 :=
  (V24_of m (outs m) c main_v77 (by decide)).trans ((V23_of m (outs m) c main_v77 (by decide)).trans ((V22_of m (outs m) c main_v77 (by decide)).trans
   ((V21_of m (outs m) c main_v77 (by decide)).trans ((V20_of m (outs m) c main_v77 (by decide)).trans ((V19_of m (outs m) c main_v77 (by decide)).trans
   ((V18_of m (outs m) c main_v77 (by decide)).trans ((V17_of m (outs m) c main_v77 (by decide)).trans ((V16_of m (outs m) c main_v77 (by decide)).trans
   ((V15_of m (outs m) c main_v77 (by decide)).trans ((V14_of m (outs m) c main_v77 (by decide)).trans ((V13_of m (outs m) c main_v77 (by decide)).trans
   ((V12_of m (outs m) c main_v77 (by decide)).trans ((V11_of m (outs m) c main_v77 (by decide)).trans ((V10_of m (outs m) c main_v77 (by decide)).trans
   (V9_of m (outs m) c main_v77 (by decide))))))))))))))))
theorem v24_main_v151 (c : Dev nD) : V24 m (outs m) c main_v151 = V16 m (outs m) c main_v151 :=
  (V24_of m (outs m) c main_v151 (by decide)).trans ((V23_of m (outs m) c main_v151 (by decide)).trans ((V22_of m (outs m) c main_v151 (by decide)).trans
   ((V21_of m (outs m) c main_v151 (by decide)).trans ((V20_of m (outs m) c main_v151 (by decide)).trans ((V19_of m (outs m) c main_v151 (by decide)).trans
   ((V18_of m (outs m) c main_v151 (by decide)).trans (V17_of m (outs m) c main_v151 (by decide))))))))

/-- The result buffer at the end of the run: the three layer buffers, each broadcast to a leading unit axis, stacked. -/
theorem v25_result (c : Dev nD) :
    V25 m (outs m) c main_v229
      = concatenate S3x50000x64 0
          [⟨S1x50000x64, broadcastInDim S1x50000x64 ![1, 2] bcast_S50000x64_S1x50000x64_1_2 (V8 m (outs m) c main_v77)⟩,
           ⟨S1x50000x64, broadcastInDim S1x50000x64 ![1, 2] bcast_S50000x64_S1x50000x64_1_2 (V16 m (outs m) c main_v151)⟩,
           ⟨S1x50000x64, broadcastInDim S1x50000x64 ![1, 2] bcast_S50000x64_S1x50000x64_1_2 (V24 m (outs m) c main_v225)⟩]
          concatenates_S1x50000x64_S1x50000x64_S1x50000x64_S3x50000x64_d0 := by
  show StableHlo.after hostOps9 (V24 m (outs m) c) main_v229 = _
  rw [RegValue.k9_v229 (F := Ideal) (V24 m (outs m) c), v24_main_v77, v24_main_v151]

end Cert.KernelIdeal.Reg

end
-- ==== Proof.Ideal.RefResult.lean ====
import proofs.«132734_j72301479461275_2_alg».proof.Proof.Ideal.RefLayers
import proofs.«132734_j72301479461275_2_alg».proof.Proof.RefRun
import proofs.«132734_j72301479461275_2_alg».proof.Proof.Ideal.RefFrame

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open LibRealClosure

/-! # The reference's run, read at the launch contents -/

/-- The contents a device is launched with, at a TensorCore buffer, are the memory's at that buffer's location. -/
theorem launch_at (m' : (ℓ : Loc nD τ sig) → Buf (Elt Ideal) ℓ) (c : Dev nD) (b : Ref sig .tc) :
    launchContents m' c (Proc.devRef .tc b) = m' ((c.tc : Thread nD τ).loc b) := rfl

/-- The result array of device `c`: the three layer outputs, from the launch memory, stacked. -/
abbrev refOut (m' : (ℓ : Loc nD τ sig) → Buf (Elt Ideal) ℓ) (c : Dev nD) : Buf (Elt Ideal) ((c.tc : Thread nD τ).loc main_v244) :=
  concatenate S3x50000x64 0
    [⟨S1x50000x64, broadcastInDim S1x50000x64 ![1, 2] bcast_S50000x64_S1x50000x64_1_2 (R3 (launchContents m' c) (Proc.devRef .tc main_v82))⟩,
     ⟨S1x50000x64, broadcastInDim S1x50000x64 ![1, 2] bcast_S50000x64_S1x50000x64_1_2 (R6 (launchContents m' c) (Proc.devRef .tc main_v161))⟩,
     ⟨S1x50000x64, broadcastInDim S1x50000x64 ![1, 2] bcast_S50000x64_S1x50000x64_1_2 (R9 (launchContents m' c) (Proc.devRef .tc main_v240))⟩]
    concatenates_S1x50000x64_S1x50000x64_S1x50000x64_S3x50000x64_d0

/-- THE RUN. From any memory with zero counters every weakly fair execution of the reference terminates, its result
    array at `refOut` and its seven arguments unchanged. -/
theorem ref_run_result (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v244) = refOut m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run (defs (F := Ideal)) _ _).mono (fun r h c =>
    ⟨(h c main_v244).trans (ref_result (launchContents m' c)),
      ((h c main_arg0).trans (after_ops_arg (F := Ideal) _ main_arg0 (by decide))).trans (launch_at m' c main_arg0),
      ((h c main_arg1).trans (after_ops_arg (F := Ideal) _ main_arg1 (by decide))).trans (launch_at m' c main_arg1),
      ((h c main_arg2).trans (after_ops_arg (F := Ideal) _ main_arg2 (by decide))).trans (launch_at m' c main_arg2),
      ((h c main_arg3).trans (after_ops_arg (F := Ideal) _ main_arg3 (by decide))).trans (launch_at m' c main_arg3),
      ((h c main_arg4).trans (after_ops_arg (F := Ideal) _ main_arg4 (by decide))).trans (launch_at m' c main_arg4),
      ((h c main_arg5).trans (after_ops_arg (F := Ideal) _ main_arg5 (by decide))).trans (launch_at m' c main_arg5),
      ((h c main_arg6).trans (after_ops_arg (F := Ideal) _ main_arg6 (by decide))).trans (launch_at m' c main_arg6)⟩)
    (RefRun.run (F := Ideal) m' ρ')

/-! ## The three layer outputs as `layerFn`, real when the arguments are -/

theorem ref_layers_at (m' : (ℓ : Loc nD τ sig) → Buf (Elt Ideal) ℓ) (c : Dev nD)
    (h0 : AllReal (launchContents m' c (Proc.devRef .tc main_arg0))) (h2 : AllReal (launchContents m' c (Proc.devRef .tc main_arg2)))
    (h3 : AllReal (launchContents m' c (Proc.devRef .tc main_arg3))) (h4 : AllReal (launchContents m' c (Proc.devRef .tc main_arg4)))
    (h5 : AllReal (launchContents m' c (Proc.devRef .tc main_arg5))) (h6 : AllReal (launchContents m' c (Proc.devRef .tc main_arg6))) :
    (∀ (p : Fin 50000) (q : Fin 64),
      R3 (launchContents m' c) (Proc.devRef .tc main_v82) (ix2 p q)
        = layerFn (launchContents m' c (Proc.devRef .tc main_arg0)) (weight0 (launchContents m' c)) (fun q => launchContents m' c (Proc.devRef .tc main_arg4) (ix2 (0 : Fin 3) q)) (fun q => launchContents m' c (Proc.devRef .tc main_arg5) (ix2 (0 : Fin 3) q)) (fun q => launchContents m' c (Proc.devRef .tc main_arg6) (ix2 (0 : Fin 3) q))
          (edgeRow0 (launchContents m' c)) (edgeRow1 (launchContents m' c)) (launchContents m' c (Proc.devRef .tc main_arg2)) p q
      ∧ IsReal (R3 (launchContents m' c) (Proc.devRef .tc main_v82) (ix2 p q)))
    ∧ (∀ (p : Fin 50000) (q : Fin 64),
      R6 (launchContents m' c) (Proc.devRef .tc main_v161) (ix2 p q)
        = layerFn (R3 (launchContents m' c) (Proc.devRef .tc main_v82)) (weight1 (launchContents m' c)) (fun q => launchContents m' c (Proc.devRef .tc main_arg4) (ix2 (1 : Fin 3) q)) (fun q => launchContents m' c (Proc.devRef .tc main_arg5) (ix2 (1 : Fin 3) q)) (fun q => launchContents m' c (Proc.devRef .tc main_arg6) (ix2 (1 : Fin 3) q))
          (edgeRow0 (launchContents m' c)) (edgeRow1 (launchContents m' c)) (launchContents m' c (Proc.devRef .tc main_arg2)) p q
      ∧ IsReal (R6 (launchContents m' c) (Proc.devRef .tc main_v161) (ix2 p q)))
    ∧ (∀ (p : Fin 50000) (q : Fin 64),
      R9 (launchContents m' c) (Proc.devRef .tc main_v240) (ix2 p q)
        = layerFn (R6 (launchContents m' c) (Proc.devRef .tc main_v161)) (weight2 (launchContents m' c)) (fun q => launchContents m' c (Proc.devRef .tc main_arg4) (ix2 (2 : Fin 3) q)) (fun q => launchContents m' c (Proc.devRef .tc main_arg5) (ix2 (2 : Fin 3) q)) (fun q => launchContents m' c (Proc.devRef .tc main_arg6) (ix2 (2 : Fin 3) q))
          (edgeRow0 (launchContents m' c)) (edgeRow1 (launchContents m' c)) (launchContents m' c (Proc.devRef .tc main_arg2)) p q
      ∧ IsReal (R9 (launchContents m' c) (Proc.devRef .tc main_v240) (ix2 p q))) := by
  have hw0 : AllReal (weight0 (launchContents m' c)) :=
    (h3.extractStridedSlice ![0, 0, 0] slices_S3x64x64_S1x64x64_0_0_0).shapeCast shapeCasts_S1x64x64_S64x64
  have hw1 : AllReal (weight1 (launchContents m' c)) :=
    (h3.extractStridedSlice ![1, 0, 0] slices_S3x64x64_S1x64x64_1_0_0).shapeCast shapeCasts_S1x64x64_S64x64
  have hw2 : AllReal (weight2 (launchContents m' c)) :=
    (h3.extractStridedSlice ![2, 0, 0] slices_S3x64x64_S1x64x64_2_0_0).shapeCast shapeCasts_S1x64x64_S64x64
  have l1 : ∀ (p : Fin 50000) (q : Fin 64), _ ∧ IsReal (R3 (launchContents m' c) (Proc.devRef .tc main_v82) (ix2 p q)) := fun p q =>
    ⟨ref_layer1 (launchContents m' c) p q, by
      rw [ref_layer1 (launchContents m' c) p q]
      exact layerFn_real _ _ _ _ _ _ _ _ h0 hw0 (fun q => h4 _) (fun q => h5 _) (fun q => h6 _) h2 p q⟩
  have hx2 : AllReal (R3 (launchContents m' c) (Proc.devRef .tc main_v82)) :=
    Cert.LayerJoin.allReal_rows _ fun p q => (l1 p q).2
  have l2 : ∀ (p : Fin 50000) (q : Fin 64), _ ∧ IsReal (R6 (launchContents m' c) (Proc.devRef .tc main_v161) (ix2 p q)) := fun p q =>
    ⟨ref_layer2 (launchContents m' c) p q, by
      rw [ref_layer2 (launchContents m' c) p q]
      exact layerFn_real _ _ _ _ _ _ _ _ hx2 hw1 (fun q => h4 _) (fun q => h5 _) (fun q => h6 _) h2 p q⟩
  have hx3 : AllReal (R6 (launchContents m' c) (Proc.devRef .tc main_v161)) :=
    Cert.LayerJoin.allReal_rows _ fun p q => (l2 p q).2
  have l3 : ∀ (p : Fin 50000) (q : Fin 64), _ ∧ IsReal (R9 (launchContents m' c) (Proc.devRef .tc main_v240) (ix2 p q)) := fun p q =>
    ⟨ref_layer3 (launchContents m' c) p q, by
      rw [ref_layer3 (launchContents m' c) p q]
      exact layerFn_real _ _ _ _ _ _ _ _ hx3 hw2 (fun q => h4 _) (fun q => h5 _) (fun q => h6 _) h2 p q⟩
  exact ⟨l1, l2, l3⟩

end Cert.ReferenceIdeal.RefValue

end
-- ==== Proof.Ideal.PreReal.lean ====
import proofs.«132734_j72301479461275_2_alg».proof.Pre_finite_inputs
import proofs.«132734_j72301479461275_2_alg».proof.Proof.Gen.Pre_finite_inputs
import proofs.«132734_j72301479461275_2_alg».proof.Proof.LibRealClosure
import Idealize.ShloMosaic.Lib.ReduceAll
import Idealize.ShloMosaic.Lib.ValueIdx

noncomputable section

namespace Cert.PreReal

open Idealize.ShloMosaic Cert.Pre_finite_inputs LibRealClosure

/-! # The precondition read back: every float argument is an array of reals

The precondition is the conjunction, over the six float arguments, of "every entry's absolute value is below
infinity", each conjunct a reduction by `and` of the entrywise comparisons. If it evaluates to 1, each comparison is 1,
and an extended real whose absolute value is below infinity is a real. -/

/-- The scalar shape has one index. -/
instance : Subsingleton S_.Idx := ⟨fun a b => funext fun d => d.elim0⟩

/-- One conjunct: if the reduction by `and` of "|x i| < ∞" over every axis is 1, every entry of `x` is real. -/
theorem allReal_of_all {s : Shape} {axes : List (Fin s.rank)} (x : FVec Ideal s .f32)
    (bc : S_.BroadcastsInDim s (![] : Fin 0 → Fin s.rank)) (hr : s.ReducesTo axes S_) (hu : 0 < S_.numel) (j : S_.Idx)
    (e : Host.reduce IntOp.andi (cmpf .olt (Host.absf x) (broadcastInDim s ![] bc (constant (F := Ideal) S_ .f32 0x7F800000#32)))
          (constantI S_ 1 1#1) hr hu j = 1#1) : AllReal x := fun i =>
  isReal_of_abs_lt_inf (Host.reduce_andi_all _ _ hr hu j e i)

variable [Facts]

/-- THE DECODE. If the printed precondition evaluates to 1 on seven arguments, the six float ones are arrays of reals. -/
theorem pre_allReal (a0 : FVec Ideal S50000x64 .f32) (a1 : IVec S2x800000 32) (a2 : FVec Ideal S800000 .f32)
    (a3 : FVec Ideal S3x64x64 .f32) (a4 a5 a6 : FVec Ideal S3x64 .f32)
    (h : Cert.Pre_finite_inputs.fn (F := Ideal) a0 a1 a2 a3 a4 a5 a6 = fun _ => 1#1) :
    AllReal a0 ∧ AllReal a2 ∧ AllReal a3 ∧ AllReal a4 ∧ AllReal a5 ∧ AllReal a6 := by
  have e := congrFun h ValueIdx.ix0
  dsimp only [fn, fn_part1] at e
  obtain ⟨e23, e27⟩ := IntOp.andi_eq_one.1 e
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨allReal_of_all a0 _ _ _ _ e3, allReal_of_all a2 _ _ _ _ e7, allReal_of_all a3 _ _ _ _ e12,
    allReal_of_all a4 _ _ _ _ e17, allReal_of_all a5 _ _ _ _ e22, allReal_of_all a6 _ _ _ _ e27⟩

end Cert.PreReal

end
-- ==== Proof.Ideal.StagesAgree.lean ====
/- The two programs slice the same rows and matrices out of their arguments and stack their three layer outputs the
   same way: each pair of terms, one over the kernel program's shape constants and one over the reference's, is the
   same function of the same arrays. Also: a row of a [3,64] table, read through either program's slice, at a column. -/
import proofs.«132734_j72301479461275_2_alg».proof.Proof.Ideal.KernelStages
import proofs.«132734_j72301479461275_2_alg».proof.Proof.Ideal.BnReference

noncomputable section

namespace Cert.StagesAgree

open Idealize.ShloMosaic
open Idealize.ShloMosaic.ValueIdx

section AnyF
variable {F : FTy → Type} [FloatOps F]

/-! ## The final stacking -/

/-- Stacking three arrays is the same function in the two programs; so equal operands give equal results. -/
theorem stack_congr (x1 x2 x3 : FVec F Cert.KernelIdeal.S50000x64 .f32) (y1 y2 y3 : FVec F Cert.ReferenceIdeal.S50000x64 .f32)
    (h1 : x1 = y1) (h2 : x2 = y2) (h3 : x3 = y3) :
    concatenate Cert.KernelIdeal.S3x50000x64 0 [⟨Cert.KernelIdeal.S1x50000x64, broadcastInDim Cert.KernelIdeal.S1x50000x64 ![1, 2] Cert.KernelIdeal.Gen.bcast_S50000x64_S1x50000x64_1_2 x1⟩, ⟨Cert.KernelIdeal.S1x50000x64, broadcastInDim Cert.KernelIdeal.S1x50000x64 ![1, 2] Cert.KernelIdeal.Gen.bcast_S50000x64_S1x50000x64_1_2 x2⟩, ⟨Cert.KernelIdeal.S1x50000x64, broadcastInDim Cert.KernelIdeal.S1x50000x64 ![1, 2] Cert.KernelIdeal.Gen.bcast_S50000x64_S1x50000x64_1_2 x3⟩] Cert.KernelIdeal.Gen.concatenates_S1x50000x64_S1x50000x64_S1x50000x64_S3x50000x64_d0
      = concatenate Cert.ReferenceIdeal.S3x50000x64 0 [⟨Cert.ReferenceIdeal.S1x50000x64, broadcastInDim Cert.ReferenceIdeal.S1x50000x64 ![1, 2] Cert.ReferenceIdeal.Gen.bcast_S50000x64_S1x50000x64_1_2 y1⟩, ⟨Cert.ReferenceIdeal.S1x50000x64, broadcastInDim Cert.ReferenceIdeal.S1x50000x64 ![1, 2] Cert.ReferenceIdeal.Gen.bcast_S50000x64_S1x50000x64_1_2 y2⟩, ⟨Cert.ReferenceIdeal.S1x50000x64, broadcastInDim Cert.ReferenceIdeal.S1x50000x64 ![1, 2] Cert.ReferenceIdeal.Gen.bcast_S50000x64_S1x50000x64_1_2 y3⟩] Cert.ReferenceIdeal.Gen.concatenates_S1x50000x64_S1x50000x64_S1x50000x64_S3x50000x64_d0 := by
  subst h1 h2 h3
  rfl

/-! ## The edge rows -/

/-- Row 0 of the edge endpoints. -/
theorem edge_row0_agree (a : IVec Cert.KernelIdeal.S2x800000 32) :
    shapeCast Cert.KernelIdeal.S800000 (extractStridedSlice Cert.KernelIdeal.S1x800000 ![0, 0] a Cert.KernelIdeal.Gen.slices_S2x800000_S1x800000_0_0) Cert.KernelIdeal.Gen.shapeCasts_S1x800000_S800000
      = shapeCast Cert.ReferenceIdeal.S800000 (extractStridedSlice Cert.ReferenceIdeal.S1x800000 ![0, 0] a Cert.ReferenceIdeal.Gen.slices_S2x800000_S1x800000_0_0) Cert.ReferenceIdeal.Gen.shapeCasts_S1x800000_S800000 := rfl

/-- Row 1 of the edge endpoints. -/
theorem edge_row1_agree (a : IVec Cert.KernelIdeal.S2x800000 32) :
    shapeCast Cert.KernelIdeal.S800000 (extractStridedSlice Cert.KernelIdeal.S1x800000 ![1, 0] a Cert.KernelIdeal.Gen.slices_S2x800000_S1x800000_1_0) Cert.KernelIdeal.Gen.shapeCasts_S1x800000_S800000
      = shapeCast Cert.ReferenceIdeal.S800000 (extractStridedSlice Cert.ReferenceIdeal.S1x800000 ![1, 0] a Cert.ReferenceIdeal.Gen.slices_S2x800000_S1x800000_1_0) Cert.ReferenceIdeal.Gen.shapeCasts_S1x800000_S800000 := rfl

/-! ## The weight matrices, the bias rows, the scale and shift rows -/

/-- Weight matrix 0. -/
theorem weight0_agree (a : FVec F Cert.KernelIdeal.S3x64x64 .f32) :
    shapeCast Cert.KernelIdeal.S64x64 (extractStridedSlice Cert.KernelIdeal.S1x64x64 ![0, 0, 0] a Cert.KernelIdeal.Gen.slices_S3x64x64_S1x64x64_0_0_0) Cert.KernelIdeal.Gen.shapeCasts_S1x64x64_S64x64
      = shapeCast Cert.ReferenceIdeal.S64x64 (extractStridedSlice Cert.ReferenceIdeal.S1x64x64 ![0, 0, 0] a Cert.ReferenceIdeal.Gen.slices_S3x64x64_S1x64x64_0_0_0) Cert.ReferenceIdeal.Gen.shapeCasts_S1x64x64_S64x64 := rfl

/-- Row 0 of a [3,64] table as a [64] vector. -/
theorem vec0_agree (a : FVec F Cert.KernelIdeal.S3x64 .f32) :
    shapeCast Cert.KernelIdeal.S64 (extractStridedSlice Cert.KernelIdeal.S1x64 ![0, 0] a Cert.KernelIdeal.Gen.slices_S3x64_S1x64_0_0) Cert.KernelIdeal.Gen.shapeCasts_S1x64_S64
      = shapeCast Cert.ReferenceIdeal.S64 (extractStridedSlice Cert.ReferenceIdeal.S1x64 ![0, 0] a Cert.ReferenceIdeal.Gen.slices_S3x64_S1x64_0_0) Cert.ReferenceIdeal.Gen.shapeCasts_S1x64_S64 := rfl

/-- Weight matrix 1. -/
theorem weight1_agree (a : FVec F Cert.KernelIdeal.S3x64x64 .f32) :
    shapeCast Cert.KernelIdeal.S64x64 (extractStridedSlice Cert.KernelIdeal.S1x64x64 ![1, 0, 0] a Cert.KernelIdeal.Gen.slices_S3x64x64_S1x64x64_1_0_0) Cert.KernelIdeal.Gen.shapeCasts_S1x64x64_S64x64
      = shapeCast Cert.ReferenceIdeal.S64x64 (extractStridedSlice Cert.ReferenceIdeal.S1x64x64 ![1, 0, 0] a Cert.ReferenceIdeal.Gen.slices_S3x64x64_S1x64x64_1_0_0) Cert.ReferenceIdeal.Gen.shapeCasts_S1x64x64_S64x64 := rfl

/-- Row 1 of a [3,64] table as a [64] vector. -/
theorem vec1_agree (a : FVec F Cert.KernelIdeal.S3x64 .f32) :
    shapeCast Cert.KernelIdeal.S64 (extractStridedSlice Cert.KernelIdeal.S1x64 ![1, 0] a Cert.KernelIdeal.Gen.slices_S3x64_S1x64_1_0) Cert.KernelIdeal.Gen.shapeCasts_S1x64_S64
      = shapeCast Cert.ReferenceIdeal.S64 (extractStridedSlice Cert.ReferenceIdeal.S1x64 ![1, 0] a Cert.ReferenceIdeal.Gen.slices_S3x64_S1x64_1_0) Cert.ReferenceIdeal.Gen.shapeCasts_S1x64_S64 := rfl

/-- Weight matrix 2. -/
theorem weight2_agree (a : FVec F Cert.KernelIdeal.S3x64x64 .f32) :
    shapeCast Cert.KernelIdeal.S64x64 (extractStridedSlice Cert.KernelIdeal.S1x64x64 ![2, 0, 0] a Cert.KernelIdeal.Gen.slices_S3x64x64_S1x64x64_2_0_0) Cert.KernelIdeal.Gen.shapeCasts_S1x64x64_S64x64
      = shapeCast Cert.ReferenceIdeal.S64x64 (extractStridedSlice Cert.ReferenceIdeal.S1x64x64 ![2, 0, 0] a Cert.ReferenceIdeal.Gen.slices_S3x64x64_S1x64x64_2_0_0) Cert.ReferenceIdeal.Gen.shapeCasts_S1x64x64_S64x64 := rfl

/-- Row 2 of a [3,64] table as a [64] vector. -/
theorem vec2_agree (a : FVec F Cert.KernelIdeal.S3x64 .f32) :
    shapeCast Cert.KernelIdeal.S64 (extractStridedSlice Cert.KernelIdeal.S1x64 ![2, 0] a Cert.KernelIdeal.Gen.slices_S3x64_S1x64_2_0) Cert.KernelIdeal.Gen.shapeCasts_S1x64_S64
      = shapeCast Cert.ReferenceIdeal.S64 (extractStridedSlice Cert.ReferenceIdeal.S1x64 ![2, 0] a Cert.ReferenceIdeal.Gen.slices_S3x64_S1x64_2_0) Cert.ReferenceIdeal.Gen.shapeCasts_S1x64_S64 := rfl

end AnyF

/-! ## A table's row at a column -/

/-- The reference's row 0 of a [3,64] table, at entry `q`, is the table's (0, q). -/
theorem ref_vec0_at (a : FVec Ideal Cert.ReferenceIdeal.S3x64 .f32) (q : Fin 64) :
    Cert.ReferenceIdeal.RefValue.vecAt (shapeCast Cert.ReferenceIdeal.S64 (extractStridedSlice Cert.ReferenceIdeal.S1x64 ![0, 0] a Cert.ReferenceIdeal.Gen.slices_S3x64_S1x64_0_0) Cert.ReferenceIdeal.Gen.shapeCasts_S1x64_S64) q = a (ix2 (0 : Fin 3) q) :=
  Cert.KernelIdeal.RegValue.bias_vec_at a ![0, 0] (0 : Fin 3) rfl Cert.ReferenceIdeal.Gen.slices_S3x64_S1x64_0_0 q

/-- The kernel's bias row 0, at column `q`, is the reference's bias vector 0 at entry `q`. -/
theorem bias0_agree (a : FVec Ideal Cert.KernelIdeal.S3x64 .f32) (q : Fin 64) :
    (shapeCast Cert.KernelIdeal.S1x64 (shapeCast Cert.KernelIdeal.S64 (extractStridedSlice Cert.KernelIdeal.S1x64 ![0, 0] a Cert.KernelIdeal.Gen.slices_S3x64_S1x64_0_0) Cert.KernelIdeal.Gen.shapeCasts_S1x64_S64) Cert.KernelIdeal.Gen.shapeCasts_S64_S1x64) (ix2 (0 : Fin 1) q)
      = Cert.ReferenceIdeal.RefValue.vecAt (shapeCast Cert.ReferenceIdeal.S64 (extractStridedSlice Cert.ReferenceIdeal.S1x64 ![0, 0] a Cert.ReferenceIdeal.Gen.slices_S3x64_S1x64_0_0) Cert.ReferenceIdeal.Gen.shapeCasts_S1x64_S64) q := by
  rw [ref_vec0_at]
  exact Cert.KernelIdeal.RegValue.bias_row_at a ![0, 0] (0 : Fin 3) rfl Cert.KernelIdeal.Gen.slices_S3x64_S1x64_0_0 q

/-- The reference's row 1 of a [3,64] table, at entry `q`, is the table's (1, q). -/
theorem ref_vec1_at (a : FVec Ideal Cert.ReferenceIdeal.S3x64 .f32) (q : Fin 64) :
    Cert.ReferenceIdeal.RefValue.vecAt (shapeCast Cert.ReferenceIdeal.S64 (extractStridedSlice Cert.ReferenceIdeal.S1x64 ![1, 0] a Cert.ReferenceIdeal.Gen.slices_S3x64_S1x64_1_0) Cert.ReferenceIdeal.Gen.shapeCasts_S1x64_S64) q = a (ix2 (1 : Fin 3) q) :=
  Cert.KernelIdeal.RegValue.bias_vec_at a ![1, 0] (1 : Fin 3) rfl Cert.ReferenceIdeal.Gen.slices_S3x64_S1x64_1_0 q

/-- The kernel's bias row 1, at column `q`, is the reference's bias vector 1 at entry `q`. -/
theorem bias1_agree (a : FVec Ideal Cert.KernelIdeal.S3x64 .f32) (q : Fin 64) :
    (shapeCast Cert.KernelIdeal.S1x64 (shapeCast Cert.KernelIdeal.S64 (extractStridedSlice Cert.KernelIdeal.S1x64 ![1, 0] a Cert.KernelIdeal.Gen.slices_S3x64_S1x64_1_0) Cert.KernelIdeal.Gen.shapeCasts_S1x64_S64) Cert.KernelIdeal.Gen.shapeCasts_S64_S1x64) (ix2 (0 : Fin 1) q)
      = Cert.ReferenceIdeal.RefValue.vecAt (shapeCast Cert.ReferenceIdeal.S64 (extractStridedSlice Cert.ReferenceIdeal.S1x64 ![1, 0] a Cert.ReferenceIdeal.Gen.slices_S3x64_S1x64_1_0) Cert.ReferenceIdeal.Gen.shapeCasts_S1x64_S64) q := by
  rw [ref_vec1_at]
  exact Cert.KernelIdeal.RegValue.bias_row_at a ![1, 0] (1 : Fin 3) rfl Cert.KernelIdeal.Gen.slices_S3x64_S1x64_1_0 q

/-- The reference's row 2 of a [3,64] table, at entry `q`, is the table's (2, q). -/
theorem ref_vec2_at (a : FVec Ideal Cert.ReferenceIdeal.S3x64 .f32) (q : Fin 64) :
    Cert.ReferenceIdeal.RefValue.vecAt (shapeCast Cert.ReferenceIdeal.S64 (extractStridedSlice Cert.ReferenceIdeal.S1x64 ![2, 0] a Cert.ReferenceIdeal.Gen.slices_S3x64_S1x64_2_0) Cert.ReferenceIdeal.Gen.shapeCasts_S1x64_S64) q = a (ix2 (2 : Fin 3) q) :=
  Cert.KernelIdeal.RegValue.bias_vec_at a ![2, 0] (2 : Fin 3) rfl Cert.ReferenceIdeal.Gen.slices_S3x64_S1x64_2_0 q

/-- The kernel's bias row 2, at column `q`, is the reference's bias vector 2 at entry `q`. -/
theorem bias2_agree (a : FVec Ideal Cert.KernelIdeal.S3x64 .f32) (q : Fin 64) :
    (shapeCast Cert.KernelIdeal.S1x64 (shapeCast Cert.KernelIdeal.S64 (extractStridedSlice Cert.KernelIdeal.S1x64 ![2, 0] a Cert.KernelIdeal.Gen.slices_S3x64_S1x64_2_0) Cert.KernelIdeal.Gen.shapeCasts_S1x64_S64) Cert.KernelIdeal.Gen.shapeCasts_S64_S1x64) (ix2 (0 : Fin 1) q)
      = Cert.ReferenceIdeal.RefValue.vecAt (shapeCast Cert.ReferenceIdeal.S64 (extractStridedSlice Cert.ReferenceIdeal.S1x64 ![2, 0] a Cert.ReferenceIdeal.Gen.slices_S3x64_S1x64_2_0) Cert.ReferenceIdeal.Gen.shapeCasts_S1x64_S64) q := by
  rw [ref_vec2_at]
  exact Cert.KernelIdeal.RegValue.bias_row_at a ![2, 0] (2 : Fin 3) rfl Cert.KernelIdeal.Gen.slices_S3x64_S1x64_2_0 q

end Cert.StagesAgree

end
-- ==== Proof.Ideal.Compare.lean ====
import proofs.«132734_j72301479461275_2_alg».proof.Proof.Ideal.RefLayers
import proofs.«132734_j72301479461275_2_alg».proof.Proof.Ideal.StagesAgree
import proofs.«132734_j72301479461275_2_alg».proof.Proof.Ideal.ProductReal

noncomputable section

namespace Cert.LayerJoin

open Idealize.ShloMosaic Idealize.ShloMosaic.ValueIdx LibRealClosure
open Cert.ReferenceIdeal (S50000x64 S64x64 S800000)
open Cert.ReferenceIdeal.RefValue (layerFn)

/-! # The two programs' three layers, compared -/

/-- A layer depends only on its eight arguments. -/
theorem layerFn_congr (x x' : S50000x64.Idx → EReal) (wk wk' : S64x64.Idx → EReal) (bk bk' gk gk' bek bek' : Fin 64 → EReal)
    (e1 e1' e3 e3' : IVec S800000 32) (ew ew' : S800000.Idx → EReal)
    (hx : x = x') (hw : wk = wk') (hb : bk = bk') (hg : gk = gk') (hbe : bek = bek') (h1 : e1 = e1') (h3 : e3 = e3') (hew : ew = ew') :
    layerFn x wk bk gk bek e1 e3 ew = layerFn x' wk' bk' gk' bek' e1' e3' ew' := by
  subst hx hw hb hg hbe h1 h3 hew; rfl

/-- Two [50000,64] arrays that agree at every (row, column) are equal. -/
theorem array_of_entries (a b : S50000x64.Idx → EReal) (h : ∀ (p : Fin 50000) (q : Fin 64), a (ix2 p q) = b (ix2 p q)) : a = b :=
  funext fun i => by
    obtain ⟨p, q, rfl⟩ : ∃ (p : Fin 50000) (q : Fin 64), i = ix2 p q := ⟨i 0, i 1, eq_ix2 i⟩
    exact h p q

/-- THE COMPARISON. The first program's three layer arrays are each a layer of the one before — the second and third
    for ANY array of reals that agrees with the one before entry by entry —, the second program's likewise and real;
    the two start from equal features, matrices, parameter rows, edges and weights: then the three arrays are equal. -/
theorem three_layers_agree
    (k1 k2 k3 r1 r2 r3 : S50000x64.Idx → EReal)
    (xk xr : S50000x64.Idx → EReal) (w0k w1k w2k w0r w1r w2r : S64x64.Idx → EReal)
    (bk gk bek br gr ber : Fin 3 → Fin 64 → EReal)
    (e1k e3k e1r e3r : IVec S800000 32) (ewk ewr : S800000.Idx → EReal)
    (hk1 : ∀ p q, k1 (ix2 p q) = layerFn xk w0k (bk 0) (gk 0) (bek 0) e1k e3k ewk p q)
    (hk2 : ∀ x₁ : S50000x64.Idx → EReal, (∀ (p : Fin 50000) (q : Fin 64), k1 (ix2 p q) = x₁ (ix2 p q)) → AllReal x₁ →
      ∀ p q, k2 (ix2 p q) = layerFn x₁ w1k (bk 1) (gk 1) (bek 1) e1k e3k ewk p q)
    (hk3 : ∀ x₂ : S50000x64.Idx → EReal, (∀ (p : Fin 50000) (q : Fin 64), k2 (ix2 p q) = x₂ (ix2 p q)) → AllReal x₂ →
      ∀ p q, k3 (ix2 p q) = layerFn x₂ w2k (bk 2) (gk 2) (bek 2) e1k e3k ewk p q)
    (hr1 : ∀ p q, r1 (ix2 p q) = layerFn xr w0r (br 0) (gr 0) (ber 0) e1r e3r ewr p q ∧ IsReal (r1 (ix2 p q)))
    (hr2 : ∀ p q, r2 (ix2 p q) = layerFn r1 w1r (br 1) (gr 1) (ber 1) e1r e3r ewr p q ∧ IsReal (r2 (ix2 p q)))
    (hr3 : ∀ p q, r3 (ix2 p q) = layerFn r2 w2r (br 2) (gr 2) (ber 2) e1r e3r ewr p q ∧ IsReal (r3 (ix2 p q)))
    (hx : xk = xr) (hw0 : w0k = w0r) (hw1 : w1k = w1r) (hw2 : w2k = w2r) (hb : bk = br) (hg : gk = gr) (hbe : bek = ber)
    (he1 : e1k = e1r) (he3 : e3k = e3r) (hew : ewk = ewr) :
    k1 = r1 ∧ k2 = r2 ∧ k3 = r3 := by
  subst hx hw0 hw1 hw2 hb hg hbe he1 he3 hew
  have e1 : k1 = r1 := array_of_entries _ _ fun p q => (hk1 p q).trans (hr1 p q).1.symm
  have hr1real : AllReal r1 := allReal_rows r1 fun p q => (hr1 p q).2
  have e2 : k2 = r2 := array_of_entries _ _ fun p q =>
    (hk2 r1 (fun p q => by rw [e1]) hr1real p q).trans (hr2 p q).1.symm
  have hr2real : AllReal r2 := allReal_rows r2 fun p q => (hr2 p q).2
  have e3 : k3 = r3 := array_of_entries _ _ fun p q =>
    (hk3 r2 (fun p q => by rw [e2]) hr2real p q).trans (hr3 p q).1.symm
  exact ⟨e1, e2, e3⟩

end Cert.LayerJoin

end
-- ==== Proof.Ideal.Algebraic.lean ====
/- The two idealized programs end with equal results.
   Run from memories that agree on the arguments, with finite float arguments: the idealized kernel's result is the
   stack of its three layer buffers, the reference's the stack of its three; each layer buffer is, on both sides, the
   same function of the previous layer's buffer and of parameters sliced from the arguments — the product with the
   layer's weight matrix, the aggregation over the edges, the bias and rectifier, and the normalization, which the
   kernel folds into a scale and a shift and the reference spells with the centred column: equal on real entries. -/
import proofs.«132734_j72301479461275_2_alg».proof.Defs
import proofs.«132734_j72301479461275_2_alg».proof.Proof.Ideal.Values4
import proofs.«132734_j72301479461275_2_alg».proof.Proof.Ideal.RefResult
import proofs.«132734_j72301479461275_2_alg».proof.Proof.Ideal.PreReal
import proofs.«132734_j72301479461275_2_alg».proof.Proof.Ideal.Compare
import proofs.«132734_j72301479461275_2_alg».proof.Proof.Ideal.StagesAgree
import proofs.«132734_j72301479461275_2_alg».proof.Proof.Gen.KernelIdeal
import proofs.«132734_j72301479461275_2_alg».proof.Proof.Gen.ReferenceIdeal
import proofs.«132734_j72301479461275_2_alg».proof.Proof.Gen.Pre_finite_inputs

set_option maxRecDepth 16384

noncomputable section

namespace Cert.Proof.Value

open Idealize.ShloMosaic Idealize.ShloMosaic.TcCoe Idealize.SL.Sem Idealize.ShloMosaic.ValueIdx LibRealClosure
open Cert.KernelIdeal.Reg (outs W0 kEdge0 kEdge1 kWeight0 kWeight1 kWeight2)
open Cert.ReferenceIdeal.RefValue (refOut layerFn R3 R6 R9 edgeRow0 edgeRow1 weight0 weight1 weight2)

/-- On one device: with finite float arguments in the kernel's memory and a reference memory that agrees with it on the
    arguments, the kernel's last valuation at its result buffer is the reference's result. -/
theorem result_eq
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Gen.V25 m (outs m) c Cert.KernelIdeal.main_v229 = refOut m' c := by
  -- the arguments are real, in both memories
  obtain ⟨h0, h2, h3, h4, h5, h6⟩ := Cert.PreReal.pre_allReal _ _ _ _ _ _ _ hpre
  have h0' : AllReal (StableHlo.launchContents m' c (Proc.devRef .tc Cert.ReferenceIdeal.main_arg0)) := by
    show AllReal (m' ((c.tc : Thread Cert.ReferenceIdeal.nD Cert.ReferenceIdeal.τ).loc Cert.ReferenceIdeal.main_arg0)); rw [a0]; exact h0
  have h2' : AllReal (StableHlo.launchContents m' c (Proc.devRef .tc Cert.ReferenceIdeal.main_arg2)) := by
    show AllReal (m' ((c.tc : Thread Cert.ReferenceIdeal.nD Cert.ReferenceIdeal.τ).loc Cert.ReferenceIdeal.main_arg2)); rw [a2]; exact h2
  have h3' : AllReal (StableHlo.launchContents m' c (Proc.devRef .tc Cert.ReferenceIdeal.main_arg3)) := by
    show AllReal (m' ((c.tc : Thread Cert.ReferenceIdeal.nD Cert.ReferenceIdeal.τ).loc Cert.ReferenceIdeal.main_arg3)); rw [a3]; exact h3
  have h4' : AllReal (StableHlo.launchContents m' c (Proc.devRef .tc Cert.ReferenceIdeal.main_arg4)) := by
    show AllReal (m' ((c.tc : Thread Cert.ReferenceIdeal.nD Cert.ReferenceIdeal.τ).loc Cert.ReferenceIdeal.main_arg4)); rw [a4]; exact h4
  have h5' : AllReal (StableHlo.launchContents m' c (Proc.devRef .tc Cert.ReferenceIdeal.main_arg5)) := by
    show AllReal (m' ((c.tc : Thread Cert.ReferenceIdeal.nD Cert.ReferenceIdeal.τ).loc Cert.ReferenceIdeal.main_arg5)); rw [a5]; exact h5
  have h6' : AllReal (StableHlo.launchContents m' c (Proc.devRef .tc Cert.ReferenceIdeal.main_arg6)) := by
    show AllReal (m' ((c.tc : Thread Cert.ReferenceIdeal.nD Cert.ReferenceIdeal.τ).loc Cert.ReferenceIdeal.main_arg6)); rw [a6]; exact h6
  -- the reference's three layer buffers
  obtain ⟨hr1, hr2, hr3⟩ := Cert.ReferenceIdeal.RefValue.ref_layers_at m' c h0' h2' h3' h4' h5' h6'
  -- the two programs' layer buffers agree
  have hagree := Cert.LayerJoin.three_layers_agree
    (Cert.KernelIdeal.Gen.V8 m (outs m) c Cert.KernelIdeal.main_v77) (Cert.KernelIdeal.Gen.V16 m (outs m) c Cert.KernelIdeal.main_v151) (Cert.KernelIdeal.Gen.V24 m (outs m) c Cert.KernelIdeal.main_v225)
    (R3 (StableHlo.launchContents m' c) (Proc.devRef .tc Cert.ReferenceIdeal.main_v82)) (R6 (StableHlo.launchContents m' c) (Proc.devRef .tc Cert.ReferenceIdeal.main_v161))
    (R9 (StableHlo.launchContents m' c) (Proc.devRef .tc Cert.ReferenceIdeal.main_v240))
    (W0 m c Cert.KernelIdeal.main_arg0) (StableHlo.launchContents m' c (Proc.devRef .tc Cert.ReferenceIdeal.main_arg0))
    (kWeight0 m c) (kWeight1 m c) (kWeight2 m c)
    (weight0 (StableHlo.launchContents m' c)) (weight1 (StableHlo.launchContents m' c)) (weight2 (StableHlo.launchContents m' c))
    (fun k q => W0 m c Cert.KernelIdeal.main_arg4 (ix2 k q)) (fun k q => W0 m c Cert.KernelIdeal.main_arg5 (ix2 k q)) (fun k q => W0 m c Cert.KernelIdeal.main_arg6 (ix2 k q))
    (fun k q => StableHlo.launchContents m' c (Proc.devRef .tc Cert.ReferenceIdeal.main_arg4) (ix2 k q))
    (fun k q => StableHlo.launchContents m' c (Proc.devRef .tc Cert.ReferenceIdeal.main_arg5) (ix2 k q))
    (fun k q => StableHlo.launchContents m' c (Proc.devRef .tc Cert.ReferenceIdeal.main_arg6) (ix2 k q))
    (kEdge0 m c) (kEdge1 m c) (edgeRow0 (StableHlo.launchContents m' c)) (edgeRow1 (StableHlo.launchContents m' c))
    (W0 m c Cert.KernelIdeal.main_arg2) (StableHlo.launchContents m' c (Proc.devRef .tc Cert.ReferenceIdeal.main_arg2))
    (fun p q => (Cert.KernelIdeal.Reg.layer1 m c h0 h2 h3 h4 h5 h6 p q).1)
    (fun x₁ hx hx₁ p q => (Cert.KernelIdeal.Reg.layer2 m c x₁ hx hx₁ h2 h3 h4 h5 h6 p q).1)
    (fun x₂ hx hx₂ p q => (Cert.KernelIdeal.Reg.layer3 m c x₂ hx hx₂ h2 h3 h4 h5 h6 p q).1)
    hr1 hr2 hr3
    a0.symm
    (by show kWeight0 m c = _; unfold kWeight0 weight0; rw [show W0 m c Cert.KernelIdeal.main_arg3 = StableHlo.launchContents m' c (Proc.devRef .tc Cert.ReferenceIdeal.main_arg3) from a3.symm])
    (by show kWeight1 m c = _; unfold kWeight1 weight1; rw [show W0 m c Cert.KernelIdeal.main_arg3 = StableHlo.launchContents m' c (Proc.devRef .tc Cert.ReferenceIdeal.main_arg3) from a3.symm])
    (by show kWeight2 m c = _; unfold kWeight2 weight2; rw [show W0 m c Cert.KernelIdeal.main_arg3 = StableHlo.launchContents m' c (Proc.devRef .tc Cert.ReferenceIdeal.main_arg3) from a3.symm])
    (by funext k q; exact congrFun a4.symm _) (by funext k q; exact congrFun a5.symm _) (by funext k q; exact congrFun a6.symm _)
    (by show kEdge0 m c = _; unfold kEdge0 edgeRow0; rw [show W0 m c Cert.KernelIdeal.main_arg1 = StableHlo.launchContents m' c (Proc.devRef .tc Cert.ReferenceIdeal.main_arg1) from a1.symm])
    (by show kEdge1 m c = _; unfold kEdge1 edgeRow1; rw [show W0 m c Cert.KernelIdeal.main_arg1 = StableHlo.launchContents m' c (Proc.devRef .tc Cert.ReferenceIdeal.main_arg1) from a1.symm])
    a2.symm
  -- … hence the stacks
  rw [Cert.KernelIdeal.Reg.v25_result]
  exact Cert.StagesAgree.stack_congr (F := Ideal)
    (Cert.KernelIdeal.Gen.V8 m (outs m) c Cert.KernelIdeal.main_v77) (Cert.KernelIdeal.Gen.V16 m (outs m) c Cert.KernelIdeal.main_v151)
    (Cert.KernelIdeal.Gen.V24 m (outs m) c Cert.KernelIdeal.main_v225)
    (R3 (StableHlo.launchContents m' c) (Proc.devRef .tc Cert.ReferenceIdeal.main_v82))
    (R6 (StableHlo.launchContents m' c) (Proc.devRef .tc Cert.ReferenceIdeal.main_v161))
    (R9 (StableHlo.launchContents m' c) (Proc.devRef .tc Cert.ReferenceIdeal.main_v240))
    hagree.1 hagree.2.1 hagree.2.2

end Cert.Proof.Value

end
-- ==== Proof.lean ====
/- The proof of `Cert.Claim`: a three-layer graph convolution with batch normalization, as three kernels per layer
   (a matrix product; bias, rectifier and column sums; an affine map) among host stretches, against its plain
   reference.
   The three frames: each kernel program's nine regions are segments between valuations of the unscoped buffers, the
   host stretches between them read off the program (Proof/Ideal/Run, Proof/Bits/Run and their Frames modules); the
   reference is straight-line, its run the fold of its operations (Proof/RefRun, Proof/Ideal/RefFrame).
   Nothing was rewritten by the idealization, so there is nothing to preserve.
   Equal results at the ideal instance: both results are the stack of three layer buffers; each layer buffer is, on
   both sides, the same function of the previous one and of parameters sliced from the arguments, because the products
   are the same sums, the aggregations over the edges the same operations, and the two spellings of the normalization
   — a folded scale and shift against the centred column — agree on real entries by the variance identity
   (Proof/Ideal/Algebraic and the modules under it). Finiteness of the arguments is what makes the entries real. -/
import proofs.«132734_j72301479461275_2_alg».proof.Defs
import proofs.«132734_j72301479461275_2_alg».proof.Proof.Bits.Frames
import proofs.«132734_j72301479461275_2_alg».proof.Proof.Ideal.Frames
import proofs.«132734_j72301479461275_2_alg».proof.Proof.Ideal.RefFrame
import proofs.«132734_j72301479461275_2_alg».proof.Proof.Ideal.Algebraic
import proofs.«132734_j72301479461275_2_alg».proof.Proof.Gen.Kernel
import proofs.«132734_j72301479461275_2_alg».proof.Proof.Gen.KernelIdeal
import proofs.«132734_j72301479461275_2_alg».proof.Proof.Gen.ReferenceIdeal
import proofs.«132734_j72301479461275_2_alg».proof.Proof.Gen.Pre_finite_inputs
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Reg.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Reg.frame m ρ

/-- The idealization rewrote nothing. -/
theorem preserves : Cert.preserves_Kernel_KernelIdeal := trivial

/-- From memories agreeing on finite arguments the two idealized programs end with equal results: the kernel's run ends
    with its result buffer at the last valuation, which is the reference's result (`Value.result_eq`); the reference's
    run ends at that same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.refOut m' c, ?_, Cert.ReferenceIdeal.RefValue.ref_run_result m' ρ'⟩
  refine (θ_run Cert.KernelIdeal.defs _ _).mono (fun r h c => ⟨(h c).1.trans ?_, (h c).2⟩) (Cert.KernelIdeal.Reg.run_main m ρ)
  exact Value.result_eq m m' c (hpre c) (hagree c).1 (hagree c).2.1 (hagree c).2.2.1 (hagree c).2.2.2.1
    (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
